-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S16777216x1 : Shape := ⟨2, ![16777216, 1]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S16777216x1 : S_.BroadcastsInDim S16777216x1 (![] : Fin 0 → Fin S16777216x1.rank)
  reducesTo_S16777216x1_S_d0_1 : S16777216x1.ReducesTo [0, 1] S_

variable [Facts]

def fn_part1 {F : FTy → Type} [FloatOps F] (main_arg4 : FVec F S16777216 .f32) (main_arg5 : FVec F S16777216 .f32) (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  let main_v19 : FVec F S16777216 .f32 := Host.absf main_arg4
  let main_cst_6 : FVec F S_ .f32 := constant S_ .f32 0x7F800000#32
  let main_v20 : FVec F S16777216 .f32 := broadcastInDim S16777216 ![] bcast_S_S16777216 main_cst_6
  let main_v21 : IVec S16777216 1 := cmpf .olt main_v19 main_v20
  let main_c_7 : IVec S_ 1 := constantI S_ 1 1#1
  let main_v22 : IVec S_ 1 := (fun x v => Host.reduce IntOp.andi x v reducesTo_S16777216_S_d0 h_S_) main_v21 main_c_7
  let main_v23 : IVec S_ 1 := andi main_v18 main_v22
  let main_v24 : FVec F S16777216 .f32 := Host.absf main_arg5
  let main_cst_8 : FVec F S_ .f32 := constant S_ .f32 0x7F800000#32
  let main_v25 : FVec F S16777216 .f32 := broadcastInDim S16777216 ![] bcast_S_S16777216 main_cst_8
  let main_v26 : IVec S16777216 1 := cmpf .olt main_v24 main_v25
  let main_c_9 : IVec S_ 1 := constantI S_ 1 1#1
  let main_v27 : IVec S_ 1 := (fun x v => Host.reduce IntOp.andi x v reducesTo_S16777216_S_d0 h_S_) main_v26 main_c_9
  let main_v28 : IVec S_ 1 := andi main_v23 main_v27
  main_v28

def fn {F : FTy → Type} [FloatOps F] (main_arg0 : FVec F S16777216 .f32) (main_arg1 : FVec F S16777216x1 .f32) (main_arg2 : FVec F S16777216 .f32) (main_arg3 : FVec F S16777216 .f32) (main_arg4 : FVec F S16777216 .f32) (main_arg5 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_arg4 main_arg5 main_v13 main_v16
-- ==== Kernel.lean ====
abbrev S16777216 : Shape := ⟨1, ![16777216]⟩
abbrev S16777216x1 : Shape := ⟨2, ![16777216, 1]⟩
abbrev S131072x128 : Shape := ⟨2, ![131072, 128]⟩
abbrev S16x128 : Shape := ⟨2, ![16, 128]⟩
abbrev S2048x128 : Shape := ⟨2, ![2048, 128]⟩
abbrev S8x128 : Shape := ⟨2, ![8, 128]⟩
abbrev S256x8x128 : Shape := ⟨3, ![256, 8, 128]⟩
abbrev S8 : Shape := ⟨1, ![8]⟩
abbrev S8x1 : Shape := ⟨2, ![8, 1]⟩
abbrev S1 : Shape := ⟨1, ![1]⟩
abbrev S1x1 : Shape := ⟨2, ![1, 1]⟩
abbrev S_ : Shape := ⟨0, ![]⟩

abbrev nBuf : Space → Nat
  | .hbm => 172
  | .vmem => 38
  | .smem => 0
  | _ => 0

abbrev hbmTy0_0 (i : Nat) : BufTy := match i % 128 with
  | 0 => ⟨S16777216, .f32⟩
  | 1 => ⟨S16777216x1, .f32⟩
  | 2 => ⟨S16777216, .f32⟩
  | 3 => ⟨S16777216, .f32⟩
  | 4 => ⟨S16777216, .f32⟩
  | 5 => ⟨S16777216, .f32⟩
  | 6 => ⟨S16777216, .f32⟩
  | 7 => ⟨S131072x128, .f32⟩
  | 8 => ⟨S131072x128, .f32⟩
  | 9 => ⟨S131072x128, .f32⟩
  | 10 => ⟨S131072x128, .f32⟩
  | 11 => ⟨S16x128, .f32⟩
  | 12 => ⟨S16x128, .f32⟩
  | 13 => ⟨S16x128, .f32⟩
  | 14 => ⟨S16x128, .f32⟩
  | 15 => ⟨S16x128, .f32⟩
  | 16 => ⟨S16x128, .f32⟩
  | 17 => ⟨S16x128, .f32⟩
  | 18 => ⟨S16x128, .f32⟩
  | 19 => ⟨S16x128, .f32⟩
  | 20 => ⟨S16x128, .f32⟩
  | 21 => ⟨S1x1, .f32⟩
  | 22 => ⟨S_, .f32⟩
  | 23 => ⟨S1x1, .f32⟩
  | 24 => ⟨S_, .f32⟩
  | 25 => ⟨S_, .f32⟩
  | 26 => ⟨S1x1, .f32⟩
  | 27 => ⟨S_, .f32⟩
  | 28 => ⟨S1x1, .f32⟩
  | 29 => ⟨S_, .f32⟩
  | 30 => ⟨S_, .f32⟩
  | 31 => ⟨S1x1, .f32⟩
  | 32 => ⟨S_, .f32⟩
  | 33 => ⟨S1x1, .f32⟩
  | 34 => ⟨S_, .f32⟩
  | 35 => ⟨S_, .f32⟩
  | 36 => ⟨S1x1, .f32⟩
  | 37 => ⟨S_, .f32⟩
  | 38 => ⟨S1x1, .f32⟩
  | 39 => ⟨S_, .f32⟩
  | 40 => ⟨S_, .f32⟩
  | 41 => ⟨S1x1, .f32⟩
  | 42 => ⟨S_, .f32⟩
  | 43 => ⟨S1x1, .f32⟩
  | 44 => ⟨S_, .f32⟩
  | 45 => ⟨S_, .f32⟩
  | 46 => ⟨S1x1, .f32⟩
  | 47 => ⟨S_, .f32⟩
  | 48 => ⟨S1x1, .f32⟩
  | 49 => ⟨S_, .f32⟩
  | 50 => ⟨S_, .f32⟩
  | 51 => ⟨S1x1, .f32⟩
  | 52 => ⟨S_, .f32⟩
  | 53 => ⟨S1x1, .f32⟩
  | 54 => ⟨S_, .f32⟩
  | 55 => ⟨S_, .f32⟩
  | 56 => ⟨S1x1, .f32⟩
  | 57 => ⟨S_, .f32⟩
  | 58 => ⟨S1x1, .f32⟩
  | 59 => ⟨S_, .f32⟩
  | 60 => ⟨S_, .f32⟩
  | 61 => ⟨S1x1, .f32⟩
  | 62 => ⟨S_, .f32⟩
  | 63 => ⟨S1x1, .f32⟩
  | 64 => ⟨S_, .f32⟩
  | 65 => ⟨S_, .f32⟩
  | 66 => ⟨S1x1, .f32⟩
  | 67 => ⟨S_, .f32⟩
  | 68 => ⟨S1x1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16777216, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S_, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S8x128, .f32⟩
  | .local _ .vmem, ⟨35, _⟩ => ⟨S8x128, .f32⟩
  | .local _ .vmem, ⟨36, _⟩ => ⟨S8x128, .f32⟩
  | .local _ .vmem, ⟨37, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev main_v5_7 : Ref sig .tc := ⟨.hbm, 18, rfl⟩
abbrev main_v5_8 : Ref sig .tc := ⟨.hbm, 19, rfl⟩
abbrev main_v5_9 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst : Ref sig .tc := ⟨.hbm, 71, rfl⟩
abbrev main_v56 : Ref sig .tc := ⟨.hbm, 72, rfl⟩
abbrev main_cst_0 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_1 : Ref sig .tc := ⟨.hbm, 78, rfl⟩
abbrev main_v61 : Ref sig .tc := ⟨.hbm, 79, rfl⟩
abbrev main_cst_2 : Ref sig .tc := ⟨.hbm, 80, rfl⟩
abbrev main_v62 : Ref sig .tc := ⟨.hbm, 81, rfl⟩
abbrev main_v63 : Ref sig .tc := ⟨.hbm, 82, rfl⟩
abbrev main_cst_3 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_cst_6 : Ref sig .tc := ⟨.hbm, 89, rfl⟩
abbrev main_v67 : Ref sig .tc := ⟨.hbm, 90, rfl⟩
abbrev main_v68 : Ref sig .tc := ⟨.hbm, 91, rfl⟩
abbrev main_cst_7 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_12 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_15 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_18 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_19 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_20 : Ref sig .tc := ⟨.hbm, 148, rfl⟩
abbrev main_v112 : Ref sig .tc := ⟨.hbm, 149, rfl⟩
abbrev main_cst_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_22 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_23 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_24 : Ref sig .tc := ⟨.hbm, 166, rfl⟩
abbrev main_v126 : Ref sig .tc := ⟨.hbm, 167, rfl⟩
abbrev main_cst_25 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v156 : BitVec 1 := Scalar.cmpi .eq arg1 c31_i32
  let v157 : BitVec 32 := Scalar.extui v156
  let c0_i32_75 : BitVec 32 := 0#32
  let v158 : BitVec 1 := Scalar.cmpi .ne v157 c0_i32_75
  v158

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  shapeCasts_S16777216x1_S16777216 : S16777216x1.ShapeCasts S16777216
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  shapeCasts_S2048x128_S256x8x128 : S2048x128.ShapeCasts S256x8x128
  reduces_S256x8x128_S8x128 : S256x8x128.Reduces [0] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S16x128.size a
  hwx0_8 : ∀ i : grid0.Coords, EltTy.bits .f32 = 32 ∨ (Rect.block (s := S16x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S16x128.size a
  hwx0_9 : ∀ i : grid0.Coords, EltTy.bits .f32 = 32 ∨ (Rect.block (s := S16x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S16x128.size a
  hwx0_10 : ∀ i : grid0.Coords, EltTy.bits .f32 = 32 ∨ (Rect.block (s := S16x128) S8x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S16x128.size a
  hwx0_11 : ∀ i : grid0.Coords, EltTy.bits .f32 = 32 ∨ (Rect.block (s := S16x128) S8x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S8x128.size a ≤ S16x128.size a
  hwx0_12 : ∀ i : grid0.Coords, EltTy.bits .f32 = 32 ∨ (Rect.block (s := S16x128) S8x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x128.size a ≤ S16x128.size a
  hwx0_13 : ∀ i : grid0.Coords, EltTy.bits .f32 = 32 ∨ (Rect.block (s := S16x128) S8x128.size (cc0_transform_13 i) (hinb0_13 i)).WholeWords (EltTy.packing .f32)

variable [Facts₀]

abbrev win0_0 : Pipeline.Window sig grid0 :=
  Pipeline.Window.ofSpec (Memref.whole main_v1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_4) S8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_5) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_6) S8x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_7) S8x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_8) S8x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_9) S8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S16777216 : Shape := ⟨1, ![16777216]⟩
abbrev S16777216x1 : Shape := ⟨2, ![16777216, 1]⟩
abbrev S_ : Shape := ⟨0, ![]⟩

abbrev nBuf : Space → Nat
  | .hbm => 233
  | .vmem => 0
  | .smem => 0
  | _ => 0

abbrev hbmTy0_0 (i : Nat) : BufTy := match i % 128 with
  | 0 => ⟨S16777216, .f32⟩
  | 1 => ⟨S16777216x1, .f32⟩
  | 2 => ⟨S16777216, .f32⟩
  | 3 => ⟨S16777216, .f32⟩
  | 4 => ⟨S16777216, .f32⟩
  | 5 => ⟨S16777216, .f32⟩
  | 6 => ⟨S16777216, .f32⟩
  | 7 => ⟨S_, .f32⟩
  | 8 => ⟨S16777216, .f32⟩
  | 9 => ⟨S16777216, .i1⟩
  | 10 => ⟨S_, .f32⟩
  | 11 => ⟨S16777216, .f32⟩
  | 12 => ⟨S16777216, .i1⟩
  | 13 => ⟨S16777216, .i1⟩
  | 14 => ⟨S_, .f32⟩
  | 15 => ⟨S16777216, .f32⟩
  | 16 => ⟨S16777216, .i1⟩
  | 17 => ⟨S_, .f32⟩
  | 18 => ⟨S16777216, .f32⟩
  | 19 => ⟨S16777216, .i1⟩
  | 20 => ⟨S16777216, .i1⟩
  | 21 => ⟨S_, .f32⟩
  | 22 => ⟨S16777216, .f32⟩
  | 23 => ⟨S16777216, .i1⟩
  | 24 => ⟨S16777216, .i1⟩
  | 25 => ⟨S16777216, .i1⟩
  | 26 => ⟨S16777216, .i1⟩
  | 27 => ⟨S_, .f32⟩
  | 28 => ⟨S16777216, .f32⟩
  | 29 => ⟨S16777216, .i1⟩
  | 30 => ⟨S_, .f32⟩
  | 31 => ⟨S16777216, .f32⟩
  | 32 => ⟨S16777216, .i1⟩
  | 33 => ⟨S16777216, .i1⟩
  | 34 => ⟨S_, .f32⟩
  | 35 => ⟨S16777216, .f32⟩
  | 36 => ⟨S16777216, .i1⟩
  | 37 => ⟨S_, .f32⟩
  | 38 => ⟨S16777216, .f32⟩
  | 39 => ⟨S16777216, .i1⟩
  | 40 => ⟨S16777216, .i1⟩
  | 41 => ⟨S16777216, .i1⟩
  | 42 => ⟨S16777216, .i1⟩
  | 43 => ⟨S16777216, .i1⟩
  | 44 => ⟨S16777216, .i1⟩
  | 45 => ⟨S_, .f32⟩
  | 46 => ⟨S16777216, .f32⟩
  | 47 => ⟨S16777216, .i1⟩
  | 48 => ⟨S_, .f32⟩
  | 49 => ⟨S16777216, .f32⟩
  | 50 => ⟨S16777216, .i1⟩
  | 51 => ⟨S16777216, .i1⟩
  | 52 => ⟨S16777216, .i1⟩
  | 53 => ⟨S16777216, .i1⟩
  | 54 => ⟨S16777216, .i1⟩
  | 55 => ⟨S16777216, .i1⟩
  | 56 => ⟨S_, .f32⟩
  | 57 => ⟨S16777216, .f32⟩
  | 58 => ⟨S16777216, .i1⟩
  | 59 => ⟨S_, .f32⟩
  | 60 => ⟨S16777216, .f32⟩
  | 61 => ⟨S16777216, .i1⟩
  | 62 => ⟨S16777216, .i1⟩
  | 63 => ⟨S16777216, .f32⟩
  | 64 => ⟨S16777216, .f32⟩
  | 65 => ⟨S_, .f32⟩
  | 66 => ⟨S16777216, .f32⟩
  | 67 => ⟨S16777216, .f32⟩
  | 68 => ⟨S16777216, .f32⟩
  | 69 => ⟨S16777216, .f32⟩
  | 70 => ⟨S16777216, .f32⟩
  | 71 => ⟨S16777216, .f32⟩
  | 72 => ⟨S16777216, .f32⟩
  | 73 => ⟨S16777216, .f32⟩
  | 74 => ⟨S_, .f32⟩
  | 75 => ⟨S16777216, .f32⟩
  | 76 => ⟨S16777216, .f32⟩
  | 77 => ⟨S16777216, .f32⟩
  | 78 => ⟨S16777216, .f32⟩
  | 79 => ⟨S16777216, .f32⟩
  | 80 => ⟨S16777216, .f32⟩
  | 81 => ⟨S16777216, .f32⟩
  | 82 => ⟨S16777216, .i32⟩
  | 83 => ⟨S_, .i32⟩
  | 84 => ⟨S_, .i32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S16777216, .f32⟩
  | 95 => ⟨S16777216, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S16777216, .i32⟩
  | 116 => ⟨S_, .i32⟩
  | 117 => ⟨S_, .i32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S16777216, .f32⟩
  | _ => ⟨S16777216, .f32⟩

abbrev hbmTy0_1 (i : Nat) : BufTy := match i % 128 with
  | 0 => ⟨S16777216, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S16777216, .i32⟩
  | 16 => ⟨S_, .i32⟩
  | 17 => ⟨S_, .i32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S16777216, .f32⟩
  | 28 => ⟨S16777216, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S16777216, .i32⟩
  | 44 => ⟨S_, .i32⟩
  | 45 => ⟨S_, .i32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S16777216, .f32⟩
  | 56 => ⟨S16777216, .f32⟩
  | 57 => ⟨S_, .f32⟩
  | 58 => ⟨S_, .f32⟩
  | 59 => ⟨S_, .f32⟩
  | 60 => ⟨S_, .f32⟩
  | 61 => ⟨S_, .i1⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S16777216, .i32⟩
  | 72 => ⟨S_, .i32⟩
  | 73 => ⟨S_, .i32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16777216, .f32⟩
  | 84 => ⟨S16777216, .f32⟩
  | 85 => ⟨S_, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | _ => ⟨S16777216, .f32⟩

abbrev hbmTy (i : Nat) : BufTy := match i / 128 with
  | 0 => hbmTy0_0 i
  | 1 => hbmTy0_1 i
  | _ => ⟨S16777216, .f32⟩

abbrev bufTy : (tb : Table) → Fin (tcTables nBuf tb) → BufTy
  | .hbm, ⟨i, _⟩ => hbmTy i
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_call0_v0 : Ref sig .tc := ⟨.hbm, 93, rfl⟩
abbrev main_call0_v1 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_cst_18 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_cst_22 : Ref sig .tc := ⟨.hbm, 108, rfl⟩
abbrev main_v76 : Ref sig .tc := ⟨.hbm, 109, rfl⟩
abbrev main_cst_23 : Ref sig .tc := ⟨.hbm, 110, rfl⟩
abbrev main_v77 : Ref sig .tc := ⟨.hbm, 111, rfl⟩
abbrev main_v78 : Ref sig .tc := ⟨.hbm, 112, rfl⟩
abbrev main_cst_24 : Ref sig .tc := ⟨.hbm, 113, rfl⟩
abbrev main_v79 : Ref sig .tc := ⟨.hbm, 114, rfl⟩
abbrev main_v80 : Ref sig .tc := ⟨.hbm, 115, rfl⟩
abbrev main_c_25 : Ref sig .tc := ⟨.hbm, 116, rfl⟩
abbrev main_v81 : Ref sig .tc := ⟨.hbm, 117, rfl⟩
abbrev main_v82 : Ref sig .tc := ⟨.hbm, 118, rfl⟩
abbrev main_cst_26 : Ref sig .tc := ⟨.hbm, 119, rfl⟩
abbrev main_v83 : Ref sig .tc := ⟨.hbm, 120, rfl⟩
abbrev main_cst_27 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_28 : Ref sig .tc := ⟨.hbm, 125, rfl⟩
abbrev main_call3_v0 : Ref sig .tc := ⟨.hbm, 126, rfl⟩
abbrev main_call3_v1 : Ref sig .tc := ⟨.hbm, 127, rfl⟩
abbrev main_v87 : Ref sig .tc := ⟨.hbm, 128, rfl⟩
abbrev main_cst_29 : Ref sig .tc := ⟨.hbm, 129, rfl⟩
abbrev main_v88 : Ref sig .tc := ⟨.hbm, 130, rfl⟩
abbrev main_v89 : Ref sig .tc := ⟨.hbm, 131, rfl⟩
abbrev main_cst_30 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_31 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_32 : Ref sig .tc := ⟨.hbm, 144, rfl⟩
abbrev main_v100 : Ref sig .tc := ⟨.hbm, 145, rfl⟩
abbrev main_v101 : Ref sig .tc := ⟨.hbm, 146, rfl⟩
abbrev main_cst_33 : Ref sig .tc := ⟨.hbm, 147, rfl⟩
abbrev main_v102 : Ref sig .tc := ⟨.hbm, 148, rfl⟩
abbrev main_cst_34 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_35 : Ref sig .tc := ⟨.hbm, 153, rfl⟩
abbrev main_call6_v0 : Ref sig .tc := ⟨.hbm, 154, rfl⟩
abbrev main_call6_v1 : Ref sig .tc := ⟨.hbm, 155, rfl⟩
abbrev main_v106 : Ref sig .tc := ⟨.hbm, 156, rfl⟩
abbrev main_cst_36 : Ref sig .tc := ⟨.hbm, 157, rfl⟩
abbrev main_v107 : Ref sig .tc := ⟨.hbm, 158, rfl⟩
abbrev main_v108 : Ref sig .tc := ⟨.hbm, 159, rfl⟩
abbrev main_cst_37 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_38 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_39 : Ref sig .tc := ⟨.hbm, 172, rfl⟩
abbrev main_v119 : Ref sig .tc := ⟨.hbm, 173, rfl⟩
abbrev main_v120 : Ref sig .tc := ⟨.hbm, 174, rfl⟩
abbrev main_cst_40 : Ref sig .tc := ⟨.hbm, 175, rfl⟩
abbrev main_v121 : Ref sig .tc := ⟨.hbm, 176, rfl⟩
abbrev main_cst_41 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_42 : Ref sig .tc := ⟨.hbm, 181, rfl⟩
abbrev main_call9_v0 : Ref sig .tc := ⟨.hbm, 182, rfl⟩
abbrev main_call9_v1 : Ref sig .tc := ⟨.hbm, 183, rfl⟩
abbrev main_v125 : Ref sig .tc := ⟨.hbm, 184, rfl⟩
abbrev main_cst_43 : Ref sig .tc := ⟨.hbm, 185, rfl⟩
abbrev main_v126 : Ref sig .tc := ⟨.hbm, 186, rfl⟩
abbrev main_v127 : Ref sig .tc := ⟨.hbm, 187, rfl⟩
abbrev main_cst_44 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_45 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_c_46 : Ref sig .tc := ⟨.hbm, 200, rfl⟩
abbrev main_v138 : Ref sig .tc := ⟨.hbm, 201, rfl⟩
abbrev main_v139 : Ref sig .tc := ⟨.hbm, 202, rfl⟩
abbrev main_cst_47 : Ref sig .tc := ⟨.hbm, 203, rfl⟩
abbrev main_v140 : Ref sig .tc := ⟨.hbm, 204, rfl⟩
abbrev main_cst_48 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_49 : Ref sig .tc := ⟨.hbm, 209, rfl⟩
abbrev main_call12_v0 : Ref sig .tc := ⟨.hbm, 210, rfl⟩
abbrev main_call12_v1 : Ref sig .tc := ⟨.hbm, 211, rfl⟩
abbrev main_v144 : Ref sig .tc := ⟨.hbm, 212, rfl⟩
abbrev main_cst_50 : Ref sig .tc := ⟨.hbm, 213, rfl⟩
abbrev main_v145 : Ref sig .tc := ⟨.hbm, 214, rfl⟩
abbrev main_v146 : Ref sig .tc := ⟨.hbm, 215, rfl⟩
abbrev main_cst_51 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_52 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_cst_53 : Ref sig .tc := ⟨.hbm, 227, rfl⟩
abbrev main_v156 : Ref sig .tc := ⟨.hbm, 228, rfl⟩
abbrev main_cst_54 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩

abbrev nD : Nat := 1
abbrev τ : Topo := Topo.v7x

variable {F : FTy → Type} [FloatOps F]

class Facts₀ : Prop where
  shapeCasts_S16777216x1_S16777216 : S16777216x1.ShapeCasts S16777216
  bcast_S_S16777216 : S_.BroadcastsInDim S16777216 (![] : Fin 0 → Fin S16777216.rank)
  natLt_1_32 : 1 < 32
  reducesTo_S16777216_S_d0 : S16777216.ReducesTo [0] S_
  h_S_ : 0 < S_.numel

variable [Facts₀]

class Facts : Prop extends Facts₀ where

variable [Facts]
-- ==== Proof.Kernel.Kit.lean ====
/-
  What every part of this program's frame proof shares. The program reshapes four of its six argument arrays into
  [131072, 128] matrices, runs one grid of 2 x 32 points over blocks of 2048 rows, and then combines the ten [16, 128]
  result arrays by host operations into one scalar. Here: the contents of each buffer when the grid is entered (the
  reshapes applied to the launch memory); that the host operations after the grid touch no array of the grid and no
  argument; the block of each input array a grid point sees; the two conditions the body branches on, decided over the
  grid (the point is the first of its core's 32, or the last); where the ten result windows are idle; and the
  invariant's scratch accumulators as owned memory.
-/
import proofs.«126502_j87754771792112_2_alg».proof.Proof.Gen.Kernel.Launch
import proofs.«126502_j87754771792112_2_alg».proof.Proof.Gen.Kernel.Skeleton
import proofs.«126502_j87754771792112_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the grid -/

/-- Core `c`'s buffer contents when the grid is entered: the launch memory after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the grid, in program order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor

/-- The program is the reshapes, the grid, and then the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later operations touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_11_keeps : (hostOps1_11 : List (HloOp τ sig (Elt F))).Forall fun op =>
    ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_12_keeps : (hostOps1_12 : List (HloOp τ sig (Elt F))).Forall fun op =>
    ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_13_keeps : (hostOps1_13 : List (HloOp τ sig (Elt F))).Forall fun op =>
    ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_14_keeps : (hostOps1_14 : List (HloOp τ sig (Elt F))).Forall fun op =>
    ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_15_keeps : (hostOps1_15 : List (HloOp τ sig (Elt F))).Forall fun op =>
    ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_16_keeps : (hostOps1_16 : List (HloOp τ sig (Elt F))).Forall fun op =>
    ∀ w, Proc.devRef .tc (Pipeline.arrRef spec0 w) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_17_keeps : (hostOps1_17 : List (HloOp τ sig (Elt F))).Forall fun op =>
    ∀ w, Proc.devRef .tc (Pipeline.arrRef spec0 w) ∉ op.writes := by
  simp only [hostOps1_17, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_18_keeps : (hostOps1_18 : List (HloOp τ sig (Elt F))).Forall fun op =>
    ∀ w, Proc.devRef .tc (Pipeline.arrRef spec0 w) ∉ op.writes := by
  simp only [hostOps1_18, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_19_keeps : (hostOps1_19 : List (HloOp τ sig (Elt F))).Forall fun op =>
    ∀ w, Proc.devRef .tc (Pipeline.arrRef spec0 w) ∉ op.writes := by
  simp only [hostOps1_19, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_20_keeps : (hostOps1_20 : List (HloOp τ sig (Elt F))).Forall fun op =>
    ∀ w, Proc.devRef .tc (Pipeline.arrRef spec0 w) ∉ op.writes := by
  simp only [hostOps1_20, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_21_keeps : (hostOps1_21 : List (HloOp τ sig (Elt F))).Forall fun op =>
    ∀ w, Proc.devRef .tc (Pipeline.arrRef spec0 w) ∉ op.writes := by
  simp only [hostOps1_21, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
/-- And write no array of the grid: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop

/-! ## Nothing writes an argument -/

/-- The six argument arrays. -/
abbrev argRef : Fin 6 → Ref sig .tc := fun | 0 => main_arg0 | 1 => main_arg1 | 2 => main_arg2 | 3 => main_arg3 | 4 => main_arg4 | 5 => main_arg5 | ⟨_ + 6, h⟩ => absurd h (Nat.not_lt.2 (Nat.le_add_left _ _))

theorem hostOps0_keepsArgs : (hostOps0 : List (HloOp τ sig (Elt F))).Forall fun op =>
    ∀ k : Fin 6, Proc.devRef .tc (argRef k) ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_keepsArgs : (hostOps1 : List (HloOp τ sig (Elt F))).Forall fun op =>
    ∀ k : Fin 6, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_1_keepsArgs : (hostOps1_1 : List (HloOp τ sig (Elt F))).Forall fun op =>
    ∀ k : Fin 6, Proc.devRef .tc (argRef k) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_2_keepsArgs : (hostOps1_2 : List (HloOp τ sig (Elt F))).Forall fun op =>
    ∀ k : Fin 6, Proc.devRef .tc (argRef k) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_3_keepsArgs : (hostOps1_3 : List (HloOp τ sig (Elt F))).Forall fun op =>
    ∀ k : Fin 6, Proc.devRef .tc (argRef k) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_4_keepsArgs : (hostOps1_4 : List (HloOp τ sig (Elt F))).Forall fun op =>
    ∀ k : Fin 6, Proc.devRef .tc (argRef k) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_5_keepsArgs : (hostOps1_5 : List (HloOp τ sig (Elt F))).Forall fun op =>
    ∀ k : Fin 6, Proc.devRef .tc (argRef k) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_6_keepsArgs : (hostOps1_6 : List (HloOp τ sig (Elt F))).Forall fun op =>
    ∀ k : Fin 6, Proc.devRef .tc (argRef k) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_7_keepsArgs : (hostOps1_7 : List (HloOp τ sig (Elt F))).Forall fun op =>
    ∀ k : Fin 6, Proc.devRef .tc (argRef k) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_8_keepsArgs : (hostOps1_8 : List (HloOp τ sig (Elt F))).Forall fun op =>
    ∀ k : Fin 6, Proc.devRef .tc (argRef k) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_9_keepsArgs : (hostOps1_9 : List (HloOp τ sig (Elt F))).Forall fun op =>
    ∀ k : Fin 6, Proc.devRef .tc (argRef k) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_10_keepsArgs : (hostOps1_10 : List (HloOp τ sig (Elt F))).Forall fun op =>
    ∀ k : Fin 6, Proc.devRef .tc (argRef k) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_11_keepsArgs : (hostOps1_11 : List (HloOp τ sig (Elt F))).Forall fun op =>
    ∀ k : Fin 6, Proc.devRef .tc (argRef k) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_12_keepsArgs : (hostOps1_12 : List (HloOp τ sig (Elt F))).Forall fun op =>
    ∀ k : Fin 6, Proc.devRef .tc (argRef k) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_13_keepsArgs : (hostOps1_13 : List (HloOp τ sig (Elt F))).Forall fun op =>
    ∀ k : Fin 6, Proc.devRef .tc (argRef k) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_14_keepsArgs : (hostOps1_14 : List (HloOp τ sig (Elt F))).Forall fun op =>
    ∀ k : Fin 6, Proc.devRef .tc (argRef k) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_15_keepsArgs : (hostOps1_15 : List (HloOp τ sig (Elt F))).Forall fun op =>
    ∀ k : Fin 6, Proc.devRef .tc (argRef k) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_16_keepsArgs : (hostOps1_16 : List (HloOp τ sig (Elt F))).Forall fun op =>
    ∀ k : Fin 6, Proc.devRef .tc (argRef k) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_17_keepsArgs : (hostOps1_17 : List (HloOp τ sig (Elt F))).Forall fun op =>
    ∀ k : Fin 6, Proc.devRef .tc (argRef k) ∉ op.writes := by
  simp only [hostOps1_17, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_18_keepsArgs : (hostOps1_18 : List (HloOp τ sig (Elt F))).Forall fun op =>
    ∀ k : Fin 6, Proc.devRef .tc (argRef k) ∉ op.writes := by
  simp only [hostOps1_18, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_19_keepsArgs : (hostOps1_19 : List (HloOp τ sig (Elt F))).Forall fun op =>
    ∀ k : Fin 6, Proc.devRef .tc (argRef k) ∉ op.writes := by
  simp only [hostOps1_19, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_20_keepsArgs : (hostOps1_20 : List (HloOp τ sig (Elt F))).Forall fun op =>
    ∀ k : Fin 6, Proc.devRef .tc (argRef k) ∉ op.writes := by
  simp only [hostOps1_20, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_21_keepsArgs : (hostOps1_21 : List (HloOp τ sig (Elt F))).Forall fun op =>
    ∀ k : Fin 6, Proc.devRef .tc (argRef k) ∉ op.writes := by
  simp only [hostOps1_21, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

/-- The reshapes before the grid write no argument: each is as launched when the grid is entered. -/
theorem V_main_arg (c : Dev nD) (k : Fin 6) : V m c (argRef k) = m ((c : Thread nD τ).loc (argRef k)) :=
  StableHlo.after_of_forall_not_mem (b := Proc.devRef .tc (argRef k)) _ _ (by
    intro op hop
    simp only [List.flatten_cons, List.flatten_nil, List.append_nil] at hop
    exact (List.forall_iff_forall_mem.mp hostOps0_keepsArgs) op hop k)

theorem tail_keepsArgs : ∀ op ∈ (tailOps (F := F)).flatten, ∀ k : Fin 6, Proc.devRef .tc (argRef k) ∉ op.writes := by
  intro op hop
  obtain ⟨ops, hops, hop'⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_keepsArgs) op hop'
  · exact (List.forall_iff_forall_mem.mp hostOps1_1_keepsArgs) op hop'
  · exact (List.forall_iff_forall_mem.mp hostOps1_2_keepsArgs) op hop'
  · exact (List.forall_iff_forall_mem.mp hostOps1_3_keepsArgs) op hop'
  · exact (List.forall_iff_forall_mem.mp hostOps1_4_keepsArgs) op hop'
  · exact (List.forall_iff_forall_mem.mp hostOps1_5_keepsArgs) op hop'
  · exact (List.forall_iff_forall_mem.mp hostOps1_6_keepsArgs) op hop'
  · exact (List.forall_iff_forall_mem.mp hostOps1_7_keepsArgs) op hop'
  · exact (List.forall_iff_forall_mem.mp hostOps1_8_keepsArgs) op hop'
  · exact (List.forall_iff_forall_mem.mp hostOps1_9_keepsArgs) op hop'
  · exact (List.forall_iff_forall_mem.mp hostOps1_10_keepsArgs) op hop'
  · exact (List.forall_iff_forall_mem.mp hostOps1_11_keepsArgs) op hop'
  · exact (List.forall_iff_forall_mem.mp hostOps1_12_keepsArgs) op hop'
  · exact (List.forall_iff_forall_mem.mp hostOps1_13_keepsArgs) op hop'
  · exact (List.forall_iff_forall_mem.mp hostOps1_14_keepsArgs) op hop'
  · exact (List.forall_iff_forall_mem.mp hostOps1_15_keepsArgs) op hop'
  · exact (List.forall_iff_forall_mem.mp hostOps1_16_keepsArgs) op hop'
  · exact (List.forall_iff_forall_mem.mp hostOps1_17_keepsArgs) op hop'
  · exact (List.forall_iff_forall_mem.mp hostOps1_18_keepsArgs) op hop'
  · exact (List.forall_iff_forall_mem.mp hostOps1_19_keepsArgs) op hop'
  · exact (List.forall_iff_forall_mem.mp hostOps1_20_keepsArgs) op hop'
  · exact (List.forall_iff_forall_mem.mp hostOps1_21_keepsArgs) op hop'

theorem argRef_ne_arr : ∀ (k : Fin 6) (w : Fin 14), Pipeline.arrRef spec0 w ≠ argRef k := by decide

/-- Nor do the operations after the grid: each argument ends as launched. -/
theorem W_main_arg (dats : (p : Fin 1) → (c : Dev nD) → Dat τ (Elt F) Unit ℕ (UR sig nD τ) ℕ (cfgs p) c) (c : Dev nD) (k : Fin 6) :
    Pipeline.afterTail₀ cfgs dats 0 (V0 m) tailOps c (argRef k) = m ((c : Thread nD τ).loc (argRef k)) := by
  unfold Pipeline.afterTail₀
  rw [StableHlo.after_of_forall_not_mem (b := Proc.devRef .tc (argRef k)) _ _ (fun op hop => tail_keepsArgs op hop k),
    Pipeline.withArrays_of_ne _ c (V0 m c) _ (argRef k) (argRef_ne_arr k)]
  exact V_main_arg m c k

theorem argRef_rest : ∀ k : Fin 6, argRef k ∈ Pipeline.restRefs sig spec0 := fun k =>
  Pipeline.mem_restRefs_of (argRef k) (by revert k; decide) (by revert k; decide)

/-! ## The frame claim's post from the frame run's -/

/-- No window of the grid stages an argument array itself (each sees a reshaped copy), so every argument is among
    the buffers that bypass the grid, and the run's post gives it at its contents after the last host operation,
    which is its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 _ (argRef_rest 0)).trans (W_main_arg m dats c 0),
    ((h c).2 _ (argRef_rest 1)).trans (W_main_arg m dats c 1),
    ((h c).2 _ (argRef_rest 2)).trans (W_main_arg m dats c 2),
    ((h c).2 _ (argRef_rest 3)).trans (W_main_arg m dats c 3),
    ((h c).2 _ (argRef_rest 4)).trans (W_main_arg m dats c 4),
    ((h c).2 _ (argRef_rest 5)).trans (W_main_arg m dats c 5)⟩) h

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The body resets its accumulators when the second grid coordinate is 0. -/
abbrev cond0_0 (i : grid0.Coords) : Prop := (Scalar.cmpi .ne (Scalar.extui (Scalar.cmpi .eq (BitVec.ofNat 32 (i 1).val) 0#32)) 0#32) = 1#1
/-- That is at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- It reduces them into the result windows when the second grid coordinate is 31. -/
abbrev cond0_1 (i : grid0.Coords) : Prop := k0_cond2 i = 1#1
/-- That is at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem liveAt0_10_C : ∀ t : Fin cfg0.N, ¬cond0_0 (grid0.coords t) → cond0_1 (grid0.coords t) → cfg0.idle 10 (grid0.coords t) = false := by decide +kernel
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
theorem idleAt0_11_B : ∀ t : Fin cfg0.N, ¬cond0_0 (grid0.coords t) → ¬cond0_1 (grid0.coords t) → cfg0.idle 11 (grid0.coords t) = true := by decide +kernel
theorem noFlush0_11_B : ∀ t : Fin cfg0.N, ¬cond0_0 (grid0.coords t) → ¬cond0_1 (grid0.coords t) → (cfg0.win 11).flush t = false := by decide +kernel
theorem liveAt0_11_C : ∀ t : Fin cfg0.N, ¬cond0_0 (grid0.coords t) → cond0_1 (grid0.coords t) → cfg0.idle 11 (grid0.coords t) = false := by decide +kernel
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem idleAt0_12_B : ∀ t : Fin cfg0.N, ¬cond0_0 (grid0.coords t) → ¬cond0_1 (grid0.coords t) → cfg0.idle 12 (grid0.coords t) = true := by decide +kernel
theorem noFlush0_12_B : ∀ t : Fin cfg0.N, ¬cond0_0 (grid0.coords t) → ¬cond0_1 (grid0.coords t) → (cfg0.win 12).flush t = false := by decide +kernel
theorem liveAt0_12_C : ∀ t : Fin cfg0.N, ¬cond0_0 (grid0.coords t) → cond0_1 (grid0.coords t) → cfg0.idle 12 (grid0.coords t) = false := by decide +kernel
theorem idleAt0_13_A : ∀ t : Fin cfg0.N, cond0_0 (grid0.coords t) → ¬cond0_1 (grid0.coords t) → cfg0.idle 13 (grid0.coords t) = true := by decide +kernel
theorem noFlush0_13_A : ∀ t : Fin cfg0.N, cond0_0 (grid0.coords t) → ¬cond0_1 (grid0.coords t) → (cfg0.win 13).flush t = false := by decide +kernel
theorem idleAt0_13_B : ∀ t : Fin cfg0.N, ¬cond0_0 (grid0.coords t) → ¬cond0_1 (grid0.coords t) → cfg0.idle 13 (grid0.coords t) = true := by decide +kernel
theorem noFlush0_13_B : ∀ t : Fin cfg0.N, ¬cond0_0 (grid0.coords t) → ¬cond0_1 (grid0.coords t) → (cfg0.win 13).flush t = false := by decide +kernel
theorem liveAt0_13_C : ∀ t : Fin cfg0.N, ¬cond0_0 (grid0.coords t) → cond0_1 (grid0.coords t) → cfg0.idle 13 (grid0.coords t) = false := by decide +kernel

/-! ## The memrefs the body is called with -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view
abbrev VO0_6 : View sig .tc .vmem S8x128 .f32 := (Memref.whole cc0_stg6_0 : Memref sig .tc .vmem S8x128 .f32).view
abbrev VO0_7 : View sig .tc .vmem S8x128 .f32 := (Memref.whole cc0_stg7_0 : Memref sig .tc .vmem S8x128 .f32).view
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view
abbrev VO0_11 : View sig .tc .vmem S8x128 .f32 := (Memref.whole cc0_stg11_0 : Memref sig .tc .vmem S8x128 .f32).view
abbrev VO0_12 : View sig .tc .vmem S8x128 .f32 := (Memref.whole cc0_stg12_0 : Memref sig .tc .vmem S8x128 .f32).view
abbrev VO0_13 : View sig .tc .vmem S8x128 .f32 := (Memref.whole cc0_stg13_0 : Memref sig .tc .vmem S8x128 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev scM0_0 : Memref sig .tc .vmem S8x128 .f32 := Memref.whole cc0_scratch0
abbrev VS0_0 : View sig .tc .vmem S8x128 .f32 := scM0_0.view
abbrev scM0_1 : Memref sig .tc .vmem S8x128 .f32 := Memref.whole cc0_scratch1
abbrev VS0_1 : View sig .tc .vmem S8x128 .f32 := scM0_1.view
abbrev scM0_2 : Memref sig .tc .vmem S8x128 .f32 := Memref.whole cc0_scratch2
abbrev VS0_2 : View sig .tc .vmem S8x128 .f32 := scM0_2.view
abbrev scM0_3 : Memref sig .tc .vmem S8x128 .f32 := Memref.whole cc0_scratch3
abbrev VS0_3 : View sig .tc .vmem S8x128 .f32 := scM0_3.view
abbrev scM0_4 : Memref sig .tc .vmem S8x128 .f32 := Memref.whole cc0_scratch4
abbrev VS0_4 : View sig .tc .vmem S8x128 .f32 := scM0_4.view
abbrev scM0_5 : Memref sig .tc .vmem S8x128 .f32 := Memref.whole cc0_scratch5
abbrev VS0_5 : View sig .tc .vmem S8x128 .f32 := scM0_5.view
abbrev scM0_6 : Memref sig .tc .vmem S8x128 .f32 := Memref.whole cc0_scratch6
abbrev VS0_6 : View sig .tc .vmem S8x128 .f32 := scM0_6.view
abbrev scM0_7 : Memref sig .tc .vmem S8x128 .f32 := Memref.whole cc0_scratch7
abbrev VS0_7 : View sig .tc .vmem S8x128 .f32 := scM0_7.view
abbrev scM0_8 : Memref sig .tc .vmem S8x128 .f32 := Memref.whole cc0_scratch8
abbrev VS0_8 : View sig .tc .vmem S8x128 .f32 := scM0_8.view
abbrev scM0_9 : Memref sig .tc .vmem S8x128 .f32 := Memref.whole cc0_scratch9
abbrev VS0_9 : View sig .tc .vmem S8x128 .f32 := scM0_9.view

/-- The invariant the launch hands the grid, with the ten accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Frame

end
-- ==== Proof.Kernel.RunA.lean ====
/-
  The kernel body run once, at the first point of a core's 32 (the accumulators are reset, then added to; no result window is stored): on whole staging memrefs, the four input blocks at their contents, the body
  runs to its end holding the inputs as they were, each accumulator with the pieces its stores wrote, and each result
  window either untouched or with its one store written. The lists of pieces are found by running the body.
-/
import proofs.«126502_j87754771792112_2_alg».proof.Proof.Kernel.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a core's 32 (the accumulators are reset, then added to; no result window is stored). -/
noncomputable def kernelRun0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (xi4 : Vec F S8x128 .f32) (xi5 : Vec F S8x128 .f32) (xi6 : Vec F S8x128 .f32) (xi7 : Vec F S8x128 .f32) (xi8 : Vec F S8x128 .f32) (xi9 : Vec F S8x128 .f32) (xi10 : Vec F S8x128 .f32) (xi11 : Vec F S8x128 .f32) (xi12 : Vec F S8x128 .f32) (xi13 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], [], [], [], [], [], [], [], [], [], ?_, ?_, ?_, ?_, ?_, ?_, ?_, ?_, ?_, ?_, fun xi4 xi5 xi6 xi7 xi8 xi9 xi10 xi11 xi12 xi13 E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Frame

end
-- ==== Proof.Kernel.RunB.lean ====
/-
  The kernel body run once, at a middle point (the accumulators are added to; no result window is stored): on whole staging memrefs, the four input blocks at their contents, the body
  runs to its end holding the inputs as they were, each accumulator with the pieces its stores wrote, and each result
  window either untouched or with its one store written. The lists of pieces are found by running the body.
-/
import proofs.«126502_j87754771792112_2_alg».proof.Proof.Kernel.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point (the accumulators are added to; no result window is stored). -/
noncomputable def kernelRun0_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) (xs8 : Vec F S8x128 .f32) (xs9 : Vec F S8x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (xi4 : Vec F S8x128 .f32) (xi5 : Vec F S8x128 .f32) (xi6 : Vec F S8x128 .f32) (xi7 : Vec F S8x128 .f32) (xi8 : Vec F S8x128 .f32) (xi9 : Vec F S8x128 .f32) (xi10 : Vec F S8x128 .f32) (xi11 : Vec F S8x128 .f32) (xi12 : Vec F S8x128 .f32) (xi13 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6 ∗ owns (c : Thread nD τ) arg23 fullShare xs7 ∗ owns (c : Thread nD τ) arg24 fullShare xs8 ∗ owns (c : Thread nD τ) arg25 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], [], [], [], [], [], [], [], [], [], ?_, ?_, ?_, ?_, ?_, ?_, ?_, ?_, ?_, ?_, fun xi4 xi5 xi6 xi7 xi8 xi9 xi10 xi11 xi12 xi13 E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5; obtain rfl := harg22.eq_unread hfs6; obtain rfl := harg23.eq_unread hfs7; obtain rfl := harg24.eq_unread hfs8; obtain rfl := harg25.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Frame

end
-- ==== Proof.Kernel.RunC.lean ====
/-
  The kernel body run once, at the last point of a core's 32 (the accumulators are added to, then each is summed over its 1024 entries into its result window): on whole staging memrefs, the four input blocks at their contents, the body
  runs to its end holding the inputs as they were, each accumulator with the pieces its stores wrote, and each result
  window either untouched or with its one store written. The lists of pieces are found by running the body.
-/
import proofs.«126502_j87754771792112_2_alg».proof.Proof.Kernel.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point of a core's 32 (the accumulators are added to, then each is summed over its 1024 entries into its result window). -/
noncomputable def kernelRun0_C (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) (xs8 : Vec F S8x128 .f32) (xs9 : Vec F S8x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6 ∗ owns (c : Thread nD τ) arg23 fullShare xs7 ∗ owns (c : Thread nD τ) arg24 fullShare xs8 ∗ owns (c : Thread nD τ) arg25 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, ?_, ?_, ?_, ?_, fun E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5; obtain rfl := harg22.eq_unread hfs6; obtain rfl := harg23.eq_unread hfs7; obtain rfl := harg24.eq_unread hfs8; obtain rfl := harg25.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Frame

end
-- ==== Proof.Kernel.Acc.lean ====
/-
  The contents of the ten result windows' staging buffers and of the ten [8, 128] accumulators, as one record.
-/
import proofs.«126502_j87754771792112_2_alg».proof.Proof.Kernel.Kit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the ten result windows' staging buffers and of the ten accumulators. -/
structure Acc (F : FTy → Type) [FloatOps F] where
  o4 : Vec F S8x128 .f32
  o5 : Vec F S8x128 .f32
  o6 : Vec F S8x128 .f32
  o7 : Vec F S8x128 .f32
  o8 : Vec F S8x128 .f32
  o9 : Vec F S8x128 .f32
  o10 : Vec F S8x128 .f32
  o11 : Vec F S8x128 .f32
  o12 : Vec F S8x128 .f32
  o13 : Vec F S8x128 .f32
  s0 : Vec F S8x128 .f32
  s1 : Vec F S8x128 .f32
  s2 : Vec F S8x128 .f32
  s3 : Vec F S8x128 .f32
  s4 : Vec F S8x128 .f32
  s5 : Vec F S8x128 .f32
  s6 : Vec F S8x128 .f32
  s7 : Vec F S8x128 .f32
  s8 : Vec F S8x128 .f32
  s9 : Vec F S8x128 .f32

end Cert.Kernel.Frame

end
-- ==== Proof.Kernel.Data.lean ====
/-
  What the grid's buffers hold point by point. The three cases' contents (each buffer's found pieces read back), the
  accumulation by recursion on the point, the grid's invariant carrying the ten accumulators from point to point, the
  proof data of the launch theorem, and the body's pre- and postcondition at a point.
-/
import proofs.«126502_j87754771792112_2_alg».proof.Proof.Kernel.RunC
import proofs.«126502_j87754771792112_2_alg».proof.Proof.Kernel.Acc

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves: each buffer's pieces read back (a result window the case does not store holds nothing that is
    consulted). -/
def out0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) : Acc F where
  o4 := VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).1)
  o5 := VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.1)
  o6 := VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.1)
  o7 := VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.1)
  o8 := VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.1)
  o9 := VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.1)
  o10 := VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.1)
  o11 := VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.1)
  o12 := VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.1)
  o13 := VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1)
  s3 := VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1)
  s4 := VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1)
  s5 := VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1)
  s6 := VS0_6.read (Elt F) (VS0_6.writes (Elt F) VS0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1)
  s7 := VS0_7.read (Elt F) (VS0_7.writes (Elt F) VS0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1)
  s8 := VS0_8.read (Elt F) (VS0_8.writes (Elt F) VS0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1)
  s9 := VS0_9.read (Elt F) (VS0_9.writes (Elt F) VS0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1)

/-- What case B leaves: each buffer's pieces read back (a result window the case does not store holds nothing that is
    consulted). -/
def out0_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) : Acc F where
  o4 := VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1)
  o5 := VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1)
  o6 := VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1)
  o7 := VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1)
  o8 := VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1)
  o9 := VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1)
  o10 := VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1)
  o11 := VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1)
  o12 := VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1)
  o13 := VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1)
  s3 := VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1)
  s4 := VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1)
  s5 := VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1)
  s6 := VS0_6.read (Elt F) (VS0_6.writes (Elt F) VS0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1)
  s7 := VS0_7.read (Elt F) (VS0_7.writes (Elt F) VS0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1)
  s8 := VS0_8.read (Elt F) (VS0_8.writes (Elt F) VS0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1)
  s9 := VS0_9.read (Elt F) (VS0_9.writes (Elt F) VS0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1)

/-- What case C leaves: each buffer's pieces read back (a result window the case does not store holds nothing that is
    consulted). -/
def out0_C (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) : Acc F where
  o4 := VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1)
  o5 := VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1)
  o6 := VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1)
  o7 := VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1)
  o8 := VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1)
  o9 := VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1)
  o10 := VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1)
  o11 := VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1)
  o12 := VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1)
  o13 := VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1)
  s3 := VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1)
  s4 := VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1)
  s5 := VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1)
  s6 := VS0_6.read (Elt F) (VS0_6.writes (Elt F) VS0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1)
  s7 := VS0_7.read (Elt F) (VS0_7.writes (Elt F) VS0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1)
  s8 := VS0_8.read (Elt F) (VS0_8.writes (Elt F) VS0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1)
  s9 := VS0_9.read (Elt F) (VS0_9.writes (Elt F) VS0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1)

/-! ## What the buffers hold after each point -/

/-- THE ACCUMULATION: after the body at position `n`, the case the position is in, run at the point's memrefs and
    input blocks, the accumulators taken (except at a core's first point) at what position `n - 1` left. -/
def outsAt0 (c : Dev nD) : (n : ℕ) → n < cfg0.N → Acc F
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 32 = 0 then
      if h1 : (n + 1) % 32 = 31 then
        False.elim (by omega)
      else
        out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 32 = 31 then
        out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 32 = 0) (h1 : ¬t.val % 32 = 31) :
    outsAt0 m c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The grid's invariant -/

/-- Before position `n`: at the start what the launch hands the grid; afterwards the ten accumulators at what the
    position before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7) ∗ owns (c : Thread nD τ) scM0_8 fullShare ((outsAt0 m c (n - 1) (by omega)).s8) ∗ owns (c : Thread nD τ) scM0_9 fullShare ((outsAt0 m c (n - 1) (by omega)).s9)) ∗ (∃ r, prngReg c r)) := by
  cases n with
  | zero => exact absurd rfl hz
  | succ n => rfl

/-! ## The grid's proof data -/

/-- On core `c`: the arrays as the grid finds them; after the body at point `t` each input's buffer at its block and each
    result window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨12, _⟩ => (outsAt0 m c t.val t.isLt).o12
    | ⟨13, _⟩ => (outsAt0 m c t.val t.isLt).o13
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]
theorem after0_12 (c : Dev nD) (t : Fin cfg0.N) : (dats m 0 c).after 12 t = (outsAt0 m c t.val t.isLt).o12 := by dsimp only [dats]
theorem after0_13 (c : Dev nD) (t : Fin cfg0.N) : (dats m 0 c).after 13 t = (outsAt0 m c t.val t.isLt).o13 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.Kernel.Frame

end
-- ==== Proof.Kernel.CoversA.lean ====
/-
  Case A of the body: the pieces its run found for each buffer tile the buffer, so every index of it lies in one.
-/
import proofs.«126502_j87754771792112_2_alg».proof.Proof.Kernel.RunA
import proofs.«126502_j87754771792112_2_alg».proof.Proof.Kernel.Acc

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for accumulator 0 tile it, so they cover it. -/
theorem scover0_A_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1 S8x128.size (by sl_kernel_rfl) y

/-- Case A's pieces for accumulator 1 tile it, so they cover it. -/
theorem scover0_A_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1 S8x128.size (by sl_kernel_rfl) y

/-- Case A's pieces for accumulator 2 tile it, so they cover it. -/
theorem scover0_A_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1 S8x128.size (by sl_kernel_rfl) y

/-- Case A's pieces for accumulator 3 tile it, so they cover it. -/
theorem scover0_A_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1 S8x128.size (by sl_kernel_rfl) y

/-- Case A's pieces for accumulator 4 tile it, so they cover it. -/
theorem scover0_A_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1 S8x128.size (by sl_kernel_rfl) y

/-- Case A's pieces for accumulator 5 tile it, so they cover it. -/
theorem scover0_A_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1 S8x128.size (by sl_kernel_rfl) y

/-- Case A's pieces for accumulator 6 tile it, so they cover it. -/
theorem scover0_A_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1 S8x128.size (by sl_kernel_rfl) y

/-- Case A's pieces for accumulator 7 tile it, so they cover it. -/
theorem scover0_A_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1 S8x128.size (by sl_kernel_rfl) y

/-- Case A's pieces for accumulator 8 tile it, so they cover it. -/
theorem scover0_A_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1 S8x128.size (by sl_kernel_rfl) y

/-- Case A's pieces for accumulator 9 tile it, so they cover it. -/
theorem scover0_A_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1 S8x128.size (by sl_kernel_rfl) y

end Cert.Kernel.Frame

end
-- ==== Proof.Kernel.BodyA.lean ====
/-
  The body obligation at the first point of a core's 32: the invariant hands the body its accumulators, the case's run applies, and the
  invariant takes the accumulators back at what the run leaves, the pieces covering each buffer.
-/
import proofs.«126502_j87754771792112_2_alg».proof.Proof.Kernel.Data
import proofs.«126502_j87754771792112_2_alg».proof.Proof.Kernel.CoversA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A (c : Dev nD) (t : Fin cfg0.N) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
  rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
  rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
  rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
  rw [Dat.leavesExact_idle (dats m 0 c) 13 t (idleAt0_13_A t ((hcond0_0 t).mpr h0) (fun h => h1 ((hcond0_1 t).mp h))) (noFlush0_13_A t ((hcond0_0 t).mpr h0) (fun h => h1 ((hcond0_1 t).mp h)))]
  rw [outsAt0_A m c t h0 h1]
  by_cases hz : t.val = 0
  · rw [PhiS_castSucc m c t, PhiS_zero m c _ _ hz, PhiA0_eq]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t)).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; exact View.read_writes_of_cover _ _ VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; exact View.read_writes_of_cover _ _ VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; exact View.read_writes_of_cover _ _ VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; exact View.read_writes_of_cover _ _ VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; exact View.read_writes_of_cover _ _ VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; exact View.read_writes_of_cover _ _ VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS7]
        · unfold owns; iexists _; isplitr
          swap; · iexact HS7
          ipureintro; exact View.read_writes_of_cover _ _ VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS8]
        · unfold owns; iexists _; isplitr
          swap; · iexact HS8
          ipureintro; exact View.read_writes_of_cover _ _ VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS9
        ipureintro; exact View.read_writes_of_cover _ _ VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t)).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; exact View.read_writes_of_cover _ _ VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; exact View.read_writes_of_cover _ _ VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; exact View.read_writes_of_cover _ _ VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; exact View.read_writes_of_cover _ _ VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; exact View.read_writes_of_cover _ _ VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; exact View.read_writes_of_cover _ _ VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS7]
        · unfold owns; iexists _; isplitr
          swap; · iexact HS7
          ipureintro; exact View.read_writes_of_cover _ _ VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS8]
        · unfold owns; iexists _; isplitr
          swap; · iexact HS8
          ipureintro; exact View.read_writes_of_cover _ _ VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS9
        ipureintro; exact View.read_writes_of_cover _ _ VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Frame

end
-- ==== Proof.Kernel.CoversB.lean ====
/-
  Case B of the body: the pieces its run found for each buffer tile the buffer, so every index of it lies in one.
-/
import proofs.«126502_j87754771792112_2_alg».proof.Proof.Kernel.RunB
import proofs.«126502_j87754771792112_2_alg».proof.Proof.Kernel.Acc

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case B's pieces for accumulator 0 tile it, so they cover it. -/
theorem scover0_B_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1 S8x128.size (by sl_kernel_rfl) y

/-- Case B's pieces for accumulator 1 tile it, so they cover it. -/
theorem scover0_B_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1 S8x128.size (by sl_kernel_rfl) y

/-- Case B's pieces for accumulator 2 tile it, so they cover it. -/
theorem scover0_B_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1 S8x128.size (by sl_kernel_rfl) y

/-- Case B's pieces for accumulator 3 tile it, so they cover it. -/
theorem scover0_B_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1 S8x128.size (by sl_kernel_rfl) y

/-- Case B's pieces for accumulator 4 tile it, so they cover it. -/
theorem scover0_B_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1 S8x128.size (by sl_kernel_rfl) y

/-- Case B's pieces for accumulator 5 tile it, so they cover it. -/
theorem scover0_B_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1 S8x128.size (by sl_kernel_rfl) y

/-- Case B's pieces for accumulator 6 tile it, so they cover it. -/
theorem scover0_B_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1 S8x128.size (by sl_kernel_rfl) y

/-- Case B's pieces for accumulator 7 tile it, so they cover it. -/
theorem scover0_B_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1 S8x128.size (by sl_kernel_rfl) y

/-- Case B's pieces for accumulator 8 tile it, so they cover it. -/
theorem scover0_B_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1 S8x128.size (by sl_kernel_rfl) y

/-- Case B's pieces for accumulator 9 tile it, so they cover it. -/
theorem scover0_B_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1 S8x128.size (by sl_kernel_rfl) y

end Cert.Kernel.Frame

end
-- ==== Proof.Kernel.BodyB.lean ====
/-
  The body obligation at a middle point: the invariant hands the body its accumulators, the case's run applies, and the
  invariant takes the accumulators back at what the run leaves, the pieces covering each buffer.
-/
import proofs.«126502_j87754771792112_2_alg».proof.Proof.Kernel.Data
import proofs.«126502_j87754771792112_2_alg».proof.Proof.Kernel.CoversB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_B (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
  rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
  rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
  rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
  rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
  rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
  rw [outsAt0_B m c t h0 h1]
  by_cases hz : t.val = 0
  · exfalso; omega
  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 (outsAt0 m c (t.val - 1) (Nat.lt_of_le_of_lt (Nat.sub_le _ _) t.isLt)).s8 (outsAt0 m c (t.val - 1) (Nat.lt_of_le_of_lt (Nat.sub_le _ _) t.isLt)).s9).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS1]
        · unfold owns; iexists _; isplitr
          swap; · iexact HS1
          ipureintro; exact View.read_writes_of_cover _ _ VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS2]
        · unfold owns; iexists _; isplitr
          swap; · iexact HS2
          ipureintro; exact View.read_writes_of_cover _ _ VS0_2 VS0_2.junk _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS3]
        · unfold owns; iexists _; isplitr
          swap; · iexact HS3
          ipureintro; exact View.read_writes_of_cover _ _ VS0_3 VS0_3.junk _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS4]
        · unfold owns; iexists _; isplitr
          swap; · iexact HS4
          ipureintro; exact View.read_writes_of_cover _ _ VS0_4 VS0_4.junk _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS5]
        · unfold owns; iexists _; isplitr
          swap; · iexact HS5
          ipureintro; exact View.read_writes_of_cover _ _ VS0_5 VS0_5.junk _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS6]
        · unfold owns; iexists _; isplitr
          swap; · iexact HS6
          ipureintro; exact View.read_writes_of_cover _ _ VS0_6 VS0_6.junk _ (scover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS7]
        · unfold owns; iexists _; isplitr
          swap; · iexact HS7
          ipureintro; exact View.read_writes_of_cover _ _ VS0_7 VS0_7.junk _ (scover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS8]
        · unfold owns; iexists _; isplitr
          swap; · iexact HS8
          ipureintro; exact View.read_writes_of_cover _ _ VS0_8 VS0_8.junk _ (scover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        unfold owns; iexists _; isplitr
        swap; · iexact HS9
        ipureintro; exact View.read_writes_of_cover _ _ VS0_9 VS0_9.junk _ (scover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Frame

end
-- ==== Proof.Kernel.CoversC.lean ====
/-
  Case C of the body: the pieces its run found for each buffer tile the buffer, so every index of it lies in one.
-/
import proofs.«126502_j87754771792112_2_alg».proof.Proof.Kernel.RunC
import proofs.«126502_j87754771792112_2_alg».proof.Proof.Kernel.Acc

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case C's pieces for accumulator 0 tile it, so they cover it. -/
theorem scover0_C_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1 S8x128.size (by sl_kernel_rfl) y

/-- Case C's pieces for accumulator 1 tile it, so they cover it. -/
theorem scover0_C_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1 S8x128.size (by sl_kernel_rfl) y

/-- Case C's pieces for accumulator 2 tile it, so they cover it. -/
theorem scover0_C_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1 S8x128.size (by sl_kernel_rfl) y

/-- Case C's pieces for accumulator 3 tile it, so they cover it. -/
theorem scover0_C_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1 S8x128.size (by sl_kernel_rfl) y

/-- Case C's pieces for accumulator 4 tile it, so they cover it. -/
theorem scover0_C_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1 S8x128.size (by sl_kernel_rfl) y

/-- Case C's pieces for accumulator 5 tile it, so they cover it. -/
theorem scover0_C_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1 S8x128.size (by sl_kernel_rfl) y

/-- Case C's pieces for accumulator 6 tile it, so they cover it. -/
theorem scover0_C_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1 S8x128.size (by sl_kernel_rfl) y

/-- Case C's pieces for accumulator 7 tile it, so they cover it. -/
theorem scover0_C_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1 S8x128.size (by sl_kernel_rfl) y

/-- Case C's pieces for accumulator 8 tile it, so they cover it. -/
theorem scover0_C_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1 S8x128.size (by sl_kernel_rfl) y

/-- Case C's pieces for accumulator 9 tile it, so they cover it. -/
theorem scover0_C_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1 S8x128.size (by sl_kernel_rfl) y

/-- Case C's one store into result window 4 covers its block. -/
theorem cover0_C_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1 S8x128.size (by sl_kernel_rfl) y

/-- Case C's one store into result window 5 covers its block. -/
theorem cover0_C_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1 S8x128.size (by sl_kernel_rfl) y

/-- Case C's one store into result window 6 covers its block. -/
theorem cover0_C_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1 S8x128.size (by sl_kernel_rfl) y

/-- Case C's one store into result window 7 covers its block. -/
theorem cover0_C_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1 S8x128.size (by sl_kernel_rfl) y

/-- Case C's one store into result window 8 covers its block. -/
theorem cover0_C_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1 S8x128.size (by sl_kernel_rfl) y

/-- Case C's one store into result window 9 covers its block. -/
theorem cover0_C_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1 S8x128.size (by sl_kernel_rfl) y

/-- Case C's one store into result window 10 covers its block. -/
theorem cover0_C_10 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1 S8x128.size (by sl_kernel_rfl) y

/-- Case C's one store into result window 11 covers its block. -/
theorem cover0_C_11 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1 S8x128.size (by sl_kernel_rfl) y

/-- Case C's one store into result window 12 covers its block. -/
theorem cover0_C_12 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1 S8x128.size (by sl_kernel_rfl) y

/-- Case C's one store into result window 13 covers its block. -/
theorem cover0_C_13 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1 S8x128.size (by sl_kernel_rfl) y

end Cert.Kernel.Frame

end
-- ==== Proof.Kernel.BodyC.lean ====
/-
  The body obligation at the last point of a core's 32: the invariant hands the body its accumulators, the case's run applies, and the
  invariant takes the accumulators back at what the run leaves, the pieces covering each buffer.
-/
import proofs.«126502_j87754771792112_2_alg».proof.Proof.Kernel.Data
import proofs.«126502_j87754771792112_2_alg».proof.Proof.Kernel.CoversC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_C (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_C t (fun h => h0 ((hcond0_0 t).mp h)) ((hcond0_1 t).mpr h1)], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) ((hcond0_1 t).mpr h1)], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) ((hcond0_1 t).mpr h1)], after0_10]
  rw [show (dats m 0 c).leavesExact 11 t = owns (c : Thread nD τ) (ms0_11 t) fullShare ((dats m 0 c).after 11 t) from by
    unfold Dat.leavesExact; rw [liveAt0_11_C t (fun h => h0 ((hcond0_0 t).mp h)) ((hcond0_1 t).mpr h1)], after0_11]
  rw [show (dats m 0 c).leavesExact 12 t = owns (c : Thread nD τ) (ms0_12 t) fullShare ((dats m 0 c).after 12 t) from by
    unfold Dat.leavesExact; rw [liveAt0_12_C t (fun h => h0 ((hcond0_0 t).mp h)) ((hcond0_1 t).mpr h1)], after0_12]
  rw [show (dats m 0 c).leavesExact 13 t = owns (c : Thread nD τ) (ms0_13 t) fullShare ((dats m 0 c).after 13 t) from by
    unfold Dat.leavesExact; rw [liveAt0_13_C t (fun h => h0 ((hcond0_0 t).mp h)) ((hcond0_1 t).mpr h1)], after0_13]
  rw [outsAt0_C m c t h0 h1]
  by_cases hz : t.val = 0
  · exfalso; omega
  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 (outsAt0 m c (t.val - 1) (Nat.lt_of_le_of_lt (Nat.sub_le _ _) t.isLt)).s8 (outsAt0 m c (t.val - 1) (Nat.lt_of_le_of_lt (Nat.sub_le _ _) t.isLt)).s9).2.2.2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS1]
        · unfold owns; iexists _; isplitr
          swap; · iexact HS1
          ipureintro; exact View.read_writes_of_cover _ _ VS0_1 VS0_1.junk _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS2]
        · unfold owns; iexists _; isplitr
          swap; · iexact HS2
          ipureintro; exact View.read_writes_of_cover _ _ VS0_2 VS0_2.junk _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS3]
        · unfold owns; iexists _; isplitr
          swap; · iexact HS3
          ipureintro; exact View.read_writes_of_cover _ _ VS0_3 VS0_3.junk _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS4]
        · unfold owns; iexists _; isplitr
          swap; · iexact HS4
          ipureintro; exact View.read_writes_of_cover _ _ VS0_4 VS0_4.junk _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS5]
        · unfold owns; iexists _; isplitr
          swap; · iexact HS5
          ipureintro; exact View.read_writes_of_cover _ _ VS0_5 VS0_5.junk _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS6]
        · unfold owns; iexists _; isplitr
          swap; · iexact HS6
          ipureintro; exact View.read_writes_of_cover _ _ VS0_6 VS0_6.junk _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS7]
        · unfold owns; iexists _; isplitr
          swap; · iexact HS7
          ipureintro; exact View.read_writes_of_cover _ _ VS0_7 VS0_7.junk _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS8]
        · unfold owns; iexists _; isplitr
          swap; · iexact HS8
          ipureintro; exact View.read_writes_of_cover _ _ VS0_8 VS0_8.junk _ (scover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        unfold owns; iexists _; isplitr
        swap; · iexact HS9
        ipureintro; exact View.read_writes_of_cover _ _ VS0_9 VS0_9.junk _ (scover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H5]
    · unfold owns; iexists _; isplitr
      swap; · iexact H5
      ipureintro; exact View.read_writes_of_cover _ _ VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H6]
    · unfold owns; iexists _; isplitr
      swap; · iexact H6
      ipureintro; exact View.read_writes_of_cover _ _ VO0_6 VO0_6.junk _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H7]
    · unfold owns; iexists _; isplitr
      swap; · iexact H7
      ipureintro; exact View.read_writes_of_cover _ _ VO0_7 VO0_7.junk _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H8]
    · unfold owns; iexists _; isplitr
      swap; · iexact H8
      ipureintro; exact View.read_writes_of_cover _ _ VO0_8 VO0_8.junk _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H9]
    · unfold owns; iexists _; isplitr
      swap; · iexact H9
      ipureintro; exact View.read_writes_of_cover _ _ VO0_9 VO0_9.junk _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H10]
    · unfold owns; iexists _; isplitr
      swap; · iexact H10
      ipureintro; exact View.read_writes_of_cover _ _ VO0_10 VO0_10.junk _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H11]
    · unfold owns; iexists _; isplitr
      swap; · iexact H11
      ipureintro; exact View.read_writes_of_cover _ _ VO0_11 VO0_11.junk _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H12]
    · unfold owns; iexists _; isplitr
      swap; · iexact H12
      ipureintro; exact View.read_writes_of_cover _ _ VO0_12 VO0_12.junk _ (cover0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    unfold owns; iexists _; isplitr
    swap; · iexact H13
    ipureintro; exact View.read_writes_of_cover _ _ VO0_13 VO0_13.junk _ (cover0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))

end Cert.Kernel.Frame

end
-- ==== Proof.Kernel.FrameS.lean ====
/-
  The frame of this program: it runs to the end, faults nowhere, and leaves its six argument arrays as launched. A point
  of the grid is the first, a middle or the last point of its core's 32; each case's body obligation is proved beside
  its run; together they are the obligation of the launch theorem for a grid between host operations, which gives the
  run; the arguments, which no window stages and no host operation writes, end unchanged.
-/
import proofs.«126502_j87754771792112_2_alg».proof.Proof.Kernel.BodyA
import proofs.«126502_j87754771792112_2_alg».proof.Proof.Kernel.BodyB
import proofs.«126502_j87754771792112_2_alg».proof.Proof.Kernel.BodyC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the point's position among its core's 32. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 32 = 0
  · exact sound_body_A m c t h0 (by omega)
  · by_cases h1 : t.val % 32 = 31
    · exact sound_body_C m c t h0 h1
    · exact sound_body_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, every array of the grid ends at what the proof data computes
    and every other unscoped buffer as the host operations after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and its six argument arrays end as launched, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Frame

end
-- ==== Proof.KernelIdeal.Kit.lean ====
/-
  What every part of this program's frame proof shares. The program reshapes four of its six argument arrays into
  [131072, 128] matrices, runs one grid of 2 x 32 points over blocks of 2048 rows, and then combines the ten [16, 128]
  result arrays by host operations into one scalar. Here: the contents of each buffer when the grid is entered (the
  reshapes applied to the launch memory); that the host operations after the grid touch no array of the grid and no
  argument; the block of each input array a grid point sees; the two conditions the body branches on, decided over the
  grid (the point is the first of its core's 32, or the last); where the ten result windows are idle; and the
  invariant's scratch accumulators as owned memory.
-/
import proofs.«126502_j87754771792112_2_alg».proof.Proof.Gen.KernelIdeal.Launch
import proofs.«126502_j87754771792112_2_alg».proof.Proof.Gen.KernelIdeal.Skeleton
import proofs.«126502_j87754771792112_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the grid -/

/-- Core `c`'s buffer contents when the grid is entered: the launch memory after the five reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the grid, in program order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor

/-- The program is the reshapes, the grid, and then the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps hostOps0_sub hostOps0_fresh main_chain

/-- The later operations touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_10_keeps : (hostOps1_10 : List (HloOp τ sig (Elt F))).Forall fun op =>
    ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_11_keeps : (hostOps1_11 : List (HloOp τ sig (Elt F))).Forall fun op =>
    ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_12_keeps : (hostOps1_12 : List (HloOp τ sig (Elt F))).Forall fun op =>
    ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_13_keeps : (hostOps1_13 : List (HloOp τ sig (Elt F))).Forall fun op =>
    ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_14_keeps : (hostOps1_14 : List (HloOp τ sig (Elt F))).Forall fun op =>
    ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_15_keeps : (hostOps1_15 : List (HloOp τ sig (Elt F))).Forall fun op =>
    ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_16_keeps : (hostOps1_16 : List (HloOp τ sig (Elt F))).Forall fun op =>
    ∀ w, Proc.devRef .tc (Pipeline.arrRef spec0 w) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_17_keeps : (hostOps1_17 : List (HloOp τ sig (Elt F))).Forall fun op =>
    ∀ w, Proc.devRef .tc (Pipeline.arrRef spec0 w) ∉ op.writes := by
  simp only [hostOps1_17, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_18_keeps : (hostOps1_18 : List (HloOp τ sig (Elt F))).Forall fun op =>
    ∀ w, Proc.devRef .tc (Pipeline.arrRef spec0 w) ∉ op.writes := by
  simp only [hostOps1_18, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_19_keeps : (hostOps1_19 : List (HloOp τ sig (Elt F))).Forall fun op =>
    ∀ w, Proc.devRef .tc (Pipeline.arrRef spec0 w) ∉ op.writes := by
  simp only [hostOps1_19, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_20_keeps : (hostOps1_20 : List (HloOp τ sig (Elt F))).Forall fun op =>
    ∀ w, Proc.devRef .tc (Pipeline.arrRef spec0 w) ∉ op.writes := by
  simp only [hostOps1_20, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_21_keeps : (hostOps1_21 : List (HloOp τ sig (Elt F))).Forall fun op =>
    ∀ w, Proc.devRef .tc (Pipeline.arrRef spec0 w) ∉ op.writes := by
  simp only [hostOps1_21, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
/-- And write no array of the grid: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop

/-! ## Nothing writes an argument -/

/-- The six argument arrays. -/
abbrev argRef : Fin 6 → Ref sig .tc := fun | 0 => main_arg0 | 1 => main_arg1 | 2 => main_arg2 | 3 => main_arg3 | 4 => main_arg4 | 5 => main_arg5 | ⟨_ + 6, h⟩ => absurd h (Nat.not_lt.2 (Nat.le_add_left _ _))

theorem hostOps0_keepsArgs : (hostOps0 : List (HloOp τ sig (Elt F))).Forall fun op =>
    ∀ k : Fin 6, Proc.devRef .tc (argRef k) ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_keepsArgs : (hostOps1 : List (HloOp τ sig (Elt F))).Forall fun op =>
    ∀ k : Fin 6, Proc.devRef .tc (argRef k) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_1_keepsArgs : (hostOps1_1 : List (HloOp τ sig (Elt F))).Forall fun op =>
    ∀ k : Fin 6, Proc.devRef .tc (argRef k) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_2_keepsArgs : (hostOps1_2 : List (HloOp τ sig (Elt F))).Forall fun op =>
    ∀ k : Fin 6, Proc.devRef .tc (argRef k) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_3_keepsArgs : (hostOps1_3 : List (HloOp τ sig (Elt F))).Forall fun op =>
    ∀ k : Fin 6, Proc.devRef .tc (argRef k) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_4_keepsArgs : (hostOps1_4 : List (HloOp τ sig (Elt F))).Forall fun op =>
    ∀ k : Fin 6, Proc.devRef .tc (argRef k) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_5_keepsArgs : (hostOps1_5 : List (HloOp τ sig (Elt F))).Forall fun op =>
    ∀ k : Fin 6, Proc.devRef .tc (argRef k) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_6_keepsArgs : (hostOps1_6 : List (HloOp τ sig (Elt F))).Forall fun op =>
    ∀ k : Fin 6, Proc.devRef .tc (argRef k) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_7_keepsArgs : (hostOps1_7 : List (HloOp τ sig (Elt F))).Forall fun op =>
    ∀ k : Fin 6, Proc.devRef .tc (argRef k) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_8_keepsArgs : (hostOps1_8 : List (HloOp τ sig (Elt F))).Forall fun op =>
    ∀ k : Fin 6, Proc.devRef .tc (argRef k) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_9_keepsArgs : (hostOps1_9 : List (HloOp τ sig (Elt F))).Forall fun op =>
    ∀ k : Fin 6, Proc.devRef .tc (argRef k) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_10_keepsArgs : (hostOps1_10 : List (HloOp τ sig (Elt F))).Forall fun op =>
    ∀ k : Fin 6, Proc.devRef .tc (argRef k) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_11_keepsArgs : (hostOps1_11 : List (HloOp τ sig (Elt F))).Forall fun op =>
    ∀ k : Fin 6, Proc.devRef .tc (argRef k) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_12_keepsArgs : (hostOps1_12 : List (HloOp τ sig (Elt F))).Forall fun op =>
    ∀ k : Fin 6, Proc.devRef .tc (argRef k) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_13_keepsArgs : (hostOps1_13 : List (HloOp τ sig (Elt F))).Forall fun op =>
    ∀ k : Fin 6, Proc.devRef .tc (argRef k) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_14_keepsArgs : (hostOps1_14 : List (HloOp τ sig (Elt F))).Forall fun op =>
    ∀ k : Fin 6, Proc.devRef .tc (argRef k) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_15_keepsArgs : (hostOps1_15 : List (HloOp τ sig (Elt F))).Forall fun op =>
    ∀ k : Fin 6, Proc.devRef .tc (argRef k) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_16_keepsArgs : (hostOps1_16 : List (HloOp τ sig (Elt F))).Forall fun op =>
    ∀ k : Fin 6, Proc.devRef .tc (argRef k) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_17_keepsArgs : (hostOps1_17 : List (HloOp τ sig (Elt F))).Forall fun op =>
    ∀ k : Fin 6, Proc.devRef .tc (argRef k) ∉ op.writes := by
  simp only [hostOps1_17, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_18_keepsArgs : (hostOps1_18 : List (HloOp τ sig (Elt F))).Forall fun op =>
    ∀ k : Fin 6, Proc.devRef .tc (argRef k) ∉ op.writes := by
  simp only [hostOps1_18, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_19_keepsArgs : (hostOps1_19 : List (HloOp τ sig (Elt F))).Forall fun op =>
    ∀ k : Fin 6, Proc.devRef .tc (argRef k) ∉ op.writes := by
  simp only [hostOps1_19, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_20_keepsArgs : (hostOps1_20 : List (HloOp τ sig (Elt F))).Forall fun op =>
    ∀ k : Fin 6, Proc.devRef .tc (argRef k) ∉ op.writes := by
  simp only [hostOps1_20, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))
theorem hostOps1_21_keepsArgs : (hostOps1_21 : List (HloOp τ sig (Elt F))).Forall fun op =>
    ∀ k : Fin 6, Proc.devRef .tc (argRef k) ∉ op.writes := by
  simp only [hostOps1_21, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro k; exact StableHlo.devRef_ne_of_ne (by revert k; decide))

/-- The reshapes before the grid write no argument: each is as launched when the grid is entered. -/
theorem V_main_arg (c : Dev nD) (k : Fin 6) : V m c (argRef k) = m ((c : Thread nD τ).loc (argRef k)) :=
  StableHlo.after_of_forall_not_mem (b := Proc.devRef .tc (argRef k)) _ _ (by
    intro op hop
    simp only [List.flatten_cons, List.flatten_nil, List.append_nil] at hop
    exact (List.forall_iff_forall_mem.mp hostOps0_keepsArgs) op hop k)

theorem tail_keepsArgs : ∀ op ∈ (tailOps (F := F)).flatten, ∀ k : Fin 6, Proc.devRef .tc (argRef k) ∉ op.writes := by
  intro op hop
  obtain ⟨ops, hops, hop'⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl
  · exact (List.forall_iff_forall_mem.mp hostOps1_keepsArgs) op hop'
  · exact (List.forall_iff_forall_mem.mp hostOps1_1_keepsArgs) op hop'
  · exact (List.forall_iff_forall_mem.mp hostOps1_2_keepsArgs) op hop'
  · exact (List.forall_iff_forall_mem.mp hostOps1_3_keepsArgs) op hop'
  · exact (List.forall_iff_forall_mem.mp hostOps1_4_keepsArgs) op hop'
  · exact (List.forall_iff_forall_mem.mp hostOps1_5_keepsArgs) op hop'
  · exact (List.forall_iff_forall_mem.mp hostOps1_6_keepsArgs) op hop'
  · exact (List.forall_iff_forall_mem.mp hostOps1_7_keepsArgs) op hop'
  · exact (List.forall_iff_forall_mem.mp hostOps1_8_keepsArgs) op hop'
  · exact (List.forall_iff_forall_mem.mp hostOps1_9_keepsArgs) op hop'
  · exact (List.forall_iff_forall_mem.mp hostOps1_10_keepsArgs) op hop'
  · exact (List.forall_iff_forall_mem.mp hostOps1_11_keepsArgs) op hop'
  · exact (List.forall_iff_forall_mem.mp hostOps1_12_keepsArgs) op hop'
  · exact (List.forall_iff_forall_mem.mp hostOps1_13_keepsArgs) op hop'
  · exact (List.forall_iff_forall_mem.mp hostOps1_14_keepsArgs) op hop'
  · exact (List.forall_iff_forall_mem.mp hostOps1_15_keepsArgs) op hop'
  · exact (List.forall_iff_forall_mem.mp hostOps1_16_keepsArgs) op hop'
  · exact (List.forall_iff_forall_mem.mp hostOps1_17_keepsArgs) op hop'
  · exact (List.forall_iff_forall_mem.mp hostOps1_18_keepsArgs) op hop'
  · exact (List.forall_iff_forall_mem.mp hostOps1_19_keepsArgs) op hop'
  · exact (List.forall_iff_forall_mem.mp hostOps1_20_keepsArgs) op hop'
  · exact (List.forall_iff_forall_mem.mp hostOps1_21_keepsArgs) op hop'

theorem argRef_ne_arr : ∀ (k : Fin 6) (w : Fin 14), Pipeline.arrRef spec0 w ≠ argRef k := by decide

/-- Nor do the operations after the grid: each argument ends as launched. -/
theorem W_main_arg (dats : (p : Fin 1) → (c : Dev nD) → Dat τ (Elt F) Unit ℕ (UR sig nD τ) ℕ (cfgs p) c) (c : Dev nD) (k : Fin 6) :
    Pipeline.afterTail₀ cfgs dats 0 (V0 m) tailOps c (argRef k) = m ((c : Thread nD τ).loc (argRef k)) := by
  unfold Pipeline.afterTail₀
  rw [StableHlo.after_of_forall_not_mem (b := Proc.devRef .tc (argRef k)) _ _ (fun op hop => tail_keepsArgs op hop k),
    Pipeline.withArrays_of_ne _ c (V0 m c) _ (argRef k) (argRef_ne_arr k)]
  exact V_main_arg m c k

theorem argRef_rest : ∀ k : Fin 6, argRef k ∈ Pipeline.restRefs sig spec0 := fun k =>
  Pipeline.mem_restRefs_of (argRef k) (by revert k; decide) (by revert k; decide)

/-! ## The frame claim's post from the frame run's -/

/-- No window of the grid stages an argument array itself (each sees a reshaped copy), so every argument is among
    the buffers that bypass the grid, and the run's post gives it at its contents after the last host operation,
    which is its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 _ (argRef_rest 0)).trans (W_main_arg m dats c 0),
    ((h c).2 _ (argRef_rest 1)).trans (W_main_arg m dats c 1),
    ((h c).2 _ (argRef_rest 2)).trans (W_main_arg m dats c 2),
    ((h c).2 _ (argRef_rest 3)).trans (W_main_arg m dats c 3),
    ((h c).2 _ (argRef_rest 4)).trans (W_main_arg m dats c 4),
    ((h c).2 _ (argRef_rest 5)).trans (W_main_arg m dats c 5)⟩) h

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The body resets its accumulators when the second grid coordinate is 0. -/
abbrev cond0_0 (i : grid0.Coords) : Prop := (Scalar.cmpi .ne (Scalar.extui (Scalar.cmpi .eq (BitVec.ofNat 32 (i 1).val) 0#32)) 0#32) = 1#1
/-- That is at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- It reduces them into the result windows when the second grid coordinate is 31. -/
abbrev cond0_1 (i : grid0.Coords) : Prop := k0_cond2 i = 1#1
/-- That is at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel
theorem idleAt0_10_A : ∀ t : Fin cfg0.N, cond0_0 (grid0.coords t) → ¬cond0_1 (grid0.coords t) → cfg0.idle 10 (grid0.coords t) = true := by decide +kernel
theorem noFlush0_10_A : ∀ t : Fin cfg0.N, cond0_0 (grid0.coords t) → ¬cond0_1 (grid0.coords t) → (cfg0.win 10).flush t = false := by decide +kernel
theorem idleAt0_10_B : ∀ t : Fin cfg0.N, ¬cond0_0 (grid0.coords t) → ¬cond0_1 (grid0.coords t) → cfg0.idle 10 (grid0.coords t) = true := by decide +kernel
theorem noFlush0_10_B : ∀ t : Fin cfg0.N, ¬cond0_0 (grid0.coords t) → ¬cond0_1 (grid0.coords t) → (cfg0.win 10).flush t = false := by decide +kernel
theorem liveAt0_10_C : ∀ t : Fin cfg0.N, ¬cond0_0 (grid0.coords t) → cond0_1 (grid0.coords t) → cfg0.idle 10 (grid0.coords t) = false := by decide +kernel
theorem idleAt0_11_A : ∀ t : Fin cfg0.N, cond0_0 (grid0.coords t) → ¬cond0_1 (grid0.coords t) → cfg0.idle 11 (grid0.coords t) = true := by decide +kernel
theorem noFlush0_11_A : ∀ t : Fin cfg0.N, cond0_0 (grid0.coords t) → ¬cond0_1 (grid0.coords t) → (cfg0.win 11).flush t = false := by decide +kernel
theorem idleAt0_11_B : ∀ t : Fin cfg0.N, ¬cond0_0 (grid0.coords t) → ¬cond0_1 (grid0.coords t) → cfg0.idle 11 (grid0.coords t) = true := by decide +kernel
theorem noFlush0_11_B : ∀ t : Fin cfg0.N, ¬cond0_0 (grid0.coords t) → ¬cond0_1 (grid0.coords t) → (cfg0.win 11).flush t = false := by decide +kernel
theorem liveAt0_11_C : ∀ t : Fin cfg0.N, ¬cond0_0 (grid0.coords t) → cond0_1 (grid0.coords t) → cfg0.idle 11 (grid0.coords t) = false := by decide +kernel
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem idleAt0_12_B : ∀ t : Fin cfg0.N, ¬cond0_0 (grid0.coords t) → ¬cond0_1 (grid0.coords t) → cfg0.idle 12 (grid0.coords t) = true := by decide +kernel
theorem noFlush0_12_B : ∀ t : Fin cfg0.N, ¬cond0_0 (grid0.coords t) → ¬cond0_1 (grid0.coords t) → (cfg0.win 12).flush t = false := by decide +kernel
theorem liveAt0_12_C : ∀ t : Fin cfg0.N, ¬cond0_0 (grid0.coords t) → cond0_1 (grid0.coords t) → cfg0.idle 12 (grid0.coords t) = false := by decide +kernel
theorem idleAt0_13_A : ∀ t : Fin cfg0.N, cond0_0 (grid0.coords t) → ¬cond0_1 (grid0.coords t) → cfg0.idle 13 (grid0.coords t) = true := by decide +kernel
theorem noFlush0_13_A : ∀ t : Fin cfg0.N, cond0_0 (grid0.coords t) → ¬cond0_1 (grid0.coords t) → (cfg0.win 13).flush t = false := by decide +kernel
theorem idleAt0_13_B : ∀ t : Fin cfg0.N, ¬cond0_0 (grid0.coords t) → ¬cond0_1 (grid0.coords t) → cfg0.idle 13 (grid0.coords t) = true := by decide +kernel
theorem noFlush0_13_B : ∀ t : Fin cfg0.N, ¬cond0_0 (grid0.coords t) → ¬cond0_1 (grid0.coords t) → (cfg0.win 13).flush t = false := by decide +kernel
theorem liveAt0_13_C : ∀ t : Fin cfg0.N, ¬cond0_0 (grid0.coords t) → cond0_1 (grid0.coords t) → cfg0.idle 13 (grid0.coords t) = false := by decide +kernel

/-! ## The memrefs the body is called with -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view
abbrev VO0_6 : View sig .tc .vmem S8x128 .f32 := (Memref.whole cc0_stg6_0 : Memref sig .tc .vmem S8x128 .f32).view
abbrev VO0_7 : View sig .tc .vmem S8x128 .f32 := (Memref.whole cc0_stg7_0 : Memref sig .tc .vmem S8x128 .f32).view
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view
abbrev VO0_11 : View sig .tc .vmem S8x128 .f32 := (Memref.whole cc0_stg11_0 : Memref sig .tc .vmem S8x128 .f32).view
abbrev VO0_12 : View sig .tc .vmem S8x128 .f32 := (Memref.whole cc0_stg12_0 : Memref sig .tc .vmem S8x128 .f32).view
abbrev VO0_13 : View sig .tc .vmem S8x128 .f32 := (Memref.whole cc0_stg13_0 : Memref sig .tc .vmem S8x128 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev scM0_0 : Memref sig .tc .vmem S8x128 .f32 := Memref.whole cc0_scratch0
abbrev VS0_0 : View sig .tc .vmem S8x128 .f32 := scM0_0.view
abbrev scM0_1 : Memref sig .tc .vmem S8x128 .f32 := Memref.whole cc0_scratch1
abbrev VS0_1 : View sig .tc .vmem S8x128 .f32 := scM0_1.view
abbrev scM0_2 : Memref sig .tc .vmem S8x128 .f32 := Memref.whole cc0_scratch2
abbrev VS0_2 : View sig .tc .vmem S8x128 .f32 := scM0_2.view
abbrev scM0_3 : Memref sig .tc .vmem S8x128 .f32 := Memref.whole cc0_scratch3
abbrev VS0_3 : View sig .tc .vmem S8x128 .f32 := scM0_3.view
abbrev scM0_4 : Memref sig .tc .vmem S8x128 .f32 := Memref.whole cc0_scratch4
abbrev VS0_4 : View sig .tc .vmem S8x128 .f32 := scM0_4.view
abbrev scM0_5 : Memref sig .tc .vmem S8x128 .f32 := Memref.whole cc0_scratch5
abbrev VS0_5 : View sig .tc .vmem S8x128 .f32 := scM0_5.view
abbrev scM0_6 : Memref sig .tc .vmem S8x128 .f32 := Memref.whole cc0_scratch6
abbrev VS0_6 : View sig .tc .vmem S8x128 .f32 := scM0_6.view
abbrev scM0_7 : Memref sig .tc .vmem S8x128 .f32 := Memref.whole cc0_scratch7
abbrev VS0_7 : View sig .tc .vmem S8x128 .f32 := scM0_7.view
abbrev scM0_8 : Memref sig .tc .vmem S8x128 .f32 := Memref.whole cc0_scratch8
abbrev VS0_8 : View sig .tc .vmem S8x128 .f32 := scM0_8.view
abbrev scM0_9 : Memref sig .tc .vmem S8x128 .f32 := Memref.whole cc0_scratch9
abbrev VS0_9 : View sig .tc .vmem S8x128 .f32 := scM0_9.view

/-- The invariant the launch hands the grid, with the ten accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Frame

end
-- ==== Proof.KernelIdeal.RunA.lean ====
/-
  The kernel body run once, at the first point of a core's 32 (the accumulators are reset, then added to; no result window is stored): on whole staging memrefs, the four input blocks at their contents, the body
  runs to its end holding the inputs as they were, each accumulator with the pieces its stores wrote, and each result
  window either untouched or with its one store written. The lists of pieces are found by running the body.
-/
import proofs.«126502_j87754771792112_2_alg».proof.Proof.KernelIdeal.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point of a core's 32 (the accumulators are reset, then added to; no result window is stored). -/
noncomputable def kernelRun0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (xi4 : Vec F S8x128 .f32) (xi5 : Vec F S8x128 .f32) (xi6 : Vec F S8x128 .f32) (xi7 : Vec F S8x128 .f32) (xi8 : Vec F S8x128 .f32) (xi9 : Vec F S8x128 .f32) (xi10 : Vec F S8x128 .f32) (xi11 : Vec F S8x128 .f32) (xi12 : Vec F S8x128 .f32) (xi13 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], [], [], [], [], [], [], [], [], [], ?_, ?_, ?_, ?_, ?_, ?_, ?_, ?_, ?_, ?_, fun xi4 xi5 xi6 xi7 xi8 xi9 xi10 xi11 xi12 xi13 E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Frame

end
-- ==== Proof.KernelIdeal.RunB.lean ====
/-
  The kernel body run once, at a middle point (the accumulators are added to; no result window is stored): on whole staging memrefs, the four input blocks at their contents, the body
  runs to its end holding the inputs as they were, each accumulator with the pieces its stores wrote, and each result
  window either untouched or with its one store written. The lists of pieces are found by running the body.
-/
import proofs.«126502_j87754771792112_2_alg».proof.Proof.KernelIdeal.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point (the accumulators are added to; no result window is stored). -/
noncomputable def kernelRun0_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) (xs8 : Vec F S8x128 .f32) (xs9 : Vec F S8x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (xi4 : Vec F S8x128 .f32) (xi5 : Vec F S8x128 .f32) (xi6 : Vec F S8x128 .f32) (xi7 : Vec F S8x128 .f32) (xi8 : Vec F S8x128 .f32) (xi9 : Vec F S8x128 .f32) (xi10 : Vec F S8x128 .f32) (xi11 : Vec F S8x128 .f32) (xi12 : Vec F S8x128 .f32) (xi13 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6 ∗ owns (c : Thread nD τ) arg23 fullShare xs7 ∗ owns (c : Thread nD τ) arg24 fullShare xs8 ∗ owns (c : Thread nD τ) arg25 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xi10 ∗ owns (c : Thread nD τ) arg13 fullShare xi11 ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], [], [], [], [], [], [], [], [], [], ?_, ?_, ?_, ?_, ?_, ?_, ?_, ?_, ?_, ?_, fun xi4 xi5 xi6 xi7 xi8 xi9 xi10 xi11 xi12 xi13 E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5; obtain rfl := harg22.eq_unread hfs6; obtain rfl := harg23.eq_unread hfs7; obtain rfl := harg24.eq_unread hfs8; obtain rfl := harg25.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Frame

end
-- ==== Proof.KernelIdeal.RunC.lean ====
/-
  The kernel body run once, at the last point of a core's 32 (the accumulators are added to, then each is summed over its 1024 entries into its result window): on whole staging memrefs, the four input blocks at their contents, the body
  runs to its end holding the inputs as they were, each accumulator with the pieces its stores wrote, and each result
  window either untouched or with its one store written. The lists of pieces are found by running the body.
-/
import proofs.«126502_j87754771792112_2_alg».proof.Proof.KernelIdeal.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point of a core's 32 (the accumulators are added to, then each is summed over its 1024 entries into its result window). -/
noncomputable def kernelRun0_C (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (xs0 : Vec F S8x128 .f32) (xs1 : Vec F S8x128 .f32) (xs2 : Vec F S8x128 .f32) (xs3 : Vec F S8x128 .f32) (xs4 : Vec F S8x128 .f32) (xs5 : Vec F S8x128 .f32) (xs6 : Vec F S8x128 .f32) (xs7 : Vec F S8x128 .f32) (xs8 : Vec F S8x128 .f32) (xs9 : Vec F S8x128 .f32) :
    Σ' (L4 : List (View.Piece (Elt F) S8x128 .f32)), Σ' (L5 : List (View.Piece (Elt F) S8x128 .f32)), Σ' (L6 : List (View.Piece (Elt F) S8x128 .f32)), Σ' (L7 : List (View.Piece (Elt F) S8x128 .f32)), Σ' (L8 : List (View.Piece (Elt F) S8x128 .f32)), Σ' (L9 : List (View.Piece (Elt F) S8x128 .f32)), Σ' (L10 : List (View.Piece (Elt F) S8x128 .f32)), Σ' (L11 : List (View.Piece (Elt F) S8x128 .f32)), Σ' (L12 : List (View.Piece (Elt F) S8x128 .f32)), Σ' (L13 : List (View.Piece (Elt F) S8x128 .f32)), Σ' (LS0 : List (View.Piece (Elt F) S8x128 .f32)), Σ' (LS1 : List (View.Piece (Elt F) S8x128 .f32)), Σ' (LS2 : List (View.Piece (Elt F) S8x128 .f32)), Σ' (LS3 : List (View.Piece (Elt F) S8x128 .f32)), Σ' (LS4 : List (View.Piece (Elt F) S8x128 .f32)), Σ' (LS5 : List (View.Piece (Elt F) S8x128 .f32)), Σ' (LS6 : List (View.Piece (Elt F) S8x128 .f32)), Σ' (LS7 : List (View.Piece (Elt F) S8x128 .f32)), Σ' (LS8 : List (View.Piece (Elt F) S8x128 .f32)), { LS9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2 ∗ owns (c : Thread nD τ) arg19 fullShare xs3 ∗ owns (c : Thread nD τ) arg20 fullShare xs4 ∗ owns (c : Thread nD τ) arg21 fullShare xs5 ∗ owns (c : Thread nD τ) arg22 fullShare xs6 ∗ owns (c : Thread nD τ) arg23 fullShare xs7 ∗ owns (c : Thread nD τ) arg24 fullShare xs8 ∗ owns (c : Thread nD τ) arg25 fullShare xs9
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LS3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LS5) ∗ (∃ f, arg22.view.loc (c : Thread nD τ) ↦[arg22.view.set]{fullShare} arg22.view.writes (Elt F) f LS6) ∗ (∃ f, arg23.view.loc (c : Thread nD τ) ↦[arg23.view.set]{fullShare} arg23.view.writes (Elt F) f LS7) ∗ (∃ f, arg24.view.loc (c : Thread nD τ) ↦[arg24.view.set]{fullShare} arg24.view.writes (Elt F) f LS8) ∗ (∃ f, arg25.view.loc (c : Thread nD τ) ↦[arg25.view.set]{fullShare} arg25.view.writes (Elt F) f LS9)) -∗ K ⟨⟩))
          ⊢ wp frame (wpE (defs₀ (F := F)) Variants.none c none) E (cc0__amp_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, ?_, ?_, ?_, ?_, fun E K => ?run⟩
  case run =>
    simp only [cc0__amp_kernel_eq_skeleton]; unfold cc0__amp_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg2.eq_unread hf0; obtain rfl := harg3.eq_unread hf1; obtain rfl := harg4.eq_unread hf2; obtain rfl := harg5.eq_unread hf3; obtain rfl := harg16.eq_unread hfs0; obtain rfl := harg17.eq_unread hfs1; obtain rfl := harg18.eq_unread hfs2; obtain rfl := harg19.eq_unread hfs3; obtain rfl := harg20.eq_unread hfs4; obtain rfl := harg21.eq_unread hfs5; obtain rfl := harg22.eq_unread hfs6; obtain rfl := harg23.eq_unread hfs7; obtain rfl := harg24.eq_unread hfs8; obtain rfl := harg25.eq_unread hfs9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Frame

end
-- ==== Proof.KernelIdeal.Acc.lean ====
/-
  The contents of the ten result windows' staging buffers and of the ten [8, 128] accumulators, as one record.
-/
import proofs.«126502_j87754771792112_2_alg».proof.Proof.KernelIdeal.Kit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the ten result windows' staging buffers and of the ten accumulators. -/
structure Acc (F : FTy → Type) [FloatOps F] where
  o4 : Vec F S8x128 .f32
  o5 : Vec F S8x128 .f32
  o6 : Vec F S8x128 .f32
  o7 : Vec F S8x128 .f32
  o8 : Vec F S8x128 .f32
  o9 : Vec F S8x128 .f32
  o10 : Vec F S8x128 .f32
  o11 : Vec F S8x128 .f32
  o12 : Vec F S8x128 .f32
  o13 : Vec F S8x128 .f32
  s0 : Vec F S8x128 .f32
  s1 : Vec F S8x128 .f32
  s2 : Vec F S8x128 .f32
  s3 : Vec F S8x128 .f32
  s4 : Vec F S8x128 .f32
  s5 : Vec F S8x128 .f32
  s6 : Vec F S8x128 .f32
  s7 : Vec F S8x128 .f32
  s8 : Vec F S8x128 .f32
  s9 : Vec F S8x128 .f32

end Cert.KernelIdeal.Frame

end
-- ==== Proof.KernelIdeal.Data.lean ====
/-
  What the grid's buffers hold point by point. The three cases' contents (each buffer's found pieces read back), the
  accumulation by recursion on the point, the grid's invariant carrying the ten accumulators from point to point, the
  proof data of the launch theorem, and the body's pre- and postcondition at a point.
-/
import proofs.«126502_j87754771792112_2_alg».proof.Proof.KernelIdeal.RunC
import proofs.«126502_j87754771792112_2_alg».proof.Proof.KernelIdeal.Acc

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves: each buffer's pieces read back (a result window the case does not store holds nothing that is
    consulted). -/
def out0_A (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) : Acc F where
  o4 := VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).1)
  o5 := VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.1)
  o6 := VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.1)
  o7 := VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.1)
  o8 := VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.1)
  o9 := VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.1)
  o10 := VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.1)
  o11 := VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.1)
  o12 := VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.1)
  o13 := VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1)
  s3 := VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1)
  s4 := VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1)
  s5 := VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1)
  s6 := VS0_6.read (Elt F) (VS0_6.writes (Elt F) VS0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1)
  s7 := VS0_7.read (Elt F) (VS0_7.writes (Elt F) VS0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1)
  s8 := VS0_8.read (Elt F) (VS0_8.writes (Elt F) VS0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1)
  s9 := VS0_9.read (Elt F) (VS0_9.writes (Elt F) VS0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1)

/-- What case B leaves: each buffer's pieces read back (a result window the case does not store holds nothing that is
    consulted). -/
def out0_B (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) : Acc F where
  o4 := VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1)
  o5 := VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1)
  o6 := VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1)
  o7 := VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1)
  o8 := VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1)
  o9 := VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1)
  o10 := VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1)
  o11 := VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1)
  o12 := VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1)
  o13 := VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1)
  s3 := VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1)
  s4 := VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1)
  s5 := VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1)
  s6 := VS0_6.read (Elt F) (VS0_6.writes (Elt F) VS0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1)
  s7 := VS0_7.read (Elt F) (VS0_7.writes (Elt F) VS0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1)
  s8 := VS0_8.read (Elt F) (VS0_8.writes (Elt F) VS0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1)
  s9 := VS0_9.read (Elt F) (VS0_9.writes (Elt F) VS0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1)

/-- What case C leaves: each buffer's pieces read back (a result window the case does not store holds nothing that is
    consulted). -/
def out0_C (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) : Acc F where
  o4 := VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1)
  o5 := VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1)
  o6 := VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1)
  o7 := VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1)
  o8 := VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1)
  o9 := VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1)
  o10 := VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1)
  o11 := VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1)
  o12 := VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1)
  o13 := VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1)
  s3 := VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1)
  s4 := VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1)
  s5 := VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1)
  s6 := VS0_6.read (Elt F) (VS0_6.writes (Elt F) VS0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1)
  s7 := VS0_7.read (Elt F) (VS0_7.writes (Elt F) VS0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1)
  s8 := VS0_8.read (Elt F) (VS0_8.writes (Elt F) VS0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1)
  s9 := VS0_9.read (Elt F) (VS0_9.writes (Elt F) VS0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1)

/-! ## What the buffers hold after each point -/

/-- THE ACCUMULATION: after the body at position `n`, the case the position is in, run at the point's memrefs and
    input blocks, the accumulators taken (except at a core's first point) at what position `n - 1` left. -/
def outsAt0 (c : Dev nD) : (n : ℕ) → n < cfg0.N → Acc F
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 32 = 0 then
      if h1 : (n + 1) % 32 = 31 then
        False.elim (by omega)
      else
        out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 32 = 31 then
        out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 32 = 0) (h1 : ¬t.val % 32 = 31) :
    outsAt0 m c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The grid's invariant -/

/-- Before position `n`: at the start what the launch hands the grid; afterwards the ten accumulators at what the
    position before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5) ∗ owns (c : Thread nD τ) scM0_6 fullShare ((outsAt0 m c n hn).s6) ∗ owns (c : Thread nD τ) scM0_7 fullShare ((outsAt0 m c n hn).s7) ∗ owns (c : Thread nD τ) scM0_8 fullShare ((outsAt0 m c n hn).s8) ∗ owns (c : Thread nD τ) scM0_9 fullShare ((outsAt0 m c n hn).s9)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5) ∗ owns (c : Thread nD τ) scM0_6 fullShare ((outsAt0 m c (n - 1) (by omega)).s6) ∗ owns (c : Thread nD τ) scM0_7 fullShare ((outsAt0 m c (n - 1) (by omega)).s7) ∗ owns (c : Thread nD τ) scM0_8 fullShare ((outsAt0 m c (n - 1) (by omega)).s8) ∗ owns (c : Thread nD τ) scM0_9 fullShare ((outsAt0 m c (n - 1) (by omega)).s9)) ∗ (∃ r, prngReg c r)) := by
  cases n with
  | zero => exact absurd rfl hz
  | succ n => rfl

/-! ## The grid's proof data -/

/-- On core `c`: the arrays as the grid finds them; after the body at point `t` each input's buffer at its block and each
    result window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
    | ⟨10, _⟩ => (outsAt0 m c t.val t.isLt).o10
    | ⟨11, _⟩ => (outsAt0 m c t.val t.isLt).o11
    | ⟨12, _⟩ => (outsAt0 m c t.val t.isLt).o12
    | ⟨13, _⟩ => (outsAt0 m c t.val t.isLt).o13
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]
theorem after0_10 (c : Dev nD) (t : Fin cfg0.N) : (dats m 0 c).after 10 t = (outsAt0 m c t.val t.isLt).o10 := by dsimp only [dats]
theorem after0_11 (c : Dev nD) (t : Fin cfg0.N) : (dats m 0 c).after 11 t = (outsAt0 m c t.val t.isLt).o11 := by dsimp only [dats]
theorem after0_12 (c : Dev nD) (t : Fin cfg0.N) : (dats m 0 c).after 12 t = (outsAt0 m c t.val t.isLt).o12 := by dsimp only [dats]
theorem after0_13 (c : Dev nD) (t : Fin cfg0.N) : (dats m 0 c).after 13 t = (outsAt0 m c t.val t.isLt).o13 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

end Cert.KernelIdeal.Frame

end
-- ==== Proof.KernelIdeal.CoversA.lean ====
/-
  Case A of the body: the pieces its run found for each buffer tile the buffer, so every index of it lies in one.
-/
import proofs.«126502_j87754771792112_2_alg».proof.Proof.KernelIdeal.RunA
import proofs.«126502_j87754771792112_2_alg».proof.Proof.KernelIdeal.Acc

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for accumulator 0 tile it, so they cover it. -/
theorem scover0_A_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.1 S8x128.size (by sl_kernel_rfl) y

/-- Case A's pieces for accumulator 1 tile it, so they cover it. -/
theorem scover0_A_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.1 S8x128.size (by sl_kernel_rfl) y

/-- Case A's pieces for accumulator 2 tile it, so they cover it. -/
theorem scover0_A_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.1 S8x128.size (by sl_kernel_rfl) y

/-- Case A's pieces for accumulator 3 tile it, so they cover it. -/
theorem scover0_A_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.1 S8x128.size (by sl_kernel_rfl) y

/-- Case A's pieces for accumulator 4 tile it, so they cover it. -/
theorem scover0_A_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.1 S8x128.size (by sl_kernel_rfl) y

/-- Case A's pieces for accumulator 5 tile it, so they cover it. -/
theorem scover0_A_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.1 S8x128.size (by sl_kernel_rfl) y

/-- Case A's pieces for accumulator 6 tile it, so they cover it. -/
theorem scover0_A_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.1 S8x128.size (by sl_kernel_rfl) y

/-- Case A's pieces for accumulator 7 tile it, so they cover it. -/
theorem scover0_A_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.1 S8x128.size (by sl_kernel_rfl) y

/-- Case A's pieces for accumulator 8 tile it, so they cover it. -/
theorem scover0_A_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.1 S8x128.size (by sl_kernel_rfl) y

/-- Case A's pieces for accumulator 9 tile it, so they cover it. -/
theorem scover0_A_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : cond0_0 i) (hc1 : ¬cond0_1 i)
    (x0 : Vec F S2048x128 .f32) (x1 : Vec F S2048x128 .f32) (x2 : Vec F S2048x128 .f32) (x3 : Vec F S2048x128 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3).2.2.2.2.2.2.2.2.2.2.2.2.2.2.2.2.2.2.2.1 S8x128.size (by sl_kernel_rfl) y

end Cert.KernelIdeal.Frame

end
-- ==== Proof.KernelIdeal.BodyA.lean ====
/-
  The body obligation at the first point of a core's 32: the invariant hands the body its accumulators, the case's run applies, and the
  invariant takes the accumulators back at what the run leaves, the pieces covering each buffer.
-/
import proofs.«126502_j87754771792112_2_alg».proof.Proof.KernelIdeal.Data
import proofs.«126502_j87754771792112_2_alg».proof.Proof.KernelIdeal.CoversA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_A (c : Dev nD) (t : Fin cfg0.N) (h0 : t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
  rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
  rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
  rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
  rw [Dat.leavesExact_idle (dats m 0 c) 13 t (idleAt0_13_A t ((hcond0_0 t).mpr h0) (fun h => h1 ((hcond0_1 t).mp h))) (noFlush0_13_A t ((hcond0_0 t).mpr h0) (fun h => h1 ((hcond0_1 t).mp h)))]
  rw [outsAt0_A m c t h0 h1]
  by_cases hz : t.val = 0
  · rw [PhiS_castSucc m c t, PhiS_zero m c _ _ hz, PhiA0_eq]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t)).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; exact View.read_writes_of_cover _ _ VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; exact View.read_writes_of_cover _ _ VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; exact View.read_writes_of_cover _ _ VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; exact View.read_writes_of_cover _ _ VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; exact View.read_writes_of_cover _ _ VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; exact View.read_writes_of_cover _ _ VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS7]
        · unfold owns; iexists _; isplitr
          swap; · iexact HS7
          ipureintro; exact View.read_writes_of_cover _ _ VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS8]
        · unfold owns; iexists _; isplitr
          swap; · iexact HS8
          ipureintro; exact View.read_writes_of_cover _ _ VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS9
        ipureintro; exact View.read_writes_of_cover _ _ VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t)).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS1]
        · unfold owns; iexists _; isplitr
          swap; · iexact HS1
          ipureintro; exact View.read_writes_of_cover _ _ VS0_1 VS0_1.junk _ (scover0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS2]
        · unfold owns; iexists _; isplitr
          swap; · iexact HS2
          ipureintro; exact View.read_writes_of_cover _ _ VS0_2 VS0_2.junk _ (scover0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS3]
        · unfold owns; iexists _; isplitr
          swap; · iexact HS3
          ipureintro; exact View.read_writes_of_cover _ _ VS0_3 VS0_3.junk _ (scover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS4]
        · unfold owns; iexists _; isplitr
          swap; · iexact HS4
          ipureintro; exact View.read_writes_of_cover _ _ VS0_4 VS0_4.junk _ (scover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS5]
        · unfold owns; iexists _; isplitr
          swap; · iexact HS5
          ipureintro; exact View.read_writes_of_cover _ _ VS0_5 VS0_5.junk _ (scover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS6]
        · unfold owns; iexists _; isplitr
          swap; · iexact HS6
          ipureintro; exact View.read_writes_of_cover _ _ VS0_6 VS0_6.junk _ (scover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS7]
        · unfold owns; iexists _; isplitr
          swap; · iexact HS7
          ipureintro; exact View.read_writes_of_cover _ _ VS0_7 VS0_7.junk _ (scover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        isplitl [HS8]
        · unfold owns; iexists _; isplitr
          swap; · iexact HS8
          ipureintro; exact View.read_writes_of_cover _ _ VS0_8 VS0_8.junk _ (scover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
        unfold owns; iexists _; isplitr
        swap; · iexact HS9
        ipureintro; exact View.read_writes_of_cover _ _ VS0_9 VS0_9.junk _ (scover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (iblk m c 0 t) (iblk m c 1 t) (iblk m c 2 t) (iblk m c 3 t))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Frame

end
-- ==== Proof.KernelIdeal.CoversB.lean ====
/-
  Case B of the body: the pieces its run found for each buffer tile the buffer, so every index of it lies in one.
-/
import proofs.«126502_j87754771792112_2_alg».proof.Proof.KernelIdeal.RunB
import proofs.«126502_j87754771792112_2_alg».proof.Proof.KernelIdeal.Acc

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case B's pieces for accumulator 0 tile it, so they cover it. -/
theorem scover0_B_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1 S8x128.size (by sl_kernel_rfl) y

/-- Case B's pieces for accumulator 1 tile it, so they cover it. -/
theorem scover0_B_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1 S8x128.size (by sl_kernel_rfl) y

/-- Case B's pieces for accumulator 2 tile it, so they cover it. -/
theorem scover0_B_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1 S8x128.size (by sl_kernel_rfl) y

/-- Case B's pieces for accumulator 3 tile it, so they cover it. -/
theorem scover0_B_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1 S8x128.size (by sl_kernel_rfl) y

/-- Case B's pieces for accumulator 4 tile it, so they cover it. -/
theorem scover0_B_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1 S8x128.size (by sl_kernel_rfl) y

/-- Case B's pieces for accumulator 5 tile it, so they cover it. -/
theorem scover0_B_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1 S8x128.size (by sl_kernel_rfl) y

/-- Case B's pieces for accumulator 6 tile it, so they cover it. -/
theorem scover0_B_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1 S8x128.size (by sl_kernel_rfl) y

/-- Case B's pieces for accumulator 7 tile it, so they cover it. -/
theorem scover0_B_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1 S8x128.size (by sl_kernel_rfl) y

/-- Case B's pieces for accumulator 8 tile it, so they cover it. -/
theorem scover0_B_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1 S8x128.size (by sl_kernel_rfl) y

/-- Case B's pieces for accumulator 9 tile it, so they cover it. -/
theorem scover0_B_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : ¬cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1 S8x128.size (by sl_kernel_rfl) y

end Cert.KernelIdeal.Frame

end
-- ==== Proof.KernelIdeal.BodyB.lean ====
/-
  The body obligation at a middle point: the invariant hands the body its accumulators, the case's run applies, and the
  invariant takes the accumulators back at what the run leaves, the pieces covering each buffer.
-/
import proofs.«126502_j87754771792112_2_alg».proof.Proof.KernelIdeal.Data
import proofs.«126502_j87754771792112_2_alg».proof.Proof.KernelIdeal.CoversB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_B (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
  rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
  rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
  rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
  rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
  rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
  rw [outsAt0_B m c t h0 h1]
  by_cases hz : t.val = 0
  · exfalso; omega
  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 (outsAt0 m c (t.val - 1) (Nat.lt_of_le_of_lt (Nat.sub_le _ _) t.isLt)).s8 (outsAt0 m c (t.val - 1) (Nat.lt_of_le_of_lt (Nat.sub_le _ _) t.isLt)).s9).2.2.2.2.2.2.2.2.2.2.2.2.2.2.2.2.2.2.2.2 _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, H4, H5, H6, H7, H8, H9, H10, H11, H12, H13, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS1]
        · unfold owns; iexists _; isplitr
          swap; · iexact HS1
          ipureintro; exact View.read_writes_of_cover _ _ VS0_1 VS0_1.junk _ (scover0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS2]
        · unfold owns; iexists _; isplitr
          swap; · iexact HS2
          ipureintro; exact View.read_writes_of_cover _ _ VS0_2 VS0_2.junk _ (scover0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS3]
        · unfold owns; iexists _; isplitr
          swap; · iexact HS3
          ipureintro; exact View.read_writes_of_cover _ _ VS0_3 VS0_3.junk _ (scover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS4]
        · unfold owns; iexists _; isplitr
          swap; · iexact HS4
          ipureintro; exact View.read_writes_of_cover _ _ VS0_4 VS0_4.junk _ (scover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS5]
        · unfold owns; iexists _; isplitr
          swap; · iexact HS5
          ipureintro; exact View.read_writes_of_cover _ _ VS0_5 VS0_5.junk _ (scover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS6]
        · unfold owns; iexists _; isplitr
          swap; · iexact HS6
          ipureintro; exact View.read_writes_of_cover _ _ VS0_6 VS0_6.junk _ (scover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS7]
        · unfold owns; iexists _; isplitr
          swap; · iexact HS7
          ipureintro; exact View.read_writes_of_cover _ _ VS0_7 VS0_7.junk _ (scover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        isplitl [HS8]
        · unfold owns; iexists _; isplitr
          swap; · iexact HS8
          ipureintro; exact View.read_writes_of_cover _ _ VS0_8 VS0_8.junk _ (scover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
        unfold owns; iexists _; isplitr
        swap; · iexact HS9
        ipureintro; exact View.read_writes_of_cover _ _ VS0_9 VS0_9.junk _ (scover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Frame

end
-- ==== Proof.KernelIdeal.CoversC.lean ====
/-
  Case C of the body: the pieces its run found for each buffer tile the buffer, so every index of it lies in one.
-/
import proofs.«126502_j87754771792112_2_alg».proof.Proof.KernelIdeal.RunC
import proofs.«126502_j87754771792112_2_alg».proof.Proof.KernelIdeal.Acc

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case C's pieces for accumulator 0 tile it, so they cover it. -/
theorem scover0_C_0 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.1 S8x128.size (by sl_kernel_rfl) y

/-- Case C's pieces for accumulator 1 tile it, so they cover it. -/
theorem scover0_C_1 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.1 S8x128.size (by sl_kernel_rfl) y

/-- Case C's pieces for accumulator 2 tile it, so they cover it. -/
theorem scover0_C_2 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.1 S8x128.size (by sl_kernel_rfl) y

/-- Case C's pieces for accumulator 3 tile it, so they cover it. -/
theorem scover0_C_3 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.1 S8x128.size (by sl_kernel_rfl) y

/-- Case C's pieces for accumulator 4 tile it, so they cover it. -/
theorem scover0_C_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.1 S8x128.size (by sl_kernel_rfl) y

/-- Case C's pieces for accumulator 5 tile it, so they cover it. -/
theorem scover0_C_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.1 S8x128.size (by sl_kernel_rfl) y

/-- Case C's pieces for accumulator 6 tile it, so they cover it. -/
theorem scover0_C_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.1 S8x128.size (by sl_kernel_rfl) y

/-- Case C's pieces for accumulator 7 tile it, so they cover it. -/
theorem scover0_C_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.1 S8x128.size (by sl_kernel_rfl) y

/-- Case C's pieces for accumulator 8 tile it, so they cover it. -/
theorem scover0_C_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.1 S8x128.size (by sl_kernel_rfl) y

/-- Case C's pieces for accumulator 9 tile it, so they cover it. -/
theorem scover0_C_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.2.2.2.2.2.2.2.2.2.2.1 S8x128.size (by sl_kernel_rfl) y

/-- Case C's one store into result window 4 covers its block. -/
theorem cover0_C_4 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).1 S8x128.size (by sl_kernel_rfl) y

/-- Case C's one store into result window 5 covers its block. -/
theorem cover0_C_5 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.1 S8x128.size (by sl_kernel_rfl) y

/-- Case C's one store into result window 6 covers its block. -/
theorem cover0_C_6 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.1 S8x128.size (by sl_kernel_rfl) y

/-- Case C's one store into result window 7 covers its block. -/
theorem cover0_C_7 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.1 S8x128.size (by sl_kernel_rfl) y

/-- Case C's one store into result window 8 covers its block. -/
theorem cover0_C_8 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.1 S8x128.size (by sl_kernel_rfl) y

/-- Case C's one store into result window 9 covers its block. -/
theorem cover0_C_9 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.1 S8x128.size (by sl_kernel_rfl) y

/-- Case C's one store into result window 10 covers its block. -/
theorem cover0_C_10 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.1 S8x128.size (by sl_kernel_rfl) y

/-- Case C's one store into result window 11 covers its block. -/
theorem cover0_C_11 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.1 S8x128.size (by sl_kernel_rfl) y

/-- Case C's one store into result window 12 covers its block. -/
theorem cover0_C_12 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.1 S8x128.size (by sl_kernel_rfl) y

/-- Case C's one store into result window 13 covers its block. -/
theorem cover0_C_13 (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole) (hc0 : ¬cond0_0 i) (hc1 : cond0_1 i)
    (x0 : Vec F S2048x128 .f32) (x1 : Vec F S2048x128 .f32) (x2 : Vec F S2048x128 .f32) (x3 : Vec F S2048x128 .f32) (p : Acc F) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p.s0 p.s1 p.s2 p.s3 p.s4 p.s5 p.s6 p.s7 p.s8 p.s9).2.2.2.2.2.2.2.2.2.1 S8x128.size (by sl_kernel_rfl) y

end Cert.KernelIdeal.Frame

end
-- ==== Proof.KernelIdeal.BodyC.lean ====
/-
  The body obligation at the last point of a core's 32: the invariant hands the body its accumulators, the case's run applies, and the
  invariant takes the accumulators back at what the run leaves, the pieces covering each buffer.
-/
import proofs.«126502_j87754771792112_2_alg».proof.Proof.KernelIdeal.Data
import proofs.«126502_j87754771792112_2_alg».proof.Proof.KernelIdeal.CoversC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
theorem sound_body_C (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4_C t (fun h => h0 ((hcond0_0 t).mp h)) ((hcond0_1 t).mpr h1)], after0_4]
  rw [show (dats m 0 c).leavesExact 5 t = owns (c : Thread nD τ) (ms0_5 t) fullShare ((dats m 0 c).after 5 t) from by
    unfold Dat.leavesExact; rw [liveAt0_5_C t (fun h => h0 ((hcond0_0 t).mp h)) ((hcond0_1 t).mpr h1)], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8]
  rw [show (dats m 0 c).leavesExact 9 t = owns (c : Thread nD τ) (ms0_9 t) fullShare ((dats m 0 c).after 9 t) from by
    unfold Dat.leavesExact; rw [liveAt0_9_C t (fun h => h0 ((hcond0_0 t).mp h)) ((hcond0_1 t).mpr h1)], after0_9]
  rw [show (dats m 0 c).leavesExact 10 t = owns (c : Thread nD τ) (ms0_10 t) fullShare ((dats m 0 c).after 10 t) from by
    unfold Dat.leavesExact; rw [liveAt0_10_C t (fun h => h0 ((hcond0_0 t).mp h)) ((hcond0_1 t).mpr h1)], after0_10]
  rw [show (dats m 0 c).leavesExact 11 t = owns (c : Thread nD τ) (ms0_11 t) fullShare ((dats m 0 c).after 11 t) from by
    unfold Dat.leavesExact; rw [liveAt0_11_C t (fun h => h0 ((hcond0_0 t).mp h)) ((hcond0_1 t).mpr h1)], after0_11]
  rw [show (dats m 0 c).leavesExact 12 t = owns (c : Thread nD τ) (ms0_12 t) fullShare ((dats m 0 c).after 12 t) from by
    unfold Dat.leavesExact; rw [liveAt0_12_C t (fun h => h0 ((hcond0_0 t).mp h)) ((hcond0_1 t).mpr h1)], after0_12]
  rw [show (dats m 0 c).leavesExact 13 t = owns (c : Thread nD τ) (ms0_13 t) fullShare ((dats m 0 c).after 13 t) from by
    unfold Dat.leavesExact; rw [liveAt0_13_C t (fun h => h0 ((hcond0_0 t).mp h)) ((hcond0_1 t).mpr h1)], after0_13]
  rw [outsAt0_C m c t h0 h1]
  by_cases hz : t.val = 0
  · exfalso; omega
  · rw [PhiS_castSucc m c t, PhiS_pos m c _ _ hz]
    iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 (outsAt0 m c (t.val - 1) (Nat.lt_of_le_of_lt (Nat.sub_le _ _) t.isLt)).s6 (outsAt0 m c (t.val - 1) (Nat.lt_of_le_of_lt (Nat.sub_le _ _) t.isLt)).s7 (outsAt0 m c (t.val - 1) (Nat.lt_of_le_of_lt (Nat.sub_le _ _) t.isLt)).s8 (outsAt0 m c (t.val - 1) (Nat.lt_of_le_of_lt (Nat.sub_le _ _) t.isLt)).s9).2.2.2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
    isplitl [HS0 HS1 HS2 HS3 HS4 HS5 HS6 HS7 HS8 HS9 Hg]
    · isplitl [HS0 HS1 HS2 HS3 HS4 HS5 HS6 HS7 HS8 HS9]
      · isplitl [HS0]
        · unfold owns; iexists _; isplitr
          swap; · iexact HS0
          ipureintro; exact View.read_writes_of_cover _ _ VS0_0 VS0_0.junk _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS1]
        · unfold owns; iexists _; isplitr
          swap; · iexact HS1
          ipureintro; exact View.read_writes_of_cover _ _ VS0_1 VS0_1.junk _ (scover0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS2]
        · unfold owns; iexists _; isplitr
          swap; · iexact HS2
          ipureintro; exact View.read_writes_of_cover _ _ VS0_2 VS0_2.junk _ (scover0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS3]
        · unfold owns; iexists _; isplitr
          swap; · iexact HS3
          ipureintro; exact View.read_writes_of_cover _ _ VS0_3 VS0_3.junk _ (scover0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS4]
        · unfold owns; iexists _; isplitr
          swap; · iexact HS4
          ipureintro; exact View.read_writes_of_cover _ _ VS0_4 VS0_4.junk _ (scover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS5]
        · unfold owns; iexists _; isplitr
          swap; · iexact HS5
          ipureintro; exact View.read_writes_of_cover _ _ VS0_5 VS0_5.junk _ (scover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS6]
        · unfold owns; iexists _; isplitr
          swap; · iexact HS6
          ipureintro; exact View.read_writes_of_cover _ _ VS0_6 VS0_6.junk _ (scover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS7]
        · unfold owns; iexists _; isplitr
          swap; · iexact HS7
          ipureintro; exact View.read_writes_of_cover _ _ VS0_7 VS0_7.junk _ (scover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        isplitl [HS8]
        · unfold owns; iexists _; isplitr
          swap; · iexact HS8
          ipureintro; exact View.read_writes_of_cover _ _ VS0_8 VS0_8.junk _ (scover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
        unfold owns; iexists _; isplitr
        swap; · iexact HS9
        ipureintro; exact View.read_writes_of_cover _ _ VS0_9 VS0_9.junk _ (scover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H5]
    · unfold owns; iexists _; isplitr
      swap; · iexact H5
      ipureintro; exact View.read_writes_of_cover _ _ VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H6]
    · unfold owns; iexists _; isplitr
      swap; · iexact H6
      ipureintro; exact View.read_writes_of_cover _ _ VO0_6 VO0_6.junk _ (cover0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H7]
    · unfold owns; iexists _; isplitr
      swap; · iexact H7
      ipureintro; exact View.read_writes_of_cover _ _ VO0_7 VO0_7.junk _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H8]
    · unfold owns; iexists _; isplitr
      swap; · iexact H8
      ipureintro; exact View.read_writes_of_cover _ _ VO0_8 VO0_8.junk _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H9]
    · unfold owns; iexists _; isplitr
      swap; · iexact H9
      ipureintro; exact View.read_writes_of_cover _ _ VO0_9 VO0_9.junk _ (cover0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H10]
    · unfold owns; iexists _; isplitr
      swap; · iexact H10
      ipureintro; exact View.read_writes_of_cover _ _ VO0_10 VO0_10.junk _ (cover0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H11]
    · unfold owns; iexists _; isplitr
      swap; · iexact H11
      ipureintro; exact View.read_writes_of_cover _ _ VO0_11 VO0_11.junk _ (cover0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    isplitl [H12]
    · unfold owns; iexists _; isplitr
      swap; · iexact H12
      ipureintro; exact View.read_writes_of_cover _ _ VO0_12 VO0_12.junk _ (cover0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))
    unfold owns; iexists _; isplitr
    swap; · iexact H13
    ipureintro; exact View.read_writes_of_cover _ _ VO0_13 VO0_13.junk _ (cover0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)))

end Cert.KernelIdeal.Frame

end
-- ==== Proof.KernelIdeal.FrameS.lean ====
/-
  The frame of this program: it runs to the end, faults nowhere, and leaves its six argument arrays as launched. A point
  of the grid is the first, a middle or the last point of its core's 32; each case's body obligation is proved beside
  its run; together they are the obligation of the launch theorem for a grid between host operations, which gives the
  run; the arguments, which no window stages and no host operation writes, end unchanged.
-/
import proofs.«126502_j87754771792112_2_alg».proof.Proof.KernelIdeal.BodyA
import proofs.«126502_j87754771792112_2_alg».proof.Proof.KernelIdeal.BodyB
import proofs.«126502_j87754771792112_2_alg».proof.Proof.KernelIdeal.BodyC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: by the point's position among its core's 32. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 32 = 0
  · exact sound_body_A m c t h0 (by omega)
  · by_cases h1 : t.val % 32 = 31
    · exact sound_body_C m c t h0 h1
    · exact sound_body_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates, every array of the grid ends at what the proof data computes
    and every other unscoped buffer as the host operations after the grid leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs and its six argument arrays end as launched, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Frame

end
-- ==== Proof.KernelIdeal.Arrays.lean ====
/-
  The ten result arrays when the grid has run.

  Each result array has 16 rows of 128 lanes: rows 0..7 are core 0's block, rows 8..15 core 1's. A core writes its block
  back once, at the last of its 32 points (points 31 and 63 of the 64), and what it writes is what the body left in the
  window there. The two blocks tile the array, so the array ends as the two last results stacked; the host then reads
  row 0 and row 8 of lane 0.
-/
import proofs.«126502_j87754771792112_2_alg».proof.Proof.KernelIdeal.Data
import Idealize.ShloMosaic.Lib.Pipeline.Value
import Idealize.ShloMosaic.Lib.ValueIdx

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.ValueIdx
open Idealize.SL Idealize.SL.Sem Idealize.ShloMosaic.StableHlo

open Idealize.ShloMosaic.Pipeline (Dat Cfg Window)

theorem lt31 : 31 < cfg0.N := by rw [show cfg0.N = 64 from N_0]; decide
theorem lt63 : 63 < cfg0.N := by rw [show cfg0.N = 64 from N_0]; decide

/-- Two blocks of 8 rows stacked into an array of 16 rows. -/
def stack2 (lo hi : S8x128.Idx → EReal) : S16x128.Idx → EReal := fun i =>
  if h : (i 0).val < 8 then lo (ix2 ⟨(i 0).val, h⟩ ⟨(i 1).val, (i 1).isLt⟩)
  else hi (ix2 ⟨(i 0).val - 8, by have h16 : (i 0).val < 16 := (i 0).isLt; omega⟩ ⟨(i 1).val, (i 1).isLt⟩)

theorem stack2_lo (lo hi : S8x128.Idx → EReal) (p : Fin 8) (q : Fin 128) :
    stack2 lo hi (ix2 (⟨0 * 8 + p.val, by omega⟩ : Fin 16) q) = lo (ix2 p q) := by
  unfold stack2
  have h : ((ix2 (⟨0 * 8 + p.val, by omega⟩ : Fin 16) q : S16x128.Idx) 0).val < 8 := by show 0 * 8 + p.val < 8; omega
  rw [dif_pos h]
  exact congrArg lo (by funext a; apply Fin.ext; match a with | ⟨0, _⟩ => show 0 * 8 + p.val = p.val; omega | ⟨1, _⟩ => rfl)

theorem stack2_hi (lo hi : S8x128.Idx → EReal) (p : Fin 8) (q : Fin 128) :
    stack2 lo hi (ix2 (⟨1 * 8 + p.val, by omega⟩ : Fin 16) q) = hi (ix2 p q) := by
  unfold stack2
  have h : ¬ ((ix2 (⟨1 * 8 + p.val, by omega⟩ : Fin 16) q : S16x128.Idx) 0).val < 8 := by show ¬ (1 * 8 + p.val < 8); omega
  rw [dif_neg h]
  exact congrArg hi (by funext a; apply Fin.ext; match a with | ⟨0, _⟩ => show 1 * 8 + p.val - 8 = p.val; omega | ⟨1, _⟩ => rfl)

theorem core_last_lt (cc : Fin 2) : 32 * cc.val + 31 < cfg0.N := by rw [show cfg0.N = 64 from N_0]; omega

/-- Row `8 cc`, lane 0 of the stacked array is entry (0, 0) of core `cc`'s block. -/
theorem stack2_core (o : (n : ℕ) → n < cfg0.N → Vec Ideal S8x128 .f32) (cc : Fin 2) :
    stack2 (o 31 lt31) (o 63 lt63) (ix2 (⟨8 * cc.val, by omega⟩ : Fin 16) (0 : Fin 128))
      = o (32 * cc.val + 31) (core_last_lt cc) (ix2 (0 : Fin 8) (0 : Fin 128)) := by
  match cc with
  | ⟨0, _⟩ => exact stack2_lo (o 31 lt31) (o 63 lt63) 0 0
  | ⟨1, _⟩ => exact stack2_hi (o 31 lt31) (o 63 lt63) 0 0

/-- Row 0, lane 0 of the stacked array is entry (0, 0) of the lower block; row 8, lane 0 that of the upper block. -/
theorem stack2_row0 (lo hi : S8x128.Idx → EReal) :
    stack2 lo hi (ix2 (0 : Fin 16) (0 : Fin 128)) = lo (ix2 (0 : Fin 8) (0 : Fin 128)) := stack2_lo lo hi 0 0
theorem stack2_row8 (lo hi : S8x128.Idx → EReal) :
    stack2 lo hi (ix2 (8 : Fin 16) (0 : Fin 128)) = hi (ix2 (0 : Fin 8) (0 : Fin 128)) := stack2_hi lo hi 0 0

/-! ## Result window 4 -/

/-- Result window 4's block index at point `t` is `(t / 32, 0)`: one block of 8 rows per core. -/
theorem index_out4 : ∀ t : Fin cfg0.N, win0_4.index t (0 : Fin 2) = t.val / 32 ∧ win0_4.index t (1 : Fin 2) = 0 :=
  (by decide +kernel : ∀ t : Fin grid0.N, _)

/-- An index of the array is in point `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v5_0).slice (win0_4.rect t)).set ↔ _
  rw [View.set_slice_whole, Rect.mem_set_unit]
  exact Iff.rfl

/-- What a writing point writes back is its block of the two last results stacked. -/
theorem flushed4_of {c : Dev nD} (dat : Dat τ (Elt Ideal) Unit ℕ (UR sig nD τ) ℕ cfg0 c)
    (o : (n : ℕ) → n < cfg0.N → Vec Ideal S8x128 .f32) (hafter : ∀ t : Fin cfg0.N, dat.after 4 t = o t.val t.isLt)
    (t : Fin cfg0.N) (hf : (cfg0.win 4).flush t = true) :
    dat.flushed 4 t = ((cfg0.win 4).blk t).view.read (Elt Ideal) (stack2 (o 31 lt31) (o 63 lt63)) := by
  have h31 : t.val % 32 = 31 := (flush0_4 t).mp hf
  have hN : t.val < 64 := t.isLt
  obtain ⟨e0, e1⟩ := index_out4 t
  show (cfg0.win 4).cut (grid0.coords t) (dat.after 4 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 4).blk t).view.emb (ix2 p q))
  have hemb : ((cfg0.win 4).blk t).view.emb (ix2 p q) = ix2 (⟨t.val / 32 * 8 + p.val, by omega⟩ : Fin 16) q := by
    funext a; apply Fin.ext
    match a with
    | ⟨0, _⟩ => show win0_4.index t (0 : Fin 2) * 8 + 1 * p.val = t.val / 32 * 8 + p.val; rw [e0]; omega
    | ⟨1, _⟩ => show win0_4.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr4_of {c : Dev nD} (dat : Dat τ (Elt Ideal) Unit ℕ (UR sig nD τ) ℕ cfg0 c)
    (o : (n : ℕ) → n < cfg0.N → Vec Ideal S8x128 .f32) (hafter : ∀ t : Fin cfg0.N, dat.after 4 t = o t.val t.isLt) :
    (dat.arrAt 4 cfg0.N : S16x128.Idx → EReal) = stack2 (o 31 lt31) (o 63 lt63) :=
  dat.arrAt_eq_of_cover 4 (stack2 (o 31 lt31) (o 63 lt63)) (flushed4_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_4 _).mpr (by show (32 * ((i 0).val / 8) + 31) % 32 = 31; omega), ?_⟩
    rw [mem_blk4]
    obtain ⟨e0, e1⟩ := index_out4 ⟨32 * ((i 0).val / 8) + 31, by rw [show cfg0.N = 64 from N_0]; omega⟩
    intro a
    match a with
    | ⟨0, _⟩ => show win0_4.index _ (0 : Fin 2) * 8 ≤ (i 0).val ∧ (i 0).val < win0_4.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_4.index _ (1 : Fin 2) * 128 ≤ (i 1).val ∧ (i 1).val < win0_4.index _ (1 : Fin 2) * 128 + 128; rw [e1]; omega

/-! ## Result window 5 -/

/-- Result window 5's block index at point `t` is `(t / 32, 0)`: one block of 8 rows per core. -/
theorem index_out5 : ∀ t : Fin cfg0.N, win0_5.index t (0 : Fin 2) = t.val / 32 ∧ win0_5.index t (1 : Fin 2) = 0 :=
  (by decide +kernel : ∀ t : Fin grid0.N, _)

/-- An index of the array is in point `t`'s block iff each coordinate is in the block's range on its axis. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v5_1).slice (win0_5.rect t)).set ↔ _
  rw [View.set_slice_whole, Rect.mem_set_unit]
  exact Iff.rfl

/-- What a writing point writes back is its block of the two last results stacked. -/
theorem flushed5_of {c : Dev nD} (dat : Dat τ (Elt Ideal) Unit ℕ (UR sig nD τ) ℕ cfg0 c)
    (o : (n : ℕ) → n < cfg0.N → Vec Ideal S8x128 .f32) (hafter : ∀ t : Fin cfg0.N, dat.after 5 t = o t.val t.isLt)
    (t : Fin cfg0.N) (hf : (cfg0.win 5).flush t = true) :
    dat.flushed 5 t = ((cfg0.win 5).blk t).view.read (Elt Ideal) (stack2 (o 31 lt31) (o 63 lt63)) := by
  have h31 : t.val % 32 = 31 := (flush0_5 t).mp hf
  have hN : t.val < 64 := t.isLt
  obtain ⟨e0, e1⟩ := index_out5 t
  show (cfg0.win 5).cut (grid0.coords t) (dat.after 5 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 5).blk t).view.emb (ix2 p q))
  have hemb : ((cfg0.win 5).blk t).view.emb (ix2 p q) = ix2 (⟨t.val / 32 * 8 + p.val, by omega⟩ : Fin 16) q := by
    funext a; apply Fin.ext
    match a with
    | ⟨0, _⟩ => show win0_5.index t (0 : Fin 2) * 8 + 1 * p.val = t.val / 32 * 8 + p.val; rw [e0]; omega
    | ⟨1, _⟩ => show win0_5.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr5_of {c : Dev nD} (dat : Dat τ (Elt Ideal) Unit ℕ (UR sig nD τ) ℕ cfg0 c)
    (o : (n : ℕ) → n < cfg0.N → Vec Ideal S8x128 .f32) (hafter : ∀ t : Fin cfg0.N, dat.after 5 t = o t.val t.isLt) :
    (dat.arrAt 5 cfg0.N : S16x128.Idx → EReal) = stack2 (o 31 lt31) (o 63 lt63) :=
  dat.arrAt_eq_of_cover 5 (stack2 (o 31 lt31) (o 63 lt63)) (flushed5_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_5 _).mpr (by show (32 * ((i 0).val / 8) + 31) % 32 = 31; omega), ?_⟩
    rw [mem_blk5]
    obtain ⟨e0, e1⟩ := index_out5 ⟨32 * ((i 0).val / 8) + 31, by rw [show cfg0.N = 64 from N_0]; omega⟩
    intro a
    match a with
    | ⟨0, _⟩ => show win0_5.index _ (0 : Fin 2) * 8 ≤ (i 0).val ∧ (i 0).val < win0_5.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_5.index _ (1 : Fin 2) * 128 ≤ (i 1).val ∧ (i 1).val < win0_5.index _ (1 : Fin 2) * 128 + 128; rw [e1]; omega

/-! ## Result window 6 -/

/-- Result window 6's block index at point `t` is `(t / 32, 0)`: one block of 8 rows per core. -/
theorem index_out6 : ∀ t : Fin cfg0.N, win0_6.index t (0 : Fin 2) = t.val / 32 ∧ win0_6.index t (1 : Fin 2) = 0 :=
  (by decide +kernel : ∀ t : Fin grid0.N, _)

/-- An index of the array is in point `t`'s block iff each coordinate is in the block's range on its axis. -/
theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v5_2).slice (win0_6.rect t)).set ↔ _
  rw [View.set_slice_whole, Rect.mem_set_unit]
  exact Iff.rfl

/-- What a writing point writes back is its block of the two last results stacked. -/
theorem flushed6_of {c : Dev nD} (dat : Dat τ (Elt Ideal) Unit ℕ (UR sig nD τ) ℕ cfg0 c)
    (o : (n : ℕ) → n < cfg0.N → Vec Ideal S8x128 .f32) (hafter : ∀ t : Fin cfg0.N, dat.after 6 t = o t.val t.isLt)
    (t : Fin cfg0.N) (hf : (cfg0.win 6).flush t = true) :
    dat.flushed 6 t = ((cfg0.win 6).blk t).view.read (Elt Ideal) (stack2 (o 31 lt31) (o 63 lt63)) := by
  have h31 : t.val % 32 = 31 := (flush0_6 t).mp hf
  have hN : t.val < 64 := t.isLt
  obtain ⟨e0, e1⟩ := index_out6 t
  show (cfg0.win 6).cut (grid0.coords t) (dat.after 6 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 6).blk t).view.emb (ix2 p q))
  have hemb : ((cfg0.win 6).blk t).view.emb (ix2 p q) = ix2 (⟨t.val / 32 * 8 + p.val, by omega⟩ : Fin 16) q := by
    funext a; apply Fin.ext
    match a with
    | ⟨0, _⟩ => show win0_6.index t (0 : Fin 2) * 8 + 1 * p.val = t.val / 32 * 8 + p.val; rw [e0]; omega
    | ⟨1, _⟩ => show win0_6.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr6_of {c : Dev nD} (dat : Dat τ (Elt Ideal) Unit ℕ (UR sig nD τ) ℕ cfg0 c)
    (o : (n : ℕ) → n < cfg0.N → Vec Ideal S8x128 .f32) (hafter : ∀ t : Fin cfg0.N, dat.after 6 t = o t.val t.isLt) :
    (dat.arrAt 6 cfg0.N : S16x128.Idx → EReal) = stack2 (o 31 lt31) (o 63 lt63) :=
  dat.arrAt_eq_of_cover 6 (stack2 (o 31 lt31) (o 63 lt63)) (flushed6_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_6 _).mpr (by show (32 * ((i 0).val / 8) + 31) % 32 = 31; omega), ?_⟩
    rw [mem_blk6]
    obtain ⟨e0, e1⟩ := index_out6 ⟨32 * ((i 0).val / 8) + 31, by rw [show cfg0.N = 64 from N_0]; omega⟩
    intro a
    match a with
    | ⟨0, _⟩ => show win0_6.index _ (0 : Fin 2) * 8 ≤ (i 0).val ∧ (i 0).val < win0_6.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_6.index _ (1 : Fin 2) * 128 ≤ (i 1).val ∧ (i 1).val < win0_6.index _ (1 : Fin 2) * 128 + 128; rw [e1]; omega

/-! ## Result window 7 -/

/-- Result window 7's block index at point `t` is `(t / 32, 0)`: one block of 8 rows per core. -/
theorem index_out7 : ∀ t : Fin cfg0.N, win0_7.index t (0 : Fin 2) = t.val / 32 ∧ win0_7.index t (1 : Fin 2) = 0 :=
  (by decide +kernel : ∀ t : Fin grid0.N, _)

/-- An index of the array is in point `t`'s block iff each coordinate is in the block's range on its axis. -/
theorem mem_blk7 (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v5_3).slice (win0_7.rect t)).set ↔ _
  rw [View.set_slice_whole, Rect.mem_set_unit]
  exact Iff.rfl

/-- What a writing point writes back is its block of the two last results stacked. -/
theorem flushed7_of {c : Dev nD} (dat : Dat τ (Elt Ideal) Unit ℕ (UR sig nD τ) ℕ cfg0 c)
    (o : (n : ℕ) → n < cfg0.N → Vec Ideal S8x128 .f32) (hafter : ∀ t : Fin cfg0.N, dat.after 7 t = o t.val t.isLt)
    (t : Fin cfg0.N) (hf : (cfg0.win 7).flush t = true) :
    dat.flushed 7 t = ((cfg0.win 7).blk t).view.read (Elt Ideal) (stack2 (o 31 lt31) (o 63 lt63)) := by
  have h31 : t.val % 32 = 31 := (flush0_7 t).mp hf
  have hN : t.val < 64 := t.isLt
  obtain ⟨e0, e1⟩ := index_out7 t
  show (cfg0.win 7).cut (grid0.coords t) (dat.after 7 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 7).blk t).view.emb (ix2 p q))
  have hemb : ((cfg0.win 7).blk t).view.emb (ix2 p q) = ix2 (⟨t.val / 32 * 8 + p.val, by omega⟩ : Fin 16) q := by
    funext a; apply Fin.ext
    match a with
    | ⟨0, _⟩ => show win0_7.index t (0 : Fin 2) * 8 + 1 * p.val = t.val / 32 * 8 + p.val; rw [e0]; omega
    | ⟨1, _⟩ => show win0_7.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr7_of {c : Dev nD} (dat : Dat τ (Elt Ideal) Unit ℕ (UR sig nD τ) ℕ cfg0 c)
    (o : (n : ℕ) → n < cfg0.N → Vec Ideal S8x128 .f32) (hafter : ∀ t : Fin cfg0.N, dat.after 7 t = o t.val t.isLt) :
    (dat.arrAt 7 cfg0.N : S16x128.Idx → EReal) = stack2 (o 31 lt31) (o 63 lt63) :=
  dat.arrAt_eq_of_cover 7 (stack2 (o 31 lt31) (o 63 lt63)) (flushed7_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_7 _).mpr (by show (32 * ((i 0).val / 8) + 31) % 32 = 31; omega), ?_⟩
    rw [mem_blk7]
    obtain ⟨e0, e1⟩ := index_out7 ⟨32 * ((i 0).val / 8) + 31, by rw [show cfg0.N = 64 from N_0]; omega⟩
    intro a
    match a with
    | ⟨0, _⟩ => show win0_7.index _ (0 : Fin 2) * 8 ≤ (i 0).val ∧ (i 0).val < win0_7.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_7.index _ (1 : Fin 2) * 128 ≤ (i 1).val ∧ (i 1).val < win0_7.index _ (1 : Fin 2) * 128 + 128; rw [e1]; omega

/-! ## Result window 8 -/

/-- Result window 8's block index at point `t` is `(t / 32, 0)`: one block of 8 rows per core. -/
theorem index_out8 : ∀ t : Fin cfg0.N, win0_8.index t (0 : Fin 2) = t.val / 32 ∧ win0_8.index t (1 : Fin 2) = 0 :=
  (by decide +kernel : ∀ t : Fin grid0.N, _)

/-- An index of the array is in point `t`'s block iff each coordinate is in the block's range on its axis. -/
theorem mem_blk8 (t : Fin cfg0.N) (i : S16x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v5_4).slice (win0_8.rect t)).set ↔ _
  rw [View.set_slice_whole, Rect.mem_set_unit]
  exact Iff.rfl

/-- What a writing point writes back is its block of the two last results stacked. -/
theorem flushed8_of {c : Dev nD} (dat : Dat τ (Elt Ideal) Unit ℕ (UR sig nD τ) ℕ cfg0 c)
    (o : (n : ℕ) → n < cfg0.N → Vec Ideal S8x128 .f32) (hafter : ∀ t : Fin cfg0.N, dat.after 8 t = o t.val t.isLt)
    (t : Fin cfg0.N) (hf : (cfg0.win 8).flush t = true) :
    dat.flushed 8 t = ((cfg0.win 8).blk t).view.read (Elt Ideal) (stack2 (o 31 lt31) (o 63 lt63)) := by
  have h31 : t.val % 32 = 31 := (flush0_8 t).mp hf
  have hN : t.val < 64 := t.isLt
  obtain ⟨e0, e1⟩ := index_out8 t
  show (cfg0.win 8).cut (grid0.coords t) (dat.after 8 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 8).blk t).view.emb (ix2 p q))
  have hemb : ((cfg0.win 8).blk t).view.emb (ix2 p q) = ix2 (⟨t.val / 32 * 8 + p.val, by omega⟩ : Fin 16) q := by
    funext a; apply Fin.ext
    match a with
    | ⟨0, _⟩ => show win0_8.index t (0 : Fin 2) * 8 + 1 * p.val = t.val / 32 * 8 + p.val; rw [e0]; omega
    | ⟨1, _⟩ => show win0_8.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr8_of {c : Dev nD} (dat : Dat τ (Elt Ideal) Unit ℕ (UR sig nD τ) ℕ cfg0 c)
    (o : (n : ℕ) → n < cfg0.N → Vec Ideal S8x128 .f32) (hafter : ∀ t : Fin cfg0.N, dat.after 8 t = o t.val t.isLt) :
    (dat.arrAt 8 cfg0.N : S16x128.Idx → EReal) = stack2 (o 31 lt31) (o 63 lt63) :=
  dat.arrAt_eq_of_cover 8 (stack2 (o 31 lt31) (o 63 lt63)) (flushed8_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_8 _).mpr (by show (32 * ((i 0).val / 8) + 31) % 32 = 31; omega), ?_⟩
    rw [mem_blk8]
    obtain ⟨e0, e1⟩ := index_out8 ⟨32 * ((i 0).val / 8) + 31, by rw [show cfg0.N = 64 from N_0]; omega⟩
    intro a
    match a with
    | ⟨0, _⟩ => show win0_8.index _ (0 : Fin 2) * 8 ≤ (i 0).val ∧ (i 0).val < win0_8.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_8.index _ (1 : Fin 2) * 128 ≤ (i 1).val ∧ (i 1).val < win0_8.index _ (1 : Fin 2) * 128 + 128; rw [e1]; omega

/-! ## Result window 9 -/

/-- Result window 9's block index at point `t` is `(t / 32, 0)`: one block of 8 rows per core. -/
theorem index_out9 : ∀ t : Fin cfg0.N, win0_9.index t (0 : Fin 2) = t.val / 32 ∧ win0_9.index t (1 : Fin 2) = 0 :=
  (by decide +kernel : ∀ t : Fin grid0.N, _)

/-- An index of the array is in point `t`'s block iff each coordinate is in the block's range on its axis. -/
theorem mem_blk9 (t : Fin cfg0.N) (i : S16x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v5_5).slice (win0_9.rect t)).set ↔ _
  rw [View.set_slice_whole, Rect.mem_set_unit]
  exact Iff.rfl

/-- What a writing point writes back is its block of the two last results stacked. -/
theorem flushed9_of {c : Dev nD} (dat : Dat τ (Elt Ideal) Unit ℕ (UR sig nD τ) ℕ cfg0 c)
    (o : (n : ℕ) → n < cfg0.N → Vec Ideal S8x128 .f32) (hafter : ∀ t : Fin cfg0.N, dat.after 9 t = o t.val t.isLt)
    (t : Fin cfg0.N) (hf : (cfg0.win 9).flush t = true) :
    dat.flushed 9 t = ((cfg0.win 9).blk t).view.read (Elt Ideal) (stack2 (o 31 lt31) (o 63 lt63)) := by
  have h31 : t.val % 32 = 31 := (flush0_9 t).mp hf
  have hN : t.val < 64 := t.isLt
  obtain ⟨e0, e1⟩ := index_out9 t
  show (cfg0.win 9).cut (grid0.coords t) (dat.after 9 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 9).blk t).view.emb (ix2 p q))
  have hemb : ((cfg0.win 9).blk t).view.emb (ix2 p q) = ix2 (⟨t.val / 32 * 8 + p.val, by omega⟩ : Fin 16) q := by
    funext a; apply Fin.ext
    match a with
    | ⟨0, _⟩ => show win0_9.index t (0 : Fin 2) * 8 + 1 * p.val = t.val / 32 * 8 + p.val; rw [e0]; omega
    | ⟨1, _⟩ => show win0_9.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr9_of {c : Dev nD} (dat : Dat τ (Elt Ideal) Unit ℕ (UR sig nD τ) ℕ cfg0 c)
    (o : (n : ℕ) → n < cfg0.N → Vec Ideal S8x128 .f32) (hafter : ∀ t : Fin cfg0.N, dat.after 9 t = o t.val t.isLt) :
    (dat.arrAt 9 cfg0.N : S16x128.Idx → EReal) = stack2 (o 31 lt31) (o 63 lt63) :=
  dat.arrAt_eq_of_cover 9 (stack2 (o 31 lt31) (o 63 lt63)) (flushed9_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_9 _).mpr (by show (32 * ((i 0).val / 8) + 31) % 32 = 31; omega), ?_⟩
    rw [mem_blk9]
    obtain ⟨e0, e1⟩ := index_out9 ⟨32 * ((i 0).val / 8) + 31, by rw [show cfg0.N = 64 from N_0]; omega⟩
    intro a
    match a with
    | ⟨0, _⟩ => show win0_9.index _ (0 : Fin 2) * 8 ≤ (i 0).val ∧ (i 0).val < win0_9.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_9.index _ (1 : Fin 2) * 128 ≤ (i 1).val ∧ (i 1).val < win0_9.index _ (1 : Fin 2) * 128 + 128; rw [e1]; omega

/-! ## Result window 10 -/

/-- Result window 10's block index at point `t` is `(t / 32, 0)`: one block of 8 rows per core. -/
theorem index_out10 : ∀ t : Fin cfg0.N, win0_10.index t (0 : Fin 2) = t.val / 32 ∧ win0_10.index t (1 : Fin 2) = 0 :=
  (by decide +kernel : ∀ t : Fin grid0.N, _)

/-- An index of the array is in point `t`'s block iff each coordinate is in the block's range on its axis. -/
theorem mem_blk10 (t : Fin cfg0.N) (i : S16x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v5_6).slice (win0_10.rect t)).set ↔ _
  rw [View.set_slice_whole, Rect.mem_set_unit]
  exact Iff.rfl

/-- What a writing point writes back is its block of the two last results stacked. -/
theorem flushed10_of {c : Dev nD} (dat : Dat τ (Elt Ideal) Unit ℕ (UR sig nD τ) ℕ cfg0 c)
    (o : (n : ℕ) → n < cfg0.N → Vec Ideal S8x128 .f32) (hafter : ∀ t : Fin cfg0.N, dat.after 10 t = o t.val t.isLt)
    (t : Fin cfg0.N) (hf : (cfg0.win 10).flush t = true) :
    dat.flushed 10 t = ((cfg0.win 10).blk t).view.read (Elt Ideal) (stack2 (o 31 lt31) (o 63 lt63)) := by
  have h31 : t.val % 32 = 31 := (flush0_10 t).mp hf
  have hN : t.val < 64 := t.isLt
  obtain ⟨e0, e1⟩ := index_out10 t
  show (cfg0.win 10).cut (grid0.coords t) (dat.after 10 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 10).blk t).view.emb (ix2 p q))
  have hemb : ((cfg0.win 10).blk t).view.emb (ix2 p q) = ix2 (⟨t.val / 32 * 8 + p.val, by omega⟩ : Fin 16) q := by
    funext a; apply Fin.ext
    match a with
    | ⟨0, _⟩ => show win0_10.index t (0 : Fin 2) * 8 + 1 * p.val = t.val / 32 * 8 + p.val; rw [e0]; omega
    | ⟨1, _⟩ => show win0_10.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr10_of {c : Dev nD} (dat : Dat τ (Elt Ideal) Unit ℕ (UR sig nD τ) ℕ cfg0 c)
    (o : (n : ℕ) → n < cfg0.N → Vec Ideal S8x128 .f32) (hafter : ∀ t : Fin cfg0.N, dat.after 10 t = o t.val t.isLt) :
    (dat.arrAt 10 cfg0.N : S16x128.Idx → EReal) = stack2 (o 31 lt31) (o 63 lt63) :=
  dat.arrAt_eq_of_cover 10 (stack2 (o 31 lt31) (o 63 lt63)) (flushed10_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_10 _).mpr (by show (32 * ((i 0).val / 8) + 31) % 32 = 31; omega), ?_⟩
    rw [mem_blk10]
    obtain ⟨e0, e1⟩ := index_out10 ⟨32 * ((i 0).val / 8) + 31, by rw [show cfg0.N = 64 from N_0]; omega⟩
    intro a
    match a with
    | ⟨0, _⟩ => show win0_10.index _ (0 : Fin 2) * 8 ≤ (i 0).val ∧ (i 0).val < win0_10.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_10.index _ (1 : Fin 2) * 128 ≤ (i 1).val ∧ (i 1).val < win0_10.index _ (1 : Fin 2) * 128 + 128; rw [e1]; omega

/-! ## Result window 11 -/

/-- Result window 11's block index at point `t` is `(t / 32, 0)`: one block of 8 rows per core. -/
theorem index_out11 : ∀ t : Fin cfg0.N, win0_11.index t (0 : Fin 2) = t.val / 32 ∧ win0_11.index t (1 : Fin 2) = 0 :=
  (by decide +kernel : ∀ t : Fin grid0.N, _)

/-- An index of the array is in point `t`'s block iff each coordinate is in the block's range on its axis. -/
theorem mem_blk11 (t : Fin cfg0.N) (i : S16x128.Idx) :
    i ∈ ((cfg0.win 11).blk t).view.set ↔ ∀ a : Fin 2, win0_11.index t a * S8x128.size a ≤ (i a).val ∧ (i a).val < win0_11.index t a * S8x128.size a + S8x128.size a := by
  show i ∈ ((View.whole main_v5_7).slice (win0_11.rect t)).set ↔ _
  rw [View.set_slice_whole, Rect.mem_set_unit]
  exact Iff.rfl

/-- What a writing point writes back is its block of the two last results stacked. -/
theorem flushed11_of {c : Dev nD} (dat : Dat τ (Elt Ideal) Unit ℕ (UR sig nD τ) ℕ cfg0 c)
    (o : (n : ℕ) → n < cfg0.N → Vec Ideal S8x128 .f32) (hafter : ∀ t : Fin cfg0.N, dat.after 11 t = o t.val t.isLt)
    (t : Fin cfg0.N) (hf : (cfg0.win 11).flush t = true) :
    dat.flushed 11 t = ((cfg0.win 11).blk t).view.read (Elt Ideal) (stack2 (o 31 lt31) (o 63 lt63)) := by
  have h31 : t.val % 32 = 31 := (flush0_11 t).mp hf
  have hN : t.val < 64 := t.isLt
  obtain ⟨e0, e1⟩ := index_out11 t
  show (cfg0.win 11).cut (grid0.coords t) (dat.after 11 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 11).blk t).view.emb (ix2 p q))
  have hemb : ((cfg0.win 11).blk t).view.emb (ix2 p q) = ix2 (⟨t.val / 32 * 8 + p.val, by omega⟩ : Fin 16) q := by
    funext a; apply Fin.ext
    match a with
    | ⟨0, _⟩ => show win0_11.index t (0 : Fin 2) * 8 + 1 * p.val = t.val / 32 * 8 + p.val; rw [e0]; omega
    | ⟨1, _⟩ => show win0_11.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr11_of {c : Dev nD} (dat : Dat τ (Elt Ideal) Unit ℕ (UR sig nD τ) ℕ cfg0 c)
    (o : (n : ℕ) → n < cfg0.N → Vec Ideal S8x128 .f32) (hafter : ∀ t : Fin cfg0.N, dat.after 11 t = o t.val t.isLt) :
    (dat.arrAt 11 cfg0.N : S16x128.Idx → EReal) = stack2 (o 31 lt31) (o 63 lt63) :=
  dat.arrAt_eq_of_cover 11 (stack2 (o 31 lt31) (o 63 lt63)) (flushed11_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_11 _).mpr (by show (32 * ((i 0).val / 8) + 31) % 32 = 31; omega), ?_⟩
    rw [mem_blk11]
    obtain ⟨e0, e1⟩ := index_out11 ⟨32 * ((i 0).val / 8) + 31, by rw [show cfg0.N = 64 from N_0]; omega⟩
    intro a
    match a with
    | ⟨0, _⟩ => show win0_11.index _ (0 : Fin 2) * 8 ≤ (i 0).val ∧ (i 0).val < win0_11.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_11.index _ (1 : Fin 2) * 128 ≤ (i 1).val ∧ (i 1).val < win0_11.index _ (1 : Fin 2) * 128 + 128; rw [e1]; omega

/-! ## Result window 12 -/

/-- Result window 12's block index at point `t` is `(t / 32, 0)`: one block of 8 rows per core. -/
theorem index_out12 : ∀ t : Fin cfg0.N, win0_12.index t (0 : Fin 2) = t.val / 32 ∧ win0_12.index t (1 : Fin 2) = 0 :=
  (by decide +kernel : ∀ t : Fin grid0.N, _)

/-- An index of the array is in point `t`'s block iff each coordinate is in the block's range on its axis. -/
theorem mem_blk12 (t : Fin cfg0.N) (i : S16x128.Idx) :
    i ∈ ((cfg0.win 12).blk t).view.set ↔ ∀ a : Fin 2, win0_12.index t a * S8x128.size a ≤ (i a).val ∧ (i a).val < win0_12.index t a * S8x128.size a + S8x128.size a := by
  show i ∈ ((View.whole main_v5_8).slice (win0_12.rect t)).set ↔ _
  rw [View.set_slice_whole, Rect.mem_set_unit]
  exact Iff.rfl

/-- What a writing point writes back is its block of the two last results stacked. -/
theorem flushed12_of {c : Dev nD} (dat : Dat τ (Elt Ideal) Unit ℕ (UR sig nD τ) ℕ cfg0 c)
    (o : (n : ℕ) → n < cfg0.N → Vec Ideal S8x128 .f32) (hafter : ∀ t : Fin cfg0.N, dat.after 12 t = o t.val t.isLt)
    (t : Fin cfg0.N) (hf : (cfg0.win 12).flush t = true) :
    dat.flushed 12 t = ((cfg0.win 12).blk t).view.read (Elt Ideal) (stack2 (o 31 lt31) (o 63 lt63)) := by
  have h31 : t.val % 32 = 31 := (flush0_12 t).mp hf
  have hN : t.val < 64 := t.isLt
  obtain ⟨e0, e1⟩ := index_out12 t
  show (cfg0.win 12).cut (grid0.coords t) (dat.after 12 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 12).blk t).view.emb (ix2 p q))
  have hemb : ((cfg0.win 12).blk t).view.emb (ix2 p q) = ix2 (⟨t.val / 32 * 8 + p.val, by omega⟩ : Fin 16) q := by
    funext a; apply Fin.ext
    match a with
    | ⟨0, _⟩ => show win0_12.index t (0 : Fin 2) * 8 + 1 * p.val = t.val / 32 * 8 + p.val; rw [e0]; omega
    | ⟨1, _⟩ => show win0_12.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr12_of {c : Dev nD} (dat : Dat τ (Elt Ideal) Unit ℕ (UR sig nD τ) ℕ cfg0 c)
    (o : (n : ℕ) → n < cfg0.N → Vec Ideal S8x128 .f32) (hafter : ∀ t : Fin cfg0.N, dat.after 12 t = o t.val t.isLt) :
    (dat.arrAt 12 cfg0.N : S16x128.Idx → EReal) = stack2 (o 31 lt31) (o 63 lt63) :=
  dat.arrAt_eq_of_cover 12 (stack2 (o 31 lt31) (o 63 lt63)) (flushed12_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_12 _).mpr (by show (32 * ((i 0).val / 8) + 31) % 32 = 31; omega), ?_⟩
    rw [mem_blk12]
    obtain ⟨e0, e1⟩ := index_out12 ⟨32 * ((i 0).val / 8) + 31, by rw [show cfg0.N = 64 from N_0]; omega⟩
    intro a
    match a with
    | ⟨0, _⟩ => show win0_12.index _ (0 : Fin 2) * 8 ≤ (i 0).val ∧ (i 0).val < win0_12.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_12.index _ (1 : Fin 2) * 128 ≤ (i 1).val ∧ (i 1).val < win0_12.index _ (1 : Fin 2) * 128 + 128; rw [e1]; omega

/-! ## Result window 13 -/

/-- Result window 13's block index at point `t` is `(t / 32, 0)`: one block of 8 rows per core. -/
theorem index_out13 : ∀ t : Fin cfg0.N, win0_13.index t (0 : Fin 2) = t.val / 32 ∧ win0_13.index t (1 : Fin 2) = 0 :=
  (by decide +kernel : ∀ t : Fin grid0.N, _)

/-- An index of the array is in point `t`'s block iff each coordinate is in the block's range on its axis. -/
theorem mem_blk13 (t : Fin cfg0.N) (i : S16x128.Idx) :
    i ∈ ((cfg0.win 13).blk t).view.set ↔ ∀ a : Fin 2, win0_13.index t a * S8x128.size a ≤ (i a).val ∧ (i a).val < win0_13.index t a * S8x128.size a + S8x128.size a := by
  show i ∈ ((View.whole main_v5_9).slice (win0_13.rect t)).set ↔ _
  rw [View.set_slice_whole, Rect.mem_set_unit]
  exact Iff.rfl

/-- What a writing point writes back is its block of the two last results stacked. -/
theorem flushed13_of {c : Dev nD} (dat : Dat τ (Elt Ideal) Unit ℕ (UR sig nD τ) ℕ cfg0 c)
    (o : (n : ℕ) → n < cfg0.N → Vec Ideal S8x128 .f32) (hafter : ∀ t : Fin cfg0.N, dat.after 13 t = o t.val t.isLt)
    (t : Fin cfg0.N) (hf : (cfg0.win 13).flush t = true) :
    dat.flushed 13 t = ((cfg0.win 13).blk t).view.read (Elt Ideal) (stack2 (o 31 lt31) (o 63 lt63)) := by
  have h31 : t.val % 32 = 31 := (flush0_13 t).mp hf
  have hN : t.val < 64 := t.isLt
  obtain ⟨e0, e1⟩ := index_out13 t
  show (cfg0.win 13).cut (grid0.coords t) (dat.after 13 t) = _
  rw [hafter]
  funext y
  obtain ⟨p, q, rfl⟩ : ∃ (p : Fin 8) (q : Fin 128), y = ix2 p q := ⟨y 0, y 1, eq_ix2 y⟩
  show o t.val t.isLt (ix2 p q) = stack2 (o 31 lt31) (o 63 lt63) (((cfg0.win 13).blk t).view.emb (ix2 p q))
  have hemb : ((cfg0.win 13).blk t).view.emb (ix2 p q) = ix2 (⟨t.val / 32 * 8 + p.val, by omega⟩ : Fin 16) q := by
    funext a; apply Fin.ext
    match a with
    | ⟨0, _⟩ => show win0_13.index t (0 : Fin 2) * 8 + 1 * p.val = t.val / 32 * 8 + p.val; rw [e0]; omega
    | ⟨1, _⟩ => show win0_13.index t (1 : Fin 2) * 128 + 1 * q.val = q.val; rw [e1]; omega
  rw [hemb]
  rcases (by omega : t.val = 31 ∨ t.val = 63) with h | h
  · obtain rfl : t = ⟨31, lt31⟩ := Fin.ext h
    exact (stack2_lo _ _ p q).symm
  · obtain rfl : t = ⟨63, lt63⟩ := Fin.ext h
    exact (stack2_hi _ _ p q).symm

/-- The array ends holding core 0's last result in rows 0..7 and core 1's in rows 8..15. -/
theorem arr13_of {c : Dev nD} (dat : Dat τ (Elt Ideal) Unit ℕ (UR sig nD τ) ℕ cfg0 c)
    (o : (n : ℕ) → n < cfg0.N → Vec Ideal S8x128 .f32) (hafter : ∀ t : Fin cfg0.N, dat.after 13 t = o t.val t.isLt) :
    (dat.arrAt 13 cfg0.N : S16x128.Idx → EReal) = stack2 (o 31 lt31) (o 63 lt63) :=
  dat.arrAt_eq_of_cover 13 (stack2 (o 31 lt31) (o 63 lt63)) (flushed13_of dat o hafter) fun i => by
    have h0 : (i 0).val < 16 := (i 0).isLt
    have h1 : (i 1).val < 128 := (i 1).isLt
    refine ⟨⟨32 * ((i 0).val / 8) + 31, by rw [show cfg0.N = 64 from N_0]; omega⟩, (flush0_13 _).mpr (by show (32 * ((i 0).val / 8) + 31) % 32 = 31; omega), ?_⟩
    rw [mem_blk13]
    obtain ⟨e0, e1⟩ := index_out13 ⟨32 * ((i 0).val / 8) + 31, by rw [show cfg0.N = 64 from N_0]; omega⟩
    intro a
    match a with
    | ⟨0, _⟩ => show win0_13.index _ (0 : Fin 2) * 8 ≤ (i 0).val ∧ (i 0).val < win0_13.index _ (0 : Fin 2) * 8 + 8; rw [e0]; show (32 * ((i 0).val / 8) + 31) / 32 * 8 ≤ (i 0).val ∧ (i 0).val < (32 * ((i 0).val / 8) + 31) / 32 * 8 + 8; omega
    | ⟨1, _⟩ => show win0_13.index _ (1 : Fin 2) * 128 ≤ (i 1).val ∧ (i 1).val < win0_13.index _ (1 : Fin 2) * 128 + 128; rw [e1]; omega

/-! ## The ten result arrays after the grid -/

variable (m : (ℓ : Loc nD τ sig) → Buf (Elt Ideal) ℓ) (c : Dev nD)

/-- Result array 0 after the grid: core 0's last result in rows 0..7, core 1's in rows 8..15. -/
theorem arr4_eq : ((dats m 0 c).arrAt 4 cfg0.N : S16x128.Idx → EReal)
    = stack2 (outsAt0 m c 31 lt31).o4 (outsAt0 m c 63 lt63).o4 :=
  arr4_of (dats m 0 c) (fun n h => (outsAt0 m c n h).o4) (after0_4 m c)

/-- Its entry the host reads for core `cc`: row `8 cc`, lane 0 is entry (0, 0) of that core's last result. -/
theorem arr4_core (cc : Fin 2) :
    ((dats m 0 c).arrAt 4 cfg0.N : S16x128.Idx → EReal) (ix2 (⟨8 * cc.val, by omega⟩ : Fin 16) (0 : Fin 128))
      = (outsAt0 m c (32 * cc.val + 31) (core_last_lt cc)).o4 (ix2 (0 : Fin 8) (0 : Fin 128)) := by
  rw [arr4_eq]
  exact stack2_core (fun n h => (outsAt0 m c n h).o4) cc

/-- The two entries the host adds: row 0 is core 0's, row 8 core 1's. -/
theorem arr4_row0 :
    ((dats m 0 c).arrAt 4 cfg0.N : S16x128.Idx → EReal) (ix2 (0 : Fin 16) (0 : Fin 128))
      = (outsAt0 m c 31 lt31).o4 (ix2 (0 : Fin 8) (0 : Fin 128)) := by
  rw [arr4_eq]
  exact stack2_row0 _ _
theorem arr4_row8 :
    ((dats m 0 c).arrAt 4 cfg0.N : S16x128.Idx → EReal) (ix2 (8 : Fin 16) (0 : Fin 128))
      = (outsAt0 m c 63 lt63).o4 (ix2 (0 : Fin 8) (0 : Fin 128)) := by
  rw [arr4_eq]
  exact stack2_row8 _ _

/-- Result array 1 after the grid: core 0's last result in rows 0..7, core 1's in rows 8..15. -/
theorem arr5_eq : ((dats m 0 c).arrAt 5 cfg0.N : S16x128.Idx → EReal)
    = stack2 (outsAt0 m c 31 lt31).o5 (outsAt0 m c 63 lt63).o5 :=
  arr5_of (dats m 0 c) (fun n h => (outsAt0 m c n h).o5) (after0_5 m c)

/-- Its entry the host reads for core `cc`: row `8 cc`, lane 0 is entry (0, 0) of that core's last result. -/
theorem arr5_core (cc : Fin 2) :
    ((dats m 0 c).arrAt 5 cfg0.N : S16x128.Idx → EReal) (ix2 (⟨8 * cc.val, by omega⟩ : Fin 16) (0 : Fin 128))
      = (outsAt0 m c (32 * cc.val + 31) (core_last_lt cc)).o5 (ix2 (0 : Fin 8) (0 : Fin 128)) := by
  rw [arr5_eq]
  exact stack2_core (fun n h => (outsAt0 m c n h).o5) cc

/-- The two entries the host adds: row 0 is core 0's, row 8 core 1's. -/
theorem arr5_row0 :
    ((dats m 0 c).arrAt 5 cfg0.N : S16x128.Idx → EReal) (ix2 (0 : Fin 16) (0 : Fin 128))
      = (outsAt0 m c 31 lt31).o5 (ix2 (0 : Fin 8) (0 : Fin 128)) := by
  rw [arr5_eq]
  exact stack2_row0 _ _
theorem arr5_row8 :
    ((dats m 0 c).arrAt 5 cfg0.N : S16x128.Idx → EReal) (ix2 (8 : Fin 16) (0 : Fin 128))
      = (outsAt0 m c 63 lt63).o5 (ix2 (0 : Fin 8) (0 : Fin 128)) := by
  rw [arr5_eq]
  exact stack2_row8 _ _

/-- Result array 2 after the grid: core 0's last result in rows 0..7, core 1's in rows 8..15. -/
theorem arr6_eq : ((dats m 0 c).arrAt 6 cfg0.N : S16x128.Idx → EReal)
    = stack2 (outsAt0 m c 31 lt31).o6 (outsAt0 m c 63 lt63).o6 :=
  arr6_of (dats m 0 c) (fun n h => (outsAt0 m c n h).o6) (after0_6 m c)

/-- Its entry the host reads for core `cc`: row `8 cc`, lane 0 is entry (0, 0) of that core's last result. -/
theorem arr6_core (cc : Fin 2) :
    ((dats m 0 c).arrAt 6 cfg0.N : S16x128.Idx → EReal) (ix2 (⟨8 * cc.val, by omega⟩ : Fin 16) (0 : Fin 128))
      = (outsAt0 m c (32 * cc.val + 31) (core_last_lt cc)).o6 (ix2 (0 : Fin 8) (0 : Fin 128)) := by
  rw [arr6_eq]
  exact stack2_core (fun n h => (outsAt0 m c n h).o6) cc

/-- The two entries the host adds: row 0 is core 0's, row 8 core 1's. -/
theorem arr6_row0 :
    ((dats m 0 c).arrAt 6 cfg0.N : S16x128.Idx → EReal) (ix2 (0 : Fin 16) (0 : Fin 128))
      = (outsAt0 m c 31 lt31).o6 (ix2 (0 : Fin 8) (0 : Fin 128)) := by
  rw [arr6_eq]
  exact stack2_row0 _ _
theorem arr6_row8 :
    ((dats m 0 c).arrAt 6 cfg0.N : S16x128.Idx → EReal) (ix2 (8 : Fin 16) (0 : Fin 128))
      = (outsAt0 m c 63 lt63).o6 (ix2 (0 : Fin 8) (0 : Fin 128)) := by
  rw [arr6_eq]
  exact stack2_row8 _ _

/-- Result array 3 after the grid: core 0's last result in rows 0..7, core 1's in rows 8..15. -/
theorem arr7_eq : ((dats m 0 c).arrAt 7 cfg0.N : S16x128.Idx → EReal)
    = stack2 (outsAt0 m c 31 lt31).o7 (outsAt0 m c 63 lt63).o7 :=
  arr7_of (dats m 0 c) (fun n h => (outsAt0 m c n h).o7) (after0_7 m c)

/-- Its entry the host reads for core `cc`: row `8 cc`, lane 0 is entry (0, 0) of that core's last result. -/
theorem arr7_core (cc : Fin 2) :
    ((dats m 0 c).arrAt 7 cfg0.N : S16x128.Idx → EReal) (ix2 (⟨8 * cc.val, by omega⟩ : Fin 16) (0 : Fin 128))
      = (outsAt0 m c (32 * cc.val + 31) (core_last_lt cc)).o7 (ix2 (0 : Fin 8) (0 : Fin 128)) := by
  rw [arr7_eq]
  exact stack2_core (fun n h => (outsAt0 m c n h).o7) cc

/-- The two entries the host adds: row 0 is core 0's, row 8 core 1's. -/
theorem arr7_row0 :
    ((dats m 0 c).arrAt 7 cfg0.N : S16x128.Idx → EReal) (ix2 (0 : Fin 16) (0 : Fin 128))
      = (outsAt0 m c 31 lt31).o7 (ix2 (0 : Fin 8) (0 : Fin 128)) := by
  rw [arr7_eq]
  exact stack2_row0 _ _
theorem arr7_row8 :
    ((dats m 0 c).arrAt 7 cfg0.N : S16x128.Idx → EReal) (ix2 (8 : Fin 16) (0 : Fin 128))
      = (outsAt0 m c 63 lt63).o7 (ix2 (0 : Fin 8) (0 : Fin 128)) := by
  rw [arr7_eq]
  exact stack2_row8 _ _

/-- Result array 4 after the grid: core 0's last result in rows 0..7, core 1's in rows 8..15. -/
theorem arr8_eq : ((dats m 0 c).arrAt 8 cfg0.N : S16x128.Idx → EReal)
    = stack2 (outsAt0 m c 31 lt31).o8 (outsAt0 m c 63 lt63).o8 :=
  arr8_of (dats m 0 c) (fun n h => (outsAt0 m c n h).o8) (after0_8 m c)

/-- Its entry the host reads for core `cc`: row `8 cc`, lane 0 is entry (0, 0) of that core's last result. -/
theorem arr8_core (cc : Fin 2) :
    ((dats m 0 c).arrAt 8 cfg0.N : S16x128.Idx → EReal) (ix2 (⟨8 * cc.val, by omega⟩ : Fin 16) (0 : Fin 128))
      = (outsAt0 m c (32 * cc.val + 31) (core_last_lt cc)).o8 (ix2 (0 : Fin 8) (0 : Fin 128)) := by
  rw [arr8_eq]
  exact stack2_core (fun n h => (outsAt0 m c n h).o8) cc

/-- The two entries the host adds: row 0 is core 0's, row 8 core 1's. -/
theorem arr8_row0 :
    ((dats m 0 c).arrAt 8 cfg0.N : S16x128.Idx → EReal) (ix2 (0 : Fin 16) (0 : Fin 128))
      = (outsAt0 m c 31 lt31).o8 (ix2 (0 : Fin 8) (0 : Fin 128)) := by
  rw [arr8_eq]
  exact stack2_row0 _ _
theorem arr8_row8 :
    ((dats m 0 c).arrAt 8 cfg0.N : S16x128.Idx → EReal) (ix2 (8 : Fin 16) (0 : Fin 128))
      = (outsAt0 m c 63 lt63).o8 (ix2 (0 : Fin 8) (0 : Fin 128)) := by
  rw [arr8_eq]
  exact stack2_row8 _ _

/-- Result array 5 after the grid: core 0's last result in rows 0..7, core 1's in rows 8..15. -/
theorem arr9_eq : ((dats m 0 c).arrAt 9 cfg0.N : S16x128.Idx → EReal)
    = stack2 (outsAt0 m c 31 lt31).o9 (outsAt0 m c 63 lt63).o9 :=
  arr9_of (dats m 0 c) (fun n h => (outsAt0 m c n h).o9) (after0_9 m c)

/-- Its entry the host reads for core `cc`: row `8 cc`, lane 0 is entry (0, 0) of that core's last result. -/
theorem arr9_core (cc : Fin 2) :
    ((dats m 0 c).arrAt 9 cfg0.N : S16x128.Idx → EReal) (ix2 (⟨8 * cc.val, by omega⟩ : Fin 16) (0 : Fin 128))
      = (outsAt0 m c (32 * cc.val + 31) (core_last_lt cc)).o9 (ix2 (0 : Fin 8) (0 : Fin 128)) := by
  rw [arr9_eq]
  exact stack2_core (fun n h => (outsAt0 m c n h).o9) cc

/-- The two entries the host adds: row 0 is core 0's, row 8 core 1's. -/
theorem arr9_row0 :
    ((dats m 0 c).arrAt 9 cfg0.N : S16x128.Idx → EReal) (ix2 (0 : Fin 16) (0 : Fin 128))
      = (outsAt0 m c 31 lt31).o9 (ix2 (0 : Fin 8) (0 : Fin 128)) := by
  rw [arr9_eq]
  exact stack2_row0 _ _
theorem arr9_row8 :
    ((dats m 0 c).arrAt 9 cfg0.N : S16x128.Idx → EReal) (ix2 (8 : Fin 16) (0 : Fin 128))
      = (outsAt0 m c 63 lt63).o9 (ix2 (0 : Fin 8) (0 : Fin 128)) := by
  rw [arr9_eq]
  exact stack2_row8 _ _

/-- Result array 6 after the grid: core 0's last result in rows 0..7, core 1's in rows 8..15. -/
theorem arr10_eq : ((dats m 0 c).arrAt 10 cfg0.N : S16x128.Idx → EReal)
    = stack2 (outsAt0 m c 31 lt31).o10 (outsAt0 m c 63 lt63).o10 :=
  arr10_of (dats m 0 c) (fun n h => (outsAt0 m c n h).o10) (after0_10 m c)

/-- Its entry the host reads for core `cc`: row `8 cc`, lane 0 is entry (0, 0) of that core's last result. -/
theorem arr10_core (cc : Fin 2) :
    ((dats m 0 c).arrAt 10 cfg0.N : S16x128.Idx → EReal) (ix2 (⟨8 * cc.val, by omega⟩ : Fin 16) (0 : Fin 128))
      = (outsAt0 m c (32 * cc.val + 31) (core_last_lt cc)).o10 (ix2 (0 : Fin 8) (0 : Fin 128)) := by
  rw [arr10_eq]
  exact stack2_core (fun n h => (outsAt0 m c n h).o10) cc

/-- The two entries the host adds: row 0 is core 0's, row 8 core 1's. -/
theorem arr10_row0 :
    ((dats m 0 c).arrAt 10 cfg0.N : S16x128.Idx → EReal) (ix2 (0 : Fin 16) (0 : Fin 128))
      = (outsAt0 m c 31 lt31).o10 (ix2 (0 : Fin 8) (0 : Fin 128)) := by
  rw [arr10_eq]
  exact stack2_row0 _ _
theorem arr10_row8 :
    ((dats m 0 c).arrAt 10 cfg0.N : S16x128.Idx → EReal) (ix2 (8 : Fin 16) (0 : Fin 128))
      = (outsAt0 m c 63 lt63).o10 (ix2 (0 : Fin 8) (0 : Fin 128)) := by
  rw [arr10_eq]
  exact stack2_row8 _ _

/-- Result array 7 after the grid: core 0's last result in rows 0..7, core 1's in rows 8..15. -/
theorem arr11_eq : ((dats m 0 c).arrAt 11 cfg0.N : S16x128.Idx → EReal)
    = stack2 (outsAt0 m c 31 lt31).o11 (outsAt0 m c 63 lt63).o11 :=
  arr11_of (dats m 0 c) (fun n h => (outsAt0 m c n h).o11) (after0_11 m c)

/-- Its entry the host reads for core `cc`: row `8 cc`, lane 0 is entry (0, 0) of that core's last result. -/
theorem arr11_core (cc : Fin 2) :
    ((dats m 0 c).arrAt 11 cfg0.N : S16x128.Idx → EReal) (ix2 (⟨8 * cc.val, by omega⟩ : Fin 16) (0 : Fin 128))
      = (outsAt0 m c (32 * cc.val + 31) (core_last_lt cc)).o11 (ix2 (0 : Fin 8) (0 : Fin 128)) := by
  rw [arr11_eq]
  exact stack2_core (fun n h => (outsAt0 m c n h).o11) cc

/-- The two entries the host adds: row 0 is core 0's, row 8 core 1's. -/
theorem arr11_row0 :
    ((dats m 0 c).arrAt 11 cfg0.N : S16x128.Idx → EReal) (ix2 (0 : Fin 16) (0 : Fin 128))
      = (outsAt0 m c 31 lt31).o11 (ix2 (0 : Fin 8) (0 : Fin 128)) := by
  rw [arr11_eq]
  exact stack2_row0 _ _
theorem arr11_row8 :
    ((dats m 0 c).arrAt 11 cfg0.N : S16x128.Idx → EReal) (ix2 (8 : Fin 16) (0 : Fin 128))
      = (outsAt0 m c 63 lt63).o11 (ix2 (0 : Fin 8) (0 : Fin 128)) := by
  rw [arr11_eq]
  exact stack2_row8 _ _

/-- Result array 8 after the grid: core 0's last result in rows 0..7, core 1's in rows 8..15. -/
theorem arr12_eq : ((dats m 0 c).arrAt 12 cfg0.N : S16x128.Idx → EReal)
    = stack2 (outsAt0 m c 31 lt31).o12 (outsAt0 m c 63 lt63).o12 :=
  arr12_of (dats m 0 c) (fun n h => (outsAt0 m c n h).o12) (after0_12 m c)

/-- Its entry the host reads for core `cc`: row `8 cc`, lane 0 is entry (0, 0) of that core's last result. -/
theorem arr12_core (cc : Fin 2) :
    ((dats m 0 c).arrAt 12 cfg0.N : S16x128.Idx → EReal) (ix2 (⟨8 * cc.val, by omega⟩ : Fin 16) (0 : Fin 128))
      = (outsAt0 m c (32 * cc.val + 31) (core_last_lt cc)).o12 (ix2 (0 : Fin 8) (0 : Fin 128)) := by
  rw [arr12_eq]
  exact stack2_core (fun n h => (outsAt0 m c n h).o12) cc

/-- The two entries the host adds: row 0 is core 0's, row 8 core 1's. -/
theorem arr12_row0 :
    ((dats m 0 c).arrAt 12 cfg0.N : S16x128.Idx → EReal) (ix2 (0 : Fin 16) (0 : Fin 128))
      = (outsAt0 m c 31 lt31).o12 (ix2 (0 : Fin 8) (0 : Fin 128)) := by
  rw [arr12_eq]
  exact stack2_row0 _ _
theorem arr12_row8 :
    ((dats m 0 c).arrAt 12 cfg0.N : S16x128.Idx → EReal) (ix2 (8 : Fin 16) (0 : Fin 128))
      = (outsAt0 m c 63 lt63).o12 (ix2 (0 : Fin 8) (0 : Fin 128)) := by
  rw [arr12_eq]
  exact stack2_row8 _ _

/-- Result array 9 after the grid: core 0's last result in rows 0..7, core 1's in rows 8..15. -/
theorem arr13_eq : ((dats m 0 c).arrAt 13 cfg0.N : S16x128.Idx → EReal)
    = stack2 (outsAt0 m c 31 lt31).o13 (outsAt0 m c 63 lt63).o13 :=
  arr13_of (dats m 0 c) (fun n h => (outsAt0 m c n h).o13) (after0_13 m c)

/-- Its entry the host reads for core `cc`: row `8 cc`, lane 0 is entry (0, 0) of that core's last result. -/
theorem arr13_core (cc : Fin 2) :
    ((dats m 0 c).arrAt 13 cfg0.N : S16x128.Idx → EReal) (ix2 (⟨8 * cc.val, by omega⟩ : Fin 16) (0 : Fin 128))
      = (outsAt0 m c (32 * cc.val + 31) (core_last_lt cc)).o13 (ix2 (0 : Fin 8) (0 : Fin 128)) := by
  rw [arr13_eq]
  exact stack2_core (fun n h => (outsAt0 m c n h).o13) cc

/-- The two entries the host adds: row 0 is core 0's, row 8 core 1's. -/
theorem arr13_row0 :
    ((dats m 0 c).arrAt 13 cfg0.N : S16x128.Idx → EReal) (ix2 (0 : Fin 16) (0 : Fin 128))
      = (outsAt0 m c 31 lt31).o13 (ix2 (0 : Fin 8) (0 : Fin 128)) := by
  rw [arr13_eq]
  exact stack2_row0 _ _
theorem arr13_row8 :
    ((dats m 0 c).arrAt 13 cfg0.N : S16x128.Idx → EReal) (ix2 (8 : Fin 16) (0 : Fin 128))
      = (outsAt0 m c 63 lt63).o13 (ix2 (0 : Fin 8) (0 : Fin 128)) := by
  rw [arr13_eq]
  exact stack2_row8 _ _

end Cert.KernelIdeal.Value

end
-- ==== Proof.KernelIdeal.PiecesA.lean ====
/-
  What the body leaves in each of the ten accumulators at the first of a core's 32 points: the accumulator is first
  stored a block of zeros, then read back and stored its update by the point's four input blocks; the last store covers
  it, so it holds the update of the zero block.
-/
import proofs.«126502_j87754771792112_2_alg».proof.Proof.KernelIdeal.Data
import proofs.«126502_j87754771792112_2_alg».proof.Proof.KernelIdeal.CoversA
import Idealize.ShloMosaic.Lib.Pipeline.Value

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic
open Idealize.SL.Sem

variable {F : FTy → Type} [FloatOps F]

/-- Every store and load of the body is through the whole [8,128] or [2048,128] rectangle: offsets zero. -/
private theorem hz : (![0, 0] : Fin 2 → Nat) = fun _ => 0 := funext fun a => by fin_cases a <;> rfl

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole)

local notation "outA" => out0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25

/- Open the run's found pieces for one accumulator: the last store covers it, and the block it read back is what the
   reset stored. -/
set_option hygiene false in
local macro "read_store" : tactic => `(tactic| (
  unfold kernelRun0_A
  dsimp only
  sl_unfold_words
  rw [View.canon_cons_unit_zero (S := S8x128) hz]
  simp only [View.readCov_unit_zero (S := S8x128) _ hz, View.readAt_eq_ld, harg2.read_unread, harg3.read_unread, harg4.read_unread, harg5.read_unread,
    harg16.read_unread, harg17.read_unread, harg18.read_unread, harg19.read_unread, harg20.read_unread,
    harg21.read_unread, harg22.read_unread, harg23.read_unread, harg24.read_unread, harg25.read_unread,
    View.ld_unit_zero (S := S8x128) hz, View.ld_unit_zero (S := S2048x128) hz]))

set_option hygiene false in
local macro "by_cover" cov:ident : tactic => `(tactic| (
  unfold out0_A
  dsimp only
  rw [View.read_writes_eq_canon _ _ _ ($cov c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3)]))

section
variable (hc0 : cond0_0 i) (hc1 : ¬cond0_1 i) (x0 x1 x2 x3 : Vec F S2048x128 .f32)

/-- Accumulator 0 (the count of the first class) after a core's first point. -/
theorem out0_A_s0 : (outA hc0 hc1 x0 x1 x2 x3).s0
    = k0_pay35 (k0_pay26 x2 x3) k0_pay4 := by
  by_cover scover0_A_0
  read_store

/-- Accumulator 1 (the count of the second class) after a core's first point. -/
theorem out0_A_s1 : (outA hc0 hc1 x0 x1 x2 x3).s1
    = k0_pay38 (k0_pay29 (k0_pay26 x2 x3) (k0_pay27 x3) (k0_pay28 x2)) k0_pay5 := by
  by_cover scover0_A_1
  read_store

/-- Accumulator 2 (the count of the third class) after a core's first point. -/
theorem out0_A_s2 : (outA hc0 hc1 x0 x1 x2 x3).s2
    = k0_pay41 (k0_pay30 (k0_pay23 x2) (k0_pay24 x3) (k0_pay26 x2 x3) (k0_pay27 x3) (k0_pay28 x2)) k0_pay6 := by
  by_cover scover0_A_2
  read_store

/-- Accumulator 3 (the count of the fourth class) after a core's first point. -/
theorem out0_A_s3 : (outA hc0 hc1 x0 x1 x2 x3).s3
    = k0_pay45 (k0_pay31 (k0_pay23 x2) (k0_pay24 x3) (k0_pay26 x2 x3) (k0_pay27 x3) (k0_pay28 x2)) k0_pay7 := by
  by_cover scover0_A_3
  read_store

/-- Accumulator 4 (the count of the fifth class) after a core's first point. -/
theorem out0_A_s4 : (outA hc0 hc1 x0 x1 x2 x3).s4
    = k0_pay48 (k0_pay32 (k0_pay23 x2) (k0_pay24 x3)) k0_pay8 := by
  by_cover scover0_A_4
  read_store

/-- Accumulator 5 (the masked sum of the first class) after a core's first point. -/
theorem out0_A_s5 : (outA hc0 hc1 x0 x1 x2 x3).s5
    = k0_pay36 (k0_pay34 (k0_pay25 x0 x1 x2 x3) (k0_pay26 x2 x3)) k0_pay9 := by
  by_cover scover0_A_5
  read_store

/-- Accumulator 6 (the masked sum of the second class) after a core's first point. -/
theorem out0_A_s6 : (outA hc0 hc1 x0 x1 x2 x3).s6
    = k0_pay39 (k0_pay25 x0 x1 x2 x3) (k0_pay29 (k0_pay26 x2 x3) (k0_pay27 x3) (k0_pay28 x2)) k0_pay10 := by
  by_cover scover0_A_6
  read_store

/-- Accumulator 7 (the masked sum of the third class) after a core's first point. -/
theorem out0_A_s7 : (outA hc0 hc1 x0 x1 x2 x3).s7
    = k0_pay43 (k0_pay20 k0_pay11) (k0_pay42 (k0_pay25 x0 x1 x2 x3) (k0_pay30 (k0_pay23 x2) (k0_pay24 x3) (k0_pay26 x2 x3) (k0_pay27 x3) (k0_pay28 x2))) := by
  by_cover scover0_A_7
  read_store

/-- Accumulator 8 (the masked sum of the fourth class) after a core's first point. -/
theorem out0_A_s8 : (outA hc0 hc1 x0 x1 x2 x3).s8
    = k0_pay46 (k0_pay25 x0 x1 x2 x3) (k0_pay31 (k0_pay23 x2) (k0_pay24 x3) (k0_pay26 x2 x3) (k0_pay27 x3) (k0_pay28 x2)) k0_pay21 := by
  by_cover scover0_A_8
  read_store

/-- Accumulator 9 (the masked sum of the fifth class) after a core's first point. -/
theorem out0_A_s9 : (outA hc0 hc1 x0 x1 x2 x3).s9
    = k0_pay1 k0_pay22 (k0_pay49 (k0_pay25 x0 x1 x2 x3) (k0_pay32 (k0_pay23 x2) (k0_pay24 x3))) := by
  by_cover scover0_A_9
  read_store

end

end Cert.KernelIdeal.Value

end
-- ==== Proof.KernelIdeal.PiecesB.lean ====
/-
  What the body leaves in each of the ten accumulators at a middle point of a core's 32 points: the accumulator's one
  store covers it, so it holds that store's value, the update of what it held before by the point's four input blocks.
-/
import proofs.«126502_j87754771792112_2_alg».proof.Proof.KernelIdeal.Data
import proofs.«126502_j87754771792112_2_alg».proof.Proof.KernelIdeal.CoversB
import Idealize.ShloMosaic.Lib.Pipeline.Value

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic
open Idealize.SL.Sem

variable {F : FTy → Type} [FloatOps F]

/-- Every store and load of the body is through the whole [8,128] or [2048,128] rectangle: offsets zero. -/
private theorem hz : (![0, 0] : Fin 2 → Nat) = fun _ => 0 := funext fun a => by fin_cases a <;> rfl

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole)

local notation "outB" => out0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25

/- Open the run's found pieces for one accumulator and read its one covering store. -/
set_option hygiene false in
local macro "read_store" : tactic => `(tactic| (
  unfold kernelRun0_B
  dsimp only
  sl_unfold_words
  rw [View.canon_unit_zero hz]
  simp only [View.readAt_eq_ld, harg2.read_unread, harg3.read_unread, harg4.read_unread, harg5.read_unread,
    harg16.read_unread, harg17.read_unread, harg18.read_unread, harg19.read_unread, harg20.read_unread,
    harg21.read_unread, harg22.read_unread, harg23.read_unread, harg24.read_unread, harg25.read_unread,
    View.ld_unit_zero (S := S8x128) hz, View.ld_unit_zero (S := S2048x128) hz]))

set_option hygiene false in
local macro "by_cover" cov:ident : tactic => `(tactic| (
  unfold out0_B
  dsimp only
  rw [View.read_writes_eq_canon _ _ _ ($cov c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p)]))

section
variable (hc0 : ¬cond0_0 i) (hc1 : ¬cond0_1 i) (x0 x1 x2 x3 : Vec F S2048x128 .f32) (p : Acc F)

/-- Accumulator 0 (the count of the first class) after a middle point. -/
theorem out0_B_s0 : (outB hc0 hc1 x0 x1 x2 x3 p).s0
    = k0_pay35 (k0_pay26 x2 x3) p.s0 := by
  by_cover scover0_B_0
  read_store

/-- Accumulator 1 (the count of the second class) after a middle point. -/
theorem out0_B_s1 : (outB hc0 hc1 x0 x1 x2 x3 p).s1
    = k0_pay38 (k0_pay29 (k0_pay26 x2 x3) (k0_pay27 x3) (k0_pay28 x2)) p.s1 := by
  by_cover scover0_B_1
  read_store

/-- Accumulator 2 (the count of the third class) after a middle point. -/
theorem out0_B_s2 : (outB hc0 hc1 x0 x1 x2 x3 p).s2
    = k0_pay41 (k0_pay30 (k0_pay23 x2) (k0_pay24 x3) (k0_pay26 x2 x3) (k0_pay27 x3) (k0_pay28 x2)) p.s2 := by
  by_cover scover0_B_2
  read_store

/-- Accumulator 3 (the count of the fourth class) after a middle point. -/
theorem out0_B_s3 : (outB hc0 hc1 x0 x1 x2 x3 p).s3
    = k0_pay45 (k0_pay31 (k0_pay23 x2) (k0_pay24 x3) (k0_pay26 x2 x3) (k0_pay27 x3) (k0_pay28 x2)) p.s3 := by
  by_cover scover0_B_3
  read_store

/-- Accumulator 4 (the count of the fifth class) after a middle point. -/
theorem out0_B_s4 : (outB hc0 hc1 x0 x1 x2 x3 p).s4
    = k0_pay48 (k0_pay32 (k0_pay23 x2) (k0_pay24 x3)) p.s4 := by
  by_cover scover0_B_4
  read_store

/-- Accumulator 5 (the masked sum of the first class) after a middle point. -/
theorem out0_B_s5 : (outB hc0 hc1 x0 x1 x2 x3 p).s5
    = k0_pay36 (k0_pay34 (k0_pay25 x0 x1 x2 x3) (k0_pay26 x2 x3)) p.s5 := by
  by_cover scover0_B_5
  read_store

/-- Accumulator 6 (the masked sum of the second class) after a middle point. -/
theorem out0_B_s6 : (outB hc0 hc1 x0 x1 x2 x3 p).s6
    = k0_pay39 (k0_pay25 x0 x1 x2 x3) (k0_pay29 (k0_pay26 x2 x3) (k0_pay27 x3) (k0_pay28 x2)) p.s6 := by
  by_cover scover0_B_6
  read_store

/-- Accumulator 7 (the masked sum of the third class) after a middle point. -/
theorem out0_B_s7 : (outB hc0 hc1 x0 x1 x2 x3 p).s7
    = k0_pay43 p.s7 (k0_pay42 (k0_pay25 x0 x1 x2 x3) (k0_pay30 (k0_pay23 x2) (k0_pay24 x3) (k0_pay26 x2 x3) (k0_pay27 x3) (k0_pay28 x2))) := by
  by_cover scover0_B_7
  read_store

/-- Accumulator 8 (the masked sum of the fourth class) after a middle point. -/
theorem out0_B_s8 : (outB hc0 hc1 x0 x1 x2 x3 p).s8
    = k0_pay46 (k0_pay25 x0 x1 x2 x3) (k0_pay31 (k0_pay23 x2) (k0_pay24 x3) (k0_pay26 x2 x3) (k0_pay27 x3) (k0_pay28 x2)) p.s8 := by
  by_cover scover0_B_8
  read_store

/-- Accumulator 9 (the masked sum of the fifth class) after a middle point. -/
theorem out0_B_s9 : (outB hc0 hc1 x0 x1 x2 x3 p).s9
    = k0_pay1 p.s9 (k0_pay49 (k0_pay25 x0 x1 x2 x3) (k0_pay32 (k0_pay23 x2) (k0_pay24 x3))) := by
  by_cover scover0_B_9
  read_store

end

end Cert.KernelIdeal.Value

end
-- ==== Proof.KernelIdeal.PiecesC.lean ====
/-
  What the body leaves in each of the ten accumulators at the last of a core's 32 points: as at a middle point, the
  accumulator's one store covers it, so it holds the update of what it held before by the point's four input blocks.
-/
import proofs.«126502_j87754771792112_2_alg».proof.Proof.KernelIdeal.Data
import proofs.«126502_j87754771792112_2_alg».proof.Proof.KernelIdeal.CoversC
import Idealize.ShloMosaic.Lib.Pipeline.Value

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic
open Idealize.SL.Sem

variable {F : FTy → Type} [FloatOps F]

/-- Every store and load of the body is through the whole [8,128] or [2048,128] rectangle: offsets zero. -/
private theorem hz : (![0, 0] : Fin 2 → Nat) = fun _ => 0 := funext fun a => by fin_cases a <;> rfl

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole)

local notation "outC" => out0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25

/- Open the run's found pieces for one accumulator and read its one covering store. -/
set_option hygiene false in
local macro "read_store" : tactic => `(tactic| (
  unfold kernelRun0_C
  dsimp only
  sl_unfold_words
  rw [View.canon_unit_zero hz]
  simp only [View.readAt_eq_ld, harg2.read_unread, harg3.read_unread, harg4.read_unread, harg5.read_unread,
    harg16.read_unread, harg17.read_unread, harg18.read_unread, harg19.read_unread, harg20.read_unread,
    harg21.read_unread, harg22.read_unread, harg23.read_unread, harg24.read_unread, harg25.read_unread,
    View.ld_unit_zero (S := S8x128) hz, View.ld_unit_zero (S := S2048x128) hz]))

set_option hygiene false in
local macro "by_cover" cov:ident : tactic => `(tactic| (
  unfold out0_C
  dsimp only
  rw [View.read_writes_eq_canon _ _ _ ($cov c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p)]))

section
variable (hc0 : ¬cond0_0 i) (hc1 : cond0_1 i) (x0 x1 x2 x3 : Vec F S2048x128 .f32) (p : Acc F)

/-- Accumulator 0 (the count of the first class) after a core's last point. -/
theorem out0_C_s0 : (outC hc0 hc1 x0 x1 x2 x3 p).s0
    = k0_pay35 (k0_pay26 x2 x3) p.s0 := by
  by_cover scover0_C_0
  read_store

/-- Accumulator 1 (the count of the second class) after a core's last point. -/
theorem out0_C_s1 : (outC hc0 hc1 x0 x1 x2 x3 p).s1
    = k0_pay38 (k0_pay29 (k0_pay26 x2 x3) (k0_pay27 x3) (k0_pay28 x2)) p.s1 := by
  by_cover scover0_C_1
  read_store

/-- Accumulator 2 (the count of the third class) after a core's last point. -/
theorem out0_C_s2 : (outC hc0 hc1 x0 x1 x2 x3 p).s2
    = k0_pay41 (k0_pay30 (k0_pay23 x2) (k0_pay24 x3) (k0_pay26 x2 x3) (k0_pay27 x3) (k0_pay28 x2)) p.s2 := by
  by_cover scover0_C_2
  read_store

/-- Accumulator 3 (the count of the fourth class) after a core's last point. -/
theorem out0_C_s3 : (outC hc0 hc1 x0 x1 x2 x3 p).s3
    = k0_pay45 (k0_pay31 (k0_pay23 x2) (k0_pay24 x3) (k0_pay26 x2 x3) (k0_pay27 x3) (k0_pay28 x2)) p.s3 := by
  by_cover scover0_C_3
  read_store

/-- Accumulator 4 (the count of the fifth class) after a core's last point. -/
theorem out0_C_s4 : (outC hc0 hc1 x0 x1 x2 x3 p).s4
    = k0_pay48 (k0_pay32 (k0_pay23 x2) (k0_pay24 x3)) p.s4 := by
  by_cover scover0_C_4
  read_store

/-- Accumulator 5 (the masked sum of the first class) after a core's last point. -/
theorem out0_C_s5 : (outC hc0 hc1 x0 x1 x2 x3 p).s5
    = k0_pay36 (k0_pay34 (k0_pay25 x0 x1 x2 x3) (k0_pay26 x2 x3)) p.s5 := by
  by_cover scover0_C_5
  read_store

/-- Accumulator 6 (the masked sum of the second class) after a core's last point. -/
theorem out0_C_s6 : (outC hc0 hc1 x0 x1 x2 x3 p).s6
    = k0_pay39 (k0_pay25 x0 x1 x2 x3) (k0_pay29 (k0_pay26 x2 x3) (k0_pay27 x3) (k0_pay28 x2)) p.s6 := by
  by_cover scover0_C_6
  read_store

/-- Accumulator 7 (the masked sum of the third class) after a core's last point. -/
theorem out0_C_s7 : (outC hc0 hc1 x0 x1 x2 x3 p).s7
    = k0_pay43 p.s7 (k0_pay42 (k0_pay25 x0 x1 x2 x3) (k0_pay30 (k0_pay23 x2) (k0_pay24 x3) (k0_pay26 x2 x3) (k0_pay27 x3) (k0_pay28 x2))) := by
  by_cover scover0_C_7
  read_store

/-- Accumulator 8 (the masked sum of the fourth class) after a core's last point. -/
theorem out0_C_s8 : (outC hc0 hc1 x0 x1 x2 x3 p).s8
    = k0_pay46 (k0_pay25 x0 x1 x2 x3) (k0_pay31 (k0_pay23 x2) (k0_pay24 x3) (k0_pay26 x2 x3) (k0_pay27 x3) (k0_pay28 x2)) p.s8 := by
  by_cover scover0_C_8
  read_store

/-- Accumulator 9 (the masked sum of the fifth class) after a core's last point. -/
theorem out0_C_s9 : (outC hc0 hc1 x0 x1 x2 x3 p).s9
    = k0_pay1 p.s9 (k0_pay49 (k0_pay25 x0 x1 x2 x3) (k0_pay32 (k0_pay23 x2) (k0_pay24 x3))) := by
  by_cover scover0_C_9
  read_store

end

end Cert.KernelIdeal.Value

end
-- ==== Proof.KernelIdeal.PiecesCOut.lean ====
/-
  What the body leaves in each of the ten result windows at the last of a core's 32 points: after its update the
  accumulator is read back, and its total (lanes summed, then sublanes, the total put at every entry) is stored into
  its result window; that one store covers the window.
-/
import proofs.«126502_j87754771792112_2_alg».proof.Proof.KernelIdeal.Data
import proofs.«126502_j87754771792112_2_alg».proof.Proof.KernelIdeal.CoversC
import Idealize.ShloMosaic.Lib.Pipeline.Value

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic
open Idealize.SL.Sem

variable {F : FTy → Type} [FloatOps F]

/-- Every store and load of the body is through the whole [8,128] or [2048,128] rectangle: offsets zero. -/
private theorem hz : (![0, 0] : Fin 2 → Nat) = fun _ => 0 := funext fun a => by fin_cases a <;> rfl

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S8x128 .f32) (harg25 : arg25.IsWhole)

local notation "outC" => out0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25

/- Open the run's found pieces for one result window and read its one covering store; the accumulator read back
    after its store reads what was stored. -/
set_option hygiene false in
local macro "read_store" : tactic => `(tactic| (
  unfold kernelRun0_C
  dsimp only
  sl_unfold_words
  rw [View.canon_unit_zero hz]
  simp only [View.readCov_unit_zero (S := S8x128) _ hz, View.readAt_eq_ld, harg2.read_unread, harg3.read_unread, harg4.read_unread, harg5.read_unread,
    harg16.read_unread, harg17.read_unread, harg18.read_unread, harg19.read_unread, harg20.read_unread,
    harg21.read_unread, harg22.read_unread, harg23.read_unread, harg24.read_unread, harg25.read_unread,
    View.ld_unit_zero (S := S8x128) hz, View.ld_unit_zero (S := S2048x128) hz]))

set_option hygiene false in
local macro "by_cover" cov:ident : tactic => `(tactic| (
  unfold out0_C
  dsimp only
  rw [View.read_writes_eq_canon _ _ _ ($cov c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 p)]))

section
variable (hc0 : ¬cond0_0 i) (hc1 : cond0_1 i) (x0 x1 x2 x3 : Vec F S2048x128 .f32) (p : Acc F)

/-- Result window 4 after a core's last point: the total of accumulator 0 (the count of the first class), at every entry. -/
theorem out0_C_o4 : (outC hc0 hc1 x0 x1 x2 x3 p).o4
    = k0_pay12 (k0_pay35 (k0_pay26 x2 x3) p.s0) := by
  by_cover cover0_C_4
  read_store

/-- Result window 5 after a core's last point: the total of accumulator 1 (the count of the second class), at every entry. -/
theorem out0_C_o5 : (outC hc0 hc1 x0 x1 x2 x3 p).o5
    = k0_pay13 (k0_pay38 (k0_pay29 (k0_pay26 x2 x3) (k0_pay27 x3) (k0_pay28 x2)) p.s1) := by
  by_cover cover0_C_5
  read_store

/-- Result window 6 after a core's last point: the total of accumulator 2 (the count of the third class), at every entry. -/
theorem out0_C_o6 : (outC hc0 hc1 x0 x1 x2 x3 p).o6
    = k0_pay14 (k0_pay41 (k0_pay30 (k0_pay23 x2) (k0_pay24 x3) (k0_pay26 x2 x3) (k0_pay27 x3) (k0_pay28 x2)) p.s2) := by
  by_cover cover0_C_6
  read_store

/-- Result window 7 after a core's last point: the total of accumulator 3 (the count of the fourth class), at every entry. -/
theorem out0_C_o7 : (outC hc0 hc1 x0 x1 x2 x3 p).o7
    = k0_pay15 (k0_pay45 (k0_pay31 (k0_pay23 x2) (k0_pay24 x3) (k0_pay26 x2 x3) (k0_pay27 x3) (k0_pay28 x2)) p.s3) := by
  by_cover cover0_C_7
  read_store

/-- Result window 8 after a core's last point: the total of accumulator 4 (the count of the fifth class), at every entry. -/
theorem out0_C_o8 : (outC hc0 hc1 x0 x1 x2 x3 p).o8
    = k0_pay16 (k0_pay48 (k0_pay32 (k0_pay23 x2) (k0_pay24 x3)) p.s4) := by
  by_cover cover0_C_8
  read_store

/-- Result window 9 after a core's last point: the total of accumulator 5 (the masked sum of the first class), at every entry. -/
theorem out0_C_o9 : (outC hc0 hc1 x0 x1 x2 x3 p).o9
    = k0_pay17 (k0_pay36 (k0_pay34 (k0_pay25 x0 x1 x2 x3) (k0_pay26 x2 x3)) p.s5) := by
  by_cover cover0_C_9
  read_store

/-- Result window 10 after a core's last point: the total of accumulator 6 (the masked sum of the second class), at every entry. -/
theorem out0_C_o10 : (outC hc0 hc1 x0 x1 x2 x3 p).o10
    = k0_pay18 (k0_pay39 (k0_pay25 x0 x1 x2 x3) (k0_pay29 (k0_pay26 x2 x3) (k0_pay27 x3) (k0_pay28 x2)) p.s6) := by
  by_cover cover0_C_10
  read_store

/-- Result window 11 after a core's last point: the total of accumulator 7 (the masked sum of the third class), at every entry. -/
theorem out0_C_o11 : (outC hc0 hc1 x0 x1 x2 x3 p).o11
    = k0_pay19 (k0_pay43 p.s7 (k0_pay42 (k0_pay25 x0 x1 x2 x3) (k0_pay30 (k0_pay23 x2) (k0_pay24 x3) (k0_pay26 x2 x3) (k0_pay27 x3) (k0_pay28 x2)))) := by
  by_cover cover0_C_11
  read_store

/-- Result window 12 after a core's last point: the total of accumulator 8 (the masked sum of the fourth class), at every entry. -/
theorem out0_C_o12 : (outC hc0 hc1 x0 x1 x2 x3 p).o12
    = k0_pay2 (k0_pay46 (k0_pay25 x0 x1 x2 x3) (k0_pay31 (k0_pay23 x2) (k0_pay24 x3) (k0_pay26 x2 x3) (k0_pay27 x3) (k0_pay28 x2)) p.s8) := by
  by_cover cover0_C_12
  read_store

/-- Result window 13 after a core's last point: the total of accumulator 9 (the masked sum of the fifth class), at every entry. -/
theorem out0_C_o13 : (outC hc0 hc1 x0 x1 x2 x3 p).o13
    = k0_pay3 (k0_pay1 p.s9 (k0_pay49 (k0_pay25 x0 x1 x2 x3) (k0_pay32 (k0_pay23 x2) (k0_pay24 x3)))) := by
  by_cover cover0_C_13
  read_store

end

end Cert.KernelIdeal.Value

end
-- ==== Proof.PayloadReadsAcc.lean ====
/-
  The kernel's stored values on the [8,128] accumulator and output blocks, read at an index over the extended reals:
  an accumulator update adds, to the old entry (a, b), the sum over the 256 row groups g of the block's entry at row
  8 g + a, lane b; a finalisation puts the block's total (lanes summed, then sublanes) at every entry; an
  initialisation puts 0 at every entry.
-/
import proofs.«126502_j87754771792112_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

open scoped BigOperators

noncomputable section
namespace Cert.Bridge.Payload

open Idealize.ShloMosaic Idealize.ShloMosaic.ValueIdx Cert.KernelIdeal Cert.KernelIdeal.Gen

/-- The sum over the 128 lanes, then over the 8 sublanes, broadcast back to an [8,128] block: every entry of the
    result is the total of the block. -/
theorem total_broadcast_apply (v : Vec Ideal S8x128 .f32) (a : Fin 8) (b : Fin 128) :
    broadcastTo S8x128
      (shapeCast S1x1
        (shapeCast S1x1
          (multiReduction (F := Ideal) .add [0] S1
            (shapeCast S8x1
              (multiReduction (F := Ideal) .add [1] S8 v 0x00000000#32 reduces_S8x128_S8 (.inl rfl) rfl)
              shapeCasts_S8_S8x1)
            0x00000000#32 reduces_S8x1_S1 (.inl rfl) rfl)
          shapeCasts_S1_S1x1)
        shapeCasts_S1x1_S1x1)
      broadcasts_S1x1_S8x128 (ix2 a b)
    = ∑ s : Fin 8, ∑ l : Fin 128, v (ix2 s l) := by
  refine (broadcastTo_apply _ _ (ix2 a b) (ix2 (0 : Fin 1) (0 : Fin 1)) ?_).trans ?_
  · intro c
    match c with
    | ⟨0, _⟩ => rfl
    | ⟨1, _⟩ => rfl
  rw [shapeCast_self]
  refine (shapeCast_a_1a_apply _ _ (0 : Fin 1) (0 : Fin 1)).trans ?_
  refine (Ideal.multiReduction_add_single _ _ reduces_S8x1_S1 _ _ (ix1 (0 : Fin 1))).trans ?_
  show (∑ s : Fin 8, _) = _
  refine Finset.sum_congr rfl fun s _ => ?_
  have e1 : reduces_S8x1_S1.lift (ix1 (0 : Fin 1)) s = ix2 s (0 : Fin 1) :=
    funext fun c => Fin.ext (by match c with | ⟨0, _⟩ => rfl | ⟨1, _⟩ => rfl)
  rw [e1]
  refine (shapeCast_apply _ shapeCasts_S8_S8x1 (ix2 s (0 : Fin 1)) (ix1 s) ?_).trans ?_
  · rw [Shape.rowMajor_val_two, Shape.rowMajor_val_one]
    show s.val = s.val * 1 + 0
    omega
  refine (Ideal.multiReduction_add_single _ _ reduces_S8x128_S8 _ _ (ix1 s)).trans ?_
  show (∑ l : Fin 128, _) = _
  refine Finset.sum_congr rfl fun l _ => ?_
  exact congrArg v (funext fun c => Fin.ext (by match c with | ⟨0, _⟩ => rfl | ⟨1, _⟩ => rfl))

/-- One accumulator update: the [2048,128] block is viewed as 256 groups of 8 rows (row 8 g + a is row a of group g),
    the groups are added up, and the result is added to the old accumulator. -/
theorem accumulate_apply (old : Vec Ideal S8x128 .f32) (term : FVec Ideal S2048x128 .f32) (a : Fin 8) (b : Fin 128) :
    shapeCast S8x128
      (addf old
        (multiReduction (F := Ideal) .add [0] S8x128
          (shapeCast S256x8x128 term shapeCasts_S2048x128_S256x8x128)
          0x00000000#32 reduces_S256x8x128_S8x128 (.inl rfl) rfl))
      shapeCasts_S8x128_S8x128 (ix2 a b)
    = old (ix2 a b) + ∑ g : Fin 256, term (ix2 (⟨8 * g.val + a.val, by omega⟩ : Fin 2048) b) := by
  rw [shapeCast_self]
  refine congrArg (old (ix2 a b) + ·) ?_
  refine (Ideal.multiReduction_add_single _ _ reduces_S256x8x128_S8x128 _ _ (ix2 a b)).trans ?_
  show (∑ g : Fin 256, _) = _
  refine Finset.sum_congr rfl fun g _ => ?_
  refine shapeCast_apply term _ _ (ix2 (⟨8 * g.val + a.val, by omega⟩ : Fin 2048) b) ?_
  rw [Shape.rowMajor_val_two, Shape.rowMajor_val_three]
  show (8 * g.val + a.val) * 128 + b.val = (g.val * 8 + a.val) * 128 + b.val
  omega

/-- A block of zeros. -/
theorem zero_block_apply (a : Fin 8) (b : Fin 128) :
    shapeCast S8x128 (broadcast S8x128 (Scalar.ofBits (F := Ideal) .f32 0x00000000#32)) shapeCasts_S8x128_S8x128 (ix2 a b)
      = (0 : EReal) := by
  rw [shapeCast_self]
  exact Ideal.ofBits_zero_f32

/-! ## The ten finalisations -/

theorem k0_pay2_apply (v : Vec Ideal S8x128 .f32) (a : Fin 8) (b : Fin 128) :
    k0_pay2 (F := Ideal) v (ix2 a b) = ∑ s : Fin 8, ∑ l : Fin 128, v (ix2 s l) :=
  total_broadcast_apply v a b

theorem k0_pay3_apply (v : Vec Ideal S8x128 .f32) (a : Fin 8) (b : Fin 128) :
    k0_pay3 (F := Ideal) v (ix2 a b) = ∑ s : Fin 8, ∑ l : Fin 128, v (ix2 s l) :=
  total_broadcast_apply v a b

theorem k0_pay12_apply (v : Vec Ideal S8x128 .f32) (a : Fin 8) (b : Fin 128) :
    k0_pay12 (F := Ideal) v (ix2 a b) = ∑ s : Fin 8, ∑ l : Fin 128, v (ix2 s l) :=
  total_broadcast_apply v a b

theorem k0_pay13_apply (v : Vec Ideal S8x128 .f32) (a : Fin 8) (b : Fin 128) :
    k0_pay13 (F := Ideal) v (ix2 a b) = ∑ s : Fin 8, ∑ l : Fin 128, v (ix2 s l) :=
  total_broadcast_apply v a b

theorem k0_pay14_apply (v : Vec Ideal S8x128 .f32) (a : Fin 8) (b : Fin 128) :
    k0_pay14 (F := Ideal) v (ix2 a b) = ∑ s : Fin 8, ∑ l : Fin 128, v (ix2 s l) :=
  total_broadcast_apply v a b

theorem k0_pay15_apply (v : Vec Ideal S8x128 .f32) (a : Fin 8) (b : Fin 128) :
    k0_pay15 (F := Ideal) v (ix2 a b) = ∑ s : Fin 8, ∑ l : Fin 128, v (ix2 s l) :=
  total_broadcast_apply v a b

theorem k0_pay16_apply (v : Vec Ideal S8x128 .f32) (a : Fin 8) (b : Fin 128) :
    k0_pay16 (F := Ideal) v (ix2 a b) = ∑ s : Fin 8, ∑ l : Fin 128, v (ix2 s l) :=
  total_broadcast_apply v a b

theorem k0_pay17_apply (v : Vec Ideal S8x128 .f32) (a : Fin 8) (b : Fin 128) :
    k0_pay17 (F := Ideal) v (ix2 a b) = ∑ s : Fin 8, ∑ l : Fin 128, v (ix2 s l) :=
  total_broadcast_apply v a b

theorem k0_pay18_apply (v : Vec Ideal S8x128 .f32) (a : Fin 8) (b : Fin 128) :
    k0_pay18 (F := Ideal) v (ix2 a b) = ∑ s : Fin 8, ∑ l : Fin 128, v (ix2 s l) :=
  total_broadcast_apply v a b

theorem k0_pay19_apply (v : Vec Ideal S8x128 .f32) (a : Fin 8) (b : Fin 128) :
    k0_pay19 (F := Ideal) v (ix2 a b) = ∑ s : Fin 8, ∑ l : Fin 128, v (ix2 s l) :=
  total_broadcast_apply v a b

/-! ## The ten accumulator updates -/

theorem k0_pay35_apply (w : IVec S2048x128 1) (old : Vec Ideal S8x128 .f32) (a : Fin 8) (b : Fin 128) :
    k0_pay35 (F := Ideal) w old (ix2 a b)
      = old (ix2 a b) + ∑ g : Fin 256, k0_pay33 (F := Ideal) w (ix2 (⟨8 * g.val + a.val, by omega⟩ : Fin 2048) b) :=
  accumulate_apply old _ a b

theorem k0_pay38_apply (w : IVec S2048x128 1) (old : Vec Ideal S8x128 .f32) (a : Fin 8) (b : Fin 128) :
    k0_pay38 (F := Ideal) w old (ix2 a b)
      = old (ix2 a b) + ∑ g : Fin 256, k0_pay37 (F := Ideal) w (ix2 (⟨8 * g.val + a.val, by omega⟩ : Fin 2048) b) :=
  accumulate_apply old _ a b

theorem k0_pay41_apply (w : IVec S2048x128 1) (old : Vec Ideal S8x128 .f32) (a : Fin 8) (b : Fin 128) :
    k0_pay41 (F := Ideal) w old (ix2 a b)
      = old (ix2 a b) + ∑ g : Fin 256, k0_pay40 (F := Ideal) w (ix2 (⟨8 * g.val + a.val, by omega⟩ : Fin 2048) b) :=
  accumulate_apply old _ a b

theorem k0_pay45_apply (w : IVec S2048x128 1) (old : Vec Ideal S8x128 .f32) (a : Fin 8) (b : Fin 128) :
    k0_pay45 (F := Ideal) w old (ix2 a b)
      = old (ix2 a b) + ∑ g : Fin 256, k0_pay44 (F := Ideal) w (ix2 (⟨8 * g.val + a.val, by omega⟩ : Fin 2048) b) :=
  accumulate_apply old _ a b

theorem k0_pay48_apply (w : IVec S2048x128 1) (old : Vec Ideal S8x128 .f32) (a : Fin 8) (b : Fin 128) :
    k0_pay48 (F := Ideal) w old (ix2 a b)
      = old (ix2 a b) + ∑ g : Fin 256, k0_pay47 (F := Ideal) w (ix2 (⟨8 * g.val + a.val, by omega⟩ : Fin 2048) b) :=
  accumulate_apply old _ a b

theorem k0_pay36_apply (t : FVec Ideal S2048x128 .f32) (old : Vec Ideal S8x128 .f32) (a : Fin 8) (b : Fin 128) :
    k0_pay36 (F := Ideal) t old (ix2 a b)
      = old (ix2 a b) + ∑ g : Fin 256, t (ix2 (⟨8 * g.val + a.val, by omega⟩ : Fin 2048) b) :=
  accumulate_apply old t a b

theorem k0_pay39_apply (p : FVec Ideal S2048x128 .f32) (w : IVec S2048x128 1) (old : Vec Ideal S8x128 .f32)
    (a : Fin 8) (b : Fin 128) :
    k0_pay39 (F := Ideal) p w old (ix2 a b)
      = old (ix2 a b) + ∑ g : Fin 256, mulf (k0_pay37 (F := Ideal) w) p (ix2 (⟨8 * g.val + a.val, by omega⟩ : Fin 2048) b) :=
  accumulate_apply old _ a b

theorem k0_pay46_apply (p : FVec Ideal S2048x128 .f32) (w : IVec S2048x128 1) (old : Vec Ideal S8x128 .f32)
    (a : Fin 8) (b : Fin 128) :
    k0_pay46 (F := Ideal) p w old (ix2 a b)
      = old (ix2 a b) + ∑ g : Fin 256, mulf (k0_pay44 (F := Ideal) w) p (ix2 (⟨8 * g.val + a.val, by omega⟩ : Fin 2048) b) :=
  accumulate_apply old _ a b

theorem k0_pay43_apply (p : FVec Ideal S2048x128 .f32) (w : IVec S2048x128 1) (old : Vec Ideal S8x128 .f32)
    (a : Fin 8) (b : Fin 128) :
    k0_pay43 (F := Ideal) old (k0_pay42 (F := Ideal) p w) (ix2 a b)
      = old (ix2 a b) + ∑ g : Fin 256, mulf (k0_pay40 (F := Ideal) w) p (ix2 (⟨8 * g.val + a.val, by omega⟩ : Fin 2048) b) :=
  accumulate_apply old _ a b

theorem k0_pay1_apply (p : FVec Ideal S2048x128 .f32) (w : IVec S2048x128 1) (old : Vec Ideal S8x128 .f32)
    (a : Fin 8) (b : Fin 128) :
    k0_pay1 (F := Ideal) old (k0_pay49 (F := Ideal) p w) (ix2 a b)
      = old (ix2 a b) + ∑ g : Fin 256, mulf (k0_pay47 (F := Ideal) w) p (ix2 (⟨8 * g.val + a.val, by omega⟩ : Fin 2048) b) :=
  accumulate_apply old _ a b

/-! ## The zero initialisations -/

theorem k0_pay4_apply (a : Fin 8) (b : Fin 128) : k0_pay4 (F := Ideal) (ix2 a b) = (0 : EReal) :=
  zero_block_apply a b

theorem k0_pay5_apply (a : Fin 8) (b : Fin 128) : k0_pay5 (F := Ideal) (ix2 a b) = (0 : EReal) :=
  zero_block_apply a b

theorem k0_pay6_apply (a : Fin 8) (b : Fin 128) : k0_pay6 (F := Ideal) (ix2 a b) = (0 : EReal) :=
  zero_block_apply a b

theorem k0_pay7_apply (a : Fin 8) (b : Fin 128) : k0_pay7 (F := Ideal) (ix2 a b) = (0 : EReal) :=
  zero_block_apply a b

theorem k0_pay8_apply (a : Fin 8) (b : Fin 128) : k0_pay8 (F := Ideal) (ix2 a b) = (0 : EReal) :=
  zero_block_apply a b

theorem k0_pay9_apply (a : Fin 8) (b : Fin 128) : k0_pay9 (F := Ideal) (ix2 a b) = (0 : EReal) :=
  zero_block_apply a b

theorem k0_pay10_apply (a : Fin 8) (b : Fin 128) : k0_pay10 (F := Ideal) (ix2 a b) = (0 : EReal) :=
  zero_block_apply a b

theorem k0_pay21_apply (a : Fin 8) (b : Fin 128) : k0_pay21 (F := Ideal) (ix2 a b) = (0 : EReal) :=
  zero_block_apply a b

theorem k0_pay22_apply (a : Fin 8) (b : Fin 128) : k0_pay22 (F := Ideal) (ix2 a b) = (0 : EReal) :=
  zero_block_apply a b

theorem k0_pay11_apply (a : Fin 8) (b : Fin 128) : k0_pay11 (F := Ideal) (ix2 a b) = (0 : EReal) :=
  Ideal.ofBits_zero_f32

/-- A same-shape cast of a block reads the block. -/
theorem k0_pay20_apply' (v : FVec Ideal S8x128 .f32) (a : Fin 8) (b : Fin 128) :
    k0_pay20 (F := Ideal) v (ix2 a b) = v (ix2 a b) :=
  congrFun (shapeCast_self v shapeCasts_S8x128_S8x128) (ix2 a b)

theorem k0_pay20_apply (a : Fin 8) (b : Fin 128) : k0_pay20 (F := Ideal) (k0_pay11 (F := Ideal)) (ix2 a b) = (0 : EReal) :=
  (k0_pay20_apply' _ a b).trans (k0_pay11_apply a b)

end Cert.Bridge.Payload
-- ==== Proof.RefRead.lean ====
/-
  The reference program read one operation at a time: the stage functions val_main_vN and their read-at-an-index
  lemmas. Everything about the reference's value imports this one name.
-/
import proofs.«126502_j87754771792112_2_alg».proof.Proof.RefStages
-- ==== Proof.LibBlockSums.lean ====
import Mathlib.Algebra.BigOperators.Fin
import Mathlib.Algebra.BigOperators.Intervals
import Mathlib.Data.EReal.Basic

/-!
# A mask as a number, and a sum over a long axis regrouped block by block

* `maskf w` is the one-bit word `w` read as the extended real `1` (bit set) or `0` (bit clear);
  multiplying by it keeps a value or replaces it by `0`, for every extended real, the infinite ones included.
* An array of `2 * 32 * 2048 * 128` entries, viewed as `2 * 32` blocks of `2048` rows of `128` lanes, each
  block's rows grouped as `256` groups of `8` sublanes: `flat c t g a b` is the position of lane `b` of
  sublane `a` of group `g` of block `c * 32 + t`. Summing over all five coordinates, in any order of the
  coordinates, is summing over all positions.
-/

open scoped BigOperators

namespace Cert.BlockSums

/-- A one-bit word read as a number: `1` when the bit is set, `0` when it is clear. -/
noncomputable def maskf (w : BitVec 1) : EReal := if w = 1#1 then 1 else 0

/-- Multiplying by a mask keeps the value where the bit is set and gives `0` where it is clear; this holds
for every extended real `x`, since `1 * x = x` and `0 * x = 0` there without exception. -/
theorem maskf_mul (w : BitVec 1) (x : EReal) : maskf w * x = if w = 1#1 then x else 0 := by
  unfold maskf
  split
  · exact one_mul x
  · exact zero_mul x

/-- The position, in the flattened array, of lane `b` of sublane `a` of row group `g` of block `c * 32 + t`:
blocks hold `2048` rows, a row holds `128` lanes, and row `8 * g + a` of a block is sublane `a` of group `g`. -/
def flat (c t g a b : ℕ) : ℕ := ((c * 32 + t) * 2048 + (8 * g + a)) * 128 + b

section
variable {M : Type*} [AddCommMonoid M]

/-- A sum over the first `m * n` naturals is the sum over `m` consecutive runs of length `n`. -/
theorem sum_range_mul (m n : ℕ) (f : ℕ → M) :
    ∑ k ∈ Finset.range (m * n), f k = ∑ a ∈ Finset.range m, ∑ b ∈ Finset.range n, f (a * n + b) := by
  induction m with
  | zero => simp
  | succ m ih => rw [Nat.succ_mul, Finset.sum_range_add, ih, Finset.sum_range_succ]

/-- A sum over `m * n` consecutive positions is the sum over the run `a < m` and the offset `b < n` of the
value at position `a * n + b`. -/
theorem sum_fin_mul (m n : ℕ) (f : ℕ → M) :
    ∑ k : Fin (m * n), f k.val = ∑ a : Fin m, ∑ b : Fin n, f (a.val * n + b.val) := by
  rw [Fin.sum_univ_eq_sum_range (fun k => f k) (m * n), sum_range_mul,
    ← Fin.sum_univ_eq_sum_range (fun a => ∑ b ∈ Finset.range n, f (a * n + b)) m]
  refine Finset.sum_congr rfl fun a _ => ?_
  exact (Fin.sum_univ_eq_sum_range (fun b => f (a.val * n + b)) n).symm

/-- Four nested finite sums with the outer pair and the inner pair exchanged. -/
theorem sum_swap_pairs {α β τ γ : Type*} [Fintype α] [Fintype β] [Fintype τ] [Fintype γ]
    (F : α → β → τ → γ → M) :
    ∑ a, ∑ b, ∑ t, ∑ g, F a b t g = ∑ t, ∑ g, ∑ a, ∑ b, F a b t g := by
  calc ∑ a, ∑ b, ∑ t, ∑ g, F a b t g
      = ∑ a, ∑ t, ∑ b, ∑ g, F a b t g := Finset.sum_congr rfl fun a _ => Finset.sum_comm
    _ = ∑ t, ∑ a, ∑ b, ∑ g, F a b t g := Finset.sum_comm
    _ = ∑ t, ∑ a, ∑ g, ∑ b, F a b t g :=
        Finset.sum_congr rfl fun t _ => Finset.sum_congr rfl fun a _ => Finset.sum_comm
    _ = ∑ t, ∑ g, ∑ a, ∑ b, F a b t g := Finset.sum_congr rfl fun t _ => Finset.sum_comm

/-- The regrouping at arbitrary extents: `N = C * T * S * B` positions, `C * T` blocks of `S = G * A` rows of
`B` lanes. Summing first over the groups `g` and the blocks `t` of one half `c`, for each sublane `a` and
lane `b`, then over lanes, sublanes and halves, visits every position exactly once. -/
theorem sum_blocks_gen (C T G A B S N : ℕ) (hS : S = G * A) (hN : N = C * T * S * B) (f : ℕ → M) :
    (∑ c : Fin C, ∑ a : Fin A, ∑ b : Fin B, ∑ t : Fin T, ∑ g : Fin G,
        f (((c.val * T + t.val) * S + (A * g.val + a.val)) * B + b.val)) = ∑ n : Fin N, f n.val := by
  subst hS hN
  rw [sum_fin_mul (C * T * (G * A)) B f,
    sum_fin_mul (C * T) (G * A) (fun r => ∑ b : Fin B, f (r * B + b.val)),
    sum_fin_mul C T (fun k => ∑ s : Fin (G * A), ∑ b : Fin B, f ((k * (G * A) + s.val) * B + b.val))]
  refine Finset.sum_congr rfl fun c _ => ?_
  rw [sum_swap_pairs]
  refine Finset.sum_congr rfl fun t _ => ?_
  rw [sum_fin_mul G A (fun s => ∑ b : Fin B, f (((c.val * T + t.val) * (G * A) + s) * B + b.val))]
  refine Finset.sum_congr rfl fun g _ => Finset.sum_congr rfl fun a _ => Finset.sum_congr rfl fun b _ => ?_
  rw [Nat.mul_comm A g.val]

/-- Summing a function of the position over both halves, all sublanes, all lanes, all blocks of a half and all
row groups of a block is summing it over all `16777216` positions. -/
theorem sum_blocks (f : ℕ → M) :
    (∑ c : Fin 2, ∑ a : Fin 8, ∑ b : Fin 128, ∑ t : Fin 32, ∑ g : Fin 256, f (flat c t g a b))
      = ∑ n : Fin 16777216, f n :=
  sum_blocks_gen 2 32 256 8 128 2048 16777216 (by norm_num) (by norm_num) f

end

/-- Every position named by in-range coordinates lies inside the array. -/
theorem flat_lt {c t g a b : ℕ} (hc : c < 2) (ht : t < 32) (hg : g < 256) (ha : a < 8) (hb : b < 128) :
    flat c t g a b < 16777216 := by
  unfold flat
  omega

end Cert.BlockSums
-- ==== Proof.PayloadReadsMasks.lean ====
/-
  The kernel's pointwise values on a [2048,128] block, read at an index over the extended reals and matched with the
  reference's stage functions at the flat index j that the block entry (r, l) holds: the per-sample error term, the five
  class masks (each a Boolean combination of comparisons of d and s with constants; the kernel complements a bit by
  exclusive-or with the set bit, which on one bit is the complement), and a mask bit read as the number 1 or 0 and
  multiplied into the error term.
-/
import proofs.«126502_j87754771792112_2_alg».proof.Proof.Gen.KernelIdeal.Skeleton
import proofs.«126502_j87754771792112_2_alg».proof.Proof.RefRead
import proofs.«126502_j87754771792112_2_alg».proof.Proof.LibBlockSums
import Idealize.ShloMosaic.Lib.ValueIdx
import Idealize.ShloMosaic.Lib.Pipeline.Value
import Idealize.ShloMosaic.Lib.ValueLayout
import Idealize.ShloMosaic.PureOps.Ideal.Laws

open scoped BigOperators

noncomputable section
namespace Cert.Bridge.Payload

open Idealize.ShloMosaic Idealize.ShloMosaic.ValueIdx Cert.KernelIdeal Cert.KernelIdeal.Gen
open Cert.ReferenceIdeal.Read

/-- On one bit, exclusive-or with the set bit is complement. -/
theorem xori_true (a : BitVec 1) : IntOp.xori a 1#1 = ~~~a := by
  revert a; decide

/-- A same-shape cast of a loaded block reads the block. -/
theorem k0_pay23_apply (v7 : Vec Ideal S2048x128 .f32) (r : Fin 2048) (l : Fin 128) :
    k0_pay23 (F := Ideal) v7 (ix2 r l) = v7 (ix2 r l) :=
  congrFun (shapeCast_self v7 _) _

theorem k0_pay24_apply (v9 : Vec Ideal S2048x128 .f32) (r : Fin 2048) (l : Fin 128) :
    k0_pay24 (F := Ideal) v9 (ix2 r l) = v9 (ix2 r l) :=
  congrFun (shapeCast_self v9 _) _

section Masks
variable (v7 v9 : Vec Ideal S2048x128 .f32) (r : Fin 2048) (l : Fin 128)
  (x3 x4 : (⟨S16777216, .f32⟩ : BufTy).Contents (Elt Ideal)) (j : S16777216.Idx)
  (h7 : v7 (ix2 r l) = x3 j) (h9 : v9 (ix2 r l) = x4 j)

include h7 in
theorem k0_pay23_read : k0_pay23 (F := Ideal) v7 (ix2 r l) = x3 j := (k0_pay23_apply v7 r l).trans h7

include h9 in
theorem k0_pay24_read : k0_pay24 (F := Ideal) v9 (ix2 r l) = x4 j := (k0_pay24_apply v9 r l).trans h9

include h7 h9 in
/-- normal: s < 120 and d < 80. -/
theorem k0_pay26_apply :
    k0_pay26 (F := Ideal) v7 v9 (ix2 r l) = val_main_v5 (F := Ideal) x3 x4 j := by
  rw [val_main_v5_apply, val_main_v2_apply, val_main_v4_apply, val_main_v1_apply, val_main_v3_apply,
    val_main_cst_apply, val_main_cst_0_apply, ← k0_pay23_read v7 r l x3 j h7, ← k0_pay24_read v9 r l x4 j h9]
  rfl

include h9 in
/-- 120 ≤ s < 130. -/
theorem k0_pay27_apply :
    k0_pay27 (F := Ideal) v9 (ix2 r l) = val_main_v10 (F := Ideal) x4 j := by
  rw [val_main_v10_apply, val_main_v7_apply, val_main_v9_apply, val_main_v6_apply, val_main_v8_apply,
    val_main_cst_1_apply, val_main_cst_2_apply, ← k0_pay24_read v9 r l x4 j h9]
  rfl

include h7 in
/-- d < 80. -/
theorem k0_pay28_apply :
    k0_pay28 (F := Ideal) v7 (ix2 r l) = val_main_v12 (F := Ideal) x3 j := by
  rw [val_main_v12_apply, val_main_v11_apply, val_main_cst_3_apply, ← k0_pay23_read v7 r l x3 j h7]
  rfl

include h7 h9 in
/-- elevated: 120 ≤ s < 130 and d < 80, and not normal. -/
theorem k0_pay29_apply :
    k0_pay29 (k0_pay26 (F := Ideal) v7 v9) (k0_pay27 (F := Ideal) v9) (k0_pay28 (F := Ideal) v7) (ix2 r l)
      = val_main_v15 (F := Ideal) x3 x4 j := by
  rw [val_main_v15_apply, val_main_v13_apply, val_main_v14_apply, ← k0_pay26_apply v7 v9 r l x3 x4 j h7 h9,
    ← k0_pay27_apply v9 r l x4 j h9, ← k0_pay28_apply v7 r l x3 j h7, ← xori_true]
  rfl

include h7 h9 in
/-- stage-1 hypertension: 130 ≤ s < 140 or 80 ≤ d < 90, and neither normal nor elevated. -/
theorem k0_pay30_apply :
    k0_pay30 (F := Ideal) (k0_pay23 v7) (k0_pay24 v9) (k0_pay26 v7 v9) (k0_pay27 v9) (k0_pay28 v7) (ix2 r l)
      = val_main_v29 (F := Ideal) x3 x4 j := by
  rw [val_main_v29_apply, val_main_v26_apply, val_main_v28_apply, val_main_v27_apply, val_main_v20_apply,
    val_main_v25_apply, val_main_v17_apply, val_main_v19_apply, val_main_v22_apply, val_main_v24_apply,
    val_main_v16_apply, val_main_v18_apply, val_main_v21_apply, val_main_v23_apply, val_main_cst_4_apply,
    val_main_cst_5_apply, val_main_cst_6_apply, val_main_cst_7_apply,
    ← k0_pay26_apply v7 v9 r l x3 x4 j h7 h9, ← k0_pay29_apply v7 v9 r l x3 x4 j h7 h9,
    ← k0_pay23_read v7 r l x3 j h7, ← k0_pay24_read v9 r l x4 j h9, ← xori_true]
  rfl

include h7 h9 in
/-- stage-2 hypertension: s ≥ 140 or d ≥ 90, and none of the three classes before. -/
theorem k0_pay31_apply :
    k0_pay31 (F := Ideal) (k0_pay23 v7) (k0_pay24 v9) (k0_pay26 v7 v9) (k0_pay27 v9) (k0_pay28 v7) (ix2 r l)
      = val_main_v38 (F := Ideal) x3 x4 j := by
  rw [val_main_v38_apply, val_main_v34_apply, val_main_v37_apply, val_main_v36_apply, val_main_v35_apply,
    val_main_v31_apply, val_main_v33_apply, val_main_v30_apply, val_main_v32_apply, val_main_cst_8_apply,
    val_main_cst_9_apply,
    ← k0_pay26_apply v7 v9 r l x3 x4 j h7 h9, ← k0_pay29_apply v7 v9 r l x3 x4 j h7 h9,
    ← k0_pay30_apply v7 v9 r l x3 x4 j h7 h9,
    ← k0_pay23_read v7 r l x3 j h7, ← k0_pay24_read v9 r l x4 j h9, ← xori_true]
  rfl

include h7 h9 in
/-- crisis: s > 180 or d > 120. -/
theorem k0_pay32_apply :
    k0_pay32 (F := Ideal) (k0_pay23 v7) (k0_pay24 v9) (ix2 r l) = val_main_v43 (F := Ideal) x3 x4 j := by
  rw [val_main_v43_apply, val_main_v40_apply, val_main_v42_apply, val_main_v39_apply, val_main_v41_apply,
    val_main_cst_10_apply, val_main_cst_11_apply,
    ← k0_pay23_read v7 r l x3 j h7, ← k0_pay24_read v9 r l x4 j h9]
  rfl

end Masks

/-- The per-sample error term: 2 |p - d| / (|p| + |d|) + 2 |q - s| / (|q| + |s|). -/
theorem k0_pay25_apply (v3 v5 v7 v9 : Vec Ideal S2048x128 .f32) (r : Fin 2048) (l : Fin 128)
    (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (j : S16777216.Idx)
    (h3 : v3 (ix2 r l) = x0 j) (h5 : v5 (ix2 r l) = val_main_v0 (F := Ideal) x1 j)
    (h7 : v7 (ix2 r l) = x3 j) (h9 : v9 (ix2 r l) = x4 j) :
    k0_pay25 (F := Ideal) v3 v5 v7 v9 (ix2 r l) = val_main_v60 (F := Ideal) x0 x1 x3 x4 j := by
  have h4 : shapeCast S2048x128 v3 shapeCasts_S2048x128_S2048x128 (ix2 r l) = x0 j :=
    (congrFun (shapeCast_self v3 _) _).trans h3
  have h6 : shapeCast S2048x128 v5 shapeCasts_S2048x128_S2048x128 (ix2 r l) = val_main_v0 (F := Ideal) x1 j :=
    (congrFun (shapeCast_self v5 _) _).trans h5
  rw [val_main_v60_apply, val_main_v51_apply, val_main_v59_apply, val_main_v47_apply, val_main_v50_apply,
    val_main_v55_apply, val_main_v58_apply, val_main_v46_apply, val_main_v54_apply, val_main_v45_apply,
    val_main_v53_apply, val_main_v48_apply, val_main_v49_apply, val_main_v56_apply, val_main_v57_apply,
    val_main_v44_apply, val_main_v52_apply, val_main_cst_12_apply, val_main_cst_13_apply,
    ← h4, ← h6, ← k0_pay23_read v7 r l x3 j h7, ← k0_pay24_read v9 r l x4 j h9]
  rfl

/-! ## A mask bit as a number -/

/-- The bit, widened to 32 bits and read as a signed integer, is 1 when set and 0 when clear. -/
theorem sitofp_bit (w : BitVec 1) :
    FloatOps.sitofp (F := Ideal) .f32 (w.setWidth 32) = Cert.BlockSums.maskf w := by
  rcases BitVec.eq_zero_or_eq_one w with h | h <;> subst h
  · show (((BitVec.setWidth 32 0#1).toInt : ℝ) : EReal) = _
    simp [Cert.BlockSums.maskf]
  · show (((BitVec.setWidth 32 1#1).toInt : ℝ) : EReal) = _
    simp [Cert.BlockSums.maskf]

theorem k0_pay33_apply (w : IVec S2048x128 1) (r : Fin 2048) (l : Fin 128) :
    k0_pay33 (F := Ideal) w (ix2 r l) = Cert.BlockSums.maskf (w (ix2 r l)) :=
  sitofp_bit (w (ix2 r l))

theorem mulf_k0_pay33_apply (w : IVec S2048x128 1) (p : FVec Ideal S2048x128 .f32) (r : Fin 2048) (l : Fin 128) :
    mulf (k0_pay33 (F := Ideal) w) p (ix2 r l) = Cert.BlockSums.maskf (w (ix2 r l)) * p (ix2 r l) :=
  congrArg (· * p (ix2 r l)) (k0_pay33_apply w r l)

theorem k0_pay37_apply (w : IVec S2048x128 1) (r : Fin 2048) (l : Fin 128) :
    k0_pay37 (F := Ideal) w (ix2 r l) = Cert.BlockSums.maskf (w (ix2 r l)) :=
  sitofp_bit (w (ix2 r l))

theorem mulf_k0_pay37_apply (w : IVec S2048x128 1) (p : FVec Ideal S2048x128 .f32) (r : Fin 2048) (l : Fin 128) :
    mulf (k0_pay37 (F := Ideal) w) p (ix2 r l) = Cert.BlockSums.maskf (w (ix2 r l)) * p (ix2 r l) :=
  congrArg (· * p (ix2 r l)) (k0_pay37_apply w r l)

theorem k0_pay40_apply (w : IVec S2048x128 1) (r : Fin 2048) (l : Fin 128) :
    k0_pay40 (F := Ideal) w (ix2 r l) = Cert.BlockSums.maskf (w (ix2 r l)) :=
  sitofp_bit (w (ix2 r l))

theorem mulf_k0_pay40_apply (w : IVec S2048x128 1) (p : FVec Ideal S2048x128 .f32) (r : Fin 2048) (l : Fin 128) :
    mulf (k0_pay40 (F := Ideal) w) p (ix2 r l) = Cert.BlockSums.maskf (w (ix2 r l)) * p (ix2 r l) :=
  congrArg (· * p (ix2 r l)) (k0_pay40_apply w r l)

theorem k0_pay44_apply (w : IVec S2048x128 1) (r : Fin 2048) (l : Fin 128) :
    k0_pay44 (F := Ideal) w (ix2 r l) = Cert.BlockSums.maskf (w (ix2 r l)) :=
  sitofp_bit (w (ix2 r l))

theorem mulf_k0_pay44_apply (w : IVec S2048x128 1) (p : FVec Ideal S2048x128 .f32) (r : Fin 2048) (l : Fin 128) :
    mulf (k0_pay44 (F := Ideal) w) p (ix2 r l) = Cert.BlockSums.maskf (w (ix2 r l)) * p (ix2 r l) :=
  congrArg (· * p (ix2 r l)) (k0_pay44_apply w r l)

theorem k0_pay47_apply (w : IVec S2048x128 1) (r : Fin 2048) (l : Fin 128) :
    k0_pay47 (F := Ideal) w (ix2 r l) = Cert.BlockSums.maskf (w (ix2 r l)) :=
  sitofp_bit (w (ix2 r l))

theorem mulf_k0_pay47_apply (w : IVec S2048x128 1) (p : FVec Ideal S2048x128 .f32) (r : Fin 2048) (l : Fin 128) :
    mulf (k0_pay47 (F := Ideal) w) p (ix2 r l) = Cert.BlockSums.maskf (w (ix2 r l)) * p (ix2 r l) :=
  congrArg (· * p (ix2 r l)) (k0_pay47_apply w r l)

theorem k0_pay34_apply (p : FVec Ideal S2048x128 .f32) (w : IVec S2048x128 1) (r : Fin 2048) (l : Fin 128) :
    k0_pay34 (F := Ideal) p w (ix2 r l) = Cert.BlockSums.maskf (w (ix2 r l)) * p (ix2 r l) :=
  mulf_k0_pay33_apply w p r l

end Cert.Bridge.Payload
-- ==== Proof.Terms.lean ====
/-
  The quantities both programs sum. For the class masks k = 0..4 (normal, elevated, hypertension 1, hypertension 2,
  crisis) and a flat sample position n < 2^24: the count of class k adds 1 where the mask holds; the masked sum adds the
  per-sample loss there. The reference adds them in one pass over the 2^24 samples; the kernel adds them tile by tile into
  ten [8, 128] accumulators and then sums each accumulator.
-/
import proofs.«126502_j87754771792112_2_alg».proof.Proof.RefRead
import proofs.«126502_j87754771792112_2_alg».proof.Proof.LibBlockSums
import Idealize.ShloMosaic.Lib.ValueIdx

noncomputable section

namespace Cert.Bridge.Terms

open Idealize.ShloMosaic Idealize.ShloMosaic.ValueIdx Cert.ReferenceIdeal Cert.ReferenceIdeal.Read Cert.BlockSums

/-- A flat array of 2^24 samples, and the one input that comes as a column. -/
abbrev Arr : Type := (⟨S16777216, .f32⟩ : BufTy).Contents (Elt Ideal)
abbrev Col : Type := (⟨S16777216x1, .f32⟩ : BufTy).Contents (Elt Ideal)

/-- The five class masks of the targets `x3` (diastolic) and `x4` (systolic), at a sample. -/
def maskAt (x3 x4 : Arr) : Fin 5 → S16777216.Idx → BitVec 1
  | 0 => val_main_v5 (F := Ideal) x3 x4
  | 1 => val_main_v15 (F := Ideal) x3 x4
  | 2 => val_main_v29 (F := Ideal) x3 x4
  | 3 => val_main_v38 (F := Ideal) x3 x4
  | 4 => val_main_v43 (F := Ideal) x3 x4
  | ⟨_ + 5, h⟩ => absurd h (Nat.not_lt.2 (Nat.le_add_left _ _))

/-- What sample `n` adds to the count of class `k`: 1 where the mask holds, else 0 (and 0 past the last sample). -/
def cntTerm (x3 x4 : Arr) (k : Fin 5) (n : ℕ) : EReal :=
  if h : n < 16777216 then maskf (maskAt x3 x4 k (ix1 ⟨n, h⟩)) else 0

/-- What sample `n` adds to the masked sum of class `k`: its loss where the mask holds, else 0. -/
def sumTerm (x0 : Arr) (x1 : Col) (x3 x4 : Arr) (k : Fin 5) (n : ℕ) : EReal :=
  if h : n < 16777216 then maskf (maskAt x3 x4 k (ix1 ⟨n, h⟩)) * val_main_v60 (F := Ideal) x0 x1 x3 x4 (ix1 ⟨n, h⟩) else 0

/-- What sample `n` adds to accumulator `j`: accumulators 0..4 are the five counts, 5..9 the five masked sums. -/
def accTerm (x0 : Arr) (x1 : Col) (x3 x4 : Arr) (j : Fin 10) (n : ℕ) : EReal :=
  if h : j.val < 5 then cntTerm x3 x4 ⟨j.val, h⟩ n else sumTerm x0 x1 x3 x4 ⟨j.val - 5, by omega⟩ n

end Cert.Bridge.Terms

end
-- ==== Proof.KernelIdeal.AccSteps.lean ====
/-
  One update of each of the ten accumulators, over the extended reals. A block of 2048 rows of 128 lanes holds the
  samples of block (cc, u) of the flattened arrays: row 8 g + a, lane b is sample flat cc u g a b. Then what the
  update adds to entry (a, b) of accumulator j is the sum over the 256 row groups g of what sample flat cc u g a b
  adds to accumulator j: its class mask read as 1 or 0 for the five counts, the mask times the per-sample loss for
  the five masked sums.
-/
import proofs.«126502_j87754771792112_2_alg».proof.Proof.PayloadReadsAcc
import proofs.«126502_j87754771792112_2_alg».proof.Proof.PayloadReadsMasks
import proofs.«126502_j87754771792112_2_alg».proof.Proof.Terms

open scoped BigOperators

noncomputable section
namespace Cert.KernelIdeal.Value

open Idealize.ShloMosaic Idealize.ShloMosaic.ValueIdx Cert.KernelIdeal Cert.KernelIdeal.Gen
open Cert.ReferenceIdeal.Read Cert.Bridge.Payload Cert.Bridge.Terms Cert.BlockSums

variable (X0 : Arr) (X1 : Col) (X3 X4 : Arr)

/-! ## What a sample inside the arrays adds to each accumulator -/

section Sample
variable (n : ℕ) (h : n < 16777216)

theorem accTerm_0 : accTerm X0 X1 X3 X4 0 n = maskf (val_main_v5 (F := Ideal) X3 X4 (ix1 ⟨n, h⟩)) := by
  unfold accTerm; rw [dif_pos (show (0 : Fin 10).val < 5 by decide)]; unfold cntTerm; rw [dif_pos h]; rfl

theorem accTerm_1 : accTerm X0 X1 X3 X4 1 n = maskf (val_main_v15 (F := Ideal) X3 X4 (ix1 ⟨n, h⟩)) := by
  unfold accTerm; rw [dif_pos (show (1 : Fin 10).val < 5 by decide)]; unfold cntTerm; rw [dif_pos h]; rfl

theorem accTerm_2 : accTerm X0 X1 X3 X4 2 n = maskf (val_main_v29 (F := Ideal) X3 X4 (ix1 ⟨n, h⟩)) := by
  unfold accTerm; rw [dif_pos (show (2 : Fin 10).val < 5 by decide)]; unfold cntTerm; rw [dif_pos h]; rfl

theorem accTerm_3 : accTerm X0 X1 X3 X4 3 n = maskf (val_main_v38 (F := Ideal) X3 X4 (ix1 ⟨n, h⟩)) := by
  unfold accTerm; rw [dif_pos (show (3 : Fin 10).val < 5 by decide)]; unfold cntTerm; rw [dif_pos h]; rfl

theorem accTerm_4 : accTerm X0 X1 X3 X4 4 n = maskf (val_main_v43 (F := Ideal) X3 X4 (ix1 ⟨n, h⟩)) := by
  unfold accTerm; rw [dif_pos (show (4 : Fin 10).val < 5 by decide)]; unfold cntTerm; rw [dif_pos h]; rfl

theorem accTerm_5 : accTerm X0 X1 X3 X4 5 n
    = maskf (val_main_v5 (F := Ideal) X3 X4 (ix1 ⟨n, h⟩)) * val_main_v60 (F := Ideal) X0 X1 X3 X4 (ix1 ⟨n, h⟩) := by
  unfold accTerm; rw [dif_neg (show ¬(5 : Fin 10).val < 5 by decide)]; unfold sumTerm; rw [dif_pos h]; rfl

theorem accTerm_6 : accTerm X0 X1 X3 X4 6 n
    = maskf (val_main_v15 (F := Ideal) X3 X4 (ix1 ⟨n, h⟩)) * val_main_v60 (F := Ideal) X0 X1 X3 X4 (ix1 ⟨n, h⟩) := by
  unfold accTerm; rw [dif_neg (show ¬(6 : Fin 10).val < 5 by decide)]; unfold sumTerm; rw [dif_pos h]; rfl

theorem accTerm_7 : accTerm X0 X1 X3 X4 7 n
    = maskf (val_main_v29 (F := Ideal) X3 X4 (ix1 ⟨n, h⟩)) * val_main_v60 (F := Ideal) X0 X1 X3 X4 (ix1 ⟨n, h⟩) := by
  unfold accTerm; rw [dif_neg (show ¬(7 : Fin 10).val < 5 by decide)]; unfold sumTerm; rw [dif_pos h]; rfl

theorem accTerm_8 : accTerm X0 X1 X3 X4 8 n
    = maskf (val_main_v38 (F := Ideal) X3 X4 (ix1 ⟨n, h⟩)) * val_main_v60 (F := Ideal) X0 X1 X3 X4 (ix1 ⟨n, h⟩) := by
  unfold accTerm; rw [dif_neg (show ¬(8 : Fin 10).val < 5 by decide)]; unfold sumTerm; rw [dif_pos h]; rfl

theorem accTerm_9 : accTerm X0 X1 X3 X4 9 n
    = maskf (val_main_v43 (F := Ideal) X3 X4 (ix1 ⟨n, h⟩)) * val_main_v60 (F := Ideal) X0 X1 X3 X4 (ix1 ⟨n, h⟩) := by
  unfold accTerm; rw [dif_neg (show ¬(9 : Fin 10).val < 5 by decide)]; unfold sumTerm; rw [dif_pos h]; rfl

end Sample

/-- A position past the last sample adds nothing to any accumulator. -/
theorem accTerm_of_ge (j : Fin 10) (n : ℕ) (h : 16777216 ≤ n) : accTerm X0 X1 X3 X4 j n = 0 := by
  unfold accTerm
  split
  · unfold cntTerm; exact dif_neg (Nat.not_lt.2 h)
  · unfold sumTerm; exact dif_neg (Nat.not_lt.2 h)

/-! ## A block of the kernel holding block (cc, u) of the arrays -/

/-- The four loaded blocks hold block `(cc, u)` of the four arrays: row `8 g + a`, lane `b` of each block is sample
    `flat cc u g a b` of its array (the second array read through its column-to-flat reshape). -/
structure HoldsBlock (v3 v5 v7 v9 : Vec Ideal S2048x128 .f32) (cc u : ℕ) : Prop where
  h3 : ∀ (g : Fin 256) (a : Fin 8) (b : Fin 128) (h : flat cc u g.val a.val b.val < 16777216),
    v3 (ix2 (⟨8 * g.val + a.val, by omega⟩ : Fin 2048) b) = X0 (ix1 ⟨flat cc u g.val a.val b.val, h⟩)
  h5 : ∀ (g : Fin 256) (a : Fin 8) (b : Fin 128) (h : flat cc u g.val a.val b.val < 16777216),
    v5 (ix2 (⟨8 * g.val + a.val, by omega⟩ : Fin 2048) b) = val_main_v0 (F := Ideal) X1 (ix1 ⟨flat cc u g.val a.val b.val, h⟩)
  h7 : ∀ (g : Fin 256) (a : Fin 8) (b : Fin 128) (h : flat cc u g.val a.val b.val < 16777216),
    v7 (ix2 (⟨8 * g.val + a.val, by omega⟩ : Fin 2048) b) = X3 (ix1 ⟨flat cc u g.val a.val b.val, h⟩)
  h9 : ∀ (g : Fin 256) (a : Fin 8) (b : Fin 128) (h : flat cc u g.val a.val b.val < 16777216),
    v9 (ix2 (⟨8 * g.val + a.val, by omega⟩ : Fin 2048) b) = X4 (ix1 ⟨flat cc u g.val a.val b.val, h⟩)

/-! ## The ten updates -/

section Updates
variable (v3 v5 v7 v9 : Vec Ideal S2048x128 .f32) (cc u : ℕ) (hcc : cc < 2) (hu : u < 32)
  (hb : HoldsBlock X0 X1 X3 X4 v3 v5 v7 v9 cc u) (old : Vec Ideal S8x128 .f32) (a : Fin 8) (b : Fin 128)

include hcc hu hb

/-- Accumulator 0 (count of the first class). -/
theorem upd_0 : k0_pay35 (F := Ideal) (k0_pay26 (F := Ideal) v7 v9) old (ix2 a b)
    = old (ix2 a b) + ∑ g : Fin 256, accTerm X0 X1 X3 X4 0 (flat cc u g.val a.val b.val) := by
  refine (k0_pay35_apply _ old a b).trans (congrArg (old (ix2 a b) + ·) (Finset.sum_congr rfl fun g _ => ?_))
  have hn := flat_lt hcc hu g.isLt a.isLt b.isLt
  rw [accTerm_0 X0 X1 X3 X4 _ hn]
  exact (k0_pay33_apply _ _ b).trans (congrArg maskf
    (k0_pay26_apply v7 v9 _ b X3 X4 _ (hb.h7 g a b hn) (hb.h9 g a b hn)))

/-- Accumulator 1 (count of the second class). -/
theorem upd_1 : k0_pay38 (F := Ideal) (k0_pay29 (k0_pay26 (F := Ideal) v7 v9) (k0_pay27 (F := Ideal) v9) (k0_pay28 (F := Ideal) v7)) old (ix2 a b)
    = old (ix2 a b) + ∑ g : Fin 256, accTerm X0 X1 X3 X4 1 (flat cc u g.val a.val b.val) := by
  refine (k0_pay38_apply _ old a b).trans (congrArg (old (ix2 a b) + ·) (Finset.sum_congr rfl fun g _ => ?_))
  have hn := flat_lt hcc hu g.isLt a.isLt b.isLt
  rw [accTerm_1 X0 X1 X3 X4 _ hn]
  exact (k0_pay37_apply _ _ b).trans (congrArg maskf
    (k0_pay29_apply v7 v9 _ b X3 X4 _ (hb.h7 g a b hn) (hb.h9 g a b hn)))

/-- Accumulator 2 (count of the third class). -/
theorem upd_2 : k0_pay41 (F := Ideal) (k0_pay30 (F := Ideal) (k0_pay23 v7) (k0_pay24 v9) (k0_pay26 v7 v9) (k0_pay27 v9) (k0_pay28 v7)) old (ix2 a b)
    = old (ix2 a b) + ∑ g : Fin 256, accTerm X0 X1 X3 X4 2 (flat cc u g.val a.val b.val) := by
  refine (k0_pay41_apply _ old a b).trans (congrArg (old (ix2 a b) + ·) (Finset.sum_congr rfl fun g _ => ?_))
  have hn := flat_lt hcc hu g.isLt a.isLt b.isLt
  rw [accTerm_2 X0 X1 X3 X4 _ hn]
  exact (k0_pay40_apply _ _ b).trans (congrArg maskf
    (k0_pay30_apply v7 v9 _ b X3 X4 _ (hb.h7 g a b hn) (hb.h9 g a b hn)))

/-- Accumulator 3 (count of the fourth class). -/
theorem upd_3 : k0_pay45 (F := Ideal) (k0_pay31 (F := Ideal) (k0_pay23 v7) (k0_pay24 v9) (k0_pay26 v7 v9) (k0_pay27 v9) (k0_pay28 v7)) old (ix2 a b)
    = old (ix2 a b) + ∑ g : Fin 256, accTerm X0 X1 X3 X4 3 (flat cc u g.val a.val b.val) := by
  refine (k0_pay45_apply _ old a b).trans (congrArg (old (ix2 a b) + ·) (Finset.sum_congr rfl fun g _ => ?_))
  have hn := flat_lt hcc hu g.isLt a.isLt b.isLt
  rw [accTerm_3 X0 X1 X3 X4 _ hn]
  exact (k0_pay44_apply _ _ b).trans (congrArg maskf
    (k0_pay31_apply v7 v9 _ b X3 X4 _ (hb.h7 g a b hn) (hb.h9 g a b hn)))

/-- Accumulator 4 (count of the fifth class). -/
theorem upd_4 : k0_pay48 (F := Ideal) (k0_pay32 (F := Ideal) (k0_pay23 v7) (k0_pay24 v9)) old (ix2 a b)
    = old (ix2 a b) + ∑ g : Fin 256, accTerm X0 X1 X3 X4 4 (flat cc u g.val a.val b.val) := by
  refine (k0_pay48_apply _ old a b).trans (congrArg (old (ix2 a b) + ·) (Finset.sum_congr rfl fun g _ => ?_))
  have hn := flat_lt hcc hu g.isLt a.isLt b.isLt
  rw [accTerm_4 X0 X1 X3 X4 _ hn]
  exact (k0_pay47_apply _ _ b).trans (congrArg maskf
    (k0_pay32_apply v7 v9 _ b X3 X4 _ (hb.h7 g a b hn) (hb.h9 g a b hn)))

/-- Accumulator 5 (masked sum of the first class). -/
theorem upd_5 : k0_pay36 (F := Ideal) (k0_pay34 (F := Ideal) (k0_pay25 (F := Ideal) v3 v5 v7 v9) (k0_pay26 (F := Ideal) v7 v9)) old (ix2 a b)
    = old (ix2 a b) + ∑ g : Fin 256, accTerm X0 X1 X3 X4 5 (flat cc u g.val a.val b.val) := by
  refine (k0_pay36_apply _ old a b).trans (congrArg (old (ix2 a b) + ·) (Finset.sum_congr rfl fun g _ => ?_))
  have hn := flat_lt hcc hu g.isLt a.isLt b.isLt
  rw [accTerm_5 X0 X1 X3 X4 _ hn]
  refine (k0_pay34_apply _ _ _ b).trans ?_
  rw [k0_pay26_apply v7 v9 _ b X3 X4 _ (hb.h7 g a b hn) (hb.h9 g a b hn),
    k0_pay25_apply v3 v5 v7 v9 _ b X0 X1 X3 X4 _ (hb.h3 g a b hn) (hb.h5 g a b hn) (hb.h7 g a b hn) (hb.h9 g a b hn)]

/-- Accumulator 6 (masked sum of the second class). -/
theorem upd_6 : k0_pay39 (F := Ideal) (k0_pay25 (F := Ideal) v3 v5 v7 v9) (k0_pay29 (k0_pay26 (F := Ideal) v7 v9) (k0_pay27 (F := Ideal) v9) (k0_pay28 (F := Ideal) v7)) old (ix2 a b)
    = old (ix2 a b) + ∑ g : Fin 256, accTerm X0 X1 X3 X4 6 (flat cc u g.val a.val b.val) := by
  refine (k0_pay39_apply _ _ old a b).trans (congrArg (old (ix2 a b) + ·) (Finset.sum_congr rfl fun g _ => ?_))
  have hn := flat_lt hcc hu g.isLt a.isLt b.isLt
  rw [accTerm_6 X0 X1 X3 X4 _ hn]
  refine (mulf_k0_pay37_apply _ _ _ b).trans ?_
  rw [k0_pay29_apply v7 v9 _ b X3 X4 _ (hb.h7 g a b hn) (hb.h9 g a b hn),
    k0_pay25_apply v3 v5 v7 v9 _ b X0 X1 X3 X4 _ (hb.h3 g a b hn) (hb.h5 g a b hn) (hb.h7 g a b hn) (hb.h9 g a b hn)]

/-- Accumulator 7 (masked sum of the third class). -/
theorem upd_7 : k0_pay43 (F := Ideal) old (k0_pay42 (F := Ideal) (k0_pay25 (F := Ideal) v3 v5 v7 v9) (k0_pay30 (F := Ideal) (k0_pay23 v7) (k0_pay24 v9) (k0_pay26 v7 v9) (k0_pay27 v9) (k0_pay28 v7))) (ix2 a b)
    = old (ix2 a b) + ∑ g : Fin 256, accTerm X0 X1 X3 X4 7 (flat cc u g.val a.val b.val) := by
  refine (k0_pay43_apply _ _ old a b).trans (congrArg (old (ix2 a b) + ·) (Finset.sum_congr rfl fun g _ => ?_))
  have hn := flat_lt hcc hu g.isLt a.isLt b.isLt
  rw [accTerm_7 X0 X1 X3 X4 _ hn]
  refine (mulf_k0_pay40_apply _ _ _ b).trans ?_
  rw [k0_pay30_apply v7 v9 _ b X3 X4 _ (hb.h7 g a b hn) (hb.h9 g a b hn),
    k0_pay25_apply v3 v5 v7 v9 _ b X0 X1 X3 X4 _ (hb.h3 g a b hn) (hb.h5 g a b hn) (hb.h7 g a b hn) (hb.h9 g a b hn)]

/-- Accumulator 8 (masked sum of the fourth class). -/
theorem upd_8 : k0_pay46 (F := Ideal) (k0_pay25 (F := Ideal) v3 v5 v7 v9) (k0_pay31 (F := Ideal) (k0_pay23 v7) (k0_pay24 v9) (k0_pay26 v7 v9) (k0_pay27 v9) (k0_pay28 v7)) old (ix2 a b)
    = old (ix2 a b) + ∑ g : Fin 256, accTerm X0 X1 X3 X4 8 (flat cc u g.val a.val b.val) := by
  refine (k0_pay46_apply _ _ old a b).trans (congrArg (old (ix2 a b) + ·) (Finset.sum_congr rfl fun g _ => ?_))
  have hn := flat_lt hcc hu g.isLt a.isLt b.isLt
  rw [accTerm_8 X0 X1 X3 X4 _ hn]
  refine (mulf_k0_pay44_apply _ _ _ b).trans ?_
  rw [k0_pay31_apply v7 v9 _ b X3 X4 _ (hb.h7 g a b hn) (hb.h9 g a b hn),
    k0_pay25_apply v3 v5 v7 v9 _ b X0 X1 X3 X4 _ (hb.h3 g a b hn) (hb.h5 g a b hn) (hb.h7 g a b hn) (hb.h9 g a b hn)]

/-- Accumulator 9 (masked sum of the fifth class). -/
theorem upd_9 : k0_pay1 (F := Ideal) old (k0_pay49 (F := Ideal) (k0_pay25 (F := Ideal) v3 v5 v7 v9) (k0_pay32 (F := Ideal) (k0_pay23 v7) (k0_pay24 v9))) (ix2 a b)
    = old (ix2 a b) + ∑ g : Fin 256, accTerm X0 X1 X3 X4 9 (flat cc u g.val a.val b.val) := by
  refine (k0_pay1_apply _ _ old a b).trans (congrArg (old (ix2 a b) + ·) (Finset.sum_congr rfl fun g _ => ?_))
  have hn := flat_lt hcc hu g.isLt a.isLt b.isLt
  rw [accTerm_9 X0 X1 X3 X4 _ hn]
  refine (mulf_k0_pay47_apply _ _ _ b).trans ?_
  rw [k0_pay32_apply v7 v9 _ b X3 X4 _ (hb.h7 g a b hn) (hb.h9 g a b hn),
    k0_pay25_apply v3 v5 v7 v9 _ b X0 X1 X3 X4 _ (hb.h3 g a b hn) (hb.h5 g a b hn) (hb.h7 g a b hn) (hb.h9 g a b hn)]

end Updates

end Cert.KernelIdeal.Value

end
-- ==== Proof.KernelIdeal.Blocks.lean ====
/-
  The four input arrays of the grid read as the program's arguments, and each grid point's block of them.

  Before the grid the program views each flat input of 2^24 samples as 131072 rows of 128 lanes (the column input first
  flattened): row R, lane l of the matrix is sample 128 R + l. The grid's point t (t = 32 c + i for core c and step i)
  takes rows 2048 t … 2048 t + 2047 of every input matrix. So the entry (8 g + a, b) of point t's block is sample
  ((32 c + i) 2048 + 8 g + a) 128 + b of the argument.
-/
import proofs.«126502_j87754771792112_2_alg».proof.Proof.KernelIdeal.Kit
import proofs.«126502_j87754771792112_2_alg».proof.Proof.RefRead
import proofs.«126502_j87754771792112_2_alg».proof.Proof.LibBlockSums
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Value

open Cert.KernelIdeal Cert.KernelIdeal.Gen Cert.KernelIdeal.Frame Cert.BlockSums
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (c : Dev nD)

/-! ## The input matrices when the grid is entered -/

theorem flatpos_lt (R : Fin 131072) (l : Fin 128) : R.val * 128 + l.val < 16777216 := by
  have := R.isLt; have := l.isLt; omega

/-- A flat array of 2^24 entries viewed as 131072 rows of 128: row `R`, lane `l` is position `128 R + l`. -/
theorem reshape_flat_apply {α : Type} (x : S16777216.Idx → α) (R : Fin 131072) (l : Fin 128) :
    shapeCast S131072x128 x shapeCasts_S16777216_S131072x128 (ix2 R l) = x (ix1 ⟨R.val * 128 + l.val, flatpos_lt R l⟩) :=
  shapeCast_apply (s := S16777216) (t := S131072x128) x shapeCasts_S16777216_S131072x128 (ix2 R l) (ix1 ⟨_, flatpos_lt R l⟩) (by
    rw [Shape.rowMajor_val_two, Shape.rowMajor_val_one]; rfl)

/-- The first input matrix is the first argument (the diastolic predictions) viewed as rows of 128. -/
theorem V_main_v1_eq : (V m c main_v1 : S131072x128.Idx → EReal)
    = shapeCast S131072x128 (m ((c : Thread nD τ).loc main_arg0) : S16777216.Idx → EReal) shapeCasts_S16777216_S131072x128 := by
  dsimp only [V, V0]
  simp only [hostOps0, List.flatten_cons, List.flatten_nil, List.append_nil]
  after_results
  rfl

/-- Read at row `R`, lane `l`: the argument's entry at position `128 R + l`. -/
theorem V_main_v1_apply (R : Fin 131072) (l : Fin 128) :
    (V m c main_v1 : S131072x128.Idx → EReal) (ix2 R l)
      = (m ((c : Thread nD τ).loc main_arg0) : S16777216.Idx → EReal) (ix1 ⟨R.val * 128 + l.val, flatpos_lt R l⟩) := by
  rw [V_main_v1_eq]
  exact reshape_flat_apply _ R l

/-- The second input matrix is the column argument (the systolic predictions) flattened, then viewed as rows of 128. -/
theorem V_main_v2_eq : (V m c main_v2 : S131072x128.Idx → EReal)
    = shapeCast S131072x128 (shapeCast S16777216 (m ((c : Thread nD τ).loc main_arg1) : S16777216x1.Idx → EReal) shapeCasts_S16777216x1_S16777216) shapeCasts_S16777216_S131072x128 := by
  dsimp only [V, V0]
  simp only [hostOps0, List.flatten_cons, List.flatten_nil, List.append_nil]
  after_results
  rfl

/-- Read at row `R`, lane `l`: the flattened column's entry at position `128 R + l`. -/
theorem V_main_v2_apply (R : Fin 131072) (l : Fin 128) :
    (V m c main_v2 : S131072x128.Idx → EReal) (ix2 R l)
      = Cert.ReferenceIdeal.Read.val_main_v0 (F := Ideal) (m ((c : Thread nD τ).loc main_arg1)) (ix1 ⟨R.val * 128 + l.val, flatpos_lt R l⟩) := by
  rw [V_main_v2_eq]
  exact reshape_flat_apply _ R l

/-- The third input matrix is the diastolic targets viewed as rows of 128. -/
theorem V_main_v3_eq : (V m c main_v3 : S131072x128.Idx → EReal)
    = shapeCast S131072x128 (m ((c : Thread nD τ).loc main_arg3) : S16777216.Idx → EReal) shapeCasts_S16777216_S131072x128 := by
  dsimp only [V, V0]
  simp only [hostOps0, List.flatten_cons, List.flatten_nil, List.append_nil]
  after_results
  rfl

/-- Read at row `R`, lane `l`: the argument's entry at position `128 R + l`. -/
theorem V_main_v3_apply (R : Fin 131072) (l : Fin 128) :
    (V m c main_v3 : S131072x128.Idx → EReal) (ix2 R l)
      = (m ((c : Thread nD τ).loc main_arg3) : S16777216.Idx → EReal) (ix1 ⟨R.val * 128 + l.val, flatpos_lt R l⟩) := by
  rw [V_main_v3_eq]
  exact reshape_flat_apply _ R l

/-- The fourth input matrix is the systolic targets viewed as rows of 128. -/
theorem V_main_v4_eq : (V m c main_v4 : S131072x128.Idx → EReal)
    = shapeCast S131072x128 (m ((c : Thread nD τ).loc main_arg4) : S16777216.Idx → EReal) shapeCasts_S16777216_S131072x128 := by
  dsimp only [V, V0]
  simp only [hostOps0, List.flatten_cons, List.flatten_nil, List.append_nil]
  after_results
  rfl

/-- Read at row `R`, lane `l`: the argument's entry at position `128 R + l`. -/
theorem V_main_v4_apply (R : Fin 131072) (l : Fin 128) :
    (V m c main_v4 : S131072x128.Idx → EReal) (ix2 R l)
      = (m ((c : Thread nD τ).loc main_arg4) : S16777216.Idx → EReal) (ix1 ⟨R.val * 128 + l.val, flatpos_lt R l⟩) := by
  rw [V_main_v4_eq]
  exact reshape_flat_apply _ R l

/-! ## A grid point's blocks -/

/-- Every input window's block index at point `t` is `(t, 0)`: the printed index map sends the point's coordinates
    `(t / 32, t % 32)` to `32 (t / 32) + t % 32`. -/
theorem index_in0 : ∀ t : Fin cfg0.N, win0_0.index t (0 : Fin 2) = t.val ∧ win0_0.index t (1 : Fin 2) = 0 :=
  (by decide +kernel : ∀ t : Fin grid0.N, _)
theorem index_in1 : ∀ t : Fin cfg0.N, win0_1.index t (0 : Fin 2) = t.val ∧ win0_1.index t (1 : Fin 2) = 0 :=
  (by decide +kernel : ∀ t : Fin grid0.N, _)
theorem index_in2 : ∀ t : Fin cfg0.N, win0_2.index t (0 : Fin 2) = t.val ∧ win0_2.index t (1 : Fin 2) = 0 :=
  (by decide +kernel : ∀ t : Fin grid0.N, _)
theorem index_in3 : ∀ t : Fin cfg0.N, win0_3.index t (0 : Fin 2) = t.val ∧ win0_3.index t (1 : Fin 2) = 0 :=
  (by decide +kernel : ∀ t : Fin grid0.N, _)

theorem row_lt (t : Fin cfg0.N) (r : Fin 2048) : t.val * 2048 + r.val < 131072 := by
  have h : t.val < 64 := t.isLt
  have := r.isLt; omega

/-- Window 0's block at point `t` is rows `2048 t … 2048 t + 2047` of its array. -/
theorem iblk0_apply (t : Fin cfg0.N) (r : Fin 2048) (l : Fin 128) :
    (iblk m c 0 t : Vec Ideal S2048x128 .f32) (ix2 r l)
      = (V m c main_v1 : S131072x128.Idx → EReal) (ix2 ⟨t.val * 2048 + r.val, row_lt t r⟩ l) := by
  obtain ⟨e0, e1⟩ := index_in0 t
  show (V m c main_v1 : S131072x128.Idx → EReal) (((cfg0.win 0).blk t).view.emb (ix2 r l)) = _
  refine congrArg _ (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 128 + 1 * l.val = l.val; rw [e1]; omega

/-- Window 1's block at point `t` is rows `2048 t … 2048 t + 2047` of its array. -/
theorem iblk1_apply (t : Fin cfg0.N) (r : Fin 2048) (l : Fin 128) :
    (iblk m c 1 t : Vec Ideal S2048x128 .f32) (ix2 r l)
      = (V m c main_v2 : S131072x128.Idx → EReal) (ix2 ⟨t.val * 2048 + r.val, row_lt t r⟩ l) := by
  obtain ⟨e0, e1⟩ := index_in1 t
  show (V m c main_v2 : S131072x128.Idx → EReal) (((cfg0.win 1).blk t).view.emb (ix2 r l)) = _
  refine congrArg _ (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 128 + 1 * l.val = l.val; rw [e1]; omega

/-- Window 2's block at point `t` is rows `2048 t … 2048 t + 2047` of its array. -/
theorem iblk2_apply (t : Fin cfg0.N) (r : Fin 2048) (l : Fin 128) :
    (iblk m c 2 t : Vec Ideal S2048x128 .f32) (ix2 r l)
      = (V m c main_v3 : S131072x128.Idx → EReal) (ix2 ⟨t.val * 2048 + r.val, row_lt t r⟩ l) := by
  obtain ⟨e0, e1⟩ := index_in2 t
  show (V m c main_v3 : S131072x128.Idx → EReal) (((cfg0.win 2).blk t).view.emb (ix2 r l)) = _
  refine congrArg _ (funext fun a => Fin.ext ?_)
  match a with
  | ⟨0, _⟩ => show win0_2.index t (0 : Fin 2) * 2048 + 1 * r.val = t.val * 2048 + r.val; rw [e0]; omega
  | ⟨1, _⟩ => show win0_2.index t (1 : Fin 2) * 128 + 1 * l.val = l.val; rw [e1]; omega

/-- Window 3's block at point `t` is rows `2048 t … 2048 t + 2047` of its array. -/
theorem iblk3_apply (t : Fin cfg0.N) (r : Fin 2048) (l : Fin 128) :
    (iblk m c 3 t : Vec Ideal S2048x128 .f32) (ix2 r l)
      = (V m c main_v4 : S131072x128.Idx → EReal) (ix2 ⟨t.val * 2048 + r.val, row_lt t r⟩ l) := by
  obtain ⟨e0, e1⟩ := index_in3 t
  show (V m c main_v4 : S131072x128.Idx → EReal) (((cfg0.win 3).blk t).view.emb (ix2 r l)) = _
  refine congrArg _ (funext fun a => Fin.ext ?_)
  match a with
  | ⟨0, _⟩ => show win0_3.index t (0 : Fin 2) * 2048 + 1 * r.val = t.val * 2048 + r.val; rw [e0]; omega
  | ⟨1, _⟩ => show win0_3.index t (1 : Fin 2) * 128 + 1 * l.val = l.val; rw [e1]; omega

/-! ## A block's entry as a sample of the argument -/

theorem flat_pos_lt (t : Fin cfg0.N) (g : Fin 256) (a : Fin 8) (b : Fin 128) :
    flat (t.val / 32) (t.val % 32) g.val a.val b.val < 16777216 :=
  flat_lt (by have h : t.val < 64 := t.isLt; omega) (Nat.mod_lt _ (by decide)) g.isLt a.isLt b.isLt

/-- Row `2048 t + 8 g + a`, lane `b` of the matrix is the flat position of tile row `g`, sublane `a`, lane `b` of
    step `t % 32` of core `t / 32`, since `32 (t / 32) + t % 32 = t`. -/
theorem flat_pos_eq (t : Fin cfg0.N) (g : Fin 256) (a : Fin 8) (b : Fin 128) :
    (t.val * 2048 + (8 * g.val + a.val)) * 128 + b.val = flat (t.val / 32) (t.val % 32) g.val a.val b.val := by
  unfold flat; omega

/-- Entry `(8 g + a, b)` of point `t`'s block of each input, as a sample of the argument. -/
theorem iblk0_flat (t : Fin cfg0.N) (g : Fin 256) (a : Fin 8) (b : Fin 128) :
    (iblk m c 0 t : Vec Ideal S2048x128 .f32) (ix2 (⟨8 * g.val + a.val, by omega⟩ : Fin 2048) b)
      = (m ((c : Thread nD τ).loc main_arg0) : S16777216.Idx → EReal) (ix1 ⟨flat (t.val / 32) (t.val % 32) g.val a.val b.val, flat_pos_lt t g a b⟩) := by
  refine (iblk0_apply m c t _ b).trans ((V_main_v1_apply m c _ b).trans ?_)
  exact congrArg _ (congrArg ix1 (Fin.ext (flat_pos_eq t g a b)))

theorem iblk1_flat (t : Fin cfg0.N) (g : Fin 256) (a : Fin 8) (b : Fin 128) :
    (iblk m c 1 t : Vec Ideal S2048x128 .f32) (ix2 (⟨8 * g.val + a.val, by omega⟩ : Fin 2048) b)
      = Cert.ReferenceIdeal.Read.val_main_v0 (F := Ideal) (m ((c : Thread nD τ).loc main_arg1)) (ix1 ⟨flat (t.val / 32) (t.val % 32) g.val a.val b.val, flat_pos_lt t g a b⟩) := by
  refine (iblk1_apply m c t _ b).trans ((V_main_v2_apply m c _ b).trans ?_)
  exact congrArg _ (congrArg ix1 (Fin.ext (flat_pos_eq t g a b)))

theorem iblk2_flat (t : Fin cfg0.N) (g : Fin 256) (a : Fin 8) (b : Fin 128) :
    (iblk m c 2 t : Vec Ideal S2048x128 .f32) (ix2 (⟨8 * g.val + a.val, by omega⟩ : Fin 2048) b)
      = (m ((c : Thread nD τ).loc main_arg3) : S16777216.Idx → EReal) (ix1 ⟨flat (t.val / 32) (t.val % 32) g.val a.val b.val, flat_pos_lt t g a b⟩) := by
  refine (iblk2_apply m c t _ b).trans ((V_main_v3_apply m c _ b).trans ?_)
  exact congrArg _ (congrArg ix1 (Fin.ext (flat_pos_eq t g a b)))

theorem iblk3_flat (t : Fin cfg0.N) (g : Fin 256) (a : Fin 8) (b : Fin 128) :
    (iblk m c 3 t : Vec Ideal S2048x128 .f32) (ix2 (⟨8 * g.val + a.val, by omega⟩ : Fin 2048) b)
      = (m ((c : Thread nD τ).loc main_arg4) : S16777216.Idx → EReal) (ix1 ⟨flat (t.val / 32) (t.val % 32) g.val a.val b.val, flat_pos_lt t g a b⟩) := by
  refine (iblk3_apply m c t _ b).trans ((V_main_v4_apply m c _ b).trans ?_)
  exact congrArg _ (congrArg ix1 (Fin.ext (flat_pos_eq t g a b)))

end Cert.KernelIdeal.Value

end
-- ==== Proof.KernelIdeal.Invariant.lean ====
/-
  The accumulation over the grid, over the extended reals. A core's 32 points add, into entry (a, b) of accumulator j,
  the samples of rows 8 g + a, lane b of the core's 32 blocks: after point t the entry holds what it held after point
  t - 1 (nothing at a core's first point) plus the sum over the 256 row groups g of what sample
  flat (t / 32) (t % 32) g a b adds to accumulator j. So at a core's last point the entry holds the sum over the core's
  32 blocks and the 256 row groups, and the result window of accumulator j, which is stored the accumulator's total at
  every entry, holds the sum of that over the 8 sublanes and 128 lanes: every sample of the core's half of the arrays
  once.
-/
import proofs.«126502_j87754771792112_2_alg».proof.Proof.KernelIdeal.PiecesA
import proofs.«126502_j87754771792112_2_alg».proof.Proof.KernelIdeal.PiecesB
import proofs.«126502_j87754771792112_2_alg».proof.Proof.KernelIdeal.PiecesC
import proofs.«126502_j87754771792112_2_alg».proof.Proof.KernelIdeal.PiecesCOut
import proofs.«126502_j87754771792112_2_alg».proof.Proof.KernelIdeal.AccSteps
import proofs.«126502_j87754771792112_2_alg».proof.Proof.KernelIdeal.Blocks

set_option maxRecDepth 16384
open scoped BigOperators

noncomputable section

namespace Cert.KernelIdeal.Value

open Cert.KernelIdeal Cert.KernelIdeal.Gen Cert.KernelIdeal.Frame
open Idealize.ShloMosaic Idealize.ShloMosaic.TcCoe Idealize.ShloMosaic.ValueIdx
open Idealize.SL Idealize.SL.Sem
open Cert.Bridge.Payload Cert.Bridge.Terms Cert.BlockSums

variable (m : (ℓ : Loc nD τ sig) → Buf (Elt Ideal) ℓ) (c : Dev nD)

/- The four arrays the program reads: the two predictions and the two targets. -/
set_option quotPrecheck false in
local notation "X0" => (m ((c : Thread nD τ).loc main_arg0) : Arr)
set_option quotPrecheck false in
local notation "X1" => (m ((c : Thread nD τ).loc main_arg1) : Col)
set_option quotPrecheck false in
local notation "X3" => (m ((c : Thread nD τ).loc main_arg3) : Arr)
set_option quotPrecheck false in
local notation "X4" => (m ((c : Thread nD τ).loc main_arg4) : Arr)

/-- Point `t`'s four input blocks hold block `(t / 32, t % 32)` of the four arrays. -/
theorem holds (t : Fin cfg0.N) :
    HoldsBlock X0 X1 X3 X4 (iblk m c 0 t) (iblk m c 1 t) (iblk m c 2 t) (iblk m c 3 t) (t.val / 32) (t.val % 32) :=
  ⟨fun g a b _ => iblk0_flat m c t g a b, fun g a b _ => iblk1_flat m c t g a b,
    fun g a b _ => iblk2_flat m c t g a b, fun g a b _ => iblk3_flat m c t g a b⟩

/-! ## One point -/

/- A lemma about one run of the body, taken at point `t`'s staging buffers and the ten accumulators. -/
set_option hygiene false in
local macro "atPoint%" f:ident : term => `($f (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _))

/- One point's step for one accumulator: by the case the point is in, the accumulator holds the case's update payload
    of the point's blocks and of what it held (a block of zeros at a core's first point); the update adds the block's
    samples. -/
set_option hygiene false in
local macro "step_tac" pA:ident pB:ident pC:ident upd:ident zero:term : tactic => `(tactic| (
  have hN : cfg0.N = 64 := N_0
  have hcc : t.val / 32 < 2 := by have h : t.val < 64 := t.isLt; omega
  have hu : t.val % 32 < 32 := Nat.mod_lt _ (by decide)
  by_cases h0 : t.val % 32 = 0
  · have h1 : ¬t.val % 32 = 31 := by omega
    rw [if_pos h0, outsAt0_A m c t h0 h1, (atPoint% $pA) _ _ (iblk m c 0 t) (iblk m c 1 t) (iblk m c 2 t) (iblk m c 3 t)]
    refine ($upd X0 X1 X3 X4 (iblk m c 0 t) (iblk m c 1 t) (iblk m c 2 t) (iblk m c 3 t) (t.val / 32) (t.val % 32) hcc hu (holds m c t) _ a b).trans ?_
    rw [$zero:term]
  · rw [if_neg h0]
    by_cases h1 : t.val % 32 = 31
    · rw [outsAt0_C m c t h0 h1, (atPoint% $pC) _ _ (iblk m c 0 t) (iblk m c 1 t) (iblk m c 2 t) (iblk m c 3 t) _]
      exact $upd X0 X1 X3 X4 (iblk m c 0 t) (iblk m c 1 t) (iblk m c 2 t) (iblk m c 3 t) (t.val / 32) (t.val % 32) hcc hu (holds m c t) _ a b
    · rw [outsAt0_B m c t h0 h1, (atPoint% $pB) _ _ (iblk m c 0 t) (iblk m c 1 t) (iblk m c 2 t) (iblk m c 3 t) _]
      exact $upd X0 X1 X3 X4 (iblk m c 0 t) (iblk m c 1 t) (iblk m c 2 t) (iblk m c 3 t) (t.val / 32) (t.val % 32) hcc hu (holds m c t) _ a b))

section Step
variable (t : Fin cfg0.N) (a : Fin 8) (b : Fin 128)

theorem step_s0 : (outsAt0 m c t.val t.isLt).s0 (ix2 a b)
    = (if t.val % 32 = 0 then 0 else (outsAt0 m c (t.val - 1) (Nat.lt_of_le_of_lt (Nat.sub_le _ _) t.isLt)).s0 (ix2 a b))
      + ∑ g : Fin 256, accTerm X0 X1 X3 X4 0 (flat (t.val / 32) (t.val % 32) g.val a.val b.val) := by
  step_tac out0_A_s0 out0_B_s0 out0_C_s0 upd_0 (k0_pay4_apply a b)

theorem step_s1 : (outsAt0 m c t.val t.isLt).s1 (ix2 a b)
    = (if t.val % 32 = 0 then 0 else (outsAt0 m c (t.val - 1) (Nat.lt_of_le_of_lt (Nat.sub_le _ _) t.isLt)).s1 (ix2 a b))
      + ∑ g : Fin 256, accTerm X0 X1 X3 X4 1 (flat (t.val / 32) (t.val % 32) g.val a.val b.val) := by
  step_tac out0_A_s1 out0_B_s1 out0_C_s1 upd_1 (k0_pay5_apply a b)

theorem step_s2 : (outsAt0 m c t.val t.isLt).s2 (ix2 a b)
    = (if t.val % 32 = 0 then 0 else (outsAt0 m c (t.val - 1) (Nat.lt_of_le_of_lt (Nat.sub_le _ _) t.isLt)).s2 (ix2 a b))
      + ∑ g : Fin 256, accTerm X0 X1 X3 X4 2 (flat (t.val / 32) (t.val % 32) g.val a.val b.val) := by
  step_tac out0_A_s2 out0_B_s2 out0_C_s2 upd_2 (k0_pay6_apply a b)

theorem step_s3 : (outsAt0 m c t.val t.isLt).s3 (ix2 a b)
    = (if t.val % 32 = 0 then 0 else (outsAt0 m c (t.val - 1) (Nat.lt_of_le_of_lt (Nat.sub_le _ _) t.isLt)).s3 (ix2 a b))
      + ∑ g : Fin 256, accTerm X0 X1 X3 X4 3 (flat (t.val / 32) (t.val % 32) g.val a.val b.val) := by
  step_tac out0_A_s3 out0_B_s3 out0_C_s3 upd_3 (k0_pay7_apply a b)

theorem step_s4 : (outsAt0 m c t.val t.isLt).s4 (ix2 a b)
    = (if t.val % 32 = 0 then 0 else (outsAt0 m c (t.val - 1) (Nat.lt_of_le_of_lt (Nat.sub_le _ _) t.isLt)).s4 (ix2 a b))
      + ∑ g : Fin 256, accTerm X0 X1 X3 X4 4 (flat (t.val / 32) (t.val % 32) g.val a.val b.val) := by
  step_tac out0_A_s4 out0_B_s4 out0_C_s4 upd_4 (k0_pay8_apply a b)

theorem step_s5 : (outsAt0 m c t.val t.isLt).s5 (ix2 a b)
    = (if t.val % 32 = 0 then 0 else (outsAt0 m c (t.val - 1) (Nat.lt_of_le_of_lt (Nat.sub_le _ _) t.isLt)).s5 (ix2 a b))
      + ∑ g : Fin 256, accTerm X0 X1 X3 X4 5 (flat (t.val / 32) (t.val % 32) g.val a.val b.val) := by
  step_tac out0_A_s5 out0_B_s5 out0_C_s5 upd_5 (k0_pay9_apply a b)

theorem step_s6 : (outsAt0 m c t.val t.isLt).s6 (ix2 a b)
    = (if t.val % 32 = 0 then 0 else (outsAt0 m c (t.val - 1) (Nat.lt_of_le_of_lt (Nat.sub_le _ _) t.isLt)).s6 (ix2 a b))
      + ∑ g : Fin 256, accTerm X0 X1 X3 X4 6 (flat (t.val / 32) (t.val % 32) g.val a.val b.val) := by
  step_tac out0_A_s6 out0_B_s6 out0_C_s6 upd_6 (k0_pay10_apply a b)

theorem step_s7 : (outsAt0 m c t.val t.isLt).s7 (ix2 a b)
    = (if t.val % 32 = 0 then 0 else (outsAt0 m c (t.val - 1) (Nat.lt_of_le_of_lt (Nat.sub_le _ _) t.isLt)).s7 (ix2 a b))
      + ∑ g : Fin 256, accTerm X0 X1 X3 X4 7 (flat (t.val / 32) (t.val % 32) g.val a.val b.val) := by
  step_tac out0_A_s7 out0_B_s7 out0_C_s7 upd_7 (k0_pay20_apply a b)

theorem step_s8 : (outsAt0 m c t.val t.isLt).s8 (ix2 a b)
    = (if t.val % 32 = 0 then 0 else (outsAt0 m c (t.val - 1) (Nat.lt_of_le_of_lt (Nat.sub_le _ _) t.isLt)).s8 (ix2 a b))
      + ∑ g : Fin 256, accTerm X0 X1 X3 X4 8 (flat (t.val / 32) (t.val % 32) g.val a.val b.val) := by
  step_tac out0_A_s8 out0_B_s8 out0_C_s8 upd_8 (k0_pay21_apply a b)

theorem step_s9 : (outsAt0 m c t.val t.isLt).s9 (ix2 a b)
    = (if t.val % 32 = 0 then 0 else (outsAt0 m c (t.val - 1) (Nat.lt_of_le_of_lt (Nat.sub_le _ _) t.isLt)).s9 (ix2 a b))
      + ∑ g : Fin 256, accTerm X0 X1 X3 X4 9 (flat (t.val / 32) (t.val % 32) g.val a.val b.val) := by
  step_tac out0_A_s9 out0_B_s9 out0_C_s9 upd_9 (k0_pay22_apply a b)

end Step

/-! ## The ten accumulators as one family -/

/-- Accumulator `j` of a state. -/
def sAt (p : Acc Ideal) : Fin 10 → Vec Ideal S8x128 .f32
  | 0 => p.s0 | 1 => p.s1 | 2 => p.s2 | 3 => p.s3 | 4 => p.s4
  | 5 => p.s5 | 6 => p.s6 | 7 => p.s7 | 8 => p.s8 | 9 => p.s9
  | ⟨_ + 10, h⟩ => absurd h (Nat.not_lt.2 (Nat.le_add_left _ _))

/-- The result window of accumulator `j` in a state. -/
def oAt (p : Acc Ideal) : Fin 10 → Vec Ideal S8x128 .f32
  | 0 => p.o4 | 1 => p.o5 | 2 => p.o6 | 3 => p.o7 | 4 => p.o8
  | 5 => p.o9 | 6 => p.o10 | 7 => p.o11 | 8 => p.o12 | 9 => p.o13
  | ⟨_ + 10, h⟩ => absurd h (Nat.not_lt.2 (Nat.le_add_left _ _))

/-- (i) One point, any accumulator: what it held after the point before (nothing at a core's first point) plus the
    samples of the point's block at rows `8 g + a`, lane `b`. -/
theorem step_sAt (j : Fin 10) (t : Fin cfg0.N) (a : Fin 8) (b : Fin 128) :
    sAt (outsAt0 m c t.val t.isLt) j (ix2 a b)
      = (if t.val % 32 = 0 then 0 else sAt (outsAt0 m c (t.val - 1) (Nat.lt_of_le_of_lt (Nat.sub_le _ _) t.isLt)) j (ix2 a b))
        + ∑ g : Fin 256, accTerm X0 X1 X3 X4 j (flat (t.val / 32) (t.val % 32) g.val a.val b.val) :=
  match j with
  | ⟨0, _⟩ => step_s0 m c t a b
  | ⟨1, _⟩ => step_s1 m c t a b
  | ⟨2, _⟩ => step_s2 m c t a b
  | ⟨3, _⟩ => step_s3 m c t a b
  | ⟨4, _⟩ => step_s4 m c t a b
  | ⟨5, _⟩ => step_s5 m c t a b
  | ⟨6, _⟩ => step_s6 m c t a b
  | ⟨7, _⟩ => step_s7 m c t a b
  | ⟨8, _⟩ => step_s8 m c t a b
  | ⟨9, _⟩ => step_s9 m c t a b
  | ⟨_ + 10, h⟩ => absurd h (Nat.not_lt.2 (Nat.le_add_left _ _))

/-! ## The result windows at a core's last point -/

section Last
variable (t : Fin cfg0.N) (h0 : ¬t.val % 32 = 0) (h1 : t.val % 32 = 31) (a' : Fin 8) (b' : Fin 128)
include h0 h1

theorem last_o4 : (outsAt0 m c t.val t.isLt).o4 (ix2 a' b')
    = ∑ s : Fin 8, ∑ l : Fin 128, (outsAt0 m c t.val t.isLt).s0 (ix2 s l) := by
  have e : (outsAt0 m c t.val t.isLt).o4 = k0_pay12 (F := Ideal) (outsAt0 m c t.val t.isLt).s0 := by
    rw [outsAt0_C m c t h0 h1, (atPoint% out0_C_o4) _ _ (iblk m c 0 t) (iblk m c 1 t) (iblk m c 2 t) (iblk m c 3 t) _,
      (atPoint% out0_C_s0) _ _ (iblk m c 0 t) (iblk m c 1 t) (iblk m c 2 t) (iblk m c 3 t) _]
  rw [e]
  exact k0_pay12_apply _ a' b'

theorem last_o5 : (outsAt0 m c t.val t.isLt).o5 (ix2 a' b')
    = ∑ s : Fin 8, ∑ l : Fin 128, (outsAt0 m c t.val t.isLt).s1 (ix2 s l) := by
  have e : (outsAt0 m c t.val t.isLt).o5 = k0_pay13 (F := Ideal) (outsAt0 m c t.val t.isLt).s1 := by
    rw [outsAt0_C m c t h0 h1, (atPoint% out0_C_o5) _ _ (iblk m c 0 t) (iblk m c 1 t) (iblk m c 2 t) (iblk m c 3 t) _,
      (atPoint% out0_C_s1) _ _ (iblk m c 0 t) (iblk m c 1 t) (iblk m c 2 t) (iblk m c 3 t) _]
  rw [e]
  exact k0_pay13_apply _ a' b'

theorem last_o6 : (outsAt0 m c t.val t.isLt).o6 (ix2 a' b')
    = ∑ s : Fin 8, ∑ l : Fin 128, (outsAt0 m c t.val t.isLt).s2 (ix2 s l) := by
  have e : (outsAt0 m c t.val t.isLt).o6 = k0_pay14 (F := Ideal) (outsAt0 m c t.val t.isLt).s2 := by
    rw [outsAt0_C m c t h0 h1, (atPoint% out0_C_o6) _ _ (iblk m c 0 t) (iblk m c 1 t) (iblk m c 2 t) (iblk m c 3 t) _,
      (atPoint% out0_C_s2) _ _ (iblk m c 0 t) (iblk m c 1 t) (iblk m c 2 t) (iblk m c 3 t) _]
  rw [e]
  exact k0_pay14_apply _ a' b'

theorem last_o7 : (outsAt0 m c t.val t.isLt).o7 (ix2 a' b')
    = ∑ s : Fin 8, ∑ l : Fin 128, (outsAt0 m c t.val t.isLt).s3 (ix2 s l) := by
  have e : (outsAt0 m c t.val t.isLt).o7 = k0_pay15 (F := Ideal) (outsAt0 m c t.val t.isLt).s3 := by
    rw [outsAt0_C m c t h0 h1, (atPoint% out0_C_o7) _ _ (iblk m c 0 t) (iblk m c 1 t) (iblk m c 2 t) (iblk m c 3 t) _,
      (atPoint% out0_C_s3) _ _ (iblk m c 0 t) (iblk m c 1 t) (iblk m c 2 t) (iblk m c 3 t) _]
  rw [e]
  exact k0_pay15_apply _ a' b'

theorem last_o8 : (outsAt0 m c t.val t.isLt).o8 (ix2 a' b')
    = ∑ s : Fin 8, ∑ l : Fin 128, (outsAt0 m c t.val t.isLt).s4 (ix2 s l) := by
  have e : (outsAt0 m c t.val t.isLt).o8 = k0_pay16 (F := Ideal) (outsAt0 m c t.val t.isLt).s4 := by
    rw [outsAt0_C m c t h0 h1, (atPoint% out0_C_o8) _ _ (iblk m c 0 t) (iblk m c 1 t) (iblk m c 2 t) (iblk m c 3 t) _,
      (atPoint% out0_C_s4) _ _ (iblk m c 0 t) (iblk m c 1 t) (iblk m c 2 t) (iblk m c 3 t) _]
  rw [e]
  exact k0_pay16_apply _ a' b'

theorem last_o9 : (outsAt0 m c t.val t.isLt).o9 (ix2 a' b')
    = ∑ s : Fin 8, ∑ l : Fin 128, (outsAt0 m c t.val t.isLt).s5 (ix2 s l) := by
  have e : (outsAt0 m c t.val t.isLt).o9 = k0_pay17 (F := Ideal) (outsAt0 m c t.val t.isLt).s5 := by
    rw [outsAt0_C m c t h0 h1, (atPoint% out0_C_o9) _ _ (iblk m c 0 t) (iblk m c 1 t) (iblk m c 2 t) (iblk m c 3 t) _,
      (atPoint% out0_C_s5) _ _ (iblk m c 0 t) (iblk m c 1 t) (iblk m c 2 t) (iblk m c 3 t) _]
  rw [e]
  exact k0_pay17_apply _ a' b'

theorem last_o10 : (outsAt0 m c t.val t.isLt).o10 (ix2 a' b')
    = ∑ s : Fin 8, ∑ l : Fin 128, (outsAt0 m c t.val t.isLt).s6 (ix2 s l) := by
  have e : (outsAt0 m c t.val t.isLt).o10 = k0_pay18 (F := Ideal) (outsAt0 m c t.val t.isLt).s6 := by
    rw [outsAt0_C m c t h0 h1, (atPoint% out0_C_o10) _ _ (iblk m c 0 t) (iblk m c 1 t) (iblk m c 2 t) (iblk m c 3 t) _,
      (atPoint% out0_C_s6) _ _ (iblk m c 0 t) (iblk m c 1 t) (iblk m c 2 t) (iblk m c 3 t) _]
  rw [e]
  exact k0_pay18_apply _ a' b'

theorem last_o11 : (outsAt0 m c t.val t.isLt).o11 (ix2 a' b')
    = ∑ s : Fin 8, ∑ l : Fin 128, (outsAt0 m c t.val t.isLt).s7 (ix2 s l) := by
  have e : (outsAt0 m c t.val t.isLt).o11 = k0_pay19 (F := Ideal) (outsAt0 m c t.val t.isLt).s7 := by
    rw [outsAt0_C m c t h0 h1, (atPoint% out0_C_o11) _ _ (iblk m c 0 t) (iblk m c 1 t) (iblk m c 2 t) (iblk m c 3 t) _,
      (atPoint% out0_C_s7) _ _ (iblk m c 0 t) (iblk m c 1 t) (iblk m c 2 t) (iblk m c 3 t) _]
  rw [e]
  exact k0_pay19_apply _ a' b'

theorem last_o12 : (outsAt0 m c t.val t.isLt).o12 (ix2 a' b')
    = ∑ s : Fin 8, ∑ l : Fin 128, (outsAt0 m c t.val t.isLt).s8 (ix2 s l) := by
  have e : (outsAt0 m c t.val t.isLt).o12 = k0_pay2 (F := Ideal) (outsAt0 m c t.val t.isLt).s8 := by
    rw [outsAt0_C m c t h0 h1, (atPoint% out0_C_o12) _ _ (iblk m c 0 t) (iblk m c 1 t) (iblk m c 2 t) (iblk m c 3 t) _,
      (atPoint% out0_C_s8) _ _ (iblk m c 0 t) (iblk m c 1 t) (iblk m c 2 t) (iblk m c 3 t) _]
  rw [e]
  exact k0_pay2_apply _ a' b'

theorem last_o13 : (outsAt0 m c t.val t.isLt).o13 (ix2 a' b')
    = ∑ s : Fin 8, ∑ l : Fin 128, (outsAt0 m c t.val t.isLt).s9 (ix2 s l) := by
  have e : (outsAt0 m c t.val t.isLt).o13 = k0_pay3 (F := Ideal) (outsAt0 m c t.val t.isLt).s9 := by
    rw [outsAt0_C m c t h0 h1, (atPoint% out0_C_o13) _ _ (iblk m c 0 t) (iblk m c 1 t) (iblk m c 2 t) (iblk m c 3 t) _,
      (atPoint% out0_C_s9) _ _ (iblk m c 0 t) (iblk m c 1 t) (iblk m c 2 t) (iblk m c 3 t) _]
  rw [e]
  exact k0_pay3_apply _ a' b'

end Last

/-- At a core's last point the result window of accumulator `j` holds, at every entry, the accumulator's total. -/
theorem last_oAt (j : Fin 10) (t : Fin cfg0.N) (h0 : ¬t.val % 32 = 0) (h1 : t.val % 32 = 31) (a' : Fin 8) (b' : Fin 128) :
    oAt (outsAt0 m c t.val t.isLt) j (ix2 a' b')
      = ∑ s : Fin 8, ∑ l : Fin 128, sAt (outsAt0 m c t.val t.isLt) j (ix2 s l) :=
  match j with
  | ⟨0, _⟩ => last_o4 m c t h0 h1 a' b'
  | ⟨1, _⟩ => last_o5 m c t h0 h1 a' b'
  | ⟨2, _⟩ => last_o6 m c t h0 h1 a' b'
  | ⟨3, _⟩ => last_o7 m c t h0 h1 a' b'
  | ⟨4, _⟩ => last_o8 m c t h0 h1 a' b'
  | ⟨5, _⟩ => last_o9 m c t h0 h1 a' b'
  | ⟨6, _⟩ => last_o10 m c t h0 h1 a' b'
  | ⟨7, _⟩ => last_o11 m c t h0 h1 a' b'
  | ⟨8, _⟩ => last_o12 m c t h0 h1 a' b'
  | ⟨9, _⟩ => last_o13 m c t h0 h1 a' b'
  | ⟨_ + 10, h⟩ => absurd h (Nat.not_lt.2 (Nat.le_add_left _ _))

end Cert.KernelIdeal.Value

end
-- ==== Proof.LibAccumulate.lean ====
import Mathlib.Algebra.BigOperators.Fin
import Mathlib.Algebra.BigOperators.Intervals
import proofs.«126502_j87754771792112_2_alg».proof.Proof.LibBlockSums

/-!
# An accumulator restarted every `P` steps, and the array as its two halves

* A sequence `acc` that restarts at every multiple of `P` (`acc n = 0 + step n`) and otherwise adds the current
  step to its previous value (`acc n = acc (n - 1) + step n`) holds, `t` steps into run `c`, the sum of that
  run's first `t + 1` steps; at the run's last step it holds the sum of the whole run.
* Summing over the sublanes, lanes, blocks and row groups of the first half of the array, and of the second, and
  adding the two, is summing over every position.
-/

open scoped BigOperators

namespace Cert.BlockSums

section
variable {M : Type*} [AddCommMonoid M]

/-- The accumulator `t` steps into run `c` of length `P` is the sum of the run's steps `0, …, t`. -/
theorem acc_closed_gen (P : ℕ) (acc step : ℕ → M) (h0 : ∀ n, n % P = 0 → acc n = 0 + step n)
    (hs : ∀ n, n % P ≠ 0 → acc n = acc (n - 1) + step n) (c t : ℕ) (ht : t < P) :
    acc (P * c + t) = ∑ u ∈ Finset.range (t + 1), step (P * c + u) := by
  induction t with
  | zero =>
    rw [h0 (P * c + 0) (by rw [Nat.add_zero]; exact Nat.mul_mod_right P c), zero_add, Finset.sum_range_one]
  | succ t ih =>
    have hne : (P * c + (t + 1)) % P ≠ 0 := by
      rw [Nat.mul_add_mod, Nat.mod_eq_of_lt ht]
      exact Nat.succ_ne_zero t
    have hpred : P * c + (t + 1) - 1 = P * c + t := rfl
    rw [hs _ hne, hpred, ih (Nat.lt_of_succ_lt ht), Finset.sum_range_succ _ (t + 1)]

/-- With runs of `32` steps: the accumulator `t` steps into run `c` is the sum of the run's steps `0, …, t`. -/
theorem acc_closed (acc step : ℕ → M) (h0 : ∀ n, n % 32 = 0 → acc n = 0 + step n)
    (hs : ∀ n, n % 32 ≠ 0 → acc n = acc (n - 1) + step n) (c t : ℕ) (ht : t < 32) :
    acc (32 * c + t) = ∑ u ∈ Finset.range (t + 1), step (32 * c + u) :=
  acc_closed_gen 32 acc step h0 hs c t ht

/-- With runs of `32` steps: at a run's last step the accumulator is the sum of the whole run. -/
theorem acc_closed_last (acc step : ℕ → M) (h0 : ∀ n, n % 32 = 0 → acc n = 0 + step n)
    (hs : ∀ n, n % 32 ≠ 0 → acc n = acc (n - 1) + step n) (c : ℕ) :
    acc (32 * c + 31) = ∑ u : Fin 32, step (32 * c + u.val) := by
  rw [acc_closed acc step h0 hs c 31 (by norm_num)]
  exact (Fin.sum_univ_eq_sum_range (fun u => step (32 * c + u)) 32).symm

/-- The sum over the first half's positions plus the sum over the second half's is the sum over all
`16777216` positions. -/
theorem sum_blocks_halves (f : ℕ → M) :
    (∑ a : Fin 8, ∑ b : Fin 128, ∑ u : Fin 32, ∑ g : Fin 256, f (flat 0 u g a b))
      + (∑ a : Fin 8, ∑ b : Fin 128, ∑ u : Fin 32, ∑ g : Fin 256, f (flat 1 u g a b))
      = ∑ n : Fin 16777216, f n := by
  rw [← sum_blocks f, Fin.sum_univ_two]
  rfl

end

end Cert.BlockSums
-- ==== Proof.KernelIdeal.Closed.lean ====
import proofs.«126502_j87754771792112_2_alg».proof.Proof.KernelIdeal.Invariant
import proofs.«126502_j87754771792112_2_alg».proof.Proof.LibAccumulate

/-!
# The ten accumulators at a core's last point

Each core runs 32 points. Entry `(a, b)` of accumulator `j` restarts at the core's first point and, at every point,
adds the samples of the point's block at rows `8 g + a`, lane `b`, over the 256 row groups `g`. So at the core's
last point the entry holds the sum over the core's 32 blocks and their 256 row groups; the result window of
accumulator `j`, which holds the accumulator's total over its 8 sublanes and 128 lanes at every entry, then holds
the sum over every sample of the core's half of the arrays. Point `32 * cc + u` of the grid is point `u` of core
`cc`: its quotient by 32 is `cc` and its remainder `u`.
-/

open scoped BigOperators

/-! ## An accumulator restarted every `P` steps, known only below a bound -/

namespace Cert.BlockSums

section
variable {M : Type*} [AddCommMonoid M]

/-- An accumulator that restarts at every multiple of `P` and otherwise adds the current step to its previous
value holds, `t` steps into run `c`, the sum of that run's first `t + 1` steps; the two recurrences are needed
only at the steps below a bound `N`. -/
theorem acc_closed_below (P N : ℕ) (acc step : ℕ → M)
    (h0 : ∀ n, n < N → n % P = 0 → acc n = 0 + step n)
    (hs : ∀ n, n < N → n % P ≠ 0 → acc n = acc (n - 1) + step n) (c t : ℕ) (ht : t < P)
    (hN : P * c + t < N) : acc (P * c + t) = ∑ u ∈ Finset.range (t + 1), step (P * c + u) := by
  induction t with
  | zero =>
    rw [h0 (P * c + 0) hN (by rw [Nat.add_zero]; exact Nat.mul_mod_right P c), zero_add, Finset.sum_range_one]
  | succ t ih =>
    have hne : (P * c + (t + 1)) % P ≠ 0 := by
      rw [Nat.mul_add_mod, Nat.mod_eq_of_lt ht]
      exact Nat.succ_ne_zero t
    have hpred : P * c + (t + 1) - 1 = P * c + t := rfl
    rw [hs _ hN hne, hpred, ih (Nat.lt_of_succ_lt ht) (Nat.lt_of_succ_lt hN), Finset.sum_range_succ _ (t + 1)]

/-- Steps in runs of thirty-two, the value after step `n` given only for `n < N`: at the last step of run `cc`
the value is the sum of that run's thirty-two steps. -/
theorem last_of_steps (N : ℕ) (s : (n : ℕ) → n < N → M) (step : ℕ → M)
    (hA : ∀ n (h : n < N), n % 32 = 0 → s n h = 0 + step n)
    (hB : ∀ n (h : n < N) (h1 : n - 1 < N), n % 32 ≠ 0 → s n h = s (n - 1) h1 + step n)
    (cc : ℕ) (h : 32 * cc + 31 < N) : s (32 * cc + 31) h = ∑ u : Fin 32, step (32 * cc + u.val) := by
  have key := acc_closed_below 32 N (fun n => if h : n < N then s n h else 0) step
    (fun n hn hz => by rw [dif_pos hn]; exact hA n hn hz)
    (fun n hn hz => by rw [dif_pos hn, dif_pos (show n - 1 < N by omega)]; exact hB n hn _ hz)
    cc 31 (by norm_num) h
  rw [dif_pos h] at key
  rw [key]
  exact (Fin.sum_univ_eq_sum_range (fun u => step (32 * cc + u)) 32).symm

end

/-- Point `32 * cc + u` of the grid, `u < 32`, is point `u` of half `cc`. -/
theorem flat_point (cc u g a b : ℕ) (hu : u < 32) :
    flat ((32 * cc + u) / 32) ((32 * cc + u) % 32) g a b = flat cc u g a b := by
  have h1 : (32 * cc + u) / 32 = cc := by omega
  have h2 : (32 * cc + u) % 32 = u := by omega
  rw [h1, h2]

/-- If entry `(a, b)` of an accumulator restarts, at each half's first point, from what that point's block adds
to it, and at every other point adds the point's block to its previous value, then at the last point of half
`cc` it holds the sum over the half's thirty-two blocks and each block's 256 row groups. -/
theorem acc_last (N : ℕ) (term : ℕ → EReal) (s : (n : ℕ) → n < N → EReal) (a b : ℕ)
    (hA : ∀ n (h : n < N), n % 32 = 0 → s n h = 0 + ∑ g : Fin 256, term (flat (n / 32) (n % 32) g.val a b))
    (hB : ∀ n (h : n < N) (h1 : n - 1 < N), n % 32 ≠ 0 →
      s n h = s (n - 1) h1 + ∑ g : Fin 256, term (flat (n / 32) (n % 32) g.val a b))
    (cc : ℕ) (h : 32 * cc + 31 < N) :
    s (32 * cc + 31) h = ∑ u : Fin 32, ∑ g : Fin 256, term (flat cc u.val g.val a b) := by
  rw [last_of_steps N s (fun n => ∑ g : Fin 256, term (flat (n / 32) (n % 32) g.val a b)) hA hB cc h]
  refine Finset.sum_congr rfl fun u _ => Finset.sum_congr rfl fun g _ => ?_
  rw [flat_point cc u.val g.val a b u.isLt]

end Cert.BlockSums

noncomputable section

namespace Cert.KernelIdeal.Value

open Cert.KernelIdeal Cert.KernelIdeal.Gen Cert.KernelIdeal.Frame
open Idealize.ShloMosaic Idealize.ShloMosaic.TcCoe Idealize.ShloMosaic.ValueIdx
open Idealize.SL Idealize.SL.Sem
open Cert.Bridge.Terms Cert.BlockSums

variable (m : (ℓ : Loc nD τ sig) → Buf (Elt Ideal) ℓ) (c : Dev nD)

/- The four arrays the program reads: the two predictions and the two targets. -/
set_option quotPrecheck false in
local notation "X0" => (m ((c : Thread nD τ).loc main_arg0) : Arr)
set_option quotPrecheck false in
local notation "X1" => (m ((c : Thread nD τ).loc main_arg1) : Col)
set_option quotPrecheck false in
local notation "X3" => (m ((c : Thread nD τ).loc main_arg3) : Arr)
set_option quotPrecheck false in
local notation "X4" => (m ((c : Thread nD τ).loc main_arg4) : Arr)

/-! ## A core's 32 points -/

/-- At the last point `n = 32 * cc + 31` of core `cc`, entry `(a, b)` of accumulator `j` holds the samples at rows
`8 g + a`, lane `b` of all the core's 32 blocks. -/
theorem closed_sAt (j : Fin 10) (a : Fin 8) (b : Fin 128) (cc n : ℕ) (hn : n = 32 * cc + 31) (h : n < cfg0.N) :
    sAt (outsAt0 m c n h) j (ix2 a b)
      = ∑ u : Fin 32, ∑ g : Fin 256, accTerm X0 X1 X3 X4 j (flat cc u.val g.val a.val b.val) := by
  subst hn
  refine acc_last cfg0.N (accTerm X0 X1 X3 X4 j) (fun n h => sAt (outsAt0 m c n h) j (ix2 a b)) a.val b.val ?_ ?_ cc h
  · intro n h hz
    have e := step_sAt m c j ⟨n, h⟩ a b
    rw [if_pos (show (⟨n, h⟩ : Fin cfg0.N).val % 32 = 0 from hz)] at e
    exact e
  · intro n h h1 hz
    have e := step_sAt m c j ⟨n, h⟩ a b
    rw [if_neg (show ¬(⟨n, h⟩ : Fin cfg0.N).val % 32 = 0 from hz)] at e
    exact e

/-- At the last point `n = 32 * cc + 31` of core `cc`, every entry of the result window of accumulator `j` is the
sum, over the sublanes, lanes, blocks and row groups of the core's half of the arrays, of what each sample adds to
accumulator `j`. -/
theorem result_oAt (j : Fin 10) (cc n : ℕ) (hn : n = 32 * cc + 31) (h : n < cfg0.N) (a' : Fin 8) (b' : Fin 128) :
    oAt (outsAt0 m c n h) j (ix2 a' b')
      = ∑ a : Fin 8, ∑ b : Fin 128, ∑ u : Fin 32, ∑ g : Fin 256,
          accTerm X0 X1 X3 X4 j (flat cc u.val g.val a.val b.val) := by
  have h0 : ¬n % 32 = 0 := by omega
  have h1 : n % 32 = 31 := by omega
  refine (last_oAt m c j ⟨n, h⟩ h0 h1 a' b').trans ?_
  refine Finset.sum_congr rfl fun a _ => Finset.sum_congr rfl fun b _ => ?_
  exact closed_sAt m c j a b cc n hn h

/-! ## The two cores' result windows, at the entry the program reads -/

/-- Point 31, the first core's last, is one of the grid's 64 points. -/
theorem lt31' : 31 < cfg0.N := by rw [show cfg0.N = 64 from N_0]; decide
/-- Point 63, the second core's last, is one of the grid's 64 points. -/
theorem lt63' : 63 < cfg0.N := by rw [show cfg0.N = 64 from N_0]; decide

/-- The result window of accumulator 0 is the field `o4`. -/
theorem oAt_0 (p : Acc Ideal) : oAt p 0 = p.o4 := rfl

/-- The result window of accumulator 1 is the field `o5`. -/
theorem oAt_1 (p : Acc Ideal) : oAt p 1 = p.o5 := rfl

/-- The result window of accumulator 2 is the field `o6`. -/
theorem oAt_2 (p : Acc Ideal) : oAt p 2 = p.o6 := rfl

/-- The result window of accumulator 3 is the field `o7`. -/
theorem oAt_3 (p : Acc Ideal) : oAt p 3 = p.o7 := rfl

/-- The result window of accumulator 4 is the field `o8`. -/
theorem oAt_4 (p : Acc Ideal) : oAt p 4 = p.o8 := rfl

/-- The result window of accumulator 5 is the field `o9`. -/
theorem oAt_5 (p : Acc Ideal) : oAt p 5 = p.o9 := rfl

/-- The result window of accumulator 6 is the field `o10`. -/
theorem oAt_6 (p : Acc Ideal) : oAt p 6 = p.o10 := rfl

/-- The result window of accumulator 7 is the field `o11`. -/
theorem oAt_7 (p : Acc Ideal) : oAt p 7 = p.o11 := rfl

/-- The result window of accumulator 8 is the field `o12`. -/
theorem oAt_8 (p : Acc Ideal) : oAt p 8 = p.o12 := rfl

/-- The result window of accumulator 9 is the field `o13`. -/
theorem oAt_9 (p : Acc Ideal) : oAt p 9 = p.o13 := rfl

/-- Core 0's result for accumulator 0: the sum over every sample of the first half of the arrays. -/
theorem o_last31_0 (h : 31 < cfg0.N) : (outsAt0 m c 31 h).o4 (ix2 (0 : Fin 8) (0 : Fin 128))
    = ∑ a : Fin 8, ∑ b : Fin 128, ∑ u : Fin 32, ∑ g : Fin 256, accTerm X0 X1 X3 X4 0 (flat 0 u.val g.val a.val b.val) :=
  (congrFun (oAt_0 (outsAt0 m c 31 h)) (ix2 (0 : Fin 8) (0 : Fin 128))).symm.trans
    (result_oAt m c 0 0 31 rfl h 0 0)

/-- Core 1's result for accumulator 0: the sum over every sample of the second half of the arrays. -/
theorem o_last63_0 (h : 63 < cfg0.N) : (outsAt0 m c 63 h).o4 (ix2 (0 : Fin 8) (0 : Fin 128))
    = ∑ a : Fin 8, ∑ b : Fin 128, ∑ u : Fin 32, ∑ g : Fin 256, accTerm X0 X1 X3 X4 0 (flat 1 u.val g.val a.val b.val) :=
  (congrFun (oAt_0 (outsAt0 m c 63 h)) (ix2 (0 : Fin 8) (0 : Fin 128))).symm.trans
    (result_oAt m c 0 1 63 rfl h 0 0)

/-- Core 0's result for accumulator 1: the sum over every sample of the first half of the arrays. -/
theorem o_last31_1 (h : 31 < cfg0.N) : (outsAt0 m c 31 h).o5 (ix2 (0 : Fin 8) (0 : Fin 128))
    = ∑ a : Fin 8, ∑ b : Fin 128, ∑ u : Fin 32, ∑ g : Fin 256, accTerm X0 X1 X3 X4 1 (flat 0 u.val g.val a.val b.val) :=
  (congrFun (oAt_1 (outsAt0 m c 31 h)) (ix2 (0 : Fin 8) (0 : Fin 128))).symm.trans
    (result_oAt m c 1 0 31 rfl h 0 0)

/-- Core 1's result for accumulator 1: the sum over every sample of the second half of the arrays. -/
theorem o_last63_1 (h : 63 < cfg0.N) : (outsAt0 m c 63 h).o5 (ix2 (0 : Fin 8) (0 : Fin 128))
    = ∑ a : Fin 8, ∑ b : Fin 128, ∑ u : Fin 32, ∑ g : Fin 256, accTerm X0 X1 X3 X4 1 (flat 1 u.val g.val a.val b.val) :=
  (congrFun (oAt_1 (outsAt0 m c 63 h)) (ix2 (0 : Fin 8) (0 : Fin 128))).symm.trans
    (result_oAt m c 1 1 63 rfl h 0 0)

/-- Core 0's result for accumulator 2: the sum over every sample of the first half of the arrays. -/
theorem o_last31_2 (h : 31 < cfg0.N) : (outsAt0 m c 31 h).o6 (ix2 (0 : Fin 8) (0 : Fin 128))
    = ∑ a : Fin 8, ∑ b : Fin 128, ∑ u : Fin 32, ∑ g : Fin 256, accTerm X0 X1 X3 X4 2 (flat 0 u.val g.val a.val b.val) :=
  (congrFun (oAt_2 (outsAt0 m c 31 h)) (ix2 (0 : Fin 8) (0 : Fin 128))).symm.trans
    (result_oAt m c 2 0 31 rfl h 0 0)

/-- Core 1's result for accumulator 2: the sum over every sample of the second half of the arrays. -/
theorem o_last63_2 (h : 63 < cfg0.N) : (outsAt0 m c 63 h).o6 (ix2 (0 : Fin 8) (0 : Fin 128))
    = ∑ a : Fin 8, ∑ b : Fin 128, ∑ u : Fin 32, ∑ g : Fin 256, accTerm X0 X1 X3 X4 2 (flat 1 u.val g.val a.val b.val) :=
  (congrFun (oAt_2 (outsAt0 m c 63 h)) (ix2 (0 : Fin 8) (0 : Fin 128))).symm.trans
    (result_oAt m c 2 1 63 rfl h 0 0)

/-- Core 0's result for accumulator 3: the sum over every sample of the first half of the arrays. -/
theorem o_last31_3 (h : 31 < cfg0.N) : (outsAt0 m c 31 h).o7 (ix2 (0 : Fin 8) (0 : Fin 128))
    = ∑ a : Fin 8, ∑ b : Fin 128, ∑ u : Fin 32, ∑ g : Fin 256, accTerm X0 X1 X3 X4 3 (flat 0 u.val g.val a.val b.val) :=
  (congrFun (oAt_3 (outsAt0 m c 31 h)) (ix2 (0 : Fin 8) (0 : Fin 128))).symm.trans
    (result_oAt m c 3 0 31 rfl h 0 0)

/-- Core 1's result for accumulator 3: the sum over every sample of the second half of the arrays. -/
theorem o_last63_3 (h : 63 < cfg0.N) : (outsAt0 m c 63 h).o7 (ix2 (0 : Fin 8) (0 : Fin 128))
    = ∑ a : Fin 8, ∑ b : Fin 128, ∑ u : Fin 32, ∑ g : Fin 256, accTerm X0 X1 X3 X4 3 (flat 1 u.val g.val a.val b.val) :=
  (congrFun (oAt_3 (outsAt0 m c 63 h)) (ix2 (0 : Fin 8) (0 : Fin 128))).symm.trans
    (result_oAt m c 3 1 63 rfl h 0 0)

/-- Core 0's result for accumulator 4: the sum over every sample of the first half of the arrays. -/
theorem o_last31_4 (h : 31 < cfg0.N) : (outsAt0 m c 31 h).o8 (ix2 (0 : Fin 8) (0 : Fin 128))
    = ∑ a : Fin 8, ∑ b : Fin 128, ∑ u : Fin 32, ∑ g : Fin 256, accTerm X0 X1 X3 X4 4 (flat 0 u.val g.val a.val b.val) :=
  (congrFun (oAt_4 (outsAt0 m c 31 h)) (ix2 (0 : Fin 8) (0 : Fin 128))).symm.trans
    (result_oAt m c 4 0 31 rfl h 0 0)

/-- Core 1's result for accumulator 4: the sum over every sample of the second half of the arrays. -/
theorem o_last63_4 (h : 63 < cfg0.N) : (outsAt0 m c 63 h).o8 (ix2 (0 : Fin 8) (0 : Fin 128))
    = ∑ a : Fin 8, ∑ b : Fin 128, ∑ u : Fin 32, ∑ g : Fin 256, accTerm X0 X1 X3 X4 4 (flat 1 u.val g.val a.val b.val) :=
  (congrFun (oAt_4 (outsAt0 m c 63 h)) (ix2 (0 : Fin 8) (0 : Fin 128))).symm.trans
    (result_oAt m c 4 1 63 rfl h 0 0)

/-- Core 0's result for accumulator 5: the sum over every sample of the first half of the arrays. -/
theorem o_last31_5 (h : 31 < cfg0.N) : (outsAt0 m c 31 h).o9 (ix2 (0 : Fin 8) (0 : Fin 128))
    = ∑ a : Fin 8, ∑ b : Fin 128, ∑ u : Fin 32, ∑ g : Fin 256, accTerm X0 X1 X3 X4 5 (flat 0 u.val g.val a.val b.val) :=
  (congrFun (oAt_5 (outsAt0 m c 31 h)) (ix2 (0 : Fin 8) (0 : Fin 128))).symm.trans
    (result_oAt m c 5 0 31 rfl h 0 0)

/-- Core 1's result for accumulator 5: the sum over every sample of the second half of the arrays. -/
theorem o_last63_5 (h : 63 < cfg0.N) : (outsAt0 m c 63 h).o9 (ix2 (0 : Fin 8) (0 : Fin 128))
    = ∑ a : Fin 8, ∑ b : Fin 128, ∑ u : Fin 32, ∑ g : Fin 256, accTerm X0 X1 X3 X4 5 (flat 1 u.val g.val a.val b.val) :=
  (congrFun (oAt_5 (outsAt0 m c 63 h)) (ix2 (0 : Fin 8) (0 : Fin 128))).symm.trans
    (result_oAt m c 5 1 63 rfl h 0 0)

/-- Core 0's result for accumulator 6: the sum over every sample of the first half of the arrays. -/
theorem o_last31_6 (h : 31 < cfg0.N) : (outsAt0 m c 31 h).o10 (ix2 (0 : Fin 8) (0 : Fin 128))
    = ∑ a : Fin 8, ∑ b : Fin 128, ∑ u : Fin 32, ∑ g : Fin 256, accTerm X0 X1 X3 X4 6 (flat 0 u.val g.val a.val b.val) :=
  (congrFun (oAt_6 (outsAt0 m c 31 h)) (ix2 (0 : Fin 8) (0 : Fin 128))).symm.trans
    (result_oAt m c 6 0 31 rfl h 0 0)

/-- Core 1's result for accumulator 6: the sum over every sample of the second half of the arrays. -/
theorem o_last63_6 (h : 63 < cfg0.N) : (outsAt0 m c 63 h).o10 (ix2 (0 : Fin 8) (0 : Fin 128))
    = ∑ a : Fin 8, ∑ b : Fin 128, ∑ u : Fin 32, ∑ g : Fin 256, accTerm X0 X1 X3 X4 6 (flat 1 u.val g.val a.val b.val) :=
  (congrFun (oAt_6 (outsAt0 m c 63 h)) (ix2 (0 : Fin 8) (0 : Fin 128))).symm.trans
    (result_oAt m c 6 1 63 rfl h 0 0)

/-- Core 0's result for accumulator 7: the sum over every sample of the first half of the arrays. -/
theorem o_last31_7 (h : 31 < cfg0.N) : (outsAt0 m c 31 h).o11 (ix2 (0 : Fin 8) (0 : Fin 128))
    = ∑ a : Fin 8, ∑ b : Fin 128, ∑ u : Fin 32, ∑ g : Fin 256, accTerm X0 X1 X3 X4 7 (flat 0 u.val g.val a.val b.val) :=
  (congrFun (oAt_7 (outsAt0 m c 31 h)) (ix2 (0 : Fin 8) (0 : Fin 128))).symm.trans
    (result_oAt m c 7 0 31 rfl h 0 0)

/-- Core 1's result for accumulator 7: the sum over every sample of the second half of the arrays. -/
theorem o_last63_7 (h : 63 < cfg0.N) : (outsAt0 m c 63 h).o11 (ix2 (0 : Fin 8) (0 : Fin 128))
    = ∑ a : Fin 8, ∑ b : Fin 128, ∑ u : Fin 32, ∑ g : Fin 256, accTerm X0 X1 X3 X4 7 (flat 1 u.val g.val a.val b.val) :=
  (congrFun (oAt_7 (outsAt0 m c 63 h)) (ix2 (0 : Fin 8) (0 : Fin 128))).symm.trans
    (result_oAt m c 7 1 63 rfl h 0 0)

/-- Core 0's result for accumulator 8: the sum over every sample of the first half of the arrays. -/
theorem o_last31_8 (h : 31 < cfg0.N) : (outsAt0 m c 31 h).o12 (ix2 (0 : Fin 8) (0 : Fin 128))
    = ∑ a : Fin 8, ∑ b : Fin 128, ∑ u : Fin 32, ∑ g : Fin 256, accTerm X0 X1 X3 X4 8 (flat 0 u.val g.val a.val b.val) :=
  (congrFun (oAt_8 (outsAt0 m c 31 h)) (ix2 (0 : Fin 8) (0 : Fin 128))).symm.trans
    (result_oAt m c 8 0 31 rfl h 0 0)

/-- Core 1's result for accumulator 8: the sum over every sample of the second half of the arrays. -/
theorem o_last63_8 (h : 63 < cfg0.N) : (outsAt0 m c 63 h).o12 (ix2 (0 : Fin 8) (0 : Fin 128))
    = ∑ a : Fin 8, ∑ b : Fin 128, ∑ u : Fin 32, ∑ g : Fin 256, accTerm X0 X1 X3 X4 8 (flat 1 u.val g.val a.val b.val) :=
  (congrFun (oAt_8 (outsAt0 m c 63 h)) (ix2 (0 : Fin 8) (0 : Fin 128))).symm.trans
    (result_oAt m c 8 1 63 rfl h 0 0)

/-- Core 0's result for accumulator 9: the sum over every sample of the first half of the arrays. -/
theorem o_last31_9 (h : 31 < cfg0.N) : (outsAt0 m c 31 h).o13 (ix2 (0 : Fin 8) (0 : Fin 128))
    = ∑ a : Fin 8, ∑ b : Fin 128, ∑ u : Fin 32, ∑ g : Fin 256, accTerm X0 X1 X3 X4 9 (flat 0 u.val g.val a.val b.val) :=
  (congrFun (oAt_9 (outsAt0 m c 31 h)) (ix2 (0 : Fin 8) (0 : Fin 128))).symm.trans
    (result_oAt m c 9 0 31 rfl h 0 0)

/-- Core 1's result for accumulator 9: the sum over every sample of the second half of the arrays. -/
theorem o_last63_9 (h : 63 < cfg0.N) : (outsAt0 m c 63 h).o13 (ix2 (0 : Fin 8) (0 : Fin 128))
    = ∑ a : Fin 8, ∑ b : Fin 128, ∑ u : Fin 32, ∑ g : Fin 256, accTerm X0 X1 X3 X4 9 (flat 1 u.val g.val a.val b.val) :=
  (congrFun (oAt_9 (outsAt0 m c 63 h)) (ix2 (0 : Fin 8) (0 : Fin 128))).symm.trans
    (result_oAt m c 9 1 63 rfl h 0 0)

end Cert.KernelIdeal.Value

end
-- ==== Proof.TailValue.lean ====
/-
  The host operations that follow the kernel's region, read at the ideal instance (floats are extended reals, every
  operation exact): from each of the ten [16,128] result arrays the two partial results at entries (0,0) and (8,0) are
  added to one scalar, and a scalar recurrence over the five classes combines the five counts and the five masked sums
  into the loss.
-/
import proofs.«126502_j87754771792112_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.Bridge.Tail

open Cert.KernelIdeal Cert.KernelIdeal.Gen Idealize.ShloMosaic Idealize.ShloMosaic.TcCoe Idealize.SL.Sem Idealize.ShloMosaic.StableHlo

/-- The contents of a scalar f32 buffer, of a scalar i1 buffer and of a [16,128] f32 buffer, floats read as extended reals. -/
abbrev Sc : Type := (⟨S_, .f32⟩ : BufTy).Contents (Elt Ideal)
abbrev Bc : Type := (⟨S_, .i1⟩ : BufTy).Contents (Elt Ideal)
abbrev Out : Type := (⟨S16x128, .f32⟩ : BufTy).Contents (Elt Ideal)

/-- One accumulator's two partial results — entry (0,0), written by the first core, and entry (8,0), written by the
    second — added, as a scalar. -/
def pair (o : Out) : Sc :=
  addf (F := Ideal) (s := S_) (φ := .f32)
    (shapeCast S_ (extractStridedSlice S1x1 ![0, 0] o slices_S16x128_S1x1_0_0) shapeCasts_S1x1_S_)
    (shapeCast S_ (extractStridedSlice S1x1 ![8, 0] o slices_S16x128_S1x1_8_0) shapeCasts_S1x1_S_)

/-- The scalar constants 0, 1, 2, 5 and 2^24. -/
def zero : Sc := constant (F := Ideal) S_ .f32 0x00000000#32
def one : Sc := constant (F := Ideal) S_ .f32 0x3F800000#32
def two : Sc := constant (F := Ideal) S_ .f32 0x40000000#32
def five : Sc := constant (F := Ideal) S_ .f32 0x40A00000#32
def total : Sc := constant (F := Ideal) S_ .f32 0x4B800000#32

/-- The weight of one class: sqrt (log (2^24 / max (count, 1))). -/
def wgt (c : Sc) : Sc :=
  Host.sqrt (F := Ideal) (s := S_) (φ := .f32) (Host.log (F := Ideal) (s := S_) (φ := .f32)
    (Host.divf (F := Ideal) (s := S_) (φ := .f32) total (maximumf (F := Ideal) (s := S_) (φ := .f32) c one)))

/-- Whether a class is inhabited: count > 0. -/
def nz (c : Sc) : Bc := cmpf (F := Ideal) (s := S_) (φ := .f32) .ogt c zero

/-- The running mean after one class with count `c` and masked sum `s`: ((m + s * weight) / c) / 2 when the class is
    inhabited, unchanged otherwise. -/
def mNext (c s m : Sc) : Sc :=
  select (nz c)
    (Host.divf (F := Ideal) (s := S_) (φ := .f32)
      (Host.divf (F := Ideal) (s := S_) (φ := .f32)
        (addf (F := Ideal) (s := S_) (φ := .f32) m (mulf (F := Ideal) (s := S_) (φ := .f32) s (wgt c))) c) two)
    m

/-- The running total after one class: r + m' when the class is inhabited (m' the new running mean), unchanged otherwise. -/
def rNext (c r m' : Sc) : Sc := select (nz c) (addf (F := Ideal) (s := S_) (φ := .f32) r m') r

/-- The number of inhabited classes so far. -/
def nNext (c n : Sc) : Sc := addf (F := Ideal) (s := S_) (φ := .f32) n (uitofp (F := Ideal) (s := S_) .f32 (nz c))

/-- The scalar recurrence over the five classes, from the five counts and the five masked sums. -/
def RT (c0 c1 c2 c3 c4 s0 s1 s2 s3 s4 : Sc) : Sc :=
  let m0 := mNext c0 s0 zero
  let m1 := mNext c1 s1 m0
  let m2 := mNext c2 s2 m1
  let m3 := mNext c3 s3 m2
  let m4 := mNext c4 s4 m3
  let r4 := rNext c4 (rNext c3 (rNext c2 (rNext c1 (rNext c0 zero m0) m1) m2) m3) m4
  let n4 := nNext c4 (nNext c3 (nNext c2 (nNext c1 (nNext c0 zero))))
  select (cmpf (F := Ideal) (s := S_) (φ := .f32) .oeq n4 zero)
    (Host.divf (F := Ideal) (s := S_) (φ := .f32) r4 five)
    (Host.divf (F := Ideal) (s := S_) (φ := .f32) r4 n4)

/-- The result as a function of the ten [16,128] output arrays: counts first, masked sums after. -/
def KT (o0 o1 o2 o3 o4 o5 o6 o7 o8 o9 : Out) : Sc :=
  RT (pair o0) (pair o1) (pair o2) (pair o3) (pair o4) (pair o5) (pair o6) (pair o7) (pair o8) (pair o9)

/-- The pairwise sum read at the scalar's one index: entry (0,0) plus entry (8,0). -/
theorem pair_apply (o : Out) (i : S_.Idx) :
    pair o i = o (ValueIdx.ix2 (0 : Fin 16) (0 : Fin 128)) + o (ValueIdx.ix2 (8 : Fin 16) (0 : Fin 128)) := by
  have e0 : ∀ k : S1x1.Idx, extractStridedSlice S1x1 ![0, 0] o slices_S16x128_S1x1_0_0 k
      = o (ValueIdx.ix2 (0 : Fin 16) (0 : Fin 128)) := fun k =>
    extractStridedSlice_apply _ o slices_S16x128_S1x1_0_0 k _ (fun a => by
      match a with
      | ⟨0, _⟩ => have h : (k 0).val < 1 := (k 0).isLt; show (0 : Nat) = 0 + (k 0).val; omega
      | ⟨1, _⟩ => have h : (k 1).val < 1 := (k 1).isLt; show (0 : Nat) = 0 + (k 1).val; omega)
  have e8 : ∀ k : S1x1.Idx, extractStridedSlice S1x1 ![8, 0] o slices_S16x128_S1x1_8_0 k
      = o (ValueIdx.ix2 (8 : Fin 16) (0 : Fin 128)) := fun k =>
    extractStridedSlice_apply _ o slices_S16x128_S1x1_8_0 k _ (fun a => by
      match a with
      | ⟨0, _⟩ => have h : (k 0).val < 1 := (k 0).isLt; show (8 : Nat) = 8 + (k 0).val; omega
      | ⟨1, _⟩ => have h : (k 1).val < 1 := (k 1).isLt; show (0 : Nat) = 0 + (k 1).val; omega)
  unfold pair addf shapeCast
  rw [e0, e8]
  rfl

end Cert.Bridge.Tail
-- ==== Proof.TailRun.lean ====
/-
  The run of the host operations that follow the kernel's region, at the ideal instance: whatever the device's buffers
  hold when the region has ended, the operations leave in the result buffer the scalar recurrence `KT` of the ten
  [16,128] result arrays.
-/
import proofs.«126502_j87754771792112_2_alg».proof.Proof.TailValue

noncomputable section

namespace Cert.Bridge.Tail

open Cert.KernelIdeal Cert.KernelIdeal.Gen Idealize.ShloMosaic Idealize.ShloMosaic.TcCoe Idealize.SL.Sem Idealize.ShloMosaic.StableHlo

set_option maxRecDepth 16384 in
set_option maxHeartbeats 4000000 in
/-- From any contents of the device's buffers, the operations after the region leave in the result buffer the scalar
    recurrence applied to the pairwise sums of the ten result arrays. -/
theorem tail_eq (W : Valuation τ sig (Elt Ideal)) :
    StableHlo.after (List.flatten [hostOps1 (F := Ideal), hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]) W (Proc.devRef .tc main_v129)
      = KT (W (Proc.devRef .tc main_v5_0)) (W (Proc.devRef .tc main_v5_1)) (W (Proc.devRef .tc main_v5_2))
          (W (Proc.devRef .tc main_v5_3)) (W (Proc.devRef .tc main_v5_4)) (W (Proc.devRef .tc main_v5_5))
          (W (Proc.devRef .tc main_v5_6)) (W (Proc.devRef .tc main_v5_7)) (W (Proc.devRef .tc main_v5_8))
          (W (Proc.devRef .tc main_v5_9)) := by
  simp only [List.flatten_cons, List.flatten_nil, List.append_nil, List.cons_append, List.nil_append,
    hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21]
  after_results_simp
  rfl

end Cert.Bridge.Tail
-- ==== Proof.TailRef.lean ====
/-
  The reference's own scalar recurrence over the five classes is the kernel's: the same operations on the same
  operands in the same order, with the same constants, once the five counts and the five masked sums are given.
-/
import proofs.«126502_j87754771792112_2_alg».proof.Proof.TailValue
import proofs.«126502_j87754771792112_2_alg».proof.Proof.RefRead

noncomputable section

namespace Cert.Bridge.Tail

open Idealize.ShloMosaic Idealize.SL.Sem

set_option maxRecDepth 16384 in
/-- Given the reference's five counts and five masked sums, the recurrence `RT` is the reference's result: the
    reference's stages from the first class's weight to the final division are unfolded down to the counts and
    the sums, which stay opaque, and the two terms are then the same. -/
theorem tail_ref
    (x0 x3 x4 : (⟨Cert.ReferenceIdeal.S16777216, .f32⟩ : BufTy).Contents (Elt Ideal))
    (x1 : (⟨Cert.ReferenceIdeal.S16777216x1, .f32⟩ : BufTy).Contents (Elt Ideal))
    (c0 c1 c2 c3 c4 s0 s1 s2 s3 s4 : Sc)
    (hc0 : c0 = Cert.ReferenceIdeal.Read.val_main_v63 (F := Ideal) x3 x4)
    (hc1 : c1 = Cert.ReferenceIdeal.Read.val_main_v82 (F := Ideal) x3 x4)
    (hc2 : c2 = Cert.ReferenceIdeal.Read.val_main_v101 (F := Ideal) x3 x4)
    (hc3 : c3 = Cert.ReferenceIdeal.Read.val_main_v120 (F := Ideal) x3 x4)
    (hc4 : c4 = Cert.ReferenceIdeal.Read.val_main_v139 (F := Ideal) x3 x4)
    (hs0 : s0 = Cert.ReferenceIdeal.Read.val_main_v69 (F := Ideal) x0 x1 x3 x4)
    (hs1 : s1 = Cert.ReferenceIdeal.Read.val_main_v88 (F := Ideal) x0 x1 x3 x4)
    (hs2 : s2 = Cert.ReferenceIdeal.Read.val_main_v107 (F := Ideal) x0 x1 x3 x4)
    (hs3 : s3 = Cert.ReferenceIdeal.Read.val_main_v126 (F := Ideal) x0 x1 x3 x4)
    (hs4 : s4 = Cert.ReferenceIdeal.Read.val_main_v145 (F := Ideal) x0 x1 x3 x4) :
    RT c0 c1 c2 c3 c4 s0 s1 s2 s3 s4 = Cert.ReferenceIdeal.Read.val_main_v159 (F := Ideal) x0 x1 x3 x4 := by
  simp only [
    Cert.ReferenceIdeal.Read.val_main_v159, Cert.ReferenceIdeal.Read.val_main_v158,
    Cert.ReferenceIdeal.Read.val_main_v157, Cert.ReferenceIdeal.Read.val_main_v156,
    Cert.ReferenceIdeal.Read.val_main_v155, Cert.ReferenceIdeal.Read.val_main_v154,
    Cert.ReferenceIdeal.Read.val_main_v153, Cert.ReferenceIdeal.Read.val_main_v152,
    Cert.ReferenceIdeal.Read.val_main_v151, Cert.ReferenceIdeal.Read.val_main_v150,
    Cert.ReferenceIdeal.Read.val_main_v149, Cert.ReferenceIdeal.Read.val_main_v148,
    Cert.ReferenceIdeal.Read.val_main_v147, Cert.ReferenceIdeal.Read.val_main_v146,
    Cert.ReferenceIdeal.Read.val_main_v143, Cert.ReferenceIdeal.Read.val_main_v142,
    Cert.ReferenceIdeal.Read.val_main_v141, Cert.ReferenceIdeal.Read.val_main_v140,
    Cert.ReferenceIdeal.Read.val_main_v136, Cert.ReferenceIdeal.Read.val_main_v135,
    Cert.ReferenceIdeal.Read.val_main_v134, Cert.ReferenceIdeal.Read.val_main_v133,
    Cert.ReferenceIdeal.Read.val_main_v132, Cert.ReferenceIdeal.Read.val_main_v131,
    Cert.ReferenceIdeal.Read.val_main_v130, Cert.ReferenceIdeal.Read.val_main_v129,
    Cert.ReferenceIdeal.Read.val_main_v128, Cert.ReferenceIdeal.Read.val_main_v127,
    Cert.ReferenceIdeal.Read.val_main_v124, Cert.ReferenceIdeal.Read.val_main_v123,
    Cert.ReferenceIdeal.Read.val_main_v122, Cert.ReferenceIdeal.Read.val_main_v121,
    Cert.ReferenceIdeal.Read.val_main_v117, Cert.ReferenceIdeal.Read.val_main_v116,
    Cert.ReferenceIdeal.Read.val_main_v115, Cert.ReferenceIdeal.Read.val_main_v114,
    Cert.ReferenceIdeal.Read.val_main_v113, Cert.ReferenceIdeal.Read.val_main_v112,
    Cert.ReferenceIdeal.Read.val_main_v111, Cert.ReferenceIdeal.Read.val_main_v110,
    Cert.ReferenceIdeal.Read.val_main_v109, Cert.ReferenceIdeal.Read.val_main_v108,
    Cert.ReferenceIdeal.Read.val_main_v105, Cert.ReferenceIdeal.Read.val_main_v104,
    Cert.ReferenceIdeal.Read.val_main_v103, Cert.ReferenceIdeal.Read.val_main_v102,
    Cert.ReferenceIdeal.Read.val_main_v98, Cert.ReferenceIdeal.Read.val_main_v97,
    Cert.ReferenceIdeal.Read.val_main_v96, Cert.ReferenceIdeal.Read.val_main_v95,
    Cert.ReferenceIdeal.Read.val_main_v94, Cert.ReferenceIdeal.Read.val_main_v93,
    Cert.ReferenceIdeal.Read.val_main_v92, Cert.ReferenceIdeal.Read.val_main_v91,
    Cert.ReferenceIdeal.Read.val_main_v90, Cert.ReferenceIdeal.Read.val_main_v89,
    Cert.ReferenceIdeal.Read.val_main_v86, Cert.ReferenceIdeal.Read.val_main_v85,
    Cert.ReferenceIdeal.Read.val_main_v84, Cert.ReferenceIdeal.Read.val_main_v83,
    Cert.ReferenceIdeal.Read.val_main_v79, Cert.ReferenceIdeal.Read.val_main_v78,
    Cert.ReferenceIdeal.Read.val_main_v77, Cert.ReferenceIdeal.Read.val_main_v76,
    Cert.ReferenceIdeal.Read.val_main_v75, Cert.ReferenceIdeal.Read.val_main_v74,
    Cert.ReferenceIdeal.Read.val_main_v73, Cert.ReferenceIdeal.Read.val_main_v72,
    Cert.ReferenceIdeal.Read.val_main_v71, Cert.ReferenceIdeal.Read.val_main_v70,
    Cert.ReferenceIdeal.Read.val_main_v67, Cert.ReferenceIdeal.Read.val_main_v66,
    Cert.ReferenceIdeal.Read.val_main_v65, Cert.ReferenceIdeal.Read.val_main_v64,
    Cert.ReferenceIdeal.Read.val_main_cst_14, Cert.ReferenceIdeal.Read.val_main_cst_15,
    Cert.ReferenceIdeal.Read.val_main_cst_18, Cert.ReferenceIdeal.Read.val_main_cst_19,
    Cert.ReferenceIdeal.Read.val_main_cst_20, Cert.ReferenceIdeal.Read.val_main_cst_21,
    Cert.ReferenceIdeal.Read.val_main_cst_22, Cert.ReferenceIdeal.Read.val_main_cst_23,
    Cert.ReferenceIdeal.Read.val_main_cst_24, Cert.ReferenceIdeal.Read.val_main_cst_26,
    Cert.ReferenceIdeal.Read.val_main_cst_27, Cert.ReferenceIdeal.Read.val_main_cst_30,
    Cert.ReferenceIdeal.Read.val_main_cst_31, Cert.ReferenceIdeal.Read.val_main_cst_33,
    Cert.ReferenceIdeal.Read.val_main_cst_34, Cert.ReferenceIdeal.Read.val_main_cst_37,
    Cert.ReferenceIdeal.Read.val_main_cst_38, Cert.ReferenceIdeal.Read.val_main_cst_40,
    Cert.ReferenceIdeal.Read.val_main_cst_41, Cert.ReferenceIdeal.Read.val_main_cst_44,
    Cert.ReferenceIdeal.Read.val_main_cst_45, Cert.ReferenceIdeal.Read.val_main_cst_47,
    Cert.ReferenceIdeal.Read.val_main_cst_48, Cert.ReferenceIdeal.Read.val_main_cst_51,
    Cert.ReferenceIdeal.Read.val_main_cst_52, Cert.ReferenceIdeal.Read.val_main_cst_53,
    Cert.ReferenceIdeal.Read.val_main_cst_54]
  rw [← hc0, ← hc1, ← hc2, ← hc3, ← hc4, ← hs0, ← hs1, ← hs2, ← hs3, ← hs4]
  rfl

end Cert.Bridge.Tail
-- ==== Proof.RefSums.lean ====
import proofs.«126502_j87754771792112_2_alg».proof.Proof.RefRead
import proofs.«126502_j87754771792112_2_alg».proof.Proof.LibBlockSums
import Idealize.ShloMosaic.Lib.ValueIdx
import Idealize.ShloMosaic.PureOps.Ideal.Laws

/-!
# The reference's five counts and five masked sums, as plain sums over positions

The reference computes, for each of five masks over the `16777216` samples,

* a count: the mask's bits are zero-extended to 32-bit words, added up in wrapping 32-bit arithmetic, and the
  result, read as a signed integer, is converted to a float;
* a masked sum: the per-sample value where the mask holds and `0` elsewhere, added up as extended reals.

Read at the exact extended reals, the count is `∑ n, maskf (mask n)` — there are `2 ^ 24 < 2 ^ 31` samples, so
the wrapping sum never reaches the sign bit and its signed reading is the true count — and the masked sum is
`∑ n, maskf (mask n) * value n`, because `1 * x = x` and `0 * x = 0` for every extended real `x`. Both are
stated over the positions `n : Fin 16777216`, the array's index at position `n` being `ix1 n`.
-/

open scoped BigOperators

namespace Cert.Bridge.RefSums

open Idealize.ShloMosaic Idealize.ShloMosaic.ValueIdx Cert.BlockSums
open Cert.ReferenceIdeal Cert.ReferenceIdeal.Gen Cert.ReferenceIdeal.Read

/-! ## A rank-one index set is its one coordinate's range -/

/-- The indices of a rank-one array of `n` entries are the numbers below `n`. -/
def idxEquiv1 {n : Nat} : (⟨1, ![n]⟩ : Shape).Idx ≃ Fin n where
  toFun i := i 0
  invFun := ix1
  left_inv i := (eq_ix1 i).symm
  right_inv _ := rfl

/-- A sum over the indices of a rank-one array is the sum over its positions. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Counting set bits with a wrapping 32-bit sum

Adding up one-bit words, each zero-extended to 32 bits, in wrapping 32-bit arithmetic gives the number of set
bits modulo `2 ^ 32`; when there are fewer than `2 ^ 31` words the count itself fits below the sign bit, so the
signed reading of the sum is the count, and converting it to a float is the sum of the masks read as `0` / `1`. -/

/-- A one-bit word read as a number is its value as a natural number. -/
theorem maskf_eq_toNat (w : BitVec 1) : maskf w = (((w.toNat : ℕ) : ℝ) : EReal) := by
  rcases BitVec.eq_zero_or_eq_one w with h | h <;> subst h <;> simp [maskf]

/-- The wrapping sum of zero-extended bits is the number of set bits, as a 32-bit word. -/
theorem fold_addi_bits {ι : Type*} (S : Finset ι) (b : ι → BitVec 1) :
    S.fold IntOp.addi 0#32 (fun k => (b k).setWidth 32) = BitVec.ofNat 32 (∑ k ∈ S, (b k).toNat) := by
  induction S using Finset.cons_induction with
  | empty => rfl
  | cons a S ha ih =>
    rw [Finset.fold_cons, Finset.sum_cons, ih, BitVec.ofNat_add]
    show (b a).setWidth 32 + _ = _
    rw [BitVec.ofNat_toNat]

/-- There are at most as many set bits as words. -/
theorem sum_toNat_le_card {ι : Type*} (S : Finset ι) (b : ι → BitVec 1) :
    ∑ k ∈ S, (b k).toNat ≤ S.card := by
  calc ∑ k ∈ S, (b k).toNat ≤ ∑ _k ∈ S, 1 :=
        Finset.sum_le_sum fun k _ => by have := (b k).isLt; omega
    _ = S.card := by simp

/-- A number below `2 ^ 31`, as a 32-bit word read signed, is itself. -/
theorem toInt_ofNat_of_lt (n : ℕ) (h : n < 2 ^ 31) : (BitVec.ofNat 32 n).toInt = (n : ℤ) := by
  have h1 : (BitVec.ofNat 32 n).toNat = n := by
    rw [BitVec.toNat_ofNat]
    exact Nat.mod_eq_of_lt (by omega)
  rw [BitVec.toInt_eq_toNat_of_lt (by rw [h1]; omega), h1]

/-- The sum of masks read as `0` / `1` is the number of set bits. -/
theorem sum_maskf_eq_count {ι : Type*} (S : Finset ι) (b : ι → BitVec 1) :
    ∑ k ∈ S, maskf (b k) = (((∑ k ∈ S, (b k).toNat : ℕ) : ℝ) : EReal) := by
  induction S using Finset.cons_induction with
  | empty => simp
  | cons a S ha ih =>
    rw [Finset.sum_cons, Finset.sum_cons, ih, maskf_eq_toNat, Nat.cast_add, EReal.coe_add]

/-- Over fewer than `2 ^ 31` one-bit words: the wrapping 32-bit sum of the zero-extended words, read signed and
converted exactly, is the sum of the words read as `0` / `1`. -/
theorem sitofp_fold_addi_bits {ι : Type*} [Fintype ι] (b : ι → BitVec 1) (hc : Fintype.card ι < 2 ^ 31) :
    ((((Finset.univ.fold IntOp.addi 0#32 (fun k => (b k).setWidth 32)).toInt : ℤ) : ℝ) : EReal)
      = ∑ k, maskf (b k) := by
  have hlt : ∑ k, (b k).toNat < 2 ^ 31 :=
    lt_of_le_of_lt (sum_toNat_le_card Finset.univ b) (by simpa using hc)
  rw [fold_addi_bits, toInt_ofNat_of_lt _ hlt, sum_maskf_eq_count, Int.cast_natCast]

/-! ## The two readings, over any mask and any values -/

/-- A rank-one array of `n` entries has `n` indices. -/
theorem card_idx1 {n : Nat} : Fintype.card (⟨1, ![n]⟩ : Shape).Idx = n := by
  rw [Fintype.card_congr idxEquiv1, Fintype.card_fin]

/-- The count of a mask over the `16777216` samples, as the reference computes it — the wrapping 32-bit sum, from
`0`, of the mask's zero-extended bits, converted signed — is the sum of the mask read as `0` / `1`. -/
theorem count_read (mk : IVec S16777216 1) (c0 : IVec S_ 32) (hlt : 1 < 32)
    (h : S16777216.ReducesTo [0] S_) (hu : 0 < S_.numel) (hc0 : c0 (Shape.Idx.first hu) = 0#32) (i : S_.Idx) :
    FloatOps.sitofp (F := Ideal) .f32 (Host.reduce IntOp.addi (extui 32 mk hlt) c0 h hu i)
      = ∑ n : Fin 16777216, maskf (mk (ix1 n)) := by
  rw [Host.reduce_eq_fold, hc0, Finset.filter_true_of_mem fun k _ => funext fun d => d.elim0]
  show ((((Finset.univ.fold IntOp.addi 0#32 (fun k => (mk k).setWidth 32)).toInt : ℤ) : ℝ) : EReal) = _
  rw [sitofp_fold_addi_bits mk (lt_of_eq_of_lt card_idx1 (by norm_num)), sum_idx1]

/-- The sum, from `0`, of "the value where the mask holds, `0` elsewhere" over the `16777216` samples is the sum of
the mask, read as `0` / `1`, times the value. -/
theorem masked_sum_read (mk : IVec S16777216 1) (v z : S16777216.Idx → EReal) (hz : ∀ j, z j = 0)
    (init : EReal) (h0 : init = 0) :
    init + ∑ j : S16777216.Idx, select mk v z j = ∑ n : Fin 16777216, maskf (mk (ix1 n)) * v (ix1 n) := by
  rw [h0, zero_add, sum_idx1]
  refine Finset.sum_congr rfl fun n _ => ?_
  rw [maskf_mul, select_apply, hz]
  rcases BitVec.eq_zero_or_eq_one (mk (ix1 n)) with e | e
  · rw [e, select_zero, if_neg (by decide)]
  · rw [e, select_one, if_pos rfl]

/-! ## The reference's ten scalars -/

/-- The reference's count for the first mask is the sum of that mask read as `0` / `1`. -/
theorem val_main_v63_eq_sum (x3 x4 : (⟨S16777216, .f32⟩ : BufTy).Contents (Elt Ideal)) (i : S_.Idx) :
    val_main_v63 (F := Ideal) x3 x4 i
      = ∑ n : Fin 16777216, maskf (val_main_v5 (F := Ideal) x3 x4 (ix1 n)) := by
  rw [val_main_v63_apply]
  unfold val_main_v62 val_main_v61
  generalize val_main_v5 (F := Ideal) x3 x4 = mk
  exact count_read mk (val_main_c (F := Ideal)) natLt_1_32 reducesTo_S16777216_S_d0 h_S_ rfl i

/-- The filler of the first masked sum is `0` everywhere. -/
theorem val_main_call0_v1_zero (j : S16777216.Idx) : val_main_call0_v1 (F := Ideal) j = 0 := by
  rw [val_main_call0_v1_apply, val_main_call0_v0_apply, val_main_cst_16_apply, Ideal.ofBits_def,
    Ideal.ofBits_zero_f32]

/-- The reference's masked sum for the first mask is the sum of the mask, read as `0` / `1`, times the
per-sample value. -/
theorem val_main_v69_eq_sum (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (i : S_.Idx) :
    val_main_v69 (F := Ideal) x0 x1 x3 x4 i
      = ∑ n : Fin 16777216, maskf (val_main_v5 (F := Ideal) x3 x4 (ix1 n))
          * val_main_v60 (F := Ideal) x0 x1 x3 x4 (ix1 n) := by
  rw [val_main_v69_apply]
  unfold val_main_v68
  generalize val_main_v5 (F := Ideal) x3 x4 = mk
  generalize val_main_v60 (F := Ideal) x0 x1 x3 x4 = v
  exact masked_sum_read mk v _ val_main_call0_v1_zero _
    (by rw [val_main_cst_17_apply, Ideal.ofBits_def, Ideal.ofBits_zero_f32])

/-- The reference's count for the second mask is the sum of that mask read as `0` / `1`. -/
theorem val_main_v82_eq_sum (x3 x4 : (⟨S16777216, .f32⟩ : BufTy).Contents (Elt Ideal)) (i : S_.Idx) :
    val_main_v82 (F := Ideal) x3 x4 i
      = ∑ n : Fin 16777216, maskf (val_main_v15 (F := Ideal) x3 x4 (ix1 n)) := by
  rw [val_main_v82_apply]
  unfold val_main_v81 val_main_v80
  generalize val_main_v15 (F := Ideal) x3 x4 = mk
  exact count_read mk (val_main_c_25 (F := Ideal)) natLt_1_32 reducesTo_S16777216_S_d0 h_S_ rfl i

/-- The filler of the second masked sum is `0` everywhere. -/
theorem val_main_call3_v1_zero (j : S16777216.Idx) : val_main_call3_v1 (F := Ideal) j = 0 := by
  rw [val_main_call3_v1_apply, val_main_call3_v0_apply, val_main_cst_28_apply, Ideal.ofBits_def,
    Ideal.ofBits_zero_f32]

/-- The reference's masked sum for the second mask is the sum of the mask, read as `0` / `1`, times the
per-sample value. -/
theorem val_main_v88_eq_sum (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (i : S_.Idx) :
    val_main_v88 (F := Ideal) x0 x1 x3 x4 i
      = ∑ n : Fin 16777216, maskf (val_main_v15 (F := Ideal) x3 x4 (ix1 n))
          * val_main_v60 (F := Ideal) x0 x1 x3 x4 (ix1 n) := by
  rw [val_main_v88_apply]
  unfold val_main_v87
  generalize val_main_v15 (F := Ideal) x3 x4 = mk
  generalize val_main_v60 (F := Ideal) x0 x1 x3 x4 = v
  exact masked_sum_read mk v _ val_main_call3_v1_zero _
    (by rw [val_main_cst_29_apply, Ideal.ofBits_def, Ideal.ofBits_zero_f32])

/-- The reference's count for the third mask is the sum of that mask read as `0` / `1`. -/
theorem val_main_v101_eq_sum (x3 x4 : (⟨S16777216, .f32⟩ : BufTy).Contents (Elt Ideal)) (i : S_.Idx) :
    val_main_v101 (F := Ideal) x3 x4 i
      = ∑ n : Fin 16777216, maskf (val_main_v29 (F := Ideal) x3 x4 (ix1 n)) := by
  rw [val_main_v101_apply]
  unfold val_main_v100 val_main_v99
  generalize val_main_v29 (F := Ideal) x3 x4 = mk
  exact count_read mk (val_main_c_32 (F := Ideal)) natLt_1_32 reducesTo_S16777216_S_d0 h_S_ rfl i

/-- The filler of the third masked sum is `0` everywhere. -/
theorem val_main_call6_v1_zero (j : S16777216.Idx) : val_main_call6_v1 (F := Ideal) j = 0 := by
  rw [val_main_call6_v1_apply, val_main_call6_v0_apply, val_main_cst_35_apply, Ideal.ofBits_def,
    Ideal.ofBits_zero_f32]

/-- The reference's masked sum for the third mask is the sum of the mask, read as `0` / `1`, times the
per-sample value. -/
theorem val_main_v107_eq_sum (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (i : S_.Idx) :
    val_main_v107 (F := Ideal) x0 x1 x3 x4 i
      = ∑ n : Fin 16777216, maskf (val_main_v29 (F := Ideal) x3 x4 (ix1 n))
          * val_main_v60 (F := Ideal) x0 x1 x3 x4 (ix1 n) := by
  rw [val_main_v107_apply]
  unfold val_main_v106
  generalize val_main_v29 (F := Ideal) x3 x4 = mk
  generalize val_main_v60 (F := Ideal) x0 x1 x3 x4 = v
  exact masked_sum_read mk v _ val_main_call6_v1_zero _
    (by rw [val_main_cst_36_apply, Ideal.ofBits_def, Ideal.ofBits_zero_f32])

/-- The reference's count for the fourth mask is the sum of that mask read as `0` / `1`. -/
theorem val_main_v120_eq_sum (x3 x4 : (⟨S16777216, .f32⟩ : BufTy).Contents (Elt Ideal)) (i : S_.Idx) :
    val_main_v120 (F := Ideal) x3 x4 i
      = ∑ n : Fin 16777216, maskf (val_main_v38 (F := Ideal) x3 x4 (ix1 n)) := by
  rw [val_main_v120_apply]
  unfold val_main_v119 val_main_v118
  generalize val_main_v38 (F := Ideal) x3 x4 = mk
  exact count_read mk (val_main_c_39 (F := Ideal)) natLt_1_32 reducesTo_S16777216_S_d0 h_S_ rfl i

/-- The filler of the fourth masked sum is `0` everywhere. -/
theorem val_main_call9_v1_zero (j : S16777216.Idx) : val_main_call9_v1 (F := Ideal) j = 0 := by
  rw [val_main_call9_v1_apply, val_main_call9_v0_apply, val_main_cst_42_apply, Ideal.ofBits_def,
    Ideal.ofBits_zero_f32]

/-- The reference's masked sum for the fourth mask is the sum of the mask, read as `0` / `1`, times the
per-sample value. -/
theorem val_main_v126_eq_sum (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (i : S_.Idx) :
    val_main_v126 (F := Ideal) x0 x1 x3 x4 i
      = ∑ n : Fin 16777216, maskf (val_main_v38 (F := Ideal) x3 x4 (ix1 n))
          * val_main_v60 (F := Ideal) x0 x1 x3 x4 (ix1 n) := by
  rw [val_main_v126_apply]
  unfold val_main_v125
  generalize val_main_v38 (F := Ideal) x3 x4 = mk
  generalize val_main_v60 (F := Ideal) x0 x1 x3 x4 = v
  exact masked_sum_read mk v _ val_main_call9_v1_zero _
    (by rw [val_main_cst_43_apply, Ideal.ofBits_def, Ideal.ofBits_zero_f32])

/-- The reference's count for the fifth mask is the sum of that mask read as `0` / `1`. -/
theorem val_main_v139_eq_sum (x3 x4 : (⟨S16777216, .f32⟩ : BufTy).Contents (Elt Ideal)) (i : S_.Idx) :
    val_main_v139 (F := Ideal) x3 x4 i
      = ∑ n : Fin 16777216, maskf (val_main_v43 (F := Ideal) x3 x4 (ix1 n)) := by
  rw [val_main_v139_apply]
  unfold val_main_v138 val_main_v137
  generalize val_main_v43 (F := Ideal) x3 x4 = mk
  exact count_read mk (val_main_c_46 (F := Ideal)) natLt_1_32 reducesTo_S16777216_S_d0 h_S_ rfl i

/-- The filler of the fifth masked sum is `0` everywhere. -/
theorem val_main_call12_v1_zero (j : S16777216.Idx) : val_main_call12_v1 (F := Ideal) j = 0 := by
  rw [val_main_call12_v1_apply, val_main_call12_v0_apply, val_main_cst_49_apply, Ideal.ofBits_def,
    Ideal.ofBits_zero_f32]

/-- The reference's masked sum for the fifth mask is the sum of the mask, read as `0` / `1`, times the
per-sample value. -/
theorem val_main_v145_eq_sum (x0 : (⟨S16777216, .f32⟩ : BufTy).Contents (Elt Ideal)) (x1 : (⟨S16777216x1, .f32⟩ : BufTy).Contents (Elt Ideal)) (x3 x4 : (⟨S16777216, .f32⟩ : BufTy).Contents (Elt Ideal)) (i : S_.Idx) :
    val_main_v145 (F := Ideal) x0 x1 x3 x4 i
      = ∑ n : Fin 16777216, maskf (val_main_v43 (F := Ideal) x3 x4 (ix1 n))
          * val_main_v60 (F := Ideal) x0 x1 x3 x4 (ix1 n) := by
  rw [val_main_v145_apply]
  unfold val_main_v144
  generalize val_main_v43 (F := Ideal) x3 x4 = mk
  generalize val_main_v60 (F := Ideal) x0 x1 x3 x4 = v
  exact masked_sum_read mk v _ val_main_call12_v1_zero _
    (by rw [val_main_cst_50_apply, Ideal.ofBits_def, Ideal.ofBits_zero_f32])

end Cert.Bridge.RefSums
-- ==== Proof.KernelIdeal.Result.lean ====
/-
  The kernel's result over the extended reals. After the grid, result array 4 + j holds in its entries (0, 0) and
  (8, 0) what the two cores' accumulators j summed to: the sum, over the core's 32 tiles, the tile's 256 slabs and the
  accumulator's 8 x 128 entries, of what each sample adds to accumulator j. The two cores' halves together are the sum
  over all 2^24 samples, which is the reference's count (j < 5) or masked sum (5 ≤ j) of that class. The host operations
  after the grid add the two entries and apply the scalar recurrence, which is the reference's own: so the program's
  result is the reference's last stage of the same four arguments.
-/
import proofs.«126502_j87754771792112_2_alg».proof.Proof.KernelIdeal.FrameS
import proofs.«126502_j87754771792112_2_alg».proof.Proof.KernelIdeal.Arrays
import proofs.«126502_j87754771792112_2_alg».proof.Proof.KernelIdeal.Closed
import proofs.«126502_j87754771792112_2_alg».proof.Proof.KernelIdeal.AccSteps
import proofs.«126502_j87754771792112_2_alg».proof.Proof.TailRun
import proofs.«126502_j87754771792112_2_alg».proof.Proof.TailRef
import proofs.«126502_j87754771792112_2_alg».proof.Proof.RefSums
import proofs.«126502_j87754771792112_2_alg».proof.Proof.LibAccumulate
import proofs.«126502_j87754771792112_2_alg».proof.Proof.Terms
import Idealize.ShloMosaic.Lib.Pipeline.FrameSuffix

noncomputable section

namespace Cert.KernelIdeal.Value

open Cert.KernelIdeal Cert.KernelIdeal.Gen Cert.KernelIdeal.Frame
open Cert.Bridge.Tail Cert.Bridge.Terms Cert.Bridge.RefSums Cert.BlockSums
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

set_option quotPrecheck false in
local notation "X0" => (m ((c : Thread nD τ).loc main_arg0) : Arr)
set_option quotPrecheck false in
local notation "X1" => (m ((c : Thread nD τ).loc main_arg1) : Col)
set_option quotPrecheck false in
local notation "X3" => (m ((c : Thread nD τ).loc main_arg3) : Arr)
set_option quotPrecheck false in
local notation "X4" => (m ((c : Thread nD τ).loc main_arg4) : Arr)

/-- Result array 4: its two cores' entries add up to what all 2^24 samples add to accumulator 0. -/
theorem pair_arr4 (i : S_.Idx) :
    pair ((dats m 0 c).arrAt 4 cfg0.N) i = ∑ n : Fin 16777216, accTerm X0 X1 X3 X4 0 n.val := by
  rw [pair_apply, arr4_row0 m c, arr4_row8 m c, o_last31_0 m c lt31, o_last63_0 m c lt63]
  exact sum_blocks_halves (fun n => accTerm X0 X1 X3 X4 0 n)

/-- Result array 5: its two cores' entries add up to what all 2^24 samples add to accumulator 1. -/
theorem pair_arr5 (i : S_.Idx) :
    pair ((dats m 0 c).arrAt 5 cfg0.N) i = ∑ n : Fin 16777216, accTerm X0 X1 X3 X4 1 n.val := by
  rw [pair_apply, arr5_row0 m c, arr5_row8 m c, o_last31_1 m c lt31, o_last63_1 m c lt63]
  exact sum_blocks_halves (fun n => accTerm X0 X1 X3 X4 1 n)

/-- Result array 6: its two cores' entries add up to what all 2^24 samples add to accumulator 2. -/
theorem pair_arr6 (i : S_.Idx) :
    pair ((dats m 0 c).arrAt 6 cfg0.N) i = ∑ n : Fin 16777216, accTerm X0 X1 X3 X4 2 n.val := by
  rw [pair_apply, arr6_row0 m c, arr6_row8 m c, o_last31_2 m c lt31, o_last63_2 m c lt63]
  exact sum_blocks_halves (fun n => accTerm X0 X1 X3 X4 2 n)

/-- Result array 7: its two cores' entries add up to what all 2^24 samples add to accumulator 3. -/
theorem pair_arr7 (i : S_.Idx) :
    pair ((dats m 0 c).arrAt 7 cfg0.N) i = ∑ n : Fin 16777216, accTerm X0 X1 X3 X4 3 n.val := by
  rw [pair_apply, arr7_row0 m c, arr7_row8 m c, o_last31_3 m c lt31, o_last63_3 m c lt63]
  exact sum_blocks_halves (fun n => accTerm X0 X1 X3 X4 3 n)

/-- Result array 8: its two cores' entries add up to what all 2^24 samples add to accumulator 4. -/
theorem pair_arr8 (i : S_.Idx) :
    pair ((dats m 0 c).arrAt 8 cfg0.N) i = ∑ n : Fin 16777216, accTerm X0 X1 X3 X4 4 n.val := by
  rw [pair_apply, arr8_row0 m c, arr8_row8 m c, o_last31_4 m c lt31, o_last63_4 m c lt63]
  exact sum_blocks_halves (fun n => accTerm X0 X1 X3 X4 4 n)

/-- Result array 9: its two cores' entries add up to what all 2^24 samples add to accumulator 5. -/
theorem pair_arr9 (i : S_.Idx) :
    pair ((dats m 0 c).arrAt 9 cfg0.N) i = ∑ n : Fin 16777216, accTerm X0 X1 X3 X4 5 n.val := by
  rw [pair_apply, arr9_row0 m c, arr9_row8 m c, o_last31_5 m c lt31, o_last63_5 m c lt63]
  exact sum_blocks_halves (fun n => accTerm X0 X1 X3 X4 5 n)

/-- Result array 10: its two cores' entries add up to what all 2^24 samples add to accumulator 6. -/
theorem pair_arr10 (i : S_.Idx) :
    pair ((dats m 0 c).arrAt 10 cfg0.N) i = ∑ n : Fin 16777216, accTerm X0 X1 X3 X4 6 n.val := by
  rw [pair_apply, arr10_row0 m c, arr10_row8 m c, o_last31_6 m c lt31, o_last63_6 m c lt63]
  exact sum_blocks_halves (fun n => accTerm X0 X1 X3 X4 6 n)

/-- Result array 11: its two cores' entries add up to what all 2^24 samples add to accumulator 7. -/
theorem pair_arr11 (i : S_.Idx) :
    pair ((dats m 0 c).arrAt 11 cfg0.N) i = ∑ n : Fin 16777216, accTerm X0 X1 X3 X4 7 n.val := by
  rw [pair_apply, arr11_row0 m c, arr11_row8 m c, o_last31_7 m c lt31, o_last63_7 m c lt63]
  exact sum_blocks_halves (fun n => accTerm X0 X1 X3 X4 7 n)

/-- Result array 12: its two cores' entries add up to what all 2^24 samples add to accumulator 8. -/
theorem pair_arr12 (i : S_.Idx) :
    pair ((dats m 0 c).arrAt 12 cfg0.N) i = ∑ n : Fin 16777216, accTerm X0 X1 X3 X4 8 n.val := by
  rw [pair_apply, arr12_row0 m c, arr12_row8 m c, o_last31_8 m c lt31, o_last63_8 m c lt63]
  exact sum_blocks_halves (fun n => accTerm X0 X1 X3 X4 8 n)

/-- Result array 13: its two cores' entries add up to what all 2^24 samples add to accumulator 9. -/
theorem pair_arr13 (i : S_.Idx) :
    pair ((dats m 0 c).arrAt 13 cfg0.N) i = ∑ n : Fin 16777216, accTerm X0 X1 X3 X4 9 n.val := by
  rw [pair_apply, arr13_row0 m c, arr13_row8 m c, o_last31_9 m c lt31, o_last63_9 m c lt63]
  exact sum_blocks_halves (fun n => accTerm X0 X1 X3 X4 9 n)

/-- The count of class 0 is the reference's. -/
theorem pair_cnt0 : pair ((dats m 0 c).arrAt 4 cfg0.N) = Cert.ReferenceIdeal.Read.val_main_v63 (F := Ideal) X3 X4 := by
  funext i
  rw [pair_arr4 m c i, val_main_v63_eq_sum]
  refine Finset.sum_congr rfl (fun n _ => ?_)
  exact accTerm_0 X0 X1 X3 X4 n.val n.isLt

/-- The masked sum of class 0 is the reference's. -/
theorem pair_sum0 : pair ((dats m 0 c).arrAt 9 cfg0.N) = Cert.ReferenceIdeal.Read.val_main_v69 (F := Ideal) X0 X1 X3 X4 := by
  funext i
  rw [pair_arr9 m c i, val_main_v69_eq_sum]
  refine Finset.sum_congr rfl (fun n _ => ?_)
  exact accTerm_5 X0 X1 X3 X4 n.val n.isLt

/-- The count of class 1 is the reference's. -/
theorem pair_cnt1 : pair ((dats m 0 c).arrAt 5 cfg0.N) = Cert.ReferenceIdeal.Read.val_main_v82 (F := Ideal) X3 X4 := by
  funext i
  rw [pair_arr5 m c i, val_main_v82_eq_sum]
  refine Finset.sum_congr rfl (fun n _ => ?_)
  exact accTerm_1 X0 X1 X3 X4 n.val n.isLt

/-- The masked sum of class 1 is the reference's. -/
theorem pair_sum1 : pair ((dats m 0 c).arrAt 10 cfg0.N) = Cert.ReferenceIdeal.Read.val_main_v88 (F := Ideal) X0 X1 X3 X4 := by
  funext i
  rw [pair_arr10 m c i, val_main_v88_eq_sum]
  refine Finset.sum_congr rfl (fun n _ => ?_)
  exact accTerm_6 X0 X1 X3 X4 n.val n.isLt

/-- The count of class 2 is the reference's. -/
theorem pair_cnt2 : pair ((dats m 0 c).arrAt 6 cfg0.N) = Cert.ReferenceIdeal.Read.val_main_v101 (F := Ideal) X3 X4 := by
  funext i
  rw [pair_arr6 m c i, val_main_v101_eq_sum]
  refine Finset.sum_congr rfl (fun n _ => ?_)
  exact accTerm_2 X0 X1 X3 X4 n.val n.isLt

/-- The masked sum of class 2 is the reference's. -/
theorem pair_sum2 : pair ((dats m 0 c).arrAt 11 cfg0.N) = Cert.ReferenceIdeal.Read.val_main_v107 (F := Ideal) X0 X1 X3 X4 := by
  funext i
  rw [pair_arr11 m c i, val_main_v107_eq_sum]
  refine Finset.sum_congr rfl (fun n _ => ?_)
  exact accTerm_7 X0 X1 X3 X4 n.val n.isLt

/-- The count of class 3 is the reference's. -/
theorem pair_cnt3 : pair ((dats m 0 c).arrAt 7 cfg0.N) = Cert.ReferenceIdeal.Read.val_main_v120 (F := Ideal) X3 X4 := by
  funext i
  rw [pair_arr7 m c i, val_main_v120_eq_sum]
  refine Finset.sum_congr rfl (fun n _ => ?_)
  exact accTerm_3 X0 X1 X3 X4 n.val n.isLt

/-- The masked sum of class 3 is the reference's. -/
theorem pair_sum3 : pair ((dats m 0 c).arrAt 12 cfg0.N) = Cert.ReferenceIdeal.Read.val_main_v126 (F := Ideal) X0 X1 X3 X4 := by
  funext i
  rw [pair_arr12 m c i, val_main_v126_eq_sum]
  refine Finset.sum_congr rfl (fun n _ => ?_)
  exact accTerm_8 X0 X1 X3 X4 n.val n.isLt

/-- The count of class 4 is the reference's. -/
theorem pair_cnt4 : pair ((dats m 0 c).arrAt 8 cfg0.N) = Cert.ReferenceIdeal.Read.val_main_v139 (F := Ideal) X3 X4 := by
  funext i
  rw [pair_arr8 m c i, val_main_v139_eq_sum]
  refine Finset.sum_congr rfl (fun n _ => ?_)
  exact accTerm_4 X0 X1 X3 X4 n.val n.isLt

/-- The masked sum of class 4 is the reference's. -/
theorem pair_sum4 : pair ((dats m 0 c).arrAt 13 cfg0.N) = Cert.ReferenceIdeal.Read.val_main_v145 (F := Ideal) X0 X1 X3 X4 := by
  funext i
  rw [pair_arr13 m c i, val_main_v145_eq_sum]
  refine Finset.sum_congr rfl (fun n _ => ?_)
  exact accTerm_9 X0 X1 X3 X4 n.val n.isLt

/-- The host operations after the grid, applied to the arrays the grid leaves, give the reference's last stage. -/
theorem result_eq :
    Pipeline.afterTail₀ cfgs (dats m) 0 (V0 m) tailOps c main_v129
      = Cert.ReferenceIdeal.Read.val_main_v159 (F := Ideal) X0 X1 X3 X4 := by
  unfold Pipeline.afterTail₀
  refine (tail_eq _).trans ?_
  rw [show Pipeline.withArrays (cfgs 0).spec c (V0 m c) (fun w => (dats m 0 c).arrAt w (cfgs 0).N) (Proc.devRef .tc main_v5_0) = (dats m 0 c).arrAt 4 cfg0.N from Pipeline.withArrays_arr spec0 launch0.win.arr_inj c _ _ 4,
    show Pipeline.withArrays (cfgs 0).spec c (V0 m c) (fun w => (dats m 0 c).arrAt w (cfgs 0).N) (Proc.devRef .tc main_v5_1) = (dats m 0 c).arrAt 5 cfg0.N from Pipeline.withArrays_arr spec0 launch0.win.arr_inj c _ _ 5,
    show Pipeline.withArrays (cfgs 0).spec c (V0 m c) (fun w => (dats m 0 c).arrAt w (cfgs 0).N) (Proc.devRef .tc main_v5_2) = (dats m 0 c).arrAt 6 cfg0.N from Pipeline.withArrays_arr spec0 launch0.win.arr_inj c _ _ 6,
    show Pipeline.withArrays (cfgs 0).spec c (V0 m c) (fun w => (dats m 0 c).arrAt w (cfgs 0).N) (Proc.devRef .tc main_v5_3) = (dats m 0 c).arrAt 7 cfg0.N from Pipeline.withArrays_arr spec0 launch0.win.arr_inj c _ _ 7,
    show Pipeline.withArrays (cfgs 0).spec c (V0 m c) (fun w => (dats m 0 c).arrAt w (cfgs 0).N) (Proc.devRef .tc main_v5_4) = (dats m 0 c).arrAt 8 cfg0.N from Pipeline.withArrays_arr spec0 launch0.win.arr_inj c _ _ 8,
    show Pipeline.withArrays (cfgs 0).spec c (V0 m c) (fun w => (dats m 0 c).arrAt w (cfgs 0).N) (Proc.devRef .tc main_v5_5) = (dats m 0 c).arrAt 9 cfg0.N from Pipeline.withArrays_arr spec0 launch0.win.arr_inj c _ _ 9,
    show Pipeline.withArrays (cfgs 0).spec c (V0 m c) (fun w => (dats m 0 c).arrAt w (cfgs 0).N) (Proc.devRef .tc main_v5_6) = (dats m 0 c).arrAt 10 cfg0.N from Pipeline.withArrays_arr spec0 launch0.win.arr_inj c _ _ 10,
    show Pipeline.withArrays (cfgs 0).spec c (V0 m c) (fun w => (dats m 0 c).arrAt w (cfgs 0).N) (Proc.devRef .tc main_v5_7) = (dats m 0 c).arrAt 11 cfg0.N from Pipeline.withArrays_arr spec0 launch0.win.arr_inj c _ _ 11,
    show Pipeline.withArrays (cfgs 0).spec c (V0 m c) (fun w => (dats m 0 c).arrAt w (cfgs 0).N) (Proc.devRef .tc main_v5_8) = (dats m 0 c).arrAt 12 cfg0.N from Pipeline.withArrays_arr spec0 launch0.win.arr_inj c _ _ 12,
    show Pipeline.withArrays (cfgs 0).spec c (V0 m c) (fun w => (dats m 0 c).arrAt w (cfgs 0).N) (Proc.devRef .tc main_v5_9) = (dats m 0 c).arrAt 13 cfg0.N from Pipeline.withArrays_arr spec0 launch0.win.arr_inj c _ _ 13]
  unfold KT
  exact tail_ref X0 X3 X4 X1 _ _ _ _ _ _ _ _ _ _ (pair_cnt0 m c) (pair_cnt1 m c) (pair_cnt2 m c) (pair_cnt3 m c) (pair_cnt4 m c) (pair_sum0 m c) (pair_sum1 m c) (pair_sum2 m c) (pair_sum3 m c) (pair_sum4 m c)

/-- The kernel's program over the extended reals: it runs, its result is the reference's last stage of its arguments,
    and its arguments end as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v129) = Cert.ReferenceIdeal.Read.val_main_v159 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v129 (Pipeline.mem_restRefs_of main_v129 (by decide) (by decide))).trans (result_eq m c),
    ((h c).2 _ (argRef_rest 0)).trans (W_main_arg m (dats m) c 0),
    ((h c).2 _ (argRef_rest 1)).trans (W_main_arg m (dats m) c 1),
    ((h c).2 _ (argRef_rest 2)).trans (W_main_arg m (dats m) c 2),
    ((h c).2 _ (argRef_rest 3)).trans (W_main_arg m (dats m) c 3),
    ((h c).2 _ (argRef_rest 4)).trans (W_main_arg m (dats m) c 4),
    ((h c).2 _ (argRef_rest 5)).trans (W_main_arg m (dats m) c 5)⟩) (run_main m ρ)

end Cert.KernelIdeal.Value

end
-- ==== Proof.RefRunHand.lean ====
/-
  The reference program's run. The program is a straight line of 227 host operations: listed below in order (a called
  function's operations stand in its call's place), the program is their sequence, every weakly fair execution runs them
  one after the other, and each buffer ends at the fold of the operations over the launch memory. Read at the result
  buffer that fold is the last of the stage functions — the operations composed one at a time — applied to the four
  arguments the loss reads; read at an argument it is the launch contents, since no operation writes an argument.
-/
import proofs.«126502_j87754771792112_2_alg».proof.Proof.Gen.ReferenceIdeal
import proofs.«126502_j87754771792112_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 227 operations, in order (a called function's operations stand in its call's place, spelt `TRef.…`). -/
abbrev ops : List (HloOp τ sig (Elt F)) :=
  [ reshape main_arg1 main_v0 rfl shapeCasts_S16777216x1_S16777216,
    nullary main_cst (constant S_ .f32 0x42F00000#32),
    unary main_cst main_v1 (broadcastInDim S16777216 ![] bcast_S_S16777216 : (⟨S_, .f32⟩ : BufTy).Contents (Elt F) → (⟨S16777216, .f32⟩ : BufTy).Contents (Elt F)),
    binary main_arg4 main_v1 main_v2 (cmpf .olt : (⟨S16777216, .f32⟩ : BufTy).Contents (Elt F) → (⟨S16777216, .f32⟩ : BufTy).Contents (Elt F) → (⟨S16777216, .i1⟩ : BufTy).Contents (Elt F)),
    nullary main_cst_0 (constant S_ .f32 0x42A00000#32),
    unary main_cst_0 main_v3 (broadcastInDim S16777216 ![] bcast_S_S16777216 : (⟨S_, .f32⟩ : BufTy).Contents (Elt F) → (⟨S16777216, .f32⟩ : BufTy).Contents (Elt F)),
    binary main_arg3 main_v3 main_v4 (cmpf .olt : (⟨S16777216, .f32⟩ : BufTy).Contents (Elt F) → (⟨S16777216, .f32⟩ : BufTy).Contents (Elt F) → (⟨S16777216, .i1⟩ : BufTy).Contents (Elt F)),
    binary main_v2 main_v4 main_v5 (andi : (⟨S16777216, .i1⟩ : BufTy).Contents (Elt F) → (⟨S16777216, .i1⟩ : BufTy).Contents (Elt F) → (⟨S16777216, .i1⟩ : BufTy).Contents (Elt F)),
    nullary main_cst_1 (constant S_ .f32 0x42F00000#32),
    unary main_cst_1 main_v6 (broadcastInDim S16777216 ![] bcast_S_S16777216 : (⟨S_, .f32⟩ : BufTy).Contents (Elt F) → (⟨S16777216, .f32⟩ : BufTy).Contents (Elt F)),
    binary main_arg4 main_v6 main_v7 (cmpf .oge : (⟨S16777216, .f32⟩ : BufTy).Contents (Elt F) → (⟨S16777216, .f32⟩ : BufTy).Contents (Elt F) → (⟨S16777216, .i1⟩ : BufTy).Contents (Elt F)),
    nullary main_cst_2 (constant S_ .f32 0x43020000#32),
    unary main_cst_2 main_v8 (broadcastInDim S16777216 ![] bcast_S_S16777216 : (⟨S_, .f32⟩ : BufTy).Contents (Elt F) → (⟨S16777216, .f32⟩ : BufTy).Contents (Elt F)),
    binary main_arg4 main_v8 main_v9 (cmpf .olt : (⟨S16777216, .f32⟩ : BufTy).Contents (Elt F) → (⟨S16777216, .f32⟩ : BufTy).Contents (Elt F) → (⟨S16777216, .i1⟩ : BufTy).Contents (Elt F)),
    binary main_v7 main_v9 main_v10 (andi : (⟨S16777216, .i1⟩ : BufTy).Contents (Elt F) → (⟨S16777216, .i1⟩ : BufTy).Contents (Elt F) → (⟨S16777216, .i1⟩ : BufTy).Contents (Elt F)),
    nullary main_cst_3 (constant S_ .f32 0x42A00000#32),
    unary main_cst_3 main_v11 (broadcastInDim S16777216 ![] bcast_S_S16777216 : (⟨S_, .f32⟩ : BufTy).Contents (Elt F) → (⟨S16777216, .f32⟩ : BufTy).Contents (Elt F)),
    binary main_arg3 main_v11 main_v12 (cmpf .olt : (⟨S16777216, .f32⟩ : BufTy).Contents (Elt F) → (⟨S16777216, .f32⟩ : BufTy).Contents (Elt F) → (⟨S16777216, .i1⟩ : BufTy).Contents (Elt F)),
    binary main_v10 main_v12 main_v13 (andi : (⟨S16777216, .i1⟩ : BufTy).Contents (Elt F) → (⟨S16777216, .i1⟩ : BufTy).Contents (Elt F) → (⟨S16777216, .i1⟩ : BufTy).Contents (Elt F)),
    unary main_v5 main_v14 (noti : (⟨S16777216, .i1⟩ : BufTy).Contents (Elt F) → (⟨S16777216, .i1⟩ : BufTy).Contents (Elt F)),
    binary main_v13 main_v14 main_v15 (andi : (⟨S16777216, .i1⟩ : BufTy).Contents (Elt F) → (⟨S16777216, .i1⟩ : BufTy).Contents (Elt F) → (⟨S16777216, .i1⟩ : BufTy).Contents (Elt F)),
    nullary main_cst_4 (constant S_ .f32 0x43020000#32),
    unary main_cst_4 main_v16 (broadcastInDim S16777216 ![] bcast_S_S16777216 : (⟨S_, .f32⟩ : BufTy).Contents (Elt F) → (⟨S16777216, .f32⟩ : BufTy).Contents (Elt F)),
    binary main_arg4 main_v16 main_v17 (cmpf .oge : (⟨S16777216, .f32⟩ : BufTy).Contents (Elt F) → (⟨S16777216, .f32⟩ : BufTy).Contents (Elt F) → (⟨S16777216, .i1⟩ : BufTy).Contents (Elt F)),
    nullary main_cst_5 (constant S_ .f32 0x430C0000#32),
    unary main_cst_5 main_v18 (broadcastInDim S16777216 ![] bcast_S_S16777216 : (⟨S_, .f32⟩ : BufTy).Contents (Elt F) → (⟨S16777216, .f32⟩ : BufTy).Contents (Elt F)),
    binary main_arg4 main_v18 main_v19 (cmpf .olt : (⟨S16777216, .f32⟩ : BufTy).Contents (Elt F) → (⟨S16777216, .f32⟩ : BufTy).Contents (Elt F) → (⟨S16777216, .i1⟩ : BufTy).Contents (Elt F)),
    binary main_v17 main_v19 main_v20 (andi : (⟨S16777216, .i1⟩ : BufTy).Contents (Elt F) → (⟨S16777216, .i1⟩ : BufTy).Contents (Elt F) → (⟨S16777216, .i1⟩ : BufTy).Contents (Elt F)),
    nullary main_cst_6 (constant S_ .f32 0x42A00000#32),
    unary main_cst_6 main_v21 (broadcastInDim S16777216 ![] bcast_S_S16777216 : (⟨S_, .f32⟩ : BufTy).Contents (Elt F) → (⟨S16777216, .f32⟩ : BufTy).Contents (Elt F)),
    binary main_arg3 main_v21 main_v22 (cmpf .oge : (⟨S16777216, .f32⟩ : BufTy).Contents (Elt F) → (⟨S16777216, .f32⟩ : BufTy).Contents (Elt F) → (⟨S16777216, .i1⟩ : BufTy).Contents (Elt F)),
    nullary main_cst_7 (constant S_ .f32 0x42B40000#32),
    unary main_cst_7 main_v23 (broadcastInDim S16777216 ![] bcast_S_S16777216 : (⟨S_, .f32⟩ : BufTy).Contents (Elt F) → (⟨S16777216, .f32⟩ : BufTy).Contents (Elt F)),
    binary main_arg3 main_v23 main_v24 (cmpf .olt : (⟨S16777216, .f32⟩ : BufTy).Contents (Elt F) → (⟨S16777216, .f32⟩ : BufTy).Contents (Elt F) → (⟨S16777216, .i1⟩ : BufTy).Contents (Elt F)),
    binary main_v22 main_v24 main_v25 (andi : (⟨S16777216, .i1⟩ : BufTy).Contents (Elt F) → (⟨S16777216, .i1⟩ : BufTy).Contents (Elt F) → (⟨S16777216, .i1⟩ : BufTy).Contents (Elt F)),
    binary main_v20 main_v25 main_v26 (ori : (⟨S16777216, .i1⟩ : BufTy).Contents (Elt F) → (⟨S16777216, .i1⟩ : BufTy).Contents (Elt F) → (⟨S16777216, .i1⟩ : BufTy).Contents (Elt F)),
    binary main_v5 main_v15 main_v27 (ori : (⟨S16777216, .i1⟩ : BufTy).Contents (Elt F) → (⟨S16777216, .i1⟩ : BufTy).Contents (Elt F) → (⟨S16777216, .i1⟩ : BufTy).Contents (Elt F)),
    unary main_v27 main_v28 (noti : (⟨S16777216, .i1⟩ : BufTy).Contents (Elt F) → (⟨S16777216, .i1⟩ : BufTy).Contents (Elt F)),
    binary main_v26 main_v28 main_v29 (andi : (⟨S16777216, .i1⟩ : BufTy).Contents (Elt F) → (⟨S16777216, .i1⟩ : BufTy).Contents (Elt F) → (⟨S16777216, .i1⟩ : BufTy).Contents (Elt F)),
    nullary main_cst_8 (constant S_ .f32 0x430C0000#32),
    unary main_cst_8 main_v30 (broadcastInDim S16777216 ![] bcast_S_S16777216 : (⟨S_, .f32⟩ : BufTy).Contents (Elt F) → (⟨S16777216, .f32⟩ : BufTy).Contents (Elt F)),
    binary main_arg4 main_v30 main_v31 (cmpf .oge : (⟨S16777216, .f32⟩ : BufTy).Contents (Elt F) → (⟨S16777216, .f32⟩ : BufTy).Contents (Elt F) → (⟨S16777216, .i1⟩ : BufTy).Contents (Elt F)),
    nullary main_cst_9 (constant S_ .f32 0x42B40000#32),
    unary main_cst_9 main_v32 (broadcastInDim S16777216 ![] bcast_S_S16777216 : (⟨S_, .f32⟩ : BufTy).Contents (Elt F) → (⟨S16777216, .f32⟩ : BufTy).Contents (Elt F)),
    binary main_arg3 main_v32 main_v33 (cmpf .oge : (⟨S16777216, .f32⟩ : BufTy).Contents (Elt F) → (⟨S16777216, .f32⟩ : BufTy).Contents (Elt F) → (⟨S16777216, .i1⟩ : BufTy).Contents (Elt F)),
    binary main_v31 main_v33 main_v34 (ori : (⟨S16777216, .i1⟩ : BufTy).Contents (Elt F) → (⟨S16777216, .i1⟩ : BufTy).Contents (Elt F) → (⟨S16777216, .i1⟩ : BufTy).Contents (Elt F)),
    binary main_v5 main_v15 main_v35 (ori : (⟨S16777216, .i1⟩ : BufTy).Contents (Elt F) → (⟨S16777216, .i1⟩ : BufTy).Contents (Elt F) → (⟨S16777216, .i1⟩ : BufTy).Contents (Elt F)),
    binary main_v35 main_v29 main_v36 (ori : (⟨S16777216, .i1⟩ : BufTy).Contents (Elt F) → (⟨S16777216, .i1⟩ : BufTy).Contents (Elt F) → (⟨S16777216, .i1⟩ : BufTy).Contents (Elt F)),
    unary main_v36 main_v37 (noti : (⟨S16777216, .i1⟩ : BufTy).Contents (Elt F) → (⟨S16777216, .i1⟩ : BufTy).Contents (Elt F)),
    binary main_v34 main_v37 main_v38 (andi : (⟨S16777216, .i1⟩ : BufTy).Contents (Elt F) → (⟨S16777216, .i1⟩ : BufTy).Contents (Elt F) → (⟨S16777216, .i1⟩ : BufTy).Contents (Elt F)),
    nullary main_cst_10 (constant S_ .f32 0x43340000#32),
    unary main_cst_10 main_v39 (broadcastInDim S16777216 ![] bcast_S_S16777216 : (⟨S_, .f32⟩ : BufTy).Contents (Elt F) → (⟨S16777216, .f32⟩ : BufTy).Contents (Elt F)),
    binary main_arg4 main_v39 main_v40 (cmpf .ogt : (⟨S16777216, .f32⟩ : BufTy).Contents (Elt F) → (⟨S16777216, .f32⟩ : BufTy).Contents (Elt F) → (⟨S16777216, .i1⟩ : BufTy).Contents (Elt F)),
    nullary main_cst_11 (constant S_ .f32 0x42F00000#32),
    unary main_cst_11 main_v41 (broadcastInDim S16777216 ![] bcast_S_S16777216 : (⟨S_, .f32⟩ : BufTy).Contents (Elt F) → (⟨S16777216, .f32⟩ : BufTy).Contents (Elt F)),
    binary main_arg3 main_v41 main_v42 (cmpf .ogt : (⟨S16777216, .f32⟩ : BufTy).Contents (Elt F) → (⟨S16777216, .f32⟩ : BufTy).Contents (Elt F) → (⟨S16777216, .i1⟩ : BufTy).Contents (Elt F)),
    binary main_v40 main_v42 main_v43 (ori : (⟨S16777216, .i1⟩ : BufTy).Contents (Elt F) → (⟨S16777216, .i1⟩ : BufTy).Contents (Elt F) → (⟨S16777216, .i1⟩ : BufTy).Contents (Elt F)),
    binary main_arg0 main_arg3 main_v44 (subf : (⟨S16777216, .f32⟩ : BufTy).Contents (Elt F) → (⟨S16777216, .f32⟩ : BufTy).Contents (Elt F) → (⟨S16777216, .f32⟩ : BufTy).Contents (Elt F)),
    unary main_v44 main_v45 (Host.absf : (⟨S16777216, .f32⟩ : BufTy).Contents (Elt F) → (⟨S16777216, .f32⟩ : BufTy).Contents (Elt F)),
    nullary main_cst_12 (constant S_ .f32 0x40000000#32),
    unary main_cst_12 main_v46 (broadcastInDim S16777216 ![] bcast_S_S16777216 : (⟨S_, .f32⟩ : BufTy).Contents (Elt F) → (⟨S16777216, .f32⟩ : BufTy).Contents (Elt F)),
    binary main_v46 main_v45 main_v47 (mulf : (⟨S16777216, .f32⟩ : BufTy).Contents (Elt F) → (⟨S16777216, .f32⟩ : BufTy).Contents (Elt F) → (⟨S16777216, .f32⟩ : BufTy).Contents (Elt F)),
    unary main_arg0 main_v48 (Host.absf : (⟨S16777216, .f32⟩ : BufTy).Contents (Elt F) → (⟨S16777216, .f32⟩ : BufTy).Contents (Elt F)),
    unary main_arg3 main_v49 (Host.absf : (⟨S16777216, .f32⟩ : BufTy).Contents (Elt F) → (⟨S16777216, .f32⟩ : BufTy).Contents (Elt F)),
    binary main_v48 main_v49 main_v50 (addf : (⟨S16777216, .f32⟩ : BufTy).Contents (Elt F) → (⟨S16777216, .f32⟩ : BufTy).Contents (Elt F) → (⟨S16777216, .f32⟩ : BufTy).Contents (Elt F)),
    binary main_v47 main_v50 main_v51 (Host.divf : (⟨S16777216, .f32⟩ : BufTy).Contents (Elt F) → (⟨S16777216, .f32⟩ : BufTy).Contents (Elt F) → (⟨S16777216, .f32⟩ : BufTy).Contents (Elt F)),
    binary main_v0 main_arg4 main_v52 (subf : (⟨S16777216, .f32⟩ : BufTy).Contents (Elt F) → (⟨S16777216, .f32⟩ : BufTy).Contents (Elt F) → (⟨S16777216, .f32⟩ : BufTy).Contents (Elt F)),
    unary main_v52 main_v53 (Host.absf : (⟨S16777216, .f32⟩ : BufTy).Contents (Elt F) → (⟨S16777216, .f32⟩ : BufTy).Contents (Elt F)),
    nullary main_cst_13 (constant S_ .f32 0x40000000#32),
    unary main_cst_13 main_v54 (broadcastInDim S16777216 ![] bcast_S_S16777216 : (⟨S_, .f32⟩ : BufTy).Contents (Elt F) → (⟨S16777216, .f32⟩ : BufTy).Contents (Elt F)),
    binary main_v54 main_v53 main_v55 (mulf : (⟨S16777216, .f32⟩ : BufTy).Contents (Elt F) → (⟨S16777216, .f32⟩ : BufTy).Contents (Elt F) → (⟨S16777216, .f32⟩ : BufTy).Contents (Elt F)),
    unary main_v0 main_v56 (Host.absf : (⟨S16777216, .f32⟩ : BufTy).Contents (Elt F) → (⟨S16777216, .f32⟩ : BufTy).Contents (Elt F)),
    unary main_arg4 main_v57 (Host.absf : (⟨S16777216, .f32⟩ : BufTy).Contents (Elt F) → (⟨S16777216, .f32⟩ : BufTy).Contents (Elt F)),
    binary main_v56 main_v57 main_v58 (addf : (⟨S16777216, .f32⟩ : BufTy).Contents (Elt F) → (⟨S16777216, .f32⟩ : BufTy).Contents (Elt F) → (⟨S16777216, .f32⟩ : BufTy).Contents (Elt F)),
    binary main_v55 main_v58 main_v59 (Host.divf : (⟨S16777216, .f32⟩ : BufTy).Contents (Elt F) → (⟨S16777216, .f32⟩ : BufTy).Contents (Elt F) → (⟨S16777216, .f32⟩ : BufTy).Contents (Elt F)),
    binary main_v51 main_v59 main_v60 (addf : (⟨S16777216, .f32⟩ : BufTy).Contents (Elt F) → (⟨S16777216, .f32⟩ : BufTy).Contents (Elt F) → (⟨S16777216, .f32⟩ : BufTy).Contents (Elt F)),
    unary main_v5 main_v61 ((extui 32 · natLt_1_32) : (⟨S16777216, .i1⟩ : BufTy).Contents (Elt F) → (⟨S16777216, .i32⟩ : BufTy).Contents (Elt F)),
    nullary main_c (constantI S_ 32 0#32),
    binary main_v61 main_c main_v62 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v62 main_v63 (sitofp .f32 : (⟨S_, .i32⟩ : BufTy).Contents (Elt F) → (⟨S_, .f32⟩ : BufTy).Contents (Elt F)),
    nullary main_cst_14 (constant S_ .f32 0x3F800000#32),
    binary main_v63 main_cst_14 main_v64 (maximumf : (⟨S_, .f32⟩ : BufTy).Contents (Elt F) → (⟨S_, .f32⟩ : BufTy).Contents (Elt F) → (⟨S_, .f32⟩ : BufTy).Contents (Elt F)),
    nullary main_cst_15 (constant S_ .f32 0x4B800000#32),
    binary main_cst_15 main_v64 main_v65 (Host.divf : (⟨S_, .f32⟩ : BufTy).Contents (Elt F) → (⟨S_, .f32⟩ : BufTy).Contents (Elt F) → (⟨S_, .f32⟩ : BufTy).Contents (Elt F)),
    unary main_v65 main_v66 (Host.log : (⟨S_, .f32⟩ : BufTy).Contents (Elt F) → (⟨S_, .f32⟩ : BufTy).Contents (Elt F)),
    unary main_v66 main_v67 (Host.sqrt : (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call0_v0) id,
    TRef.unary (TRef.of (T := ⟨S_, .f32⟩) main_call0_v0) (TRef.of (T := ⟨S16777216, .f32⟩) main_call0_v1) (broadcastInDim S16777216 ![] bcast_S_S16777216),
    TRef.ternary (TRef.of (T := ⟨S16777216, .i1⟩) main_v5) (TRef.of (T := ⟨S16777216, .f32⟩) main_v60) (TRef.of (T := ⟨S16777216, .f32⟩) main_call0_v1) (TRef.of (T := ⟨S16777216, .f32⟩) main_v68) select,
    nullary main_cst_17 (constant S_ .f32 0x00000000#32),
    binary main_v68 main_cst_17 main_v69 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v69 main_v67 main_v70 (mulf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v63 main_cst_18 main_v71 (cmpf .ogt : (⟨S_, .f32⟩ : BufTy).Contents (Elt F) → (⟨S_, .f32⟩ : BufTy).Contents (Elt F) → (⟨S_, .i1⟩ : BufTy).Contents (Elt F)),
    nullary main_cst_19 (constant S_ .f32 0x00000000#32),
    binary main_cst_19 main_v70 main_v72 (addf : (⟨S_, .f32⟩ : BufTy).Contents (Elt F) → (⟨S_, .f32⟩ : BufTy).Contents (Elt F) → (⟨S_, .f32⟩ : BufTy).Contents (Elt F)),
    binary main_v72 main_v63 main_v73 (Host.divf : (⟨S_, .f32⟩ : BufTy).Contents (Elt F) → (⟨S_, .f32⟩ : BufTy).Contents (Elt F) → (⟨S_, .f32⟩ : BufTy).Contents (Elt F)),
    nullary main_cst_20 (constant S_ .f32 0x40000000#32),
    binary main_v73 main_cst_20 main_v74 (Host.divf : (⟨S_, .f32⟩ : BufTy).Contents (Elt F) → (⟨S_, .f32⟩ : BufTy).Contents (Elt F) → (⟨S_, .f32⟩ : BufTy).Contents (Elt F)),
    nullary main_cst_21 (constant S_ .f32 0x00000000#32),
    TRef.ternary (TRef.of (T := ⟨S_, .i1⟩) main_v71) (TRef.of (T := ⟨S_, .f32⟩) main_v74) (TRef.of (T := ⟨S_, .f32⟩) main_cst_21) (TRef.of (T := ⟨S_, .f32⟩) main_v75) select,
    nullary main_cst_22 (constant S_ .f32 0x00000000#32),
    binary main_cst_22 main_v75 main_v76 (addf : (⟨S_, .f32⟩ : BufTy).Contents (Elt F) → (⟨S_, .f32⟩ : BufTy).Contents (Elt F) → (⟨S_, .f32⟩ : BufTy).Contents (Elt F)),
    nullary main_cst_23 (constant S_ .f32 0x00000000#32),
    TRef.ternary (TRef.of (T := ⟨S_, .i1⟩) main_v71) (TRef.of (T := ⟨S_, .f32⟩) main_v76) (TRef.of (T := ⟨S_, .f32⟩) main_cst_23) (TRef.of (T := ⟨S_, .f32⟩) main_v77) select,
    unary main_v71 main_v78 (uitofp .f32 : (⟨S_, .i1⟩ : BufTy).Contents (Elt F) → (⟨S_, .f32⟩ : BufTy).Contents (Elt F)),
    nullary main_cst_24 (constant S_ .f32 0x00000000#32),
    binary main_cst_24 main_v78 main_v79 (addf : (⟨S_, .f32⟩ : BufTy).Contents (Elt F) → (⟨S_, .f32⟩ : BufTy).Contents (Elt F) → (⟨S_, .f32⟩ : BufTy).Contents (Elt F)),
    unary main_v15 main_v80 ((extui 32 · natLt_1_32) : (⟨S16777216, .i1⟩ : BufTy).Contents (Elt F) → (⟨S16777216, .i32⟩ : BufTy).Contents (Elt F)),
    nullary main_c_25 (constantI S_ 32 0#32),
    binary main_v80 main_c_25 main_v81 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v81 main_v82 (sitofp .f32 : (⟨S_, .i32⟩ : BufTy).Contents (Elt F) → (⟨S_, .f32⟩ : BufTy).Contents (Elt F)),
    nullary main_cst_26 (constant S_ .f32 0x3F800000#32),
    binary main_v82 main_cst_26 main_v83 (maximumf : (⟨S_, .f32⟩ : BufTy).Contents (Elt F) → (⟨S_, .f32⟩ : BufTy).Contents (Elt F) → (⟨S_, .f32⟩ : BufTy).Contents (Elt F)),
    nullary main_cst_27 (constant S_ .f32 0x4B800000#32),
    binary main_cst_27 main_v83 main_v84 (Host.divf : (⟨S_, .f32⟩ : BufTy).Contents (Elt F) → (⟨S_, .f32⟩ : BufTy).Contents (Elt F) → (⟨S_, .f32⟩ : BufTy).Contents (Elt F)),
    unary main_v84 main_v85 (Host.log : (⟨S_, .f32⟩ : BufTy).Contents (Elt F) → (⟨S_, .f32⟩ : BufTy).Contents (Elt F)),
    unary main_v85 main_v86 (Host.sqrt : (⟨S_, .f32⟩ : BufTy).Contents (Elt F) → (⟨S_, .f32⟩ : BufTy).Contents (Elt F)),
    nullary main_cst_28 (constant S_ .f32 0x00000000#32),
    TRef.unary (TRef.of (T := ⟨S_, .f32⟩) main_cst_28) (TRef.of (T := ⟨S_, .f32⟩) main_call3_v0) id,
    TRef.unary (TRef.of (T := ⟨S_, .f32⟩) main_call3_v0) (TRef.of (T := ⟨S16777216, .f32⟩) main_call3_v1) (broadcastInDim S16777216 ![] bcast_S_S16777216),
    TRef.ternary (TRef.of (T := ⟨S16777216, .i1⟩) main_v15) (TRef.of (T := ⟨S16777216, .f32⟩) main_v60) (TRef.of (T := ⟨S16777216, .f32⟩) main_call3_v1) (TRef.of (T := ⟨S16777216, .f32⟩) main_v87) select,
    nullary main_cst_29 (constant S_ .f32 0x00000000#32),
    binary main_v87 main_cst_29 main_v88 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v88 main_v86 main_v89 (mulf : (⟨S_, .f32⟩ : BufTy).Contents (Elt F) → (⟨S_, .f32⟩ : BufTy).Contents (Elt F) → (⟨S_, .f32⟩ : BufTy).Contents (Elt F)),
    nullary main_cst_30 (constant S_ .f32 0x00000000#32),
    binary main_v82 main_cst_30 main_v90 (cmpf .ogt : (⟨S_, .f32⟩ : BufTy).Contents (Elt F) → (⟨S_, .f32⟩ : BufTy).Contents (Elt F) → (⟨S_, .i1⟩ : BufTy).Contents (Elt F)),
    binary main_v75 main_v89 main_v91 (addf : (⟨S_, .f32⟩ : BufTy).Contents (Elt F) → (⟨S_, .f32⟩ : BufTy).Contents (Elt F) → (⟨S_, .f32⟩ : BufTy).Contents (Elt F)),
    binary main_v91 main_v82 main_v92 (Host.divf : (⟨S_, .f32⟩ : BufTy).Contents (Elt F) → (⟨S_, .f32⟩ : BufTy).Contents (Elt F) → (⟨S_, .f32⟩ : BufTy).Contents (Elt F)),
    nullary main_cst_31 (constant S_ .f32 0x40000000#32),
    binary main_v92 main_cst_31 main_v93 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v90) (TRef.of (T := ⟨S_, .f32⟩) main_v93) (TRef.of (T := ⟨S_, .f32⟩) main_v75) (TRef.of (T := ⟨S_, .f32⟩) main_v94) select,
    binary main_v77 main_v94 main_v95 (addf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v90) (TRef.of (T := ⟨S_, .f32⟩) main_v95) (TRef.of (T := ⟨S_, .f32⟩) main_v77) (TRef.of (T := ⟨S_, .f32⟩) main_v96) select,
    unary main_v90 main_v97 (uitofp .f32 : (⟨S_, .i1⟩ : BufTy).Contents (Elt F) → (⟨S_, .f32⟩ : BufTy).Contents (Elt F)),
    binary main_v79 main_v97 main_v98 (addf : (⟨S_, .f32⟩ : BufTy).Contents (Elt F) → (⟨S_, .f32⟩ : BufTy).Contents (Elt F) → (⟨S_, .f32⟩ : BufTy).Contents (Elt F)),
    unary main_v29 main_v99 ((extui 32 · natLt_1_32) : (⟨S16777216, .i1⟩ : BufTy).Contents (Elt F) → (⟨S16777216, .i32⟩ : BufTy).Contents (Elt F)),
    nullary main_c_32 (constantI S_ 32 0#32),
    binary main_v99 main_c_32 main_v100 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v100 main_v101 (sitofp .f32 : (⟨S_, .i32⟩ : BufTy).Contents (Elt F) → (⟨S_, .f32⟩ : BufTy).Contents (Elt F)),
    nullary main_cst_33 (constant S_ .f32 0x3F800000#32),
    binary main_v101 main_cst_33 main_v102 (maximumf : (⟨S_, .f32⟩ : BufTy).Contents (Elt F) → (⟨S_, .f32⟩ : BufTy).Contents (Elt F) → (⟨S_, .f32⟩ : BufTy).Contents (Elt F)),
    nullary main_cst_34 (constant S_ .f32 0x4B800000#32),
    binary main_cst_34 main_v102 main_v103 (Host.divf : (⟨S_, .f32⟩ : BufTy).Contents (Elt F) → (⟨S_, .f32⟩ : BufTy).Contents (Elt F) → (⟨S_, .f32⟩ : BufTy).Contents (Elt F)),
    unary main_v103 main_v104 (Host.log : (⟨S_, .f32⟩ : BufTy).Contents (Elt F) → (⟨S_, .f32⟩ : BufTy).Contents (Elt F)),
    unary main_v104 main_v105 (Host.sqrt : (⟨S_, .f32⟩ : BufTy).Contents (Elt F) → (⟨S_, .f32⟩ : BufTy).Contents (Elt F)),
    nullary main_cst_35 (constant S_ .f32 0x00000000#32),
    TRef.unary (TRef.of (T := ⟨S_, .f32⟩) main_cst_35) (TRef.of (T := ⟨S_, .f32⟩) main_call6_v0) id,
    TRef.unary (TRef.of (T := ⟨S_, .f32⟩) main_call6_v0) (TRef.of (T := ⟨S16777216, .f32⟩) main_call6_v1) (broadcastInDim S16777216 ![] bcast_S_S16777216),
    TRef.ternary (TRef.of (T := ⟨S16777216, .i1⟩) main_v29) (TRef.of (T := ⟨S16777216, .f32⟩) main_v60) (TRef.of (T := ⟨S16777216, .f32⟩) main_call6_v1) (TRef.of (T := ⟨S16777216, .f32⟩) main_v106) select,
    nullary main_cst_36 (constant S_ .f32 0x00000000#32),
    binary main_v106 main_cst_36 main_v107 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v107 main_v105 main_v108 (mulf : (⟨S_, .f32⟩ : BufTy).Contents (Elt F) → (⟨S_, .f32⟩ : BufTy).Contents (Elt F) → (⟨S_, .f32⟩ : BufTy).Contents (Elt F)),
    nullary main_cst_37 (constant S_ .f32 0x00000000#32),
    binary main_v101 main_cst_37 main_v109 (cmpf .ogt : (⟨S_, .f32⟩ : BufTy).Contents (Elt F) → (⟨S_, .f32⟩ : BufTy).Contents (Elt F) → (⟨S_, .i1⟩ : BufTy).Contents (Elt F)),
    binary main_v94 main_v108 main_v110 (addf : (⟨S_, .f32⟩ : BufTy).Contents (Elt F) → (⟨S_, .f32⟩ : BufTy).Contents (Elt F) → (⟨S_, .f32⟩ : BufTy).Contents (Elt F)),
    binary main_v110 main_v101 main_v111 (Host.divf : (⟨S_, .f32⟩ : BufTy).Contents (Elt F) → (⟨S_, .f32⟩ : BufTy).Contents (Elt F) → (⟨S_, .f32⟩ : BufTy).Contents (Elt F)),
    nullary main_cst_38 (constant S_ .f32 0x40000000#32),
    binary main_v111 main_cst_38 main_v112 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v109) (TRef.of (T := ⟨S_, .f32⟩) main_v112) (TRef.of (T := ⟨S_, .f32⟩) main_v94) (TRef.of (T := ⟨S_, .f32⟩) main_v113) select,
    binary main_v96 main_v113 main_v114 (addf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v109) (TRef.of (T := ⟨S_, .f32⟩) main_v114) (TRef.of (T := ⟨S_, .f32⟩) main_v96) (TRef.of (T := ⟨S_, .f32⟩) main_v115) select,
    unary main_v109 main_v116 (uitofp .f32 : (⟨S_, .i1⟩ : BufTy).Contents (Elt F) → (⟨S_, .f32⟩ : BufTy).Contents (Elt F)),
    binary main_v98 main_v116 main_v117 (addf : (⟨S_, .f32⟩ : BufTy).Contents (Elt F) → (⟨S_, .f32⟩ : BufTy).Contents (Elt F) → (⟨S_, .f32⟩ : BufTy).Contents (Elt F)),
    unary main_v38 main_v118 ((extui 32 · natLt_1_32) : (⟨S16777216, .i1⟩ : BufTy).Contents (Elt F) → (⟨S16777216, .i32⟩ : BufTy).Contents (Elt F)),
    nullary main_c_39 (constantI S_ 32 0#32),
    binary main_v118 main_c_39 main_v119 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v119 main_v120 (sitofp .f32 : (⟨S_, .i32⟩ : BufTy).Contents (Elt F) → (⟨S_, .f32⟩ : BufTy).Contents (Elt F)),
    nullary main_cst_40 (constant S_ .f32 0x3F800000#32),
    binary main_v120 main_cst_40 main_v121 (maximumf : (⟨S_, .f32⟩ : BufTy).Contents (Elt F) → (⟨S_, .f32⟩ : BufTy).Contents (Elt F) → (⟨S_, .f32⟩ : BufTy).Contents (Elt F)),
    nullary main_cst_41 (constant S_ .f32 0x4B800000#32),
    binary main_cst_41 main_v121 main_v122 (Host.divf : (⟨S_, .f32⟩ : BufTy).Contents (Elt F) → (⟨S_, .f32⟩ : BufTy).Contents (Elt F) → (⟨S_, .f32⟩ : BufTy).Contents (Elt F)),
    unary main_v122 main_v123 (Host.log : (⟨S_, .f32⟩ : BufTy).Contents (Elt F) → (⟨S_, .f32⟩ : BufTy).Contents (Elt F)),
    unary main_v123 main_v124 (Host.sqrt : (⟨S_, .f32⟩ : BufTy).Contents (Elt F) → (⟨S_, .f32⟩ : BufTy).Contents (Elt F)),
    nullary main_cst_42 (constant S_ .f32 0x00000000#32),
    TRef.unary (TRef.of (T := ⟨S_, .f32⟩) main_cst_42) (TRef.of (T := ⟨S_, .f32⟩) main_call9_v0) id,
    TRef.unary (TRef.of (T := ⟨S_, .f32⟩) main_call9_v0) (TRef.of (T := ⟨S16777216, .f32⟩) main_call9_v1) (broadcastInDim S16777216 ![] bcast_S_S16777216),
    TRef.ternary (TRef.of (T := ⟨S16777216, .i1⟩) main_v38) (TRef.of (T := ⟨S16777216, .f32⟩) main_v60) (TRef.of (T := ⟨S16777216, .f32⟩) main_call9_v1) (TRef.of (T := ⟨S16777216, .f32⟩) main_v125) select,
    nullary main_cst_43 (constant S_ .f32 0x00000000#32),
    binary main_v125 main_cst_43 main_v126 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v126 main_v124 main_v127 (mulf : (⟨S_, .f32⟩ : BufTy).Contents (Elt F) → (⟨S_, .f32⟩ : BufTy).Contents (Elt F) → (⟨S_, .f32⟩ : BufTy).Contents (Elt F)),
    nullary main_cst_44 (constant S_ .f32 0x00000000#32),
    binary main_v120 main_cst_44 main_v128 (cmpf .ogt : (⟨S_, .f32⟩ : BufTy).Contents (Elt F) → (⟨S_, .f32⟩ : BufTy).Contents (Elt F) → (⟨S_, .i1⟩ : BufTy).Contents (Elt F)),
    binary main_v113 main_v127 main_v129 (addf : (⟨S_, .f32⟩ : BufTy).Contents (Elt F) → (⟨S_, .f32⟩ : BufTy).Contents (Elt F) → (⟨S_, .f32⟩ : BufTy).Contents (Elt F)),
    binary main_v129 main_v120 main_v130 (Host.divf : (⟨S_, .f32⟩ : BufTy).Contents (Elt F) → (⟨S_, .f32⟩ : BufTy).Contents (Elt F) → (⟨S_, .f32⟩ : BufTy).Contents (Elt F)),
    nullary main_cst_45 (constant S_ .f32 0x40000000#32),
    binary main_v130 main_cst_45 main_v131 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v128) (TRef.of (T := ⟨S_, .f32⟩) main_v131) (TRef.of (T := ⟨S_, .f32⟩) main_v113) (TRef.of (T := ⟨S_, .f32⟩) main_v132) select,
    binary main_v115 main_v132 main_v133 (addf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v128) (TRef.of (T := ⟨S_, .f32⟩) main_v133) (TRef.of (T := ⟨S_, .f32⟩) main_v115) (TRef.of (T := ⟨S_, .f32⟩) main_v134) select,
    unary main_v128 main_v135 (uitofp .f32 : (⟨S_, .i1⟩ : BufTy).Contents (Elt F) → (⟨S_, .f32⟩ : BufTy).Contents (Elt F)),
    binary main_v117 main_v135 main_v136 (addf : (⟨S_, .f32⟩ : BufTy).Contents (Elt F) → (⟨S_, .f32⟩ : BufTy).Contents (Elt F) → (⟨S_, .f32⟩ : BufTy).Contents (Elt F)),
    unary main_v43 main_v137 ((extui 32 · natLt_1_32) : (⟨S16777216, .i1⟩ : BufTy).Contents (Elt F) → (⟨S16777216, .i32⟩ : BufTy).Contents (Elt F)),
    nullary main_c_46 (constantI S_ 32 0#32),
    binary main_v137 main_c_46 main_v138 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    unary main_v138 main_v139 (sitofp .f32 : (⟨S_, .i32⟩ : BufTy).Contents (Elt F) → (⟨S_, .f32⟩ : BufTy).Contents (Elt F)),
    nullary main_cst_47 (constant S_ .f32 0x3F800000#32),
    binary main_v139 main_cst_47 main_v140 (maximumf : (⟨S_, .f32⟩ : BufTy).Contents (Elt F) → (⟨S_, .f32⟩ : BufTy).Contents (Elt F) → (⟨S_, .f32⟩ : BufTy).Contents (Elt F)),
    nullary main_cst_48 (constant S_ .f32 0x4B800000#32),
    binary main_cst_48 main_v140 main_v141 (Host.divf : (⟨S_, .f32⟩ : BufTy).Contents (Elt F) → (⟨S_, .f32⟩ : BufTy).Contents (Elt F) → (⟨S_, .f32⟩ : BufTy).Contents (Elt F)),
    unary main_v141 main_v142 (Host.log : (⟨S_, .f32⟩ : BufTy).Contents (Elt F) → (⟨S_, .f32⟩ : BufTy).Contents (Elt F)),
    unary main_v142 main_v143 (Host.sqrt : (⟨S_, .f32⟩ : BufTy).Contents (Elt F) → (⟨S_, .f32⟩ : BufTy).Contents (Elt F)),
    nullary main_cst_49 (constant S_ .f32 0x00000000#32),
    TRef.unary (TRef.of (T := ⟨S_, .f32⟩) main_cst_49) (TRef.of (T := ⟨S_, .f32⟩) main_call12_v0) id,
    TRef.unary (TRef.of (T := ⟨S_, .f32⟩) main_call12_v0) (TRef.of (T := ⟨S16777216, .f32⟩) main_call12_v1) (broadcastInDim S16777216 ![] bcast_S_S16777216),
    TRef.ternary (TRef.of (T := ⟨S16777216, .i1⟩) main_v43) (TRef.of (T := ⟨S16777216, .f32⟩) main_v60) (TRef.of (T := ⟨S16777216, .f32⟩) main_call12_v1) (TRef.of (T := ⟨S16777216, .f32⟩) main_v144) select,
    nullary main_cst_50 (constant S_ .f32 0x00000000#32),
    binary main_v144 main_cst_50 main_v145 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    binary main_v145 main_v143 main_v146 (mulf : (⟨S_, .f32⟩ : BufTy).Contents (Elt F) → (⟨S_, .f32⟩ : BufTy).Contents (Elt F) → (⟨S_, .f32⟩ : BufTy).Contents (Elt F)),
    nullary main_cst_51 (constant S_ .f32 0x00000000#32),
    binary main_v139 main_cst_51 main_v147 (cmpf .ogt : (⟨S_, .f32⟩ : BufTy).Contents (Elt F) → (⟨S_, .f32⟩ : BufTy).Contents (Elt F) → (⟨S_, .i1⟩ : BufTy).Contents (Elt F)),
    binary main_v132 main_v146 main_v148 (addf : (⟨S_, .f32⟩ : BufTy).Contents (Elt F) → (⟨S_, .f32⟩ : BufTy).Contents (Elt F) → (⟨S_, .f32⟩ : BufTy).Contents (Elt F)),
    binary main_v148 main_v139 main_v149 (Host.divf : (⟨S_, .f32⟩ : BufTy).Contents (Elt F) → (⟨S_, .f32⟩ : BufTy).Contents (Elt F) → (⟨S_, .f32⟩ : BufTy).Contents (Elt F)),
    nullary main_cst_52 (constant S_ .f32 0x40000000#32),
    binary main_v149 main_cst_52 main_v150 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v147) (TRef.of (T := ⟨S_, .f32⟩) main_v150) (TRef.of (T := ⟨S_, .f32⟩) main_v132) (TRef.of (T := ⟨S_, .f32⟩) main_v151) select,
    binary main_v134 main_v151 main_v152 (addf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v147) (TRef.of (T := ⟨S_, .f32⟩) main_v152) (TRef.of (T := ⟨S_, .f32⟩) main_v134) (TRef.of (T := ⟨S_, .f32⟩) main_v153) select,
    unary main_v147 main_v154 (uitofp .f32 : (⟨S_, .i1⟩ : BufTy).Contents (Elt F) → (⟨S_, .f32⟩ : BufTy).Contents (Elt F)),
    binary main_v136 main_v154 main_v155 (addf : (⟨S_, .f32⟩ : BufTy).Contents (Elt F) → (⟨S_, .f32⟩ : BufTy).Contents (Elt F) → (⟨S_, .f32⟩ : BufTy).Contents (Elt F)),
    nullary main_cst_53 (constant S_ .f32 0x00000000#32),
    binary main_v155 main_cst_53 main_v156 (cmpf .oeq : (⟨S_, .f32⟩ : BufTy).Contents (Elt F) → (⟨S_, .f32⟩ : BufTy).Contents (Elt F) → (⟨S_, .i1⟩ : BufTy).Contents (Elt F)),
    nullary main_cst_54 (constant S_ .f32 0x40A00000#32),
    binary main_v153 main_cst_54 main_v157 (Host.divf : (⟨S_, .f32⟩ : BufTy).Contents (Elt F) → (⟨S_, .f32⟩ : BufTy).Contents (Elt F) → (⟨S_, .f32⟩ : BufTy).Contents (Elt F)),
    binary main_v153 main_v155 main_v158 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v156) (TRef.of (T := ⟨S_, .f32⟩) main_v157) (TRef.of (T := ⟨S_, .f32⟩) main_v158) (TRef.of (T := ⟨S_, .f32⟩) main_v159) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., unary_bufs_sub .., unary_bufs_sub .., binary_bufs_sub .., binary_bufs_sub .., binary_bufs_sub .., unary_bufs_sub .., nullary_bufs_sub .., unary_bufs_sub .., binary_bufs_sub .., unary_bufs_sub .., unary_bufs_sub .., binary_bufs_sub .., binary_bufs_sub .., binary_bufs_sub .., unary_bufs_sub .., nullary_bufs_sub .., binary_bufs_sub .., unary_bufs_sub .., nullary_bufs_sub .., binary_bufs_sub .., nullary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., ternary_bufs_sub .., nullary_bufs_sub .., binary_bufs_sub .., nullary_bufs_sub .., ternary_bufs_sub .., unary_bufs_sub .., nullary_bufs_sub .., binary_bufs_sub .., unary_bufs_sub .., nullary_bufs_sub .., binary_bufs_sub .., unary_bufs_sub .., nullary_bufs_sub .., binary_bufs_sub .., nullary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., binary_bufs_sub .., binary_bufs_sub .., binary_bufs_sub .., nullary_bufs_sub .., binary_bufs_sub .., ternary_bufs_sub .., binary_bufs_sub .., ternary_bufs_sub .., unary_bufs_sub .., binary_bufs_sub .., unary_bufs_sub .., nullary_bufs_sub .., binary_bufs_sub .., unary_bufs_sub .., nullary_bufs_sub .., binary_bufs_sub .., nullary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., binary_bufs_sub .., binary_bufs_sub .., binary_bufs_sub .., nullary_bufs_sub .., binary_bufs_sub .., ternary_bufs_sub .., binary_bufs_sub .., ternary_bufs_sub .., unary_bufs_sub .., binary_bufs_sub .., unary_bufs_sub .., nullary_bufs_sub .., binary_bufs_sub .., unary_bufs_sub .., nullary_bufs_sub .., binary_bufs_sub .., nullary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., binary_bufs_sub .., binary_bufs_sub .., binary_bufs_sub .., nullary_bufs_sub .., binary_bufs_sub .., ternary_bufs_sub .., binary_bufs_sub .., ternary_bufs_sub .., unary_bufs_sub .., binary_bufs_sub .., unary_bufs_sub .., nullary_bufs_sub .., binary_bufs_sub .., unary_bufs_sub .., nullary_bufs_sub .., binary_bufs_sub .., nullary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., binary_bufs_sub .., binary_bufs_sub .., binary_bufs_sub .., nullary_bufs_sub .., binary_bufs_sub .., ternary_bufs_sub .., binary_bufs_sub .., ternary_bufs_sub .., unary_bufs_sub .., binary_bufs_sub .., nullary_bufs_sub .., binary_bufs_sub .., nullary_bufs_sub .., binary_bufs_sub .., binary_bufs_sub .., ternary_bufs_sub ..⟩

set_option maxRecDepth 8192 in
set_option maxHeartbeats 90800000 in
/-- On every device, from any memory with zero counters: every weakly fair execution of the reference terminates with
    the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = Cert.ReferenceIdeal.Read.val_main_v159 (F := F) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v159).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.lean ====
/-
  The certificate's claim: the kernel's program, read word by word and read over the extended reals, and the
  reference's program each run to the end without fault and leave the six argument arrays as launched; the kernel's
  idealization rewrote nothing; and over the extended reals the two programs, run from memories that agree on the
  arguments, end with the same scalar.

  The loss is a function of ten numbers: for each of five classes of (diastolic, systolic) targets, how many of the 2^24
  samples fall in the class and the sum of the per-sample error over them. The reference computes each of the ten by one
  pass over the flat arrays. The kernel walks the same arrays as 64 tiles of 2048 x 128 samples, 32 tiles per core,
  adding each tile (as 256 slabs of 8 x 128) into ten 8 x 128 accumulators, sums each accumulator at a core's last tile
  into one entry of a result array, and the host adds the two cores' entries. A finite sum in a commutative monoid does
  not depend on its order or grouping, the mask as a number times the error is the masked error for every extended real
  (0 * x = 0, 1 * x = x), and a count of at most 2^24 ones is exact in a 32-bit sum: so the ten numbers agree, and the
  two programs then apply the same scalar recurrence to them.
-/
import proofs.«126502_j87754771792112_2_alg».proof.Defs
import proofs.«126502_j87754771792112_2_alg».proof.Proof.Gen.Kernel
import proofs.«126502_j87754771792112_2_alg».proof.Proof.Gen.KernelIdeal
import proofs.«126502_j87754771792112_2_alg».proof.Proof.Gen.ReferenceIdeal
import proofs.«126502_j87754771792112_2_alg».proof.Proof.Gen.Pre_finite_inputs
import proofs.«126502_j87754771792112_2_alg».proof.Proof.Kernel.FrameS
import proofs.«126502_j87754771792112_2_alg».proof.Proof.KernelIdeal.Result
import proofs.«126502_j87754771792112_2_alg».proof.Proof.RefRunHand
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference has no grid: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- Both programs end with the reference's last stage of the four arguments the loss reads. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Value.kernel_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
